-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S3x64x64 : Shape := ⟨3, ![3, 64, 64]⟩
abbrev S3x64 : Shape := ⟨2, ![3, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_arg6 : FVec F S3x64 .f32) (main_arg7 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S3x64x64 .f32) (main_arg3 : FVec F S3x64 .f32) (main_arg4 : FVec F S3x64x64 .f32) (main_arg5 : FVec F S3x64 .f32) (main_arg6 : FVec F S3x64 .f32) (main_arg7 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩

abbrev nBuf : Space → Nat
  | .hbm => 135
  | .vmem => 66
  | .smem => 0
  | _ => 0

abbrev hbmTy0_0 (i : Nat) : BufTy := match i % 128 with
  | 0 => ⟨S50000x64, .f32⟩
  | 1 => ⟨S2x800000, .i32⟩
  | 2 => ⟨S3x64x64, .f32⟩
  | 3 => ⟨S3x64, .f32⟩
  | 4 => ⟨S3x64x64, .f32⟩
  | 5 => ⟨S3x64, .f32⟩
  | 6 => ⟨S3x64, .f32⟩
  | 7 => ⟨S3x64, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S1x64x64, .f32⟩
  | 31 => ⟨S64x64, .f32⟩
  | 32 => ⟨S1x64, .f32⟩
  | 33 => ⟨S64, .f32⟩
  | 34 => ⟨S1x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S50000x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S1x64, .f32⟩
  | 52 => ⟨S50000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S1x64x64, .f32⟩
  | 67 => ⟨S64x64, .f32⟩
  | 68 => ⟨S1x64, .f32⟩
  | 69 => ⟨S64, .f32⟩
  | 70 => ⟨S1x64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S1x64, .f32⟩
  | 77 => ⟨S64, .f32⟩
  | 78 => ⟨S1x64, .f32⟩
  | 79 => ⟨S1x64, .f32⟩
  | 80 => ⟨S64, .f32⟩
  | 81 => ⟨S1x64, .f32⟩
  | 82 => ⟨S50000x64, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S1x64, .f32⟩
  | 92 => ⟨S1x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S1x64x64, .f32⟩
  | 108 => ⟨S64x64, .f32⟩
  | 109 => ⟨S1x64, .f32⟩
  | 110 => ⟨S64, .f32⟩
  | 111 => ⟨S1x64, .f32⟩
  | 112 => ⟨S1x64x64, .f32⟩
  | 113 => ⟨S64x64, .f32⟩
  | 114 => ⟨S1x64, .f32⟩
  | 115 => ⟨S64, .f32⟩
  | 116 => ⟨S1x64, .f32⟩
  | 117 => ⟨S1x64, .f32⟩
  | 118 => ⟨S64, .f32⟩
  | 119 => ⟨S1x64, .f32⟩
  | 120 => ⟨S1x64, .f32⟩
  | 121 => ⟨S64, .f32⟩
  | 122 => ⟨S1x64, .f32⟩
  | 123 => ⟨S50000x64, .f32⟩
  | 124 => ⟨S1x64, .f32⟩
  | 125 => ⟨S1x64, .f32⟩
  | 126 => ⟨S_, .f32⟩
  | 127 => ⟨S1x64, .f32⟩
  | _ => ⟨S50000x64, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S1x64, .f32⟩
  | 5 => ⟨S1x64, .f32⟩
  | 6 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64_0 : Ref sig .tc := ⟨.hbm, 82, rfl⟩
abbrev main_v64_1 : Ref sig .tc := ⟨.hbm, 83, rfl⟩
abbrev main_v64_2 : Ref sig .tc := ⟨.hbm, 84, rfl⟩
abbrev main_cst_6 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_8 : Ref sig .tc := ⟨.hbm, 94, rfl⟩
abbrev main_v72 : Ref sig .tc := ⟨.hbm, 95, rfl⟩
abbrev main_v73 : Ref sig .tc := ⟨.hbm, 96, rfl⟩
abbrev main_c_9 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98_0 : Ref sig .tc := ⟨.hbm, 123, rfl⟩
abbrev main_v98_1 : Ref sig .tc := ⟨.hbm, 124, rfl⟩
abbrev main_v98_2 : Ref sig .tc := ⟨.hbm, 125, rfl⟩
abbrev main_cst_11 : Ref sig .tc := ⟨.hbm, 126, rfl⟩
abbrev main_v99 : Ref sig .tc := ⟨.hbm, 127, rfl⟩
abbrev main_v100 : Ref sig .tc := ⟨.hbm, 128, rfl⟩
abbrev main_cst_12 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_26 : BitVec 32 := 0#32
  let v41 : BitVec 1 := Scalar.cmpi .ne v40 c0_i32_26
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_26 : BitVec 32 := 0#32
  let v42 : BitVec 1 := Scalar.cmpi .ne v41 c0_i32_26
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_26 : BitVec 32 := 0#32
  let v42 : BitVec 1 := Scalar.cmpi .ne v41 c0_i32_26
  v42

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  reduces_S5000x64_S64 : S5000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v30_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v64_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v64_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v98_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v98_1) S1x64.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v98_2) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v98_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 261
  | .vmem => 0
  | .smem => 0
  | _ => 0

abbrev hbmTy0_0 (i : Nat) : BufTy := match i % 128 with
  | 0 => ⟨S50000x64, .f32⟩
  | 1 => ⟨S2x800000, .i32⟩
  | 2 => ⟨S3x64x64, .f32⟩
  | 3 => ⟨S3x64, .f32⟩
  | 4 => ⟨S3x64x64, .f32⟩
  | 5 => ⟨S3x64, .f32⟩
  | 6 => ⟨S3x64, .f32⟩
  | 7 => ⟨S3x64, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S50000x64, .f32⟩
  | 26 => ⟨S1x64x64, .f32⟩
  | 27 => ⟨S64x64, .f32⟩
  | 28 => ⟨S50000x64, .f32⟩
  | 29 => ⟨S1x64, .f32⟩
  | 30 => ⟨S64, .f32⟩
  | 31 => ⟨S1x64, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S1x64x64, .f32⟩
  | 38 => ⟨S64x64, .f32⟩
  | 39 => ⟨S50000x64, .f32⟩
  | 40 => ⟨S1x64, .f32⟩
  | 41 => ⟨S64, .f32⟩
  | 42 => ⟨S1x64, .f32⟩
  | 43 => ⟨S50000x64, .f32⟩
  | 44 => ⟨S50000x64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S50000x64, .f32⟩
  | 58 => ⟨S50000x64, .f32⟩
  | 59 => ⟨S50000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S50000x64, .f32⟩
  | 75 => ⟨S50000x64, .f32⟩
  | 76 => ⟨S_, .f32⟩
  | 77 => ⟨S64, .f32⟩
  | 78 => ⟨S64, .f32⟩
  | 79 => ⟨S64, .f32⟩
  | 80 => ⟨S1x64, .f32⟩
  | 81 => ⟨S50000x64, .f32⟩
  | 82 => ⟨S50000x64, .f32⟩
  | 83 => ⟨S1x64, .f32⟩
  | 84 => ⟨S64, .f32⟩
  | 85 => ⟨S1x64, .f32⟩
  | 86 => ⟨S50000x64, .f32⟩
  | 87 => ⟨S50000x64, .f32⟩
  | 88 => ⟨S1x64, .f32⟩
  | 89 => ⟨S64, .f32⟩
  | 90 => ⟨S1x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000x64, .f32⟩
  | 110 => ⟨S1x64x64, .f32⟩
  | 111 => ⟨S64x64, .f32⟩
  | 112 => ⟨S50000x64, .f32⟩
  | 113 => ⟨S1x64, .f32⟩
  | 114 => ⟨S64, .f32⟩
  | 115 => ⟨S1x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S1x64x64, .f32⟩
  | 122 => ⟨S64x64, .f32⟩
  | 123 => ⟨S50000x64, .f32⟩
  | 124 => ⟨S1x64, .f32⟩
  | 125 => ⟨S64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | 1 => ⟨S_, .f32⟩
  | 2 => ⟨S64, .f32⟩
  | 3 => ⟨S_, .f32⟩
  | 4 => ⟨S64, .f32⟩
  | 5 => ⟨S64, .f32⟩
  | 6 => ⟨S_, .i32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S50000x64, .f32⟩
  | 14 => ⟨S50000x64, .f32⟩
  | 15 => ⟨S50000x64, .f32⟩
  | 16 => ⟨S_, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .i1⟩
  | 25 => ⟨S_, .f32⟩
  | 26 => ⟨S_, .f32⟩
  | 27 => ⟨S64, .f32⟩
  | 28 => ⟨S64, .f32⟩
  | 29 => ⟨S1x64, .f32⟩
  | 30 => ⟨S50000x64, .f32⟩
  | 31 => ⟨S50000x64, .f32⟩
  | 32 => ⟨S_, .f32⟩
  | 33 => ⟨S64, .f32⟩
  | 34 => ⟨S64, .f32⟩
  | 35 => ⟨S64, .f32⟩
  | 36 => ⟨S1x64, .f32⟩
  | 37 => ⟨S50000x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S1x64, .f32⟩
  | 45 => ⟨S64, .f32⟩
  | 46 => ⟨S1x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S50000x64, .f32⟩
  | 66 => ⟨S1x64x64, .f32⟩
  | 67 => ⟨S64x64, .f32⟩
  | 68 => ⟨S50000x64, .f32⟩
  | 69 => ⟨S1x64, .f32⟩
  | 70 => ⟨S64, .f32⟩
  | 71 => ⟨S1x64, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S1x64x64, .f32⟩
  | 78 => ⟨S64x64, .f32⟩
  | 79 => ⟨S50000x64, .f32⟩
  | 80 => ⟨S1x64, .f32⟩
  | 81 => ⟨S64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S50000x64, .f32⟩
  | 98 => ⟨S50000x64, .f32⟩
  | 99 => ⟨S50000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S50000x64, .f32⟩
  | 115 => ⟨S50000x64, .f32⟩
  | 116 => ⟨S_, .f32⟩
  | 117 => ⟨S64, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S1x64, .f32⟩
  | 124 => ⟨S64, .f32⟩
  | 125 => ⟨S1x64, .f32⟩
  | 126 => ⟨S50000x64, .f32⟩
  | 127 => ⟨S50000x64, .f32⟩
  | _ => ⟨S50000x64, .f32⟩

abbrev hbmTy0_2 (i : Nat) : BufTy := match i % 128 with
  | 0 => ⟨S1x64, .f32⟩
  | 1 => ⟨S64, .f32⟩
  | 2 => ⟨S1x64, .f32⟩
  | 3 => ⟨S50000x64, .f32⟩
  | 4 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_6 : Ref sig .tc := ⟨.hbm, 93, rfl⟩
abbrev main_v56 : Ref sig .tc := ⟨.hbm, 94, rfl⟩
abbrev main_v57 : Ref sig .tc := ⟨.hbm, 95, rfl⟩
abbrev main_c_7 : Ref sig .tc := ⟨.hbm, 96, rfl⟩
abbrev main_v58 : Ref sig .tc := ⟨.hbm, 97, rfl⟩
abbrev main_v59 : Ref sig .tc := ⟨.hbm, 98, rfl⟩
abbrev main_c_8 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_9 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_10 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_11 : Ref sig .tc := ⟨.hbm, 129, rfl⟩
abbrev main_v87 : Ref sig .tc := ⟨.hbm, 130, rfl⟩
abbrev main_cst_12 : Ref sig .tc := ⟨.hbm, 131, rfl⟩
abbrev main_v88 : Ref sig .tc := ⟨.hbm, 132, rfl⟩
abbrev main_v89 : Ref sig .tc := ⟨.hbm, 133, rfl⟩
abbrev main_c_13 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_cst_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_v7 : Ref sig .tc := ⟨.hbm, 144, rfl⟩
abbrev main_call1_cst_1 : Ref sig .tc := ⟨.hbm, 145, rfl⟩
abbrev main_call1_v8 : Ref sig .tc := ⟨.hbm, 146, rfl⟩
abbrev main_call1_cst_2 : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_cst_3 : Ref sig .tc := ⟨.hbm, 151, rfl⟩
abbrev main_call1_v12 : Ref sig .tc := ⟨.hbm, 152, rfl⟩
abbrev main_call1_cst_4 : Ref sig .tc := ⟨.hbm, 153, rfl⟩
abbrev main_call1_call0_v0 : Ref sig .tc := ⟨.hbm, 154, rfl⟩
abbrev main_call1_call0_v1 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_cst_14 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_15 : Ref sig .tc := ⟨.hbm, 177, rfl⟩
abbrev main_v110 : Ref sig .tc := ⟨.hbm, 178, rfl⟩
abbrev main_v111 : Ref sig .tc := ⟨.hbm, 179, rfl⟩
abbrev main_c_16 : Ref sig .tc := ⟨.hbm, 180, rfl⟩
abbrev main_v112 : Ref sig .tc := ⟨.hbm, 181, rfl⟩
abbrev main_v113 : Ref sig .tc := ⟨.hbm, 182, rfl⟩
abbrev main_c_17 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_cst_18 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_cst_19 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_cst_20 : Ref sig .tc := ⟨.hbm, 213, rfl⟩
abbrev main_v141 : Ref sig .tc := ⟨.hbm, 214, rfl⟩
abbrev main_cst_21 : Ref sig .tc := ⟨.hbm, 215, rfl⟩
abbrev main_v142 : Ref sig .tc := ⟨.hbm, 216, rfl⟩
abbrev main_v143 : Ref sig .tc := ⟨.hbm, 217, rfl⟩
abbrev main_c_22 : Ref sig .tc := ⟨.hbm, 218, rfl⟩
abbrev main_call2_cst : Ref sig .tc := ⟨.hbm, 219, rfl⟩
abbrev main_call2_v0 : Ref sig .tc := ⟨.hbm, 220, rfl⟩
abbrev main_call2_v1 : Ref sig .tc := ⟨.hbm, 221, rfl⟩
abbrev main_call2_cst_0 : Ref sig .tc := ⟨.hbm, 222, rfl⟩
abbrev main_call2_v2 : Ref sig .tc := ⟨.hbm, 223, rfl⟩
abbrev main_call2_v3 : Ref sig .tc := ⟨.hbm, 224, rfl⟩
abbrev main_call2_v4 : Ref sig .tc := ⟨.hbm, 225, rfl⟩
abbrev main_call2_v5 : Ref sig .tc := ⟨.hbm, 226, rfl⟩
abbrev main_call2_v6 : Ref sig .tc := ⟨.hbm, 227, rfl⟩
abbrev main_call2_v7 : Ref sig .tc := ⟨.hbm, 228, rfl⟩
abbrev main_call2_cst_1 : Ref sig .tc := ⟨.hbm, 229, rfl⟩
abbrev main_call2_v8 : Ref sig .tc := ⟨.hbm, 230, rfl⟩
abbrev main_call2_cst_2 : Ref sig .tc := ⟨.hbm, 231, rfl⟩
abbrev main_call2_v9 : Ref sig .tc := ⟨.hbm, 232, rfl⟩
abbrev main_call2_v10 : Ref sig .tc := ⟨.hbm, 233, rfl⟩
abbrev main_call2_v11 : Ref sig .tc := ⟨.hbm, 234, rfl⟩
abbrev main_call2_cst_3 : Ref sig .tc := ⟨.hbm, 235, rfl⟩
abbrev main_call2_v12 : Ref sig .tc := ⟨.hbm, 236, rfl⟩
abbrev main_call2_cst_4 : Ref sig .tc := ⟨.hbm, 237, rfl⟩
abbrev main_call2_call0_v0 : Ref sig .tc := ⟨.hbm, 238, rfl⟩
abbrev main_call2_call0_v1 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_cst_23 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.StageA0Runs.lean ====
/- The first MLP-and-column-sums call (region 0 of the program): what the three runs of its body share.
   The body at grid point i of 10: at i = 0 it clears two one-row accumulators kept in scratch memory; at every
   point it computes the block z = relu((h + agg)·W1 + b1)·W2 + b2 of 5000 rows, stores it, and adds the column
   sums of z and of z·z into the accumulators; at i = 9 it copies the accumulators into the two one-row outputs.
   So a point is the first, a middle one, or the last; this module decides which over the grid, names the
   memrefs the body is called with, and opens the region invariant at the two accumulators. -/
import proofs.«135128_j52475910423111_1_alg».proof.Proof.Gen.Kernel.Launch
import proofs.«135128_j52475910423111_1_alg».proof.Proof.Gen.Kernel.Skeleton
import proofs.«135128_j52475910423111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which point is which -/

/-- "This is the first point": the test the body makes before clearing the accumulators. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the test the body makes before copying the accumulators out. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Before the last point nothing is stored into sum output 7, and its block is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is stored into. -/
theorem liveAt0_7 : ∀ t : Fin cfg0.N, cond0_1 (grid0.coords t) → cfg0.idle 7 (grid0.coords t) = false := by decide +kernel
/-- Before the last point nothing is stored into sum output 8, and its block is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point it is stored into. -/
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The two accumulators: whole scratch buffers of the call's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
/-- One staging buffer of each output, through which its contents are stated. -/
abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view

/-- The region invariant of the launch, opened at the two accumulators: each owned at some contents, then every
    other scoped buffer unopened, then the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (an unfetched window's
    block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (an unfetched window's
    block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (an unfetched window's
    block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not (an unfetched window's
    block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not (an unfetched window's
    block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.K.StageA0RunA.lean ====
/- The body of the first MLP-and-column-sums call run whole at the FIRST point (the accumulators are cleared first, whatever they held):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA0Runs

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the FIRST point (the accumulators are cleared first, whatever they held), with the proof that the body runs to its
    continuation holding them. -/
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.StageA0RunB.lean ====
/- The body of the first MLP-and-column-sums call run whole at a MIDDLE point (nothing cleared, nothing copied out):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA0RunA

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at a MIDDLE point (nothing cleared, nothing copied out), with the proof that the body runs to its
    continuation holding them. -/
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.StageA0RunC.lean ====
/- The body of the first MLP-and-column-sums call run whole at the LAST point (after accumulating, the accumulators are copied into the two sum outputs):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA0RunB

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the LAST point (after accumulating, the accumulators are copied into the two sum outputs), with the proof that the body runs to its
    continuation holding them. -/
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.StageA0.lean ====
/- The first MLP-and-column-sums call (region 0): its frame data. After each of the ten points the block of z
   (5000 rows) sits in its output's staging buffer and the two accumulators hold the column sums of z and of z·z
   over all rows so far; the accumulators are carried from point to point inside the region invariant, and at the
   last point they are copied into the two one-row outputs, which are written back only there. What each buffer
   holds is stated as the pieces the body's stores left, read back; the contents are defined by recursion on the
   point, each point's run taking the accumulators the point before left. -/
import proofs.«135128_j52475910423111_1_alg».proof.Proof.K.StageA0RunC

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves behind: the block of z, the two sum outputs' staging buffers, and the two accumulators
    (column sums of z and of z·z over the rows so far). -/
structure Outs0 (F : FTy → Type) where
  z : Vec F S5000x64 .f32
  s : Vec F S1x64 .f32
  q : Vec F S1x64 .f32
  acc : Vec F S1x64 .f32
  accq : Vec F S1x64 .f32

/-! ## The stores of each run cover what they are read back from -/

theorem cover0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
theorem cover0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem cover0_C_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the first-point run leaves: each stored-into buffer's pieces read back. -/
def outs0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Outs0 F where
  z := VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)
  s := VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)
  q := VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
  acc := VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)
  accq := VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- What the middle-point run leaves: each stored-into buffer's pieces read back. -/
def outs0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs0 F where
  z := VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  accq := VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What the last-point run leaves: each stored-into buffer's pieces read back. -/
def outs0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs0 F where
  z := VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
  accq := VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Point by point -/

/-- THE ACCUMULATION: what the outputs' staging buffers and the two accumulators hold after the body at point `n`:
    the first point's run from the input blocks alone, every later point's from the input blocks and the
    accumulators the point before left; the last point's run is the one that also fills the two sum outputs
    (before it their entries here repeat the accumulators: nothing reads them, those points write nothing back). -/
def outsAt0 (c : Dev nD) : (n : ℕ) → n < cfg0.N → Outs0 F
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h1 : n + 1 = 9 then
      outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).acc (outsAt0 c n (Nat.lt_of_succ_lt hn)).accq
    else
      outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).acc (outsAt0 c n (Nat.lt_of_succ_lt hn)).accq

theorem outsAt0_A (c : Dev nD) (t : Fin cfg0.N) (h0 : t.val = 0) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => (fun h' => by omega) ((hcond0_1 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq := by
  obtain ⟨n, hn⟩ := t
  cases n with
  | zero => exact absurd rfl h0
  | succ n => exact (dif_pos h1).trans rfl

/-- The region invariant before point `n`: before the first point what the launch hands over (both accumulators at
    anything); afterwards both accumulators owned at what the point before left, beside the untouched rest and the
    generator register. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).acc ∗ owns (c : Thread nD τ) scM0_1 fullShare (outsAt0 V c n hn).accq)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).acc ∗ owns (c : Thread nD τ) scM0_1 fullShare (outsAt0 V c n hn).accq)
          ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).acc ∗ owns (c : Thread nD τ) scM0_1 fullShare (outsAt0 V c (n - 1) (by omega)).accq)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The data of the region on core `c`: the arrays as the region finds them; after the body at a point each input's
    buffer at its block, z's at the block of z, the two sum outputs' and the invariant's accumulators at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).z
    | ⟨7, _⟩ => (outsAt0 V c t.val t.isLt).s
    | ⟨8, _⟩ => (outsAt0 V c t.val t.isLt).q
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).z := by dsimp only [dat0]
theorem after0_7 (c : Dev nD) (t : Fin cfg0.N) : (dat0 V c).after 7 t = (outsAt0 V c t.val t.isLt).s := by dsimp only [dat0]
theorem after0_8 (c : Dev nD) (t : Fin cfg0.N) : (dat0 V c).after 8 t = (outsAt0 V c t.val t.isLt).q := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point. The inputs' buffers hold their blocks; the point is the first, a middle one or the last,
    and that case's run applies: the invariant hands it the accumulators (at anything before the first point, else at
    what the point before left) and takes them back at this point's contents; before the last point the two sum
    outputs' buffers go back as they came, at the last point they come back stored into. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val = 0
  · have h1 : ¬t.val = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0]
    unfold outs0_A; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold outs0_C; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold outs0_B; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: what the accumulators hold
    is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.Kernel.Hand

end
-- ==== Proof.K.StageB1.lean ====
/- Region 1 of the program's @main: a batch-norm apply over the ten row blocks of a 50000x64 matrix.
   At a grid point the body reads five windows whole — the 5000x64 block of rows of `z` the point
   owns, and the four 1x64 rows mean, variance, scale and shift, which are the same at every point —
   and overwrites the whole 5000x64 output window with one pointwise function of what it read
   (`k1_pay1`). It keeps nothing between points. Everything here holds at any float model `F` and
   at any buffer contents `V` found when the region is entered: what each window's staging buffer
   holds before and after the body at a point, and the body's obligation to the pipeline. -/
import proofs.«135128_j52475910423111_1_alg».proof.Proof.Gen.Kernel.Launch
import proofs.«135128_j52475910423111_1_alg».proof.Proof.Gen.Kernel.Skeleton
import proofs.«135128_j52475910423111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle 5000 rows long recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks -/

/-- The block of window `w` that grid point `t` owns, cut out of the window's array as the region
    finds it. For window 0 and window 5 it is rows `5000 t … 5000 t + 4999`; for windows 1–4 it is
    the whole one-row array, whatever `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## What an input window's staging buffer holds when the body starts

For proof data whose array of the window is `V`'s and whose body leaves the window's buffer at its
block, the buffer holds the point's block at EVERY point: at a point where the pipeline copies the
block in, by the copy; at a point where it does not (windows 1–4 after the first point), because the
block index has not moved since the last copy and the body left the buffer alone. No window here is
clipped or ever idle, so the library lemma's side conditions hold by unfolding. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have kept : ∀ s, (cfg1.win 0).cut (cfg1.grid.coords s) (dat.after 0 s) = dat.blockOf 0 s := fun s => by
    rw [hafter]; unfold Dat.blockOf iblk1; rw [hA]; try rfl
  rw [dat.before_in_eq_fetched 0 rfl (fun _ => rfl) (fun _ _ _ => rfl) kept t d]
  unfold Dat.fetched Dat.blockOf iblk1; rw [hA]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have kept : ∀ s, (cfg1.win 1).cut (cfg1.grid.coords s) (dat.after 1 s) = dat.blockOf 1 s := fun s => by
    rw [hafter]; unfold Dat.blockOf iblk1; rw [hA]; try rfl
  rw [dat.before_in_eq_fetched 1 rfl (fun _ => rfl) (fun _ _ _ => rfl) kept t d]
  unfold Dat.fetched Dat.blockOf iblk1; rw [hA]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have kept : ∀ s, (cfg1.win 2).cut (cfg1.grid.coords s) (dat.after 2 s) = dat.blockOf 2 s := fun s => by
    rw [hafter]; unfold Dat.blockOf iblk1; rw [hA]; try rfl
  rw [dat.before_in_eq_fetched 2 rfl (fun _ => rfl) (fun _ _ _ => rfl) kept t d]
  unfold Dat.fetched Dat.blockOf iblk1; rw [hA]; try rfl

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have kept : ∀ s, (cfg1.win 3).cut (cfg1.grid.coords s) (dat.after 3 s) = dat.blockOf 3 s := fun s => by
    rw [hafter]; unfold Dat.blockOf iblk1; rw [hA]; try rfl
  rw [dat.before_in_eq_fetched 3 rfl (fun _ => rfl) (fun _ _ _ => rfl) kept t d]
  unfold Dat.fetched Dat.blockOf iblk1; rw [hA]; try rfl

theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have kept : ∀ s, (cfg1.win 4).cut (cfg1.grid.coords s) (dat.after 4 s) = dat.blockOf 4 s := fun s => by
    rw [hafter]; unfold Dat.blockOf iblk1; rw [hA]; try rfl
  rw [dat.before_in_eq_fetched 4 rfl (fun _ => rfl) (fun _ _ _ => rfl) kept t d]
  unfold Dat.fetched Dat.blockOf iblk1; rw [hA]; try rfl

/-! ## The body's accesses and what it leaves in the output window -/

/-- The whole 5000x64 window and the whole 1x64 window: the only two rectangles the body touches. -/
abbrev blockRect1 : Rect S5000x64 := Rect.unit (s := S5000x64) ![0, 0] S5000x64.size inb_S5000x64_S5000x64_0_0
abbrev rowRect1 : Rect S1x64 := Rect.unit (s := S1x64) ![0, 0] S1x64.size inb_S1x64_S1x64_0_0

/-- The output window after the body, from the five input buffers: its single store, of the pointwise
    function of the loaded values, laid over the buffer. -/
def normed1 (z : Vec F S5000x64 .f32) (mean var scale shift : Vec F S1x64 .f32) : Vec F S5000x64 .f32 :=
  View.canon [⟨blockRect1, k1_pay1 (View.ld mean rowRect1) (View.ld var rowRect1) (View.ld z blockRect1)
    (View.ld scale rowRect1) (View.ld shift rowRect1)⟩]

/-- That store is of the whole window, so it covers it. -/
theorem cover1 (p : Vec F S5000x64 .f32) (y : S5000x64.Idx) :
    ∃ pc ∈ ([⟨blockRect1, p⟩] : List (View.Piece (Elt F) S5000x64 .f32)), y ∈ pc.1.set :=
  View.cover_of_tiled [⟨blockRect1, p⟩] S5000x64.size (by rfl) y

/-! ## The body's triple -/

set_option maxHeartbeats 1000000 in
/-- The body on six whole staging memrefs — the five inputs holding `z mean var scale shift`, the output
    holding anything — runs to a state where the inputs are as they were and the output holds
    `normed1` of them. The printed function is its skeleton of six loads and one store; the loads return
    the buffers' contents and the store is the one piece of `normed1`. -/
theorem body_triple1 (c : Dev nD) (E : Set ℕ) (i : grid1.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S5000x64 .f32) (h6 : a6.IsWhole)
    (z : Vec F S5000x64 .f32) (mean var scale shift : Vec F S1x64 .f32) (K : PUnit → sProp 𝕄) :
    iprop(owns (c : Thread nD τ) a1 fullShare z ∗ owns (c : Thread nD τ) a2 fullShare mean
        ∗ owns (c : Thread nD τ) a3 fullShare var ∗ owns (c : Thread nD τ) a4 fullShare scale
        ∗ owns (c : Thread nD τ) a5 fullShare shift ∗ (∃ d, owns (c : Thread nD τ) a6 fullShare d)
        ∗ (iprop(owns (c : Thread nD τ) a1 fullShare z ∗ owns (c : Thread nD τ) a2 fullShare mean
            ∗ owns (c : Thread nD τ) a3 fullShare var ∗ owns (c : Thread nD τ) a4 fullShare scale
            ∗ owns (c : Thread nD τ) a5 fullShare shift
            ∗ owns (c : Thread nD τ) a6 fullShare (normed1 z mean var scale shift)) -∗ K ⟨⟩))
      ⊢ wp frame (wpE (defs₀ (F := F)) Variants.none c none) E
          (cc1__stageB_kernel i a1 h1 a2 h2 a3 h3 a4 h4 a5 h5 a6 h6) K := by
  simp only [cc1__stageB_kernel_eq_skeleton]; unfold cc1__stageB_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover1 _)

/-! ## The pipeline's proof data -/

/-- The proof data of this region's pipeline on core `c`: the arrays are what the region finds (`V`);
    after the body at point `t` each input's buffer still holds its block and the output's holds
    `normed1` of the five input blocks; the invariant is the plain one (the rest of the scoped memory and
    the generator register, untouched); shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => normed1 (iblk1 V c 0 t) (iblk1 V c 1 t) (iblk1 V c 2 t) (iblk1 V c 3 t) (iblk1 V c 4 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    normed1 (iblk1 V c 0 t) (iblk1 V c 1 t) (iblk1 V c 2 t) (iblk1 V c 3 t) (iblk1 V c 4 t) := by dsimp only [dat1]

/-- What each input's buffer holds when the body starts: its block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is handed at point `t`: the invariant, the (empty) debt, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, so the triple applies with those
    blocks; the invariant and the debt do not depend on the point and pass through. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body_triple1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) :
    BodyObligation (dat1 (F := F) V c) (defs₀ (F := F)) Variants.none () Set.univ := fun t => by
  rw [bigSep_W1, bigSep_W1]
  exact body_at1 V c t

end Cert.Kernel.Hand
-- ==== Proof.K.StageA2Runs.lean ====
/- The second MLP-and-column-sums call (region 2 of the program): what the three runs of its body share.
   The body at grid point i of 10: at i = 0 it clears two one-row accumulators kept in scratch memory; at every
   point it computes the block z = relu((h + agg)·W1 + b1)·W2 + b2 of 5000 rows, stores it, and adds the column
   sums of z and of z·z into the accumulators; at i = 9 it copies the accumulators into the two one-row outputs.
   So a point is the first, a middle one, or the last; this module decides which over the grid, names the
   memrefs the body is called with, and opens the region invariant at the two accumulators. -/
import proofs.«135128_j52475910423111_1_alg».proof.Proof.Gen.Kernel.Launch
import proofs.«135128_j52475910423111_1_alg».proof.Proof.Gen.Kernel.Skeleton
import proofs.«135128_j52475910423111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which point is which -/

/-- "This is the first point": the test the body makes before clearing the accumulators. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the test the body makes before copying the accumulators out. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Before the last point nothing is stored into sum output 7, and its block is not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point it is stored into. -/
theorem liveAt2_7 : ∀ t : Fin cfg2.N, cond2_1 (grid2.coords t) → cfg2.idle 7 (grid2.coords t) = false := by decide +kernel
/-- Before the last point nothing is stored into sum output 8, and its block is not written back. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last point it is stored into. -/
theorem liveAt2_8 : ∀ t : Fin cfg2.N, cond2_1 (grid2.coords t) → cfg2.idle 8 (grid2.coords t) = false := by decide +kernel

/-! ## The memrefs the body is called with -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
/-- The two accumulators: whole scratch buffers of the call's own. -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := scM2_0.view
abbrev VS2_1 : View sig .tc .vmem S1x64 .f32 := scM2_1.view
/-- One staging buffer of each output, through which its contents are stated. -/
abbrev VO2_6 : View sig .tc .vmem S5000x64 .f32 := (Memref.whole cc2_stg6_0 : Memref sig .tc .vmem S5000x64 .f32).view
abbrev VO2_7 : View sig .tc .vmem S1x64 .f32 := (Memref.whole cc2_stg7_0 : Memref sig .tc .vmem S1x64 .f32).view
abbrev VO2_8 : View sig .tc .vmem S1x64 .f32 := (Memref.whole cc2_stg8_0 : Memref sig .tc .vmem S1x64 .f32).view

/-- The region invariant of the launch, opened at the two accumulators: each owned at some contents, then every
    other scoped buffer unopened, then the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The input blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not (an unfetched window's
    block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not (an unfetched window's
    block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not (an unfetched window's
    block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not (an unfetched window's
    block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not (an unfetched window's
    block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Cert.Kernel.Hand

end
-- ==== Proof.K.StageA2RunA.lean ====
/- The body of the second MLP-and-column-sums call run whole at the FIRST point (the accumulators are cleared first, whatever they held):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA2Runs

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the FIRST point (the accumulators are cleared first, whatever they held), with the proof that the body runs to its
    continuation holding them. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__stageA_kernel_eq_skeleton]; unfold cc2__stageA_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.StageA2RunB.lean ====
/- The body of the second MLP-and-column-sums call run whole at a MIDDLE point (nothing cleared, nothing copied out):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA2RunA

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at a MIDDLE point (nothing cleared, nothing copied out), with the proof that the body runs to its
    continuation holding them. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__stageA_kernel_eq_skeleton]; unfold cc2__stageA_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.StageA2RunC.lean ====
/- The body of the second MLP-and-column-sums call run whole at the LAST point (after accumulating, the accumulators are copied into the two sum outputs):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA2RunB

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the LAST point (after accumulating, the accumulators are copied into the two sum outputs), with the proof that the body runs to its
    continuation holding them. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__stageA_kernel_eq_skeleton]; unfold cc2__stageA_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.StageA2.lean ====
/- The second MLP-and-column-sums call (region 2): its frame data. After each of the ten points the block of z
   (5000 rows) sits in its output's staging buffer and the two accumulators hold the column sums of z and of z·z
   over all rows so far; the accumulators are carried from point to point inside the region invariant, and at the
   last point they are copied into the two one-row outputs, which are written back only there. What each buffer
   holds is stated as the pieces the body's stores left, read back; the contents are defined by recursion on the
   point, each point's run taking the accumulators the point before left. -/
import proofs.«135128_j52475910423111_1_alg».proof.Proof.K.StageA2RunC

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves behind: the block of z, the two sum outputs' staging buffers, and the two accumulators
    (column sums of z and of z·z over the rows so far). -/
structure Outs2 (F : FTy → Type) where
  z : Vec F S5000x64 .f32
  s : Vec F S1x64 .f32
  q : Vec F S1x64 .f32
  acc : Vec F S1x64 .f32
  accq : Vec F S1x64 .f32

/-! ## The stores of each run cover what they are read back from -/

theorem cover2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
theorem cover2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
theorem cover2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem cover2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the first-point run leaves: each stored-into buffer's pieces read back. -/
def outs2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Outs2 F where
  z := VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)
  s := VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)
  q := VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
  acc := VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)
  accq := VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- What the middle-point run leaves: each stored-into buffer's pieces read back. -/
def outs2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs2 F where
  z := VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  accq := VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What the last-point run leaves: each stored-into buffer's pieces read back. -/
def outs2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs2 F where
  z := VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
  accq := VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Point by point -/

/-- THE ACCUMULATION: what the outputs' staging buffers and the two accumulators hold after the body at point `n`:
    the first point's run from the input blocks alone, every later point's from the input blocks and the
    accumulators the point before left; the last point's run is the one that also fills the two sum outputs
    (before it their entries here repeat the accumulators: nothing reads them, those points write nothing back). -/
def outsAt2 (c : Dev nD) : (n : ℕ) → n < cfg2.N → Outs2 F
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h' => by (try dsimp only at h'); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn =>
    if h1 : n + 1 = 9 then
      outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).acc (outsAt2 c n (Nat.lt_of_succ_lt hn)).accq
    else
      outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).acc (outsAt2 c n (Nat.lt_of_succ_lt hn)).accq

theorem outsAt2_A (c : Dev nD) (t : Fin cfg2.N) (h0 : t.val = 0) :
    outsAt2 V c t.val t.isLt = outs2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => (fun h' => by omega) ((hcond2_1 t).mp h)) (iblk2 V c 0 t) (iblk2 V c 1 t) (iblk2 V c 2 t) (iblk2 V c 3 t) (iblk2 V c 4 t) (iblk2 V c 5 t) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = outs2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = outs2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq := by
  obtain ⟨n, hn⟩ := t
  cases n with
  | zero => exact absurd rfl h0
  | succ n => exact (dif_pos h1).trans rfl

/-- The region invariant before point `n`: before the first point what the launch hands over (both accumulators at
    anything); afterwards both accumulators owned at what the point before left, beside the untouched rest and the
    generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).acc ∗ owns (c : Thread nD τ) scM2_1 fullShare (outsAt2 V c n hn).accq)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).acc ∗ owns (c : Thread nD τ) scM2_1 fullShare (outsAt2 V c n hn).accq)
          ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).acc ∗ owns (c : Thread nD τ) scM2_1 fullShare (outsAt2 V c (n - 1) (by omega)).accq)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

/-- The data of the region on core `c`: the arrays as the region finds them; after the body at a point each input's
    buffer at its block, z's at the block of z, the two sum outputs' and the invariant's accumulators at `outsAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).z
    | ⟨7, _⟩ => (outsAt2 V c t.val t.isLt).s
    | ⟨8, _⟩ => (outsAt2 V c t.val t.isLt).q
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).z := by dsimp only [dat2]
theorem after2_7 (c : Dev nD) (t : Fin cfg2.N) : (dat2 V c).after 7 t = (outsAt2 V c t.val t.isLt).s := by dsimp only [dat2]
theorem after2_8 (c : Dev nD) (t : Fin cfg2.N) : (dat2 V c).after 8 t = (outsAt2 V c t.val t.isLt).q := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' buffers hold their blocks; the point is the first, a middle one or the last,
    and that case's run applies: the invariant hands it the accumulators (at anything before the first point, else at
    what the point before left) and takes them back at this point's contents; before the last point the two sum
    outputs' buffers go back as they came, at the last point they come back stored into. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [show (dat2 V c).leavesExact 6 t = owns (c : Thread nD τ) (ms2_6 t) fullShare ((dat2 V c).after 6 t) from by
      unfold Dat.leavesExact; rw [liveAt2_6 t], after2_6]
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_A V c t h0]
    unfold outs2_A; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [show (dat2 V c).leavesExact 8 t = owns (c : Thread nD τ) (ms2_8 t) fullShare ((dat2 V c).after 8 t) from by
        unfold Dat.leavesExact; rw [liveAt2_8 t ((hcond2_1 t).mpr h1)], after2_8]
      rw [outsAt2_C V c t h0 h1]
      unfold outs2_C; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_B V c t h0 h1]
      unfold outs2_B; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: what the accumulators hold
    is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.Kernel.Hand

end
-- ==== Proof.K.StageB3.lean ====
/- Region 3 of the program's @main: a batch-norm apply over the ten row blocks of a 50000x64 matrix.
   At a grid point the body reads five windows whole — the 5000x64 block of rows of `z` the point
   owns, and the four 1x64 rows mean, variance, scale and shift, which are the same at every point —
   and overwrites the whole 5000x64 output window with one pointwise function of what it read
   (`k3_pay1`). It keeps nothing between points. Everything here holds at any float model `F` and
   at any buffer contents `V` found when the region is entered: what each window's staging buffer
   holds before and after the body at a point, and the body's obligation to the pipeline. -/
import proofs.«135128_j52475910423111_1_alg».proof.Proof.Gen.Kernel.Launch
import proofs.«135128_j52475910423111_1_alg».proof.Proof.Gen.Kernel.Skeleton
import proofs.«135128_j52475910423111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle 5000 rows long recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks -/

/-- The block of window `w` that grid point `t` owns, cut out of the window's array as the region
    finds it. For window 0 and window 5 it is rows `5000 t … 5000 t + 4999`; for windows 1–4 it is
    the whole one-row array, whatever `t`. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## What an input window's staging buffer holds when the body starts

For proof data whose array of the window is `V`'s and whose body leaves the window's buffer at its
block, the buffer holds the point's block at EVERY point: at a point where the pipeline copies the
block in, by the copy; at a point where it does not (windows 1–4 after the first point), because the
block index has not moved since the last copy and the body left the buffer alone. No window here is
clipped or ever idle, so the library lemma's side conditions hold by unfolding. -/

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have kept : ∀ s, (cfg3.win 0).cut (cfg3.grid.coords s) (dat.after 0 s) = dat.blockOf 0 s := fun s => by
    rw [hafter]; unfold Dat.blockOf iblk3; rw [hA]; try rfl
  rw [dat.before_in_eq_fetched 0 rfl (fun _ => rfl) (fun _ _ _ => rfl) kept t d]
  unfold Dat.fetched Dat.blockOf iblk3; rw [hA]; try rfl

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have kept : ∀ s, (cfg3.win 1).cut (cfg3.grid.coords s) (dat.after 1 s) = dat.blockOf 1 s := fun s => by
    rw [hafter]; unfold Dat.blockOf iblk3; rw [hA]; try rfl
  rw [dat.before_in_eq_fetched 1 rfl (fun _ => rfl) (fun _ _ _ => rfl) kept t d]
  unfold Dat.fetched Dat.blockOf iblk3; rw [hA]; try rfl

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  have kept : ∀ s, (cfg3.win 2).cut (cfg3.grid.coords s) (dat.after 2 s) = dat.blockOf 2 s := fun s => by
    rw [hafter]; unfold Dat.blockOf iblk3; rw [hA]; try rfl
  rw [dat.before_in_eq_fetched 2 rfl (fun _ => rfl) (fun _ _ _ => rfl) kept t d]
  unfold Dat.fetched Dat.blockOf iblk3; rw [hA]; try rfl

theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t := by
  have kept : ∀ s, (cfg3.win 3).cut (cfg3.grid.coords s) (dat.after 3 s) = dat.blockOf 3 s := fun s => by
    rw [hafter]; unfold Dat.blockOf iblk3; rw [hA]; try rfl
  rw [dat.before_in_eq_fetched 3 rfl (fun _ => rfl) (fun _ _ _ => rfl) kept t d]
  unfold Dat.fetched Dat.blockOf iblk3; rw [hA]; try rfl

theorem before3_4_of {c : Dev nD} (dat : Dat τ (Elt F) Unit ℕ (UR sig nD τ) ℕ cfg3 c)
    (hA : dat.A 4 = V c (Pipeline.arrRef spec3 4)) (hafter : ∀ t, dat.after 4 t = iblk3 V c 4 t)
    (t : Fin cfg3.N) (d) : dat.before 4 t d = iblk3 V c 4 t := by
  have kept : ∀ s, (cfg3.win 4).cut (cfg3.grid.coords s) (dat.after 4 s) = dat.blockOf 4 s := fun s => by
    rw [hafter]; unfold Dat.blockOf iblk3; rw [hA]; try rfl
  rw [dat.before_in_eq_fetched 4 rfl (fun _ => rfl) (fun _ _ _ => rfl) kept t d]
  unfold Dat.fetched Dat.blockOf iblk3; rw [hA]; try rfl

/-! ## The body's accesses and what it leaves in the output window -/

/-- The whole 5000x64 window and the whole 1x64 window: the only two rectangles the body touches. -/
abbrev blockRect3 : Rect S5000x64 := Rect.unit (s := S5000x64) ![0, 0] S5000x64.size inb_S5000x64_S5000x64_0_0
abbrev rowRect3 : Rect S1x64 := Rect.unit (s := S1x64) ![0, 0] S1x64.size inb_S1x64_S1x64_0_0

/-- The output window after the body, from the five input buffers: its single store, of the pointwise
    function of the loaded values, laid over the buffer. -/
def normed3 (z : Vec F S5000x64 .f32) (mean var scale shift : Vec F S1x64 .f32) : Vec F S5000x64 .f32 :=
  View.canon [⟨blockRect3, k3_pay1 (View.ld mean rowRect3) (View.ld var rowRect3) (View.ld z blockRect3)
    (View.ld scale rowRect3) (View.ld shift rowRect3)⟩]

/-- That store is of the whole window, so it covers it. -/
theorem cover3 (p : Vec F S5000x64 .f32) (y : S5000x64.Idx) :
    ∃ pc ∈ ([⟨blockRect3, p⟩] : List (View.Piece (Elt F) S5000x64 .f32)), y ∈ pc.1.set :=
  View.cover_of_tiled [⟨blockRect3, p⟩] S5000x64.size (by rfl) y

/-! ## The body's triple -/

set_option maxHeartbeats 1000000 in
/-- The body on six whole staging memrefs — the five inputs holding `z mean var scale shift`, the output
    holding anything — runs to a state where the inputs are as they were and the output holds
    `normed3` of them. The printed function is its skeleton of six loads and one store; the loads return
    the buffers' contents and the store is the one piece of `normed3`. -/
theorem body_triple3 (c : Dev nD) (E : Set ℕ) (i : grid3.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S5000x64 .f32) (h6 : a6.IsWhole)
    (z : Vec F S5000x64 .f32) (mean var scale shift : Vec F S1x64 .f32) (K : PUnit → sProp 𝕄) :
    iprop(owns (c : Thread nD τ) a1 fullShare z ∗ owns (c : Thread nD τ) a2 fullShare mean
        ∗ owns (c : Thread nD τ) a3 fullShare var ∗ owns (c : Thread nD τ) a4 fullShare scale
        ∗ owns (c : Thread nD τ) a5 fullShare shift ∗ (∃ d, owns (c : Thread nD τ) a6 fullShare d)
        ∗ (iprop(owns (c : Thread nD τ) a1 fullShare z ∗ owns (c : Thread nD τ) a2 fullShare mean
            ∗ owns (c : Thread nD τ) a3 fullShare var ∗ owns (c : Thread nD τ) a4 fullShare scale
            ∗ owns (c : Thread nD τ) a5 fullShare shift
            ∗ owns (c : Thread nD τ) a6 fullShare (normed3 z mean var scale shift)) -∗ K ⟨⟩))
      ⊢ wp frame (wpE (defs₀ (F := F)) Variants.none c none) E
          (cc3__stageB_kernel i a1 h1 a2 h2 a3 h3 a4 h4 a5 h5 a6 h6) K := by
  simp only [cc3__stageB_kernel_eq_skeleton]; unfold cc3__stageB_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover3 _)

/-! ## The pipeline's proof data -/

/-- The proof data of this region's pipeline on core `c`: the arrays are what the region finds (`V`);
    after the body at point `t` each input's buffer still holds its block and the output's holds
    `normed3` of the five input blocks; the invariant is the plain one (the rest of the scoped memory and
    the generator register, untouched); shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => normed3 (iblk3 V c 0 t) (iblk3 V c 1 t) (iblk3 V c 2 t) (iblk3 V c 3 t) (iblk3 V c 4 t)
  Φ _ := Pipeline.ΦA spec3 c
  q _ := fullShare
  owed _ := 0

/-- Its arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    normed3 (iblk3 V c 0 t) (iblk3 V c 1 t) (iblk3 V c 2 t) (iblk3 V c 3 t) (iblk3 V c 4 t) := by dsimp only [dat3]

/-- What each input's buffer holds when the body starts: its block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is handed at point `t`: the invariant, the (empty) debt, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five input buffers hold their blocks, so the triple applies with those
    blocks; the invariant and the debt do not depend on the point and pass through. -/
theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (body_triple3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) :
    BodyObligation (dat3 (F := F) V c) (defs₀ (F := F)) Variants.none () Set.univ := fun t => by
  rw [bigSep_W3, bigSep_W3]
  exact body_at3 V c t

end Cert.Kernel.Hand
-- ==== Proof.K.StageA4Runs.lean ====
/- The third MLP-and-column-sums call (region 4 of the program): what the three runs of its body share.
   The body at grid point i of 10: at i = 0 it clears two one-row accumulators kept in scratch memory; at every
   point it computes the block z = relu((h + agg)·W1 + b1)·W2 + b2 of 5000 rows, stores it, and adds the column
   sums of z and of z·z into the accumulators; at i = 9 it copies the accumulators into the two one-row outputs.
   So a point is the first, a middle one, or the last; this module decides which over the grid, names the
   memrefs the body is called with, and opens the region invariant at the two accumulators. -/
import proofs.«135128_j52475910423111_1_alg».proof.Proof.Gen.Kernel.Launch
import proofs.«135128_j52475910423111_1_alg».proof.Proof.Gen.Kernel.Skeleton
import proofs.«135128_j52475910423111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which point is which -/

/-- "This is the first point": the test the body makes before clearing the accumulators. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- "This is the last point": the test the body makes before copying the accumulators out. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- Before the last point nothing is stored into sum output 7, and its block is not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
/-- At the last point it is stored into. -/
theorem liveAt4_7 : ∀ t : Fin cfg4.N, cond4_1 (grid4.coords t) → cfg4.idle 7 (grid4.coords t) = false := by decide +kernel
/-- Before the last point nothing is stored into sum output 8, and its block is not written back. -/
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
/-- At the last point it is stored into. -/
theorem liveAt4_8 : ∀ t : Fin cfg4.N, cond4_1 (grid4.coords t) → cfg4.idle 8 (grid4.coords t) = false := by decide +kernel

/-! ## The memrefs the body is called with -/

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
/-- The two accumulators: whole scratch buffers of the call's own. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view
/-- One staging buffer of each output, through which its contents are stated. -/
abbrev VO4_6 : View sig .tc .vmem S5000x64 .f32 := (Memref.whole cc4_stg6_0 : Memref sig .tc .vmem S5000x64 .f32).view
abbrev VO4_7 : View sig .tc .vmem S1x64 .f32 := (Memref.whole cc4_stg7_0 : Memref sig .tc .vmem S1x64 .f32).view
abbrev VO4_8 : View sig .tc .vmem S1x64 .f32 := (Memref.whole cc4_stg8_0 : Memref sig .tc .vmem S1x64 .f32).view

/-- The region invariant of the launch, opened at the two accumulators: each owned at some contents, then every
    other scoped buffer unopened, then the generator register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The input blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (an unfetched window's
    block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not (an unfetched window's
    block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not (an unfetched window's
    block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's staging buffer holds its block at every point, fetched there or not (an unfetched window's
    block index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's staging buffer holds its block at every point, fetched there or not (an unfetched window's
    block index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's staging buffer holds its block at every point, fetched there or not (an unfetched window's
    block index has not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Cert.Kernel.Hand

end
-- ==== Proof.K.StageA4RunA.lean ====
/- The body of the third MLP-and-column-sums call run whole at the FIRST point (the accumulators are cleared first, whatever they held):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA4Runs

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the FIRST point (the accumulators are cleared first, whatever they held), with the proof that the body runs to its
    continuation holding them. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__stageA_kernel_eq_skeleton]; unfold cc4__stageA_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.StageA4RunB.lean ====
/- The body of the third MLP-and-column-sums call run whole at a MIDDLE point (nothing cleared, nothing copied out):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA4RunA

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at a MIDDLE point (nothing cleared, nothing copied out), with the proof that the body runs to its
    continuation holding them. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__stageA_kernel_eq_skeleton]; unfold cc4__stageA_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.StageA4RunC.lean ====
/- The body of the third MLP-and-column-sums call run whole at the LAST point (after accumulating, the accumulators are copied into the two sum outputs):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.K.StageA4RunB

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the LAST point (after accumulating, the accumulators are copied into the two sum outputs), with the proof that the body runs to its
    continuation holding them. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__stageA_kernel_eq_skeleton]; unfold cc4__stageA_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.StageA4.lean ====
/- The third MLP-and-column-sums call (region 4): its frame data. After each of the ten points the block of z
   (5000 rows) sits in its output's staging buffer and the two accumulators hold the column sums of z and of z·z
   over all rows so far; the accumulators are carried from point to point inside the region invariant, and at the
   last point they are copied into the two one-row outputs, which are written back only there. What each buffer
   holds is stated as the pieces the body's stores left, read back; the contents are defined by recursion on the
   point, each point's run taking the accumulators the point before left. -/
import proofs.«135128_j52475910423111_1_alg».proof.Proof.K.StageA4RunC

-- membership in a rectangle as long as a 5000-row block is checked structurally, one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves behind: the block of z, the two sum outputs' staging buffers, and the two accumulators
    (column sums of z and of z·z over the rows so far). -/
structure Outs4 (F : FTy → Type) where
  z : Vec F S5000x64 .f32
  s : Vec F S1x64 .f32
  q : Vec F S1x64 .f32
  acc : Vec F S1x64 .f32
  accq : Vec F S1x64 .f32

/-! ## The stores of each run cover what they are read back from -/

theorem cover4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
theorem cover4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
theorem cover4_C_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem cover4_C_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the first-point run leaves: each stored-into buffer's pieces read back. -/
def outs4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Outs4 F where
  z := VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)
  s := VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)
  q := VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
  acc := VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)
  accq := VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- What the middle-point run leaves: each stored-into buffer's pieces read back. -/
def outs4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs4 F where
  z := VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  accq := VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What the last-point run leaves: each stored-into buffer's pieces read back. -/
def outs4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs4 F where
  z := VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
  accq := VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Point by point -/

/-- THE ACCUMULATION: what the outputs' staging buffers and the two accumulators hold after the body at point `n`:
    the first point's run from the input blocks alone, every later point's from the input blocks and the
    accumulators the point before left; the last point's run is the one that also fills the two sum outputs
    (before it their entries here repeat the accumulators: nothing reads them, those points write nothing back). -/
def outsAt4 (c : Dev nD) : (n : ℕ) → n < cfg4.N → Outs4 F
  | 0, hn => outs4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h' => by (try dsimp only at h'); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn =>
    if h1 : n + 1 = 9 then
      outs4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).acc (outsAt4 c n (Nat.lt_of_succ_lt hn)).accq
    else
      outs4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).acc (outsAt4 c n (Nat.lt_of_succ_lt hn)).accq

theorem outsAt4_A (c : Dev nD) (t : Fin cfg4.N) (h0 : t.val = 0) :
    outsAt4 V c t.val t.isLt = outs4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => (fun h' => by omega) ((hcond4_1 t).mp h)) (iblk4 V c 0 t) (iblk4 V c 1 t) (iblk4 V c 2 t) (iblk4 V c 3 t) (iblk4 V c 4 t) (iblk4 V c 5 t) := by
  obtain ⟨n, hn⟩ := t
  cases n with
  | zero => exact rfl
  | succ n => exact absurd h0 (Nat.succ_ne_zero n)

theorem outsAt4_B (c : Dev nD) (t : Fin cfg4.N) (h0 : ¬t.val = 0) (h1 : ¬t.val = 9) :
    outsAt4 V c t.val t.isLt = outs4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq := by
  obtain ⟨n, hn⟩ := t
  cases n with
  | zero => exact absurd rfl h0
  | succ n => exact (dif_neg h1).trans rfl

theorem outsAt4_C (c : Dev nD) (t : Fin cfg4.N) (h0 : ¬t.val = 0) (h1 : t.val = 9) :
    outsAt4 V c t.val t.isLt = outs4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq := by
  obtain ⟨n, hn⟩ := t
  cases n with
  | zero => exact absurd rfl h0
  | succ n => exact (dif_pos h1).trans rfl

/-- The region invariant before point `n`: before the first point what the launch hands over (both accumulators at
    anything); afterwards both accumulators owned at what the point before left, beside the untouched rest and the
    generator register. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).acc ∗ owns (c : Thread nD τ) scM4_1 fullShare (outsAt4 V c n hn).accq)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).acc ∗ owns (c : Thread nD τ) scM4_1 fullShare (outsAt4 V c n hn).accq)
          ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).acc ∗ owns (c : Thread nD τ) scM4_1 fullShare (outsAt4 V c (n - 1) (by omega)).accq)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The data of the region on core `c`: the arrays as the region finds them; after the body at a point each input's
    buffer at its block, z's at the block of z, the two sum outputs' and the invariant's accumulators at `outsAt4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).z
    | ⟨7, _⟩ => (outsAt4 V c t.val t.isLt).s
    | ⟨8, _⟩ => (outsAt4 V c t.val t.isLt).q
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).z := by dsimp only [dat4]
theorem after4_7 (c : Dev nD) (t : Fin cfg4.N) : (dat4 V c).after 7 t = (outsAt4 V c t.val t.isLt).s := by dsimp only [dat4]
theorem after4_8 (c : Dev nD) (t : Fin cfg4.N) : (dat4 V c).after 8 t = (outsAt4 V c t.val t.isLt).q := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point. The inputs' buffers hold their blocks; the point is the first, a middle one or the last,
    and that case's run applies: the invariant hands it the accumulators (at anything before the first point, else at
    what the point before left) and takes them back at this point's contents; before the last point the two sum
    outputs' buffers go back as they came, at the last point they come back stored into. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · have h1 : ¬t.val = 9 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [show (dat4 V c).leavesExact 5 t = owns (c : Thread nD τ) (ms4_5 t) fullShare ((dat4 V c).after 5 t) from by
      unfold Dat.leavesExact; rw [liveAt4_5 t], after4_5]
    rw [show (dat4 V c).leavesExact 6 t = owns (c : Thread nD τ) (ms4_6 t) fullShare ((dat4 V c).after 6 t) from by
      unfold Dat.leavesExact; rw [liveAt4_6 t], after4_6]
    rw [Dat.leavesExact_idle (dat4 V c) 7 t (idleAt4_7 t (fun h => h1 ((hcond4_1 t).mp h))) (noFlush4_7 t (fun h => h1 ((hcond4_1 t).mp h)))]
    rw [Dat.leavesExact_idle (dat4 V c) 8 t (idleAt4_8 t (fun h => h1 ((hcond4_1 t).mp h))) (noFlush4_8 t (fun h => h1 ((hcond4_1 t).mp h)))]
    rw [outsAt4_A V c t h0]
    unfold outs4_A; (try dsimp only)
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t ((hcond4_1 t).mpr h1)], after4_7]
      rw [show (dat4 V c).leavesExact 8 t = owns (c : Thread nD τ) (ms4_8 t) fullShare ((dat4 V c).after 8 t) from by
        unfold Dat.leavesExact; rw [liveAt4_8 t ((hcond4_1 t).mpr h1)], after4_8]
      rw [outsAt4_C V c t h0 h1]
      unfold outs4_C; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [Dat.leavesExact_idle (dat4 V c) 7 t (idleAt4_7 t (fun h => h1 ((hcond4_1 t).mp h))) (noFlush4_7 t (fun h => h1 ((hcond4_1 t).mp h)))]
      rw [Dat.leavesExact_idle (dat4 V c) 8 t (idleAt4_8 t (fun h => h1 ((hcond4_1 t).mp h))) (noFlush4_8 t (fun h => h1 ((hcond4_1 t).mp h)))]
      rw [outsAt4_B V c t h0 h1]
      unfold outs4_B; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives back what the launch handed over: what the accumulators hold
    is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.Kernel.Hand

end
-- ==== Proof.K.StageB5.lean ====
/- Region 5 of the program's @main: a batch-norm apply over the ten row blocks of a 50000x64 matrix.
   At a grid point the body reads five windows whole — the 5000x64 block of rows of `z` the point
   owns, and the four 1x64 rows mean, variance, scale and shift, which are the same at every point —
   and overwrites the whole 5000x64 output window with one pointwise function of what it read
   (`k5_pay1`). It keeps nothing between points. Everything here holds at any float model `F` and
   at any buffer contents `V` found when the region is entered: what each window's staging buffer
   holds before and after the body at a point, and the body's obligation to the pipeline. -/
import proofs.«135128_j52475910423111_1_alg».proof.Proof.Gen.Kernel.Launch
import proofs.«135128_j52475910423111_1_alg».proof.Proof.Gen.Kernel.Skeleton
import proofs.«135128_j52475910423111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle 5000 rows long recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks -/

/-- The block of window `w` that grid point `t` owns, cut out of the window's array as the region
    finds it. For window 0 and window 5 it is rows `5000 t … 5000 t + 4999`; for windows 1–4 it is
    the whole one-row array, whatever `t`. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## What an input window's staging buffer holds when the body starts

For proof data whose array of the window is `V`'s and whose body leaves the window's buffer at its
block, the buffer holds the point's block at EVERY point: at a point where the pipeline copies the
block in, by the copy; at a point where it does not (windows 1–4 after the first point), because the
block index has not moved since the last copy and the body left the buffer alone. No window here is
clipped or ever idle, so the library lemma's side conditions hold by unfolding. -/

theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  have kept : ∀ s, (cfg5.win 0).cut (cfg5.grid.coords s) (dat.after 0 s) = dat.blockOf 0 s := fun s => by
    rw [hafter]; unfold Dat.blockOf iblk5; rw [hA]; try rfl
  rw [dat.before_in_eq_fetched 0 rfl (fun _ => rfl) (fun _ _ _ => rfl) kept t d]
  unfold Dat.fetched Dat.blockOf iblk5; rw [hA]; try rfl

theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  have kept : ∀ s, (cfg5.win 1).cut (cfg5.grid.coords s) (dat.after 1 s) = dat.blockOf 1 s := fun s => by
    rw [hafter]; unfold Dat.blockOf iblk5; rw [hA]; try rfl
  rw [dat.before_in_eq_fetched 1 rfl (fun _ => rfl) (fun _ _ _ => rfl) kept t d]
  unfold Dat.fetched Dat.blockOf iblk5; rw [hA]; try rfl

theorem before5_2_of {c : Dev nD} (dat : Dat τ (Elt F) Unit ℕ (UR sig nD τ) ℕ cfg5 c)
    (hA : dat.A 2 = V c (Pipeline.arrRef spec5 2)) (hafter : ∀ t, dat.after 2 t = iblk5 V c 2 t)
    (t : Fin cfg5.N) (d) : dat.before 2 t d = iblk5 V c 2 t := by
  have kept : ∀ s, (cfg5.win 2).cut (cfg5.grid.coords s) (dat.after 2 s) = dat.blockOf 2 s := fun s => by
    rw [hafter]; unfold Dat.blockOf iblk5; rw [hA]; try rfl
  rw [dat.before_in_eq_fetched 2 rfl (fun _ => rfl) (fun _ _ _ => rfl) kept t d]
  unfold Dat.fetched Dat.blockOf iblk5; rw [hA]; try rfl

theorem before5_3_of {c : Dev nD} (dat : Dat τ (Elt F) Unit ℕ (UR sig nD τ) ℕ cfg5 c)
    (hA : dat.A 3 = V c (Pipeline.arrRef spec5 3)) (hafter : ∀ t, dat.after 3 t = iblk5 V c 3 t)
    (t : Fin cfg5.N) (d) : dat.before 3 t d = iblk5 V c 3 t := by
  have kept : ∀ s, (cfg5.win 3).cut (cfg5.grid.coords s) (dat.after 3 s) = dat.blockOf 3 s := fun s => by
    rw [hafter]; unfold Dat.blockOf iblk5; rw [hA]; try rfl
  rw [dat.before_in_eq_fetched 3 rfl (fun _ => rfl) (fun _ _ _ => rfl) kept t d]
  unfold Dat.fetched Dat.blockOf iblk5; rw [hA]; try rfl

theorem before5_4_of {c : Dev nD} (dat : Dat τ (Elt F) Unit ℕ (UR sig nD τ) ℕ cfg5 c)
    (hA : dat.A 4 = V c (Pipeline.arrRef spec5 4)) (hafter : ∀ t, dat.after 4 t = iblk5 V c 4 t)
    (t : Fin cfg5.N) (d) : dat.before 4 t d = iblk5 V c 4 t := by
  have kept : ∀ s, (cfg5.win 4).cut (cfg5.grid.coords s) (dat.after 4 s) = dat.blockOf 4 s := fun s => by
    rw [hafter]; unfold Dat.blockOf iblk5; rw [hA]; try rfl
  rw [dat.before_in_eq_fetched 4 rfl (fun _ => rfl) (fun _ _ _ => rfl) kept t d]
  unfold Dat.fetched Dat.blockOf iblk5; rw [hA]; try rfl

/-! ## The body's accesses and what it leaves in the output window -/

/-- The whole 5000x64 window and the whole 1x64 window: the only two rectangles the body touches. -/
abbrev blockRect5 : Rect S5000x64 := Rect.unit (s := S5000x64) ![0, 0] S5000x64.size inb_S5000x64_S5000x64_0_0
abbrev rowRect5 : Rect S1x64 := Rect.unit (s := S1x64) ![0, 0] S1x64.size inb_S1x64_S1x64_0_0

/-- The output window after the body, from the five input buffers: its single store, of the pointwise
    function of the loaded values, laid over the buffer. -/
def normed5 (z : Vec F S5000x64 .f32) (mean var scale shift : Vec F S1x64 .f32) : Vec F S5000x64 .f32 :=
  View.canon [⟨blockRect5, k5_pay1 (View.ld mean rowRect5) (View.ld var rowRect5) (View.ld z blockRect5)
    (View.ld scale rowRect5) (View.ld shift rowRect5)⟩]

/-- That store is of the whole window, so it covers it. -/
theorem cover5 (p : Vec F S5000x64 .f32) (y : S5000x64.Idx) :
    ∃ pc ∈ ([⟨blockRect5, p⟩] : List (View.Piece (Elt F) S5000x64 .f32)), y ∈ pc.1.set :=
  View.cover_of_tiled [⟨blockRect5, p⟩] S5000x64.size (by rfl) y

/-! ## The body's triple -/

set_option maxHeartbeats 1000000 in
/-- The body on six whole staging memrefs — the five inputs holding `z mean var scale shift`, the output
    holding anything — runs to a state where the inputs are as they were and the output holds
    `normed5` of them. The printed function is its skeleton of six loads and one store; the loads return
    the buffers' contents and the store is the one piece of `normed5`. -/
theorem body_triple5 (c : Dev nD) (E : Set ℕ) (i : grid5.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S5000x64 .f32) (h6 : a6.IsWhole)
    (z : Vec F S5000x64 .f32) (mean var scale shift : Vec F S1x64 .f32) (K : PUnit → sProp 𝕄) :
    iprop(owns (c : Thread nD τ) a1 fullShare z ∗ owns (c : Thread nD τ) a2 fullShare mean
        ∗ owns (c : Thread nD τ) a3 fullShare var ∗ owns (c : Thread nD τ) a4 fullShare scale
        ∗ owns (c : Thread nD τ) a5 fullShare shift ∗ (∃ d, owns (c : Thread nD τ) a6 fullShare d)
        ∗ (iprop(owns (c : Thread nD τ) a1 fullShare z ∗ owns (c : Thread nD τ) a2 fullShare mean
            ∗ owns (c : Thread nD τ) a3 fullShare var ∗ owns (c : Thread nD τ) a4 fullShare scale
            ∗ owns (c : Thread nD τ) a5 fullShare shift
            ∗ owns (c : Thread nD τ) a6 fullShare (normed5 z mean var scale shift)) -∗ K ⟨⟩))
      ⊢ wp frame (wpE (defs₀ (F := F)) Variants.none c none) E
          (cc5__stageB_kernel i a1 h1 a2 h2 a3 h3 a4 h4 a5 h5 a6 h6) K := by
  simp only [cc5__stageB_kernel_eq_skeleton]; unfold cc5__stageB_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover5 _)

/-! ## The pipeline's proof data -/

/-- The proof data of this region's pipeline on core `c`: the arrays are what the region finds (`V`);
    after the body at point `t` each input's buffer still holds its block and the output's holds
    `normed5` of the five input blocks; the invariant is the plain one (the rest of the scoped memory and
    the generator register, untouched); shares are full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => normed5 (iblk5 V c 0 t) (iblk5 V c 1 t) (iblk5 V c 2 t) (iblk5 V c 3 t) (iblk5 V c 4 t)
  Φ _ := Pipeline.ΦA spec5 c
  q _ := fullShare
  owed _ := 0

/-- Its arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    normed5 (iblk5 V c 0 t) (iblk5 V c 1 t) (iblk5 V c 2 t) (iblk5 V c 3 t) (iblk5 V c 4 t) := by dsimp only [dat5]

/-- What each input's buffer holds when the body starts: its block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

/-- What the body is handed at point `t`: the invariant, the (empty) debt, and each window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the five input buffers hold their blocks, so the triple applies with those
    blocks; the invariant and the debt do not depend on the point and pass through. -/
theorem body_at5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (body_triple5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) :
    BodyObligation (dat5 (F := F) V c) (defs₀ (F := F)) Variants.none () Set.univ := fun t => by
  rw [bigSep_W5, bigSep_W5]
  exact body_at5 V c t

end Cert.Kernel.Hand
-- ==== Proof.K.Run.lean ====
/-
  The whole run of the kernel program: @main is twelve items — a stretch of host operations, then a kernel region, six
  times.  The contents of every unscoped buffer are followed item by item from the launch memory: a host stretch
  applies its operations, a region replaces its output arrays by what its write-backs leave and changes nothing else.
  Every region is entered from the state the item before it left, so the run ends with every unscoped buffer at the
  last contents, and from that both the unchanged arguments and the result array are read.
-/
import proofs.«135128_j52475910423111_1_alg».proof.Proof.Gen.Kernel.Launch
import proofs.«135128_j52475910423111_1_alg».proof.Proof.Gen.Kernel.Points
import proofs.«135128_j52475910423111_1_alg».proof.Proof.Gen.Kernel.Regions
import proofs.«135128_j52475910423111_1_alg».proof.Proof.K.StageA0
import proofs.«135128_j52475910423111_1_alg».proof.Proof.K.StageB1
import proofs.«135128_j52475910423111_1_alg».proof.Proof.K.StageA2
import proofs.«135128_j52475910423111_1_alg».proof.Proof.K.StageB3
import proofs.«135128_j52475910423111_1_alg».proof.Proof.K.StageA4
import proofs.«135128_j52475910423111_1_alg».proof.Proof.K.StageB5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core c's buffers at launch. -/
abbrev W0 : Dev nD → Valuation τ sig (Elt F) := fun c b => m ((c : Dev nD), b)
/-- After the host stretch before region 0. -/
abbrev W1 : Dev nD → Valuation τ sig (Elt F) := fun c => StableHlo.after hostOps0 (W0 m c)
/-- The same, read at the TensorCore's references: what region 0 is entered from. -/
abbrev V1 : (c : Dev nD) → (b : Ref sig .tc) → Buf (Elt F) ((c : Thread nD τ).loc b) := fun c b => W1 m c b
/-- After region 0: its arrays at what its write-backs leave, every other buffer as it was entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem arrays_after0 (c : Dev nD) (w : Fin cfg0.W) : (dat0 (V1 m) c).arrAt w cfg0.N = V2 m c (Pipeline.arrRef spec0 w) :=
  (W2_arr m c w).symm
theorem others_after0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array is left as the region found it. -/
theorem input_after0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- After the host stretch before region 1. -/
abbrev W3 : Dev nD → Valuation τ sig (Elt F) := fun c => StableHlo.after hostOps1 (W2 m c)
/-- The same, read at the TensorCore's references: what region 1 is entered from. -/
abbrev V3 : (c : Dev nD) → (b : Ref sig .tc) → Buf (Elt F) ((c : Thread nD τ).loc b) := fun c b => W3 m c b
/-- After region 1: its arrays at what its write-backs leave, every other buffer as it was entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem arrays_after1 (c : Dev nD) (w : Fin cfg1.W) : (dat1 (V3 m) c).arrAt w cfg1.N = V4 m c (Pipeline.arrRef spec1 w) :=
  (W4_arr m c w).symm
theorem others_after1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- An input window's array is left as the region found it. -/
theorem input_after1 (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- After the host stretch before region 2. -/
abbrev W5 : Dev nD → Valuation τ sig (Elt F) := fun c => StableHlo.after hostOps2 (W4 m c)
/-- The same, read at the TensorCore's references: what region 2 is entered from. -/
abbrev V5 : (c : Dev nD) → (b : Ref sig .tc) → Buf (Elt F) ((c : Thread nD τ).loc b) := fun c b => W5 m c b
/-- After region 2: its arrays at what its write-backs leave, every other buffer as it was entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem arrays_after2 (c : Dev nD) (w : Fin cfg2.W) : (dat2 (V5 m) c).arrAt w cfg2.N = V6 m c (Pipeline.arrRef spec2 w) :=
  (W6_arr m c w).symm
theorem others_after2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- An input window's array is left as the region found it. -/
theorem input_after2 (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))

/-- After the host stretch before region 3. -/
abbrev W7 : Dev nD → Valuation τ sig (Elt F) := fun c => StableHlo.after hostOps3 (W6 m c)
/-- The same, read at the TensorCore's references: what region 3 is entered from. -/
abbrev V7 : (c : Dev nD) → (b : Ref sig .tc) → Buf (Elt F) ((c : Thread nD τ).loc b) := fun c b => W7 m c b
/-- After region 3: its arrays at what its write-backs leave, every other buffer as it was entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem arrays_after3 (c : Dev nD) (w : Fin cfg3.W) : (dat3 (V7 m) c).arrAt w cfg3.N = V8 m c (Pipeline.arrRef spec3 w) :=
  (W8_arr m c w).symm
theorem others_after3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- An input window's array is left as the region found it. -/
theorem input_after3 (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))

/-- After the host stretch before region 4. -/
abbrev W9 : Dev nD → Valuation τ sig (Elt F) := fun c => StableHlo.after hostOps4 (W8 m c)
/-- The same, read at the TensorCore's references: what region 4 is entered from. -/
abbrev V9 : (c : Dev nD) → (b : Ref sig .tc) → Buf (Elt F) ((c : Thread nD τ).loc b) := fun c b => W9 m c b
/-- After region 4: its arrays at what its write-backs leave, every other buffer as it was entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem arrays_after4 (c : Dev nD) (w : Fin cfg4.W) : (dat4 (V9 m) c).arrAt w cfg4.N = V10 m c (Pipeline.arrRef spec4 w) :=
  (W10_arr m c w).symm
theorem others_after4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- An input window's array is left as the region found it. -/
theorem input_after4 (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))

/-- After the host stretch before region 5. -/
abbrev W11 : Dev nD → Valuation τ sig (Elt F) := fun c => StableHlo.after hostOps5 (W10 m c)
/-- The same, read at the TensorCore's references: what region 5 is entered from. -/
abbrev V11 : (c : Dev nD) → (b : Ref sig .tc) → Buf (Elt F) ((c : Thread nD τ).loc b) := fun c b => W11 m c b
/-- After region 5: its arrays at what its write-backs leave, every other buffer as it was entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem arrays_after5 (c : Dev nD) (w : Fin cfg5.W) : (dat5 (V11 m) c).arrAt w cfg5.N = V12 m c (Pipeline.arrRef spec5 w) :=
  (W12_arr m c w).symm
theorem others_after5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- An input window's array is left as the region found it. -/
theorem input_after5 (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))

/-! ## The proof data of the six pipelines and the state carried between items -/

/-- No pipeline has a prefetched table. -/
abbrev adm : (p : Fin 6) → (pcfgs (F := F) p).Adm := fun p => (cfgs p).toPCfg_adm
/-- Each pipeline's proof data at the contents its region is entered from. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and nothing owed. -/
abbrev Rest (c : Dev nD) : sProp 𝕄 := iprop((∃ r, prngReg c r) ∗ ∃ W, owes (c : Thread nD τ) (0 : CellTallies nD τ sig Unit) W)
/-- A host stretch as a segment over the unscoped references. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owes. -/
abbrev Tlast (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0: entered with every unscoped buffer at W1, left with them at W2.  Its arrays are split out of the
    unscoped buffers and put back at their final contents; the generator register goes into the kernel's invariant
    and comes back; nothing is owed; the kernel has no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrays_after0 m c) (others_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at W3, left with them at W4.  Its arrays are split out of the
    unscoped buffers and put back at their final contents; the generator register goes into the kernel's invariant
    and comes back; nothing is owed; the kernel has no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrays_after1 m c) (others_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at W5, left with them at W6.  Its arrays are split out of the
    unscoped buffers and put back at their final contents; the generator register goes into the kernel's invariant
    and comes back; nothing is owed; the kernel has no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (arrays_after2 m c) (others_after2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at W7, left with them at W8.  Its arrays are split out of the
    unscoped buffers and put back at their final contents; the generator register goes into the kernel's invariant
    and comes back; nothing is owed; the kernel has no semaphore of its own. -/
def region3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (arrays_after3 m c) (others_after3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at W9, left with them at W10.  Its arrays are split out of the
    unscoped buffers and put back at their final contents; the generator register goes into the kernel's invariant
    and comes back; nothing is owed; the kernel has no semaphore of its own. -/
def region4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m) c)
    unfold Pipeline.ΦA
    iintro ⟨Hp, -, Hr⟩
    isplitl [Hr]; · iexact Hr
    iexact Hp
  hout c := by
    rw [Pipeline.ownSems0_none]
    refine BIBase.Entails.trans (hout4 (V9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (arrays_after4 m c) (others_after4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at W11, left with them at W12.  Its arrays are split out of the
    unscoped buffers and put back at their final contents; the generator register goes into the kernel's invariant
    and comes back; nothing is owed; the kernel has no semaphore of its own. -/
def region5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (arrays_after5 m c) (others_after5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its twelve items, and the launch -/

abbrev items : List (Pipeline.Seg (pcfgs (F := F)) adm (pdats m) () defs₀ 𝒱₀ L lv) :=
  [ .host (hostSeg hostOps0 hostOps0_sub hostOps0_fresh (W0 m)),
    .region (region0 m),
    .host (hostSeg hostOps1 hostOps1_sub hostOps1_fresh (W2 m)),
    .region (region1 m),
    .host (hostSeg hostOps2 hostOps2_sub hostOps2_fresh (W4 m)),
    .region (region2 m),
    .host (hostSeg hostOps3 hostOps3_sub hostOps3_fresh (W6 m)),
    .region (region3 m),
    .host (hostSeg hostOps4 hostOps4_sub hostOps4_fresh (W8 m)),
    .region (region4 m),
    .host (hostSeg hostOps5 hostOps5_sub hostOps5_fresh (W10 m)),
    .region (region5 m) ]

set_option backward.isDefEq.respectTransparency.types false in
/-- Every weakly fair execution of @main from the memory m with zero counters terminates, nothing faulting, and in
    every final state each unscoped buffer of each core holds the last contents W12. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Hand

end
-- ==== Proof.K.Frame.lean ====
/-
  The frame of the kernel program: no host operation writes an argument array and no region has one as an output,
  so each argument's buffer is followed back from the last contents to the launch memory, item by item.
-/
import proofs.«135128_j52475910423111_1_alg».proof.Proof.K.Run

set_option maxRecDepth 16384

noncomputable section

namespace Cert.Kernel.Hand

open Idealize.ShloMosaic Idealize.ShloMosaic.TcCoe
open Idealize.SL.Sem
open Cert.Kernel Cert.Kernel.Gen

variable {F : FTy → Type} [FloatOps F]
variable (m : (ℓ : Loc nD τ sig) → Buf (Elt F) ℓ)

/-- A host stretch leaves a buffer none of its operations writes as it was. -/
theorem host_keeps0 (c : Dev nD) (b : Ref sig .tc) (h : b ∉ hostOps0_W) :
    W1 m c (Proc.devRef .tc b) = W0 m c (Proc.devRef .tc b) :=
  StableHlo.after_of_writes_sub hostOps0 _ hostOps0_writes h
/-- A region leaves a buffer that is none of its output arrays as it was. -/
theorem region_keeps0 (c : Dev nD) (b : Ref sig .tc) (h : ∀ w, Pipeline.arrRef spec0 w = b → (cfg0.win w).isOut = false) :
    W2 m c (Proc.devRef .tc b) = W1 m c (Proc.devRef .tc b) := by
  by_cases hb : ∃ w, Pipeline.arrRef spec0 w = b
  · obtain ⟨w, rfl⟩ := hb
    exact input_after0 m c w (h w rfl)
  · exact W2_of_ne m c b fun w e => hb ⟨w, e⟩

/-- A host stretch leaves a buffer none of its operations writes as it was. -/
theorem host_keeps1 (c : Dev nD) (b : Ref sig .tc) (h : b ∉ hostOps1_W) :
    W3 m c (Proc.devRef .tc b) = W2 m c (Proc.devRef .tc b) :=
  StableHlo.after_of_writes_sub hostOps1 _ hostOps1_writes h
/-- A region leaves a buffer that is none of its output arrays as it was. -/
theorem region_keeps1 (c : Dev nD) (b : Ref sig .tc) (h : ∀ w, Pipeline.arrRef spec1 w = b → (cfg1.win w).isOut = false) :
    W4 m c (Proc.devRef .tc b) = W3 m c (Proc.devRef .tc b) := by
  by_cases hb : ∃ w, Pipeline.arrRef spec1 w = b
  · obtain ⟨w, rfl⟩ := hb
    exact input_after1 m c w (h w rfl)
  · exact W4_of_ne m c b fun w e => hb ⟨w, e⟩

/-- A host stretch leaves a buffer none of its operations writes as it was. -/
theorem host_keeps2 (c : Dev nD) (b : Ref sig .tc) (h : b ∉ hostOps2_W) :
    W5 m c (Proc.devRef .tc b) = W4 m c (Proc.devRef .tc b) :=
  StableHlo.after_of_writes_sub hostOps2 _ hostOps2_writes h
/-- A region leaves a buffer that is none of its output arrays as it was. -/
theorem region_keeps2 (c : Dev nD) (b : Ref sig .tc) (h : ∀ w, Pipeline.arrRef spec2 w = b → (cfg2.win w).isOut = false) :
    W6 m c (Proc.devRef .tc b) = W5 m c (Proc.devRef .tc b) := by
  by_cases hb : ∃ w, Pipeline.arrRef spec2 w = b
  · obtain ⟨w, rfl⟩ := hb
    exact input_after2 m c w (h w rfl)
  · exact W6_of_ne m c b fun w e => hb ⟨w, e⟩

/-- A host stretch leaves a buffer none of its operations writes as it was. -/
theorem host_keeps3 (c : Dev nD) (b : Ref sig .tc) (h : b ∉ hostOps3_W) :
    W7 m c (Proc.devRef .tc b) = W6 m c (Proc.devRef .tc b) :=
  StableHlo.after_of_writes_sub hostOps3 _ hostOps3_writes h
/-- A region leaves a buffer that is none of its output arrays as it was. -/
theorem region_keeps3 (c : Dev nD) (b : Ref sig .tc) (h : ∀ w, Pipeline.arrRef spec3 w = b → (cfg3.win w).isOut = false) :
    W8 m c (Proc.devRef .tc b) = W7 m c (Proc.devRef .tc b) := by
  by_cases hb : ∃ w, Pipeline.arrRef spec3 w = b
  · obtain ⟨w, rfl⟩ := hb
    exact input_after3 m c w (h w rfl)
  · exact W8_of_ne m c b fun w e => hb ⟨w, e⟩

/-- A host stretch leaves a buffer none of its operations writes as it was. -/
theorem host_keeps4 (c : Dev nD) (b : Ref sig .tc) (h : b ∉ hostOps4_W) :
    W9 m c (Proc.devRef .tc b) = W8 m c (Proc.devRef .tc b) :=
  StableHlo.after_of_writes_sub hostOps4 _ hostOps4_writes h
/-- A region leaves a buffer that is none of its output arrays as it was. -/
theorem region_keeps4 (c : Dev nD) (b : Ref sig .tc) (h : ∀ w, Pipeline.arrRef spec4 w = b → (cfg4.win w).isOut = false) :
    W10 m c (Proc.devRef .tc b) = W9 m c (Proc.devRef .tc b) := by
  by_cases hb : ∃ w, Pipeline.arrRef spec4 w = b
  · obtain ⟨w, rfl⟩ := hb
    exact input_after4 m c w (h w rfl)
  · exact W10_of_ne m c b fun w e => hb ⟨w, e⟩

/-- A host stretch leaves a buffer none of its operations writes as it was. -/
theorem host_keeps5 (c : Dev nD) (b : Ref sig .tc) (h : b ∉ hostOps5_W) :
    W11 m c (Proc.devRef .tc b) = W10 m c (Proc.devRef .tc b) :=
  StableHlo.after_of_writes_sub hostOps5 _ hostOps5_writes h
/-- A region leaves a buffer that is none of its output arrays as it was. -/
theorem region_keeps5 (c : Dev nD) (b : Ref sig .tc) (h : ∀ w, Pipeline.arrRef spec5 w = b → (cfg5.win w).isOut = false) :
    W12 m c (Proc.devRef .tc b) = W11 m c (Proc.devRef .tc b) := by
  by_cases hb : ∃ w, Pipeline.arrRef spec5 w = b
  · obtain ⟨w, rfl⟩ := hb
    exact input_after5 m c w (h w rfl)
  · exact W12_of_ne m c b fun w e => hb ⟨w, e⟩

/-- A buffer no item changes holds its launch contents at the end. -/
theorem kept_to_the_end (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (r0 : ∀ w, Pipeline.arrRef spec0 w = b → (cfg0.win w).isOut = false) (r1 : ∀ w, Pipeline.arrRef spec1 w = b → (cfg1.win w).isOut = false)
    (r2 : ∀ w, Pipeline.arrRef spec2 w = b → (cfg2.win w).isOut = false) (r3 : ∀ w, Pipeline.arrRef spec3 w = b → (cfg3.win w).isOut = false)
    (r4 : ∀ w, Pipeline.arrRef spec4 w = b → (cfg4.win w).isOut = false) (r5 : ∀ w, Pipeline.arrRef spec5 w = b → (cfg5.win w).isOut = false) :
    W12 m c (Proc.devRef .tc b) = m ((c : Thread nD τ).loc b) :=
  (region_keeps5 m c b r5).trans <| (host_keeps5 m c b h5).trans <| (region_keeps4 m c b r4).trans <| (host_keeps4 m c b h4).trans <|
  (region_keeps3 m c b r3).trans <| (host_keeps3 m c b h3).trans <| (region_keeps2 m c b r2).trans <| (host_keeps2 m c b h2).trans <|
  (region_keeps1 m c b r1).trans <| (host_keeps1 m c b h1).trans <| (region_keeps0 m c b r0).trans <| (host_keeps0 m c b h0).trans rfl

theorem W12_main_arg0 (c : Dev nD) : W12 m c (Proc.devRef .tc main_arg0) = m ((c : Thread nD τ).loc main_arg0) :=
  kept_to_the_end m c main_arg0 (by decide) (by decide) (by decide) (by decide) (by decide) (by decide)
    (by decide) (by decide) (by decide) (by decide) (by decide) (by decide)
theorem W12_main_arg1 (c : Dev nD) : W12 m c (Proc.devRef .tc main_arg1) = m ((c : Thread nD τ).loc main_arg1) :=
  kept_to_the_end m c main_arg1 (by decide) (by decide) (by decide) (by decide) (by decide) (by decide)
    (by decide) (by decide) (by decide) (by decide) (by decide) (by decide)
theorem W12_main_arg2 (c : Dev nD) : W12 m c (Proc.devRef .tc main_arg2) = m ((c : Thread nD τ).loc main_arg2) :=
  kept_to_the_end m c main_arg2 (by decide) (by decide) (by decide) (by decide) (by decide) (by decide)
    (by decide) (by decide) (by decide) (by decide) (by decide) (by decide)
theorem W12_main_arg3 (c : Dev nD) : W12 m c (Proc.devRef .tc main_arg3) = m ((c : Thread nD τ).loc main_arg3) :=
  kept_to_the_end m c main_arg3 (by decide) (by decide) (by decide) (by decide) (by decide) (by decide)
    (by decide) (by decide) (by decide) (by decide) (by decide) (by decide)
theorem W12_main_arg4 (c : Dev nD) : W12 m c (Proc.devRef .tc main_arg4) = m ((c : Thread nD τ).loc main_arg4) :=
  kept_to_the_end m c main_arg4 (by decide) (by decide) (by decide) (by decide) (by decide) (by decide)
    (by decide) (by decide) (by decide) (by decide) (by decide) (by decide)
theorem W12_main_arg5 (c : Dev nD) : W12 m c (Proc.devRef .tc main_arg5) = m ((c : Thread nD τ).loc main_arg5) :=
  kept_to_the_end m c main_arg5 (by decide) (by decide) (by decide) (by decide) (by decide) (by decide)
    (by decide) (by decide) (by decide) (by decide) (by decide) (by decide)
theorem W12_main_arg6 (c : Dev nD) : W12 m c (Proc.devRef .tc main_arg6) = m ((c : Thread nD τ).loc main_arg6) :=
  kept_to_the_end m c main_arg6 (by decide) (by decide) (by decide) (by decide) (by decide) (by decide)
    (by decide) (by decide) (by decide) (by decide) (by decide) (by decide)
theorem W12_main_arg7 (c : Dev nD) : W12 m c (Proc.devRef .tc main_arg7) = m ((c : Thread nD τ).loc main_arg7) :=
  kept_to_the_end m c main_arg7 (by decide) (by decide) (by decide) (by decide) (by decide) (by decide)
    (by decide) (by decide) (by decide) (by decide) (by decide) (by decide)

/-- Every weakly fair execution of @main terminates, nothing faulting, with the eight argument arrays unchanged. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W12_main_arg0 m c), (h c _ (mem_uc main_arg1 (by decide))).trans (W12_main_arg1 m c),
     (h c _ (mem_uc main_arg2 (by decide))).trans (W12_main_arg2 m c), (h c _ (mem_uc main_arg3 (by decide))).trans (W12_main_arg3 m c),
     (h c _ (mem_uc main_arg4 (by decide))).trans (W12_main_arg4 m c), (h c _ (mem_uc main_arg5 (by decide))).trans (W12_main_arg5 m c),
     (h c _ (mem_uc main_arg6 (by decide))).trans (W12_main_arg6 m c), (h c _ (mem_uc main_arg7 (by decide))).trans (W12_main_arg7 m c)⟩)
    (run_all m ρ)

end Cert.Kernel.Hand

end
-- ==== Proof.KI.StageA0Runs.lean ====
/- The first MLP-and-column-sums call (region 0 of the program): what the three runs of its body share.
   The body at grid point i of 10: at i = 0 it clears two one-row accumulators kept in scratch memory; at every
   point it computes the block z = relu((h + agg)·W1 + b1)·W2 + b2 of 5000 rows, stores it, and adds the column
   sums of z and of z·z into the accumulators; at i = 9 it copies the accumulators into the two one-row outputs.
   So a point is the first, a middle one, or the last; this module decides which over the grid, names the
   memrefs the body is called with, and opens the region invariant at the two accumulators. -/
import proofs.«135128_j52475910423111_1_alg».proof.Proof.Gen.KernelIdeal.Launch
import proofs.«135128_j52475910423111_1_alg».proof.Proof.Gen.KernelIdeal.Skeleton
import proofs.«135128_j52475910423111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which point is which -/

/-- "This is the first point": the test the body makes before clearing the accumulators. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the test the body makes before copying the accumulators out. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Before the last point nothing is stored into sum output 7, and its block is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is stored into. -/
theorem liveAt0_7 : ∀ t : Fin cfg0.N, cond0_1 (grid0.coords t) → cfg0.idle 7 (grid0.coords t) = false := by decide +kernel
/-- Before the last point nothing is stored into sum output 8, and its block is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point it is stored into. -/
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The two accumulators: whole scratch buffers of the call's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
/-- One staging buffer of each output, through which its contents are stated. -/
abbrev VO0_6 : View sig .tc .vmem S5000x64 .f32 := (Memref.whole cc0_stg6_0 : Memref sig .tc .vmem S5000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view

/-- The region invariant of the launch, opened at the two accumulators: each owned at some contents, then every
    other scoped buffer unopened, then the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (an unfetched window's
    block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (an unfetched window's
    block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (an unfetched window's
    block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not (an unfetched window's
    block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not (an unfetched window's
    block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.KI.StageA0RunA.lean ====
/- The body of the first MLP-and-column-sums call run whole at the FIRST point (the accumulators are cleared first, whatever they held):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA0Runs

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the FIRST point (the accumulators are cleared first, whatever they held), with the proof that the body runs to its
    continuation holding them. -/
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.StageA0RunB.lean ====
/- The body of the first MLP-and-column-sums call run whole at a MIDDLE point (nothing cleared, nothing copied out):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA0RunA

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at a MIDDLE point (nothing cleared, nothing copied out), with the proof that the body runs to its
    continuation holding them. -/
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.StageA0RunC.lean ====
/- The body of the first MLP-and-column-sums call run whole at the LAST point (after accumulating, the accumulators are copied into the two sum outputs):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA0RunB

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the LAST point (after accumulating, the accumulators are copied into the two sum outputs), with the proof that the body runs to its
    continuation holding them. -/
noncomputable def kernelRun0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.StageA0.lean ====
/- The first MLP-and-column-sums call (region 0): its frame data. After each of the ten points the block of z
   (5000 rows) sits in its output's staging buffer and the two accumulators hold the column sums of z and of z·z
   over all rows so far; the accumulators are carried from point to point inside the region invariant, and at the
   last point they are copied into the two one-row outputs, which are written back only there. What each buffer
   holds is stated as the pieces the body's stores left, read back; the contents are defined by recursion on the
   point, each point's run taking the accumulators the point before left. -/
import proofs.«135128_j52475910423111_1_alg».proof.Proof.KI.StageA0RunC

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves behind: the block of z, the two sum outputs' staging buffers, and the two accumulators
    (column sums of z and of z·z over the rows so far). -/
structure Outs0 (F : FTy → Type) where
  z : Vec F S5000x64 .f32
  s : Vec F S1x64 .f32
  q : Vec F S1x64 .f32
  acc : Vec F S1x64 .f32
  accq : Vec F S1x64 .f32

/-! ## The stores of each run cover what they are read back from -/

theorem cover0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
theorem cover0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
theorem cover0_C_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover0_C_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
theorem scover0_C_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
theorem cover0_C_7 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem cover0_C_8 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the first-point run leaves: each stored-into buffer's pieces read back. -/
def outs0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) : Outs0 F where
  z := VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)
  s := VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)
  q := VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
  acc := VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)
  accq := VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- What the middle-point run leaves: each stored-into buffer's pieces read back. -/
def outs0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs0 F where
  z := VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  accq := VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What the last-point run leaves: each stored-into buffer's pieces read back. -/
def outs0_C (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs0 F where
  z := VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
  accq := VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Point by point -/

/-- THE ACCUMULATION: what the outputs' staging buffers and the two accumulators hold after the body at point `n`:
    the first point's run from the input blocks alone, every later point's from the input blocks and the
    accumulators the point before left; the last point's run is the one that also fills the two sum outputs
    (before it their entries here repeat the accumulators: nothing reads them, those points write nothing back). -/
def outsAt0 (c : Dev nD) : (n : ℕ) → n < cfg0.N → Outs0 F
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h1 : n + 1 = 9 then
      outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).acc (outsAt0 c n (Nat.lt_of_succ_lt hn)).accq
    else
      outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).acc (outsAt0 c n (Nat.lt_of_succ_lt hn)).accq

theorem outsAt0_A (c : Dev nD) (t : Fin cfg0.N) (h0 : t.val = 0) :
    outsAt0 V c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => (fun h' => by omega) ((hcond0_1 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq := by
  obtain ⟨n, hn⟩ := t
  cases n with
  | zero => exact absurd rfl h0
  | succ n => exact (dif_pos h1).trans rfl

/-- The region invariant before point `n`: before the first point what the launch hands over (both accumulators at
    anything); afterwards both accumulators owned at what the point before left, beside the untouched rest and the
    generator register. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).acc ∗ owns (c : Thread nD τ) scM0_1 fullShare (outsAt0 V c n hn).accq)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).acc ∗ owns (c : Thread nD τ) scM0_1 fullShare (outsAt0 V c n hn).accq)
          ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).acc ∗ owns (c : Thread nD τ) scM0_1 fullShare (outsAt0 V c (n - 1) (by omega)).accq)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

/-- The data of the region on core `c`: the arrays as the region finds them; after the body at a point each input's
    buffer at its block, z's at the block of z, the two sum outputs' and the invariant's accumulators at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).z
    | ⟨7, _⟩ => (outsAt0 V c t.val t.isLt).s
    | ⟨8, _⟩ => (outsAt0 V c t.val t.isLt).q
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).z := by dsimp only [dat0]
theorem after0_7 (c : Dev nD) (t : Fin cfg0.N) : (dat0 V c).after 7 t = (outsAt0 V c t.val t.isLt).s := by dsimp only [dat0]
theorem after0_8 (c : Dev nD) (t : Fin cfg0.N) : (dat0 V c).after 8 t = (outsAt0 V c t.val t.isLt).q := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point. The inputs' buffers hold their blocks; the point is the first, a middle one or the last,
    and that case's run applies: the invariant hands it the accumulators (at anything before the first point, else at
    what the point before left) and takes them back at this point's contents; before the last point the two sum
    outputs' buffers go back as they came, at the last point they come back stored into. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val = 0
  · have h1 : ¬t.val = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0]
    unfold outs0_A; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold outs0_C; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold outs0_B; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: what the accumulators hold
    is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand

end
-- ==== Proof.KI.StageB1.lean ====
/- Region 1 of the program's @main: a batch-norm apply over the ten row blocks of a 50000x64 matrix.
   At a grid point the body reads five windows whole — the 5000x64 block of rows of `z` the point
   owns, and the four 1x64 rows mean, variance, scale and shift, which are the same at every point —
   and overwrites the whole 5000x64 output window with one pointwise function of what it read
   (`k1_pay1`). It keeps nothing between points. Everything here holds at any float model `F` and
   at any buffer contents `V` found when the region is entered: what each window's staging buffer
   holds before and after the body at a point, and the body's obligation to the pipeline. -/
import proofs.«135128_j52475910423111_1_alg».proof.Proof.Gen.KernelIdeal.Launch
import proofs.«135128_j52475910423111_1_alg».proof.Proof.Gen.KernelIdeal.Skeleton
import proofs.«135128_j52475910423111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle 5000 rows long recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks -/

/-- The block of window `w` that grid point `t` owns, cut out of the window's array as the region
    finds it. For window 0 and window 5 it is rows `5000 t … 5000 t + 4999`; for windows 1–4 it is
    the whole one-row array, whatever `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## What an input window's staging buffer holds when the body starts

For proof data whose array of the window is `V`'s and whose body leaves the window's buffer at its
block, the buffer holds the point's block at EVERY point: at a point where the pipeline copies the
block in, by the copy; at a point where it does not (windows 1–4 after the first point), because the
block index has not moved since the last copy and the body left the buffer alone. No window here is
clipped or ever idle, so the library lemma's side conditions hold by unfolding. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  have kept : ∀ s, (cfg1.win 0).cut (cfg1.grid.coords s) (dat.after 0 s) = dat.blockOf 0 s := fun s => by
    rw [hafter]; unfold Dat.blockOf iblk1; rw [hA]; try rfl
  rw [dat.before_in_eq_fetched 0 rfl (fun _ => rfl) (fun _ _ _ => rfl) kept t d]
  unfold Dat.fetched Dat.blockOf iblk1; rw [hA]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  have kept : ∀ s, (cfg1.win 1).cut (cfg1.grid.coords s) (dat.after 1 s) = dat.blockOf 1 s := fun s => by
    rw [hafter]; unfold Dat.blockOf iblk1; rw [hA]; try rfl
  rw [dat.before_in_eq_fetched 1 rfl (fun _ => rfl) (fun _ _ _ => rfl) kept t d]
  unfold Dat.fetched Dat.blockOf iblk1; rw [hA]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  have kept : ∀ s, (cfg1.win 2).cut (cfg1.grid.coords s) (dat.after 2 s) = dat.blockOf 2 s := fun s => by
    rw [hafter]; unfold Dat.blockOf iblk1; rw [hA]; try rfl
  rw [dat.before_in_eq_fetched 2 rfl (fun _ => rfl) (fun _ _ _ => rfl) kept t d]
  unfold Dat.fetched Dat.blockOf iblk1; rw [hA]; try rfl

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t := by
  have kept : ∀ s, (cfg1.win 3).cut (cfg1.grid.coords s) (dat.after 3 s) = dat.blockOf 3 s := fun s => by
    rw [hafter]; unfold Dat.blockOf iblk1; rw [hA]; try rfl
  rw [dat.before_in_eq_fetched 3 rfl (fun _ => rfl) (fun _ _ _ => rfl) kept t d]
  unfold Dat.fetched Dat.blockOf iblk1; rw [hA]; try rfl

theorem before1_4_of {c : Dev nD} (dat : Dat τ (Elt F) Unit ℕ (UR sig nD τ) ℕ cfg1 c)
    (hA : dat.A 4 = V c (Pipeline.arrRef spec1 4)) (hafter : ∀ t, dat.after 4 t = iblk1 V c 4 t)
    (t : Fin cfg1.N) (d) : dat.before 4 t d = iblk1 V c 4 t := by
  have kept : ∀ s, (cfg1.win 4).cut (cfg1.grid.coords s) (dat.after 4 s) = dat.blockOf 4 s := fun s => by
    rw [hafter]; unfold Dat.blockOf iblk1; rw [hA]; try rfl
  rw [dat.before_in_eq_fetched 4 rfl (fun _ => rfl) (fun _ _ _ => rfl) kept t d]
  unfold Dat.fetched Dat.blockOf iblk1; rw [hA]; try rfl

/-! ## The body's accesses and what it leaves in the output window -/

/-- The whole 5000x64 window and the whole 1x64 window: the only two rectangles the body touches. -/
abbrev blockRect1 : Rect S5000x64 := Rect.unit (s := S5000x64) ![0, 0] S5000x64.size inb_S5000x64_S5000x64_0_0
abbrev rowRect1 : Rect S1x64 := Rect.unit (s := S1x64) ![0, 0] S1x64.size inb_S1x64_S1x64_0_0

/-- The output window after the body, from the five input buffers: its single store, of the pointwise
    function of the loaded values, laid over the buffer. -/
def normed1 (z : Vec F S5000x64 .f32) (mean var scale shift : Vec F S1x64 .f32) : Vec F S5000x64 .f32 :=
  View.canon [⟨blockRect1, k1_pay1 (View.ld mean rowRect1) (View.ld var rowRect1) (View.ld z blockRect1)
    (View.ld scale rowRect1) (View.ld shift rowRect1)⟩]

/-- That store is of the whole window, so it covers it. -/
theorem cover1 (p : Vec F S5000x64 .f32) (y : S5000x64.Idx) :
    ∃ pc ∈ ([⟨blockRect1, p⟩] : List (View.Piece (Elt F) S5000x64 .f32)), y ∈ pc.1.set :=
  View.cover_of_tiled [⟨blockRect1, p⟩] S5000x64.size (by rfl) y

/-! ## The body's triple -/

set_option maxHeartbeats 1000000 in
/-- The body on six whole staging memrefs — the five inputs holding `z mean var scale shift`, the output
    holding anything — runs to a state where the inputs are as they were and the output holds
    `normed1` of them. The printed function is its skeleton of six loads and one store; the loads return
    the buffers' contents and the store is the one piece of `normed1`. -/
theorem body_triple1 (c : Dev nD) (E : Set ℕ) (i : grid1.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S5000x64 .f32) (h6 : a6.IsWhole)
    (z : Vec F S5000x64 .f32) (mean var scale shift : Vec F S1x64 .f32) (K : PUnit → sProp 𝕄) :
    iprop(owns (c : Thread nD τ) a1 fullShare z ∗ owns (c : Thread nD τ) a2 fullShare mean
        ∗ owns (c : Thread nD τ) a3 fullShare var ∗ owns (c : Thread nD τ) a4 fullShare scale
        ∗ owns (c : Thread nD τ) a5 fullShare shift ∗ (∃ d, owns (c : Thread nD τ) a6 fullShare d)
        ∗ (iprop(owns (c : Thread nD τ) a1 fullShare z ∗ owns (c : Thread nD τ) a2 fullShare mean
            ∗ owns (c : Thread nD τ) a3 fullShare var ∗ owns (c : Thread nD τ) a4 fullShare scale
            ∗ owns (c : Thread nD τ) a5 fullShare shift
            ∗ owns (c : Thread nD τ) a6 fullShare (normed1 z mean var scale shift)) -∗ K ⟨⟩))
      ⊢ wp frame (wpE (defs₀ (F := F)) Variants.none c none) E
          (cc1__stageB_kernel i a1 h1 a2 h2 a3 h3 a4 h4 a5 h5 a6 h6) K := by
  simp only [cc1__stageB_kernel_eq_skeleton]; unfold cc1__stageB_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover1 _)

/-! ## The pipeline's proof data -/

/-- The proof data of this region's pipeline on core `c`: the arrays are what the region finds (`V`);
    after the body at point `t` each input's buffer still holds its block and the output's holds
    `normed1` of the five input blocks; the invariant is the plain one (the rest of the scoped memory and
    the generator register, untouched); shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => normed1 (iblk1 V c 0 t) (iblk1 V c 1 t) (iblk1 V c 2 t) (iblk1 V c 3 t) (iblk1 V c 4 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    normed1 (iblk1 V c 0 t) (iblk1 V c 1 t) (iblk1 V c 2 t) (iblk1 V c 3 t) (iblk1 V c 4 t) := by dsimp only [dat1]

/-- What each input's buffer holds when the body starts: its block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is handed at point `t`: the invariant, the (empty) debt, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, so the triple applies with those
    blocks; the invariant and the debt do not depend on the point and pass through. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body_triple1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) :
    BodyObligation (dat1 (F := F) V c) (defs₀ (F := F)) Variants.none () Set.univ := fun t => by
  rw [bigSep_W1, bigSep_W1]
  exact body_at1 V c t

end Cert.KernelIdeal.Hand
-- ==== Proof.KI.StageA2Runs.lean ====
/- The second MLP-and-column-sums call (region 2 of the program): what the three runs of its body share.
   The body at grid point i of 10: at i = 0 it clears two one-row accumulators kept in scratch memory; at every
   point it computes the block z = relu((h + agg)·W1 + b1)·W2 + b2 of 5000 rows, stores it, and adds the column
   sums of z and of z·z into the accumulators; at i = 9 it copies the accumulators into the two one-row outputs.
   So a point is the first, a middle one, or the last; this module decides which over the grid, names the
   memrefs the body is called with, and opens the region invariant at the two accumulators. -/
import proofs.«135128_j52475910423111_1_alg».proof.Proof.Gen.KernelIdeal.Launch
import proofs.«135128_j52475910423111_1_alg».proof.Proof.Gen.KernelIdeal.Skeleton
import proofs.«135128_j52475910423111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which point is which -/

/-- "This is the first point": the test the body makes before clearing the accumulators. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last point": the test the body makes before copying the accumulators out. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Before the last point nothing is stored into sum output 7, and its block is not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point it is stored into. -/
theorem liveAt2_7 : ∀ t : Fin cfg2.N, cond2_1 (grid2.coords t) → cfg2.idle 7 (grid2.coords t) = false := by decide +kernel
/-- Before the last point nothing is stored into sum output 8, and its block is not written back. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last point it is stored into. -/
theorem liveAt2_8 : ∀ t : Fin cfg2.N, cond2_1 (grid2.coords t) → cfg2.idle 8 (grid2.coords t) = false := by decide +kernel

/-! ## The memrefs the body is called with -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
/-- The two accumulators: whole scratch buffers of the call's own. -/
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := scM2_0.view
abbrev VS2_1 : View sig .tc .vmem S1x64 .f32 := scM2_1.view
/-- One staging buffer of each output, through which its contents are stated. -/
abbrev VO2_6 : View sig .tc .vmem S5000x64 .f32 := (Memref.whole cc2_stg6_0 : Memref sig .tc .vmem S5000x64 .f32).view
abbrev VO2_7 : View sig .tc .vmem S1x64 .f32 := (Memref.whole cc2_stg7_0 : Memref sig .tc .vmem S1x64 .f32).view
abbrev VO2_8 : View sig .tc .vmem S1x64 .f32 := (Memref.whole cc2_stg8_0 : Memref sig .tc .vmem S1x64 .f32).view

/-- The region invariant of the launch, opened at the two accumulators: each owned at some contents, then every
    other scoped buffer unopened, then the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The input blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not (an unfetched window's
    block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not (an unfetched window's
    block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not (an unfetched window's
    block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not (an unfetched window's
    block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not (an unfetched window's
    block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.Hand

end
-- ==== Proof.KI.StageA2RunA.lean ====
/- The body of the second MLP-and-column-sums call run whole at the FIRST point (the accumulators are cleared first, whatever they held):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA2Runs

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the FIRST point (the accumulators are cleared first, whatever they held), with the proof that the body runs to its
    continuation holding them. -/
noncomputable def kernelRun2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__stageA_kernel_eq_skeleton]; unfold cc2__stageA_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.StageA2RunB.lean ====
/- The body of the second MLP-and-column-sums call run whole at a MIDDLE point (nothing cleared, nothing copied out):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA2RunA

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at a MIDDLE point (nothing cleared, nothing copied out), with the proof that the body runs to its
    continuation holding them. -/
noncomputable def kernelRun2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc2__stageA_kernel_eq_skeleton]; unfold cc2__stageA_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.StageA2RunC.lean ====
/- The body of the second MLP-and-column-sums call run whole at the LAST point (after accumulating, the accumulators are copied into the two sum outputs):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA2RunB

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the LAST point (after accumulating, the accumulators are copied into the two sum outputs), with the proof that the body runs to its
    continuation holding them. -/
noncomputable def kernelRun2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__stageA_kernel_eq_skeleton]; unfold cc2__stageA_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.StageA2.lean ====
/- The second MLP-and-column-sums call (region 2): its frame data. After each of the ten points the block of z
   (5000 rows) sits in its output's staging buffer and the two accumulators hold the column sums of z and of z·z
   over all rows so far; the accumulators are carried from point to point inside the region invariant, and at the
   last point they are copied into the two one-row outputs, which are written back only there. What each buffer
   holds is stated as the pieces the body's stores left, read back; the contents are defined by recursion on the
   point, each point's run taking the accumulators the point before left. -/
import proofs.«135128_j52475910423111_1_alg».proof.Proof.KI.StageA2RunC

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves behind: the block of z, the two sum outputs' staging buffers, and the two accumulators
    (column sums of z and of z·z over the rows so far). -/
structure Outs2 (F : FTy → Type) where
  z : Vec F S5000x64 .f32
  s : Vec F S1x64 .f32
  q : Vec F S1x64 .f32
  acc : Vec F S1x64 .f32
  accq : Vec F S1x64 .f32

/-! ## The stores of each run cover what they are read back from -/

theorem cover2_A_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
theorem scover2_A_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
theorem scover2_A_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
theorem cover2_B_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover2_B_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem scover2_B_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
theorem cover2_C_6 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover2_C_0 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
theorem scover2_C_1 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
theorem cover2_C_7 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem cover2_C_8 (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the first-point run leaves: each stored-into buffer's pieces read back. -/
def outs2_A (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) : Outs2 F where
  z := VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)
  s := VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)
  q := VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
  acc := VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)
  accq := VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- What the middle-point run leaves: each stored-into buffer's pieces read back. -/
def outs2_B (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs2 F where
  z := VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  accq := VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What the last-point run leaves: each stored-into buffer's pieces read back. -/
def outs2_C (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs2 F where
  z := VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
  accq := VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Point by point -/

/-- THE ACCUMULATION: what the outputs' staging buffers and the two accumulators hold after the body at point `n`:
    the first point's run from the input blocks alone, every later point's from the input blocks and the
    accumulators the point before left; the last point's run is the one that also fills the two sum outputs
    (before it their entries here repeat the accumulators: nothing reads them, those points write nothing back). -/
def outsAt2 (c : Dev nD) : (n : ℕ) → n < cfg2.N → Outs2 F
  | 0, hn => outs2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h' => by (try dsimp only at h'); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn =>
    if h1 : n + 1 = 9 then
      outs2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).acc (outsAt2 c n (Nat.lt_of_succ_lt hn)).accq
    else
      outs2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).acc (outsAt2 c n (Nat.lt_of_succ_lt hn)).accq

theorem outsAt2_A (c : Dev nD) (t : Fin cfg2.N) (h0 : t.val = 0) :
    outsAt2 V c t.val t.isLt = outs2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => (fun h' => by omega) ((hcond2_1 t).mp h)) (iblk2 V c 0 t) (iblk2 V c 1 t) (iblk2 V c 2 t) (iblk2 V c 3 t) (iblk2 V c 4 t) (iblk2 V c 5 t) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = outs2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = outs2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq := by
  obtain ⟨n, hn⟩ := t
  cases n with
  | zero => exact absurd rfl h0
  | succ n => exact (dif_pos h1).trans rfl

/-- The region invariant before point `n`: before the first point what the launch hands over (both accumulators at
    anything); afterwards both accumulators owned at what the point before left, beside the untouched rest and the
    generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).acc ∗ owns (c : Thread nD τ) scM2_1 fullShare (outsAt2 V c n hn).accq)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).acc ∗ owns (c : Thread nD τ) scM2_1 fullShare (outsAt2 V c n hn).accq)
          ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).acc ∗ owns (c : Thread nD τ) scM2_1 fullShare (outsAt2 V c (n - 1) (by omega)).accq)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

/-- The data of the region on core `c`: the arrays as the region finds them; after the body at a point each input's
    buffer at its block, z's at the block of z, the two sum outputs' and the invariant's accumulators at `outsAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).z
    | ⟨7, _⟩ => (outsAt2 V c t.val t.isLt).s
    | ⟨8, _⟩ => (outsAt2 V c t.val t.isLt).q
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).z := by dsimp only [dat2]
theorem after2_7 (c : Dev nD) (t : Fin cfg2.N) : (dat2 V c).after 7 t = (outsAt2 V c t.val t.isLt).s := by dsimp only [dat2]
theorem after2_8 (c : Dev nD) (t : Fin cfg2.N) : (dat2 V c).after 8 t = (outsAt2 V c t.val t.isLt).q := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' buffers hold their blocks; the point is the first, a middle one or the last,
    and that case's run applies: the invariant hands it the accumulators (at anything before the first point, else at
    what the point before left) and takes them back at this point's contents; before the last point the two sum
    outputs' buffers go back as they came, at the last point they come back stored into. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [show (dat2 V c).leavesExact 6 t = owns (c : Thread nD τ) (ms2_6 t) fullShare ((dat2 V c).after 6 t) from by
      unfold Dat.leavesExact; rw [liveAt2_6 t], after2_6]
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_A V c t h0]
    unfold outs2_A; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [show (dat2 V c).leavesExact 8 t = owns (c : Thread nD τ) (ms2_8 t) fullShare ((dat2 V c).after 8 t) from by
        unfold Dat.leavesExact; rw [liveAt2_8 t ((hcond2_1 t).mpr h1)], after2_8]
      rw [outsAt2_C V c t h0 h1]
      unfold outs2_C; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_B V c t h0 h1]
      unfold outs2_B; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: what the accumulators hold
    is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Hand

end
-- ==== Proof.KI.StageB3.lean ====
/- Region 3 of the program's @main: a batch-norm apply over the ten row blocks of a 50000x64 matrix.
   At a grid point the body reads five windows whole — the 5000x64 block of rows of `z` the point
   owns, and the four 1x64 rows mean, variance, scale and shift, which are the same at every point —
   and overwrites the whole 5000x64 output window with one pointwise function of what it read
   (`k3_pay1`). It keeps nothing between points. Everything here holds at any float model `F` and
   at any buffer contents `V` found when the region is entered: what each window's staging buffer
   holds before and after the body at a point, and the body's obligation to the pipeline. -/
import proofs.«135128_j52475910423111_1_alg».proof.Proof.Gen.KernelIdeal.Launch
import proofs.«135128_j52475910423111_1_alg».proof.Proof.Gen.KernelIdeal.Skeleton
import proofs.«135128_j52475910423111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle 5000 rows long recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks -/

/-- The block of window `w` that grid point `t` owns, cut out of the window's array as the region
    finds it. For window 0 and window 5 it is rows `5000 t … 5000 t + 4999`; for windows 1–4 it is
    the whole one-row array, whatever `t`. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-! ## What an input window's staging buffer holds when the body starts

For proof data whose array of the window is `V`'s and whose body leaves the window's buffer at its
block, the buffer holds the point's block at EVERY point: at a point where the pipeline copies the
block in, by the copy; at a point where it does not (windows 1–4 after the first point), because the
block index has not moved since the last copy and the body left the buffer alone. No window here is
clipped or ever idle, so the library lemma's side conditions hold by unfolding. -/

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have kept : ∀ s, (cfg3.win 0).cut (cfg3.grid.coords s) (dat.after 0 s) = dat.blockOf 0 s := fun s => by
    rw [hafter]; unfold Dat.blockOf iblk3; rw [hA]; try rfl
  rw [dat.before_in_eq_fetched 0 rfl (fun _ => rfl) (fun _ _ _ => rfl) kept t d]
  unfold Dat.fetched Dat.blockOf iblk3; rw [hA]; try rfl

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have kept : ∀ s, (cfg3.win 1).cut (cfg3.grid.coords s) (dat.after 1 s) = dat.blockOf 1 s := fun s => by
    rw [hafter]; unfold Dat.blockOf iblk3; rw [hA]; try rfl
  rw [dat.before_in_eq_fetched 1 rfl (fun _ => rfl) (fun _ _ _ => rfl) kept t d]
  unfold Dat.fetched Dat.blockOf iblk3; rw [hA]; try rfl

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  have kept : ∀ s, (cfg3.win 2).cut (cfg3.grid.coords s) (dat.after 2 s) = dat.blockOf 2 s := fun s => by
    rw [hafter]; unfold Dat.blockOf iblk3; rw [hA]; try rfl
  rw [dat.before_in_eq_fetched 2 rfl (fun _ => rfl) (fun _ _ _ => rfl) kept t d]
  unfold Dat.fetched Dat.blockOf iblk3; rw [hA]; try rfl

theorem before3_3_of {c : Dev nD} (dat : Dat τ (Elt F) Unit ℕ (UR sig nD τ) ℕ cfg3 c)
    (hA : dat.A 3 = V c (Pipeline.arrRef spec3 3)) (hafter : ∀ t, dat.after 3 t = iblk3 V c 3 t)
    (t : Fin cfg3.N) (d) : dat.before 3 t d = iblk3 V c 3 t := by
  have kept : ∀ s, (cfg3.win 3).cut (cfg3.grid.coords s) (dat.after 3 s) = dat.blockOf 3 s := fun s => by
    rw [hafter]; unfold Dat.blockOf iblk3; rw [hA]; try rfl
  rw [dat.before_in_eq_fetched 3 rfl (fun _ => rfl) (fun _ _ _ => rfl) kept t d]
  unfold Dat.fetched Dat.blockOf iblk3; rw [hA]; try rfl

theorem before3_4_of {c : Dev nD} (dat : Dat τ (Elt F) Unit ℕ (UR sig nD τ) ℕ cfg3 c)
    (hA : dat.A 4 = V c (Pipeline.arrRef spec3 4)) (hafter : ∀ t, dat.after 4 t = iblk3 V c 4 t)
    (t : Fin cfg3.N) (d) : dat.before 4 t d = iblk3 V c 4 t := by
  have kept : ∀ s, (cfg3.win 4).cut (cfg3.grid.coords s) (dat.after 4 s) = dat.blockOf 4 s := fun s => by
    rw [hafter]; unfold Dat.blockOf iblk3; rw [hA]; try rfl
  rw [dat.before_in_eq_fetched 4 rfl (fun _ => rfl) (fun _ _ _ => rfl) kept t d]
  unfold Dat.fetched Dat.blockOf iblk3; rw [hA]; try rfl

/-! ## The body's accesses and what it leaves in the output window -/

/-- The whole 5000x64 window and the whole 1x64 window: the only two rectangles the body touches. -/
abbrev blockRect3 : Rect S5000x64 := Rect.unit (s := S5000x64) ![0, 0] S5000x64.size inb_S5000x64_S5000x64_0_0
abbrev rowRect3 : Rect S1x64 := Rect.unit (s := S1x64) ![0, 0] S1x64.size inb_S1x64_S1x64_0_0

/-- The output window after the body, from the five input buffers: its single store, of the pointwise
    function of the loaded values, laid over the buffer. -/
def normed3 (z : Vec F S5000x64 .f32) (mean var scale shift : Vec F S1x64 .f32) : Vec F S5000x64 .f32 :=
  View.canon [⟨blockRect3, k3_pay1 (View.ld mean rowRect3) (View.ld var rowRect3) (View.ld z blockRect3)
    (View.ld scale rowRect3) (View.ld shift rowRect3)⟩]

/-- That store is of the whole window, so it covers it. -/
theorem cover3 (p : Vec F S5000x64 .f32) (y : S5000x64.Idx) :
    ∃ pc ∈ ([⟨blockRect3, p⟩] : List (View.Piece (Elt F) S5000x64 .f32)), y ∈ pc.1.set :=
  View.cover_of_tiled [⟨blockRect3, p⟩] S5000x64.size (by rfl) y

/-! ## The body's triple -/

set_option maxHeartbeats 1000000 in
/-- The body on six whole staging memrefs — the five inputs holding `z mean var scale shift`, the output
    holding anything — runs to a state where the inputs are as they were and the output holds
    `normed3` of them. The printed function is its skeleton of six loads and one store; the loads return
    the buffers' contents and the store is the one piece of `normed3`. -/
theorem body_triple3 (c : Dev nD) (E : Set ℕ) (i : grid3.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S5000x64 .f32) (h6 : a6.IsWhole)
    (z : Vec F S5000x64 .f32) (mean var scale shift : Vec F S1x64 .f32) (K : PUnit → sProp 𝕄) :
    iprop(owns (c : Thread nD τ) a1 fullShare z ∗ owns (c : Thread nD τ) a2 fullShare mean
        ∗ owns (c : Thread nD τ) a3 fullShare var ∗ owns (c : Thread nD τ) a4 fullShare scale
        ∗ owns (c : Thread nD τ) a5 fullShare shift ∗ (∃ d, owns (c : Thread nD τ) a6 fullShare d)
        ∗ (iprop(owns (c : Thread nD τ) a1 fullShare z ∗ owns (c : Thread nD τ) a2 fullShare mean
            ∗ owns (c : Thread nD τ) a3 fullShare var ∗ owns (c : Thread nD τ) a4 fullShare scale
            ∗ owns (c : Thread nD τ) a5 fullShare shift
            ∗ owns (c : Thread nD τ) a6 fullShare (normed3 z mean var scale shift)) -∗ K ⟨⟩))
      ⊢ wp frame (wpE (defs₀ (F := F)) Variants.none c none) E
          (cc3__stageB_kernel i a1 h1 a2 h2 a3 h3 a4 h4 a5 h5 a6 h6) K := by
  simp only [cc3__stageB_kernel_eq_skeleton]; unfold cc3__stageB_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover3 _)

/-! ## The pipeline's proof data -/

/-- The proof data of this region's pipeline on core `c`: the arrays are what the region finds (`V`);
    after the body at point `t` each input's buffer still holds its block and the output's holds
    `normed3` of the five input blocks; the invariant is the plain one (the rest of the scoped memory and
    the generator register, untouched); shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => normed3 (iblk3 V c 0 t) (iblk3 V c 1 t) (iblk3 V c 2 t) (iblk3 V c 3 t) (iblk3 V c 4 t)
  Φ _ := Pipeline.ΦA spec3 c
  q _ := fullShare
  owed _ := 0

/-- Its arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    normed3 (iblk3 V c 0 t) (iblk3 V c 1 t) (iblk3 V c 2 t) (iblk3 V c 3 t) (iblk3 V c 4 t) := by dsimp only [dat3]

/-- What each input's buffer holds when the body starts: its block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is handed at point `t`: the invariant, the (empty) debt, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five input buffers hold their blocks, so the triple applies with those
    blocks; the invariant and the debt do not depend on the point and pass through. -/
theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (body_triple3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) :
    BodyObligation (dat3 (F := F) V c) (defs₀ (F := F)) Variants.none () Set.univ := fun t => by
  rw [bigSep_W3, bigSep_W3]
  exact body_at3 V c t

end Cert.KernelIdeal.Hand
-- ==== Proof.KI.StageA4Runs.lean ====
/- The third MLP-and-column-sums call (region 4 of the program): what the three runs of its body share.
   The body at grid point i of 10: at i = 0 it clears two one-row accumulators kept in scratch memory; at every
   point it computes the block z = relu((h + agg)·W1 + b1)·W2 + b2 of 5000 rows, stores it, and adds the column
   sums of z and of z·z into the accumulators; at i = 9 it copies the accumulators into the two one-row outputs.
   So a point is the first, a middle one, or the last; this module decides which over the grid, names the
   memrefs the body is called with, and opens the region invariant at the two accumulators. -/
import proofs.«135128_j52475910423111_1_alg».proof.Proof.Gen.KernelIdeal.Launch
import proofs.«135128_j52475910423111_1_alg».proof.Proof.Gen.KernelIdeal.Skeleton
import proofs.«135128_j52475910423111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which point is which -/

/-- "This is the first point": the test the body makes before clearing the accumulators. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- "This is the last point": the test the body makes before copying the accumulators out. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
/-- Before the last point nothing is stored into sum output 7, and its block is not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
/-- At the last point it is stored into. -/
theorem liveAt4_7 : ∀ t : Fin cfg4.N, cond4_1 (grid4.coords t) → cfg4.idle 7 (grid4.coords t) = false := by decide +kernel
/-- Before the last point nothing is stored into sum output 8, and its block is not written back. -/
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel
/-- At the last point it is stored into. -/
theorem liveAt4_8 : ∀ t : Fin cfg4.N, cond4_1 (grid4.coords t) → cfg4.idle 8 (grid4.coords t) = false := by decide +kernel

/-! ## The memrefs the body is called with -/

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
/-- The two accumulators: whole scratch buffers of the call's own. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view
/-- One staging buffer of each output, through which its contents are stated. -/
abbrev VO4_6 : View sig .tc .vmem S5000x64 .f32 := (Memref.whole cc4_stg6_0 : Memref sig .tc .vmem S5000x64 .f32).view
abbrev VO4_7 : View sig .tc .vmem S1x64 .f32 := (Memref.whole cc4_stg7_0 : Memref sig .tc .vmem S1x64 .f32).view
abbrev VO4_8 : View sig .tc .vmem S1x64 .f32 := (Memref.whole cc4_stg8_0 : Memref sig .tc .vmem S1x64 .f32).view

/-- The region invariant of the launch, opened at the two accumulators: each owned at some contents, then every
    other scoped buffer unopened, then the generator register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The input blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (an unfetched window's
    block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not (an unfetched window's
    block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not (an unfetched window's
    block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's staging buffer holds its block at every point, fetched there or not (an unfetched window's
    block index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's staging buffer holds its block at every point, fetched there or not (an unfetched window's
    block index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's staging buffer holds its block at every point, fetched there or not (an unfetched window's
    block index has not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Cert.KernelIdeal.Hand

end
-- ==== Proof.KI.StageA4RunA.lean ====
/- The body of the third MLP-and-column-sums call run whole at the FIRST point (the accumulators are cleared first, whatever they held):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA4Runs

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the FIRST point (the accumulators are cleared first, whatever they held), with the proof that the body runs to its
    continuation holding them. -/
noncomputable def kernelRun4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__stageA_kernel_eq_skeleton]; unfold cc4__stageA_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.StageA4RunB.lean ====
/- The body of the third MLP-and-column-sums call run whole at a MIDDLE point (nothing cleared, nothing copied out):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA4RunA

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at a MIDDLE point (nothing cleared, nothing copied out), with the proof that the body runs to its
    continuation holding them. -/
noncomputable def kernelRun4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (LS0 : List (View.Piece (Elt F) S1x64 .f32)), { LS1 : List (View.Piece (Elt F) S1x64 .f32) //
      ∀ (xi7 : Vec F S1x64 .f32) (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc4__stageA_kernel_eq_skeleton]; unfold cc4__stageA_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.StageA4RunC.lean ====
/- The body of the third MLP-and-column-sums call run whole at the LAST point (after accumulating, the accumulators are copied into the two sum outputs):
   from the input blocks in their staging buffers it reaches its continuation with the inputs as they were, the block
   of z stored, and both accumulators stored into; what each stored-into buffer ends with is a list of pieces (a
   rectangle and the values stored there, last store first) that the symbolic run finds. -/
import proofs.«135128_j52475910423111_1_alg».proof.Proof.KI.StageA4RunB

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The pieces the body's stores leave at the LAST point (after accumulating, the accumulators are copied into the two sum outputs), with the proof that the body runs to its
    continuation holding them. -/
noncomputable def kernelRun4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S5000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__stageA_kernel_eq_skeleton]; unfold cc4__stageA_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.StageA4.lean ====
/- The third MLP-and-column-sums call (region 4): its frame data. After each of the ten points the block of z
   (5000 rows) sits in its output's staging buffer and the two accumulators hold the column sums of z and of z·z
   over all rows so far; the accumulators are carried from point to point inside the region invariant, and at the
   last point they are copied into the two one-row outputs, which are written back only there. What each buffer
   holds is stated as the pieces the body's stores left, read back; the contents are defined by recursion on the
   point, each point's run taking the accumulators the point before left. -/
import proofs.«135128_j52475910423111_1_alg».proof.Proof.KI.StageA4RunC

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves behind: the block of z, the two sum outputs' staging buffers, and the two accumulators
    (column sums of z and of z·z over the rows so far). -/
structure Outs4 (F : FTy → Type) where
  z : Vec F S5000x64 .f32
  s : Vec F S1x64 .f32
  q : Vec F S1x64 .f32
  acc : Vec F S1x64 .f32
  accq : Vec F S1x64 .f32

/-! ## The stores of each run cover what they are read back from -/

theorem cover4_A_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S5000x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S5000x64.size (by sl_kernel_rfl) y
theorem scover4_A_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x64.size (by sl_kernel_rfl) y
theorem scover4_A_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x64.size (by sl_kernel_rfl) y
theorem cover4_B_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover4_B_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem scover4_B_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y
theorem cover4_C_6 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x64.size (by sl_kernel_rfl) y
theorem scover4_C_0 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y
theorem scover4_C_1 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y
theorem cover4_C_7 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y
theorem cover4_C_8 (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

/-- What the first-point run leaves: each stored-into buffer's pieces read back. -/
def outs4_A (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) : Outs4 F where
  z := VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)
  s := VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)
  q := VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)
  acc := VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)
  accq := VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- What the middle-point run leaves: each stored-into buffer's pieces read back. -/
def outs4_B (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs4 F where
  z := VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  accq := VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- What the last-point run leaves: each stored-into buffer's pieces read back. -/
def outs4_C (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) : Outs4 F where
  z := VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
  s := VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
  q := VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
  acc := VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
  accq := VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## Point by point -/

/-- THE ACCUMULATION: what the outputs' staging buffers and the two accumulators hold after the body at point `n`:
    the first point's run from the input blocks alone, every later point's from the input blocks and the
    accumulators the point before left; the last point's run is the one that also fills the two sum outputs
    (before it their entries here repeat the accumulators: nothing reads them, those points write nothing back). -/
def outsAt4 (c : Dev nD) : (n : ℕ) → n < cfg4.N → Outs4 F
  | 0, hn => outs4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h' => by (try dsimp only at h'); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn =>
    if h1 : n + 1 = 9 then
      outs4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).acc (outsAt4 c n (Nat.lt_of_succ_lt hn)).accq
    else
      outs4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).acc (outsAt4 c n (Nat.lt_of_succ_lt hn)).accq

theorem outsAt4_A (c : Dev nD) (t : Fin cfg4.N) (h0 : t.val = 0) :
    outsAt4 V c t.val t.isLt = outs4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => (fun h' => by omega) ((hcond4_1 t).mp h)) (iblk4 V c 0 t) (iblk4 V c 1 t) (iblk4 V c 2 t) (iblk4 V c 3 t) (iblk4 V c 4 t) (iblk4 V c 5 t) := by
  obtain ⟨n, hn⟩ := t
  cases n with
  | zero => exact rfl
  | succ n => exact absurd h0 (Nat.succ_ne_zero n)

theorem outsAt4_B (c : Dev nD) (t : Fin cfg4.N) (h0 : ¬t.val = 0) (h1 : ¬t.val = 9) :
    outsAt4 V c t.val t.isLt = outs4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq := by
  obtain ⟨n, hn⟩ := t
  cases n with
  | zero => exact absurd rfl h0
  | succ n => exact (dif_neg h1).trans rfl

theorem outsAt4_C (c : Dev nD) (t : Fin cfg4.N) (h0 : ¬t.val = 0) (h1 : t.val = 9) :
    outsAt4 V c t.val t.isLt = outs4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq := by
  obtain ⟨n, hn⟩ := t
  cases n with
  | zero => exact absurd rfl h0
  | succ n => exact (dif_pos h1).trans rfl

/-- The region invariant before point `n`: before the first point what the launch hands over (both accumulators at
    anything); afterwards both accumulators owned at what the point before left, beside the untouched rest and the
    generator register. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).acc ∗ owns (c : Thread nD τ) scM4_1 fullShare (outsAt4 V c n hn).accq)
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).acc ∗ owns (c : Thread nD τ) scM4_1 fullShare (outsAt4 V c n hn).accq)
          ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).acc ∗ owns (c : Thread nD τ) scM4_1 fullShare (outsAt4 V c (n - 1) (by omega)).accq)
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The data of the region on core `c`: the arrays as the region finds them; after the body at a point each input's
    buffer at its block, z's at the block of z, the two sum outputs' and the invariant's accumulators at `outsAt4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).z
    | ⟨7, _⟩ => (outsAt4 V c t.val t.isLt).s
    | ⟨8, _⟩ => (outsAt4 V c t.val t.isLt).q
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).z := by dsimp only [dat4]
theorem after4_7 (c : Dev nD) (t : Fin cfg4.N) : (dat4 V c).after 7 t = (outsAt4 V c t.val t.isLt).s := by dsimp only [dat4]
theorem after4_8 (c : Dev nD) (t : Fin cfg4.N) : (dat4 V c).after 8 t = (outsAt4 V c t.val t.isLt).q := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point. The inputs' buffers hold their blocks; the point is the first, a middle one or the last,
    and that case's run applies: the invariant hands it the accumulators (at anything before the first point, else at
    what the point before left) and takes them back at this point's contents; before the last point the two sum
    outputs' buffers go back as they came, at the last point they come back stored into. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · have h1 : ¬t.val = 9 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [show (dat4 V c).leavesExact 5 t = owns (c : Thread nD τ) (ms4_5 t) fullShare ((dat4 V c).after 5 t) from by
      unfold Dat.leavesExact; rw [liveAt4_5 t], after4_5]
    rw [show (dat4 V c).leavesExact 6 t = owns (c : Thread nD τ) (ms4_6 t) fullShare ((dat4 V c).after 6 t) from by
      unfold Dat.leavesExact; rw [liveAt4_6 t], after4_6]
    rw [Dat.leavesExact_idle (dat4 V c) 7 t (idleAt4_7 t (fun h => h1 ((hcond4_1 t).mp h))) (noFlush4_7 t (fun h => h1 ((hcond4_1 t).mp h)))]
    rw [Dat.leavesExact_idle (dat4 V c) 8 t (idleAt4_8 t (fun h => h1 ((hcond4_1 t).mp h))) (noFlush4_8 t (fun h => h1 ((hcond4_1 t).mp h)))]
    rw [outsAt4_A V c t h0]
    unfold outs4_A; (try dsimp only)
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t ((hcond4_1 t).mpr h1)], after4_7]
      rw [show (dat4 V c).leavesExact 8 t = owns (c : Thread nD τ) (ms4_8 t) fullShare ((dat4 V c).after 8 t) from by
        unfold Dat.leavesExact; rw [liveAt4_8 t ((hcond4_1 t).mpr h1)], after4_8]
      rw [outsAt4_C V c t h0 h1]
      unfold outs4_C; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [Dat.leavesExact_idle (dat4 V c) 7 t (idleAt4_7 t (fun h => h1 ((hcond4_1 t).mp h))) (noFlush4_7 t (fun h => h1 ((hcond4_1 t).mp h)))]
      rw [Dat.leavesExact_idle (dat4 V c) 8 t (idleAt4_8 t (fun h => h1 ((hcond4_1 t).mp h))) (noFlush4_8 t (fun h => h1 ((hcond4_1 t).mp h)))]
      rw [outsAt4_B V c t h0 h1]
      unfold outs4_B; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives back what the launch handed over: what the accumulators hold
    is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KI.StageB5.lean ====
/- Region 5 of the program's @main: a batch-norm apply over the ten row blocks of a 50000x64 matrix.
   At a grid point the body reads five windows whole — the 5000x64 block of rows of `z` the point
   owns, and the four 1x64 rows mean, variance, scale and shift, which are the same at every point —
   and overwrites the whole 5000x64 output window with one pointwise function of what it read
   (`k5_pay1`). It keeps nothing between points. Everything here holds at any float model `F` and
   at any buffer contents `V` found when the region is entered: what each window's staging buffer
   holds before and after the body at a point, and the body's obligation to the pipeline. -/
import proofs.«135128_j52475910423111_1_alg».proof.Proof.Gen.KernelIdeal.Launch
import proofs.«135128_j52475910423111_1_alg».proof.Proof.Gen.KernelIdeal.Skeleton
import proofs.«135128_j52475910423111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle 5000 rows long recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the region is entered
variable (V : (c : Dev nD) → (b : Ref sig .tc) → Buf (Elt F) ((c : Thread nD τ).loc b))

/-! ## Blocks -/

/-- The block of window `w` that grid point `t` owns, cut out of the window's array as the region
    finds it. For window 0 and window 5 it is rows `5000 t … 5000 t + 4999`; for windows 1–4 it is
    the whole one-row array, whatever `t`. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## What an input window's staging buffer holds when the body starts

For proof data whose array of the window is `V`'s and whose body leaves the window's buffer at its
block, the buffer holds the point's block at EVERY point: at a point where the pipeline copies the
block in, by the copy; at a point where it does not (windows 1–4 after the first point), because the
block index has not moved since the last copy and the body left the buffer alone. No window here is
clipped or ever idle, so the library lemma's side conditions hold by unfolding. -/

theorem before5_0_of {c : Dev nD} (dat : Dat τ (Elt F) Unit ℕ (UR sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  have kept : ∀ s, (cfg5.win 0).cut (cfg5.grid.coords s) (dat.after 0 s) = dat.blockOf 0 s := fun s => by
    rw [hafter]; unfold Dat.blockOf iblk5; rw [hA]; try rfl
  rw [dat.before_in_eq_fetched 0 rfl (fun _ => rfl) (fun _ _ _ => rfl) kept t d]
  unfold Dat.fetched Dat.blockOf iblk5; rw [hA]; try rfl

theorem before5_1_of {c : Dev nD} (dat : Dat τ (Elt F) Unit ℕ (UR sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  have kept : ∀ s, (cfg5.win 1).cut (cfg5.grid.coords s) (dat.after 1 s) = dat.blockOf 1 s := fun s => by
    rw [hafter]; unfold Dat.blockOf iblk5; rw [hA]; try rfl
  rw [dat.before_in_eq_fetched 1 rfl (fun _ => rfl) (fun _ _ _ => rfl) kept t d]
  unfold Dat.fetched Dat.blockOf iblk5; rw [hA]; try rfl

theorem before5_2_of {c : Dev nD} (dat : Dat τ (Elt F) Unit ℕ (UR sig nD τ) ℕ cfg5 c)
    (hA : dat.A 2 = V c (Pipeline.arrRef spec5 2)) (hafter : ∀ t, dat.after 2 t = iblk5 V c 2 t)
    (t : Fin cfg5.N) (d) : dat.before 2 t d = iblk5 V c 2 t := by
  have kept : ∀ s, (cfg5.win 2).cut (cfg5.grid.coords s) (dat.after 2 s) = dat.blockOf 2 s := fun s => by
    rw [hafter]; unfold Dat.blockOf iblk5; rw [hA]; try rfl
  rw [dat.before_in_eq_fetched 2 rfl (fun _ => rfl) (fun _ _ _ => rfl) kept t d]
  unfold Dat.fetched Dat.blockOf iblk5; rw [hA]; try rfl

theorem before5_3_of {c : Dev nD} (dat : Dat τ (Elt F) Unit ℕ (UR sig nD τ) ℕ cfg5 c)
    (hA : dat.A 3 = V c (Pipeline.arrRef spec5 3)) (hafter : ∀ t, dat.after 3 t = iblk5 V c 3 t)
    (t : Fin cfg5.N) (d) : dat.before 3 t d = iblk5 V c 3 t := by
  have kept : ∀ s, (cfg5.win 3).cut (cfg5.grid.coords s) (dat.after 3 s) = dat.blockOf 3 s := fun s => by
    rw [hafter]; unfold Dat.blockOf iblk5; rw [hA]; try rfl
  rw [dat.before_in_eq_fetched 3 rfl (fun _ => rfl) (fun _ _ _ => rfl) kept t d]
  unfold Dat.fetched Dat.blockOf iblk5; rw [hA]; try rfl

theorem before5_4_of {c : Dev nD} (dat : Dat τ (Elt F) Unit ℕ (UR sig nD τ) ℕ cfg5 c)
    (hA : dat.A 4 = V c (Pipeline.arrRef spec5 4)) (hafter : ∀ t, dat.after 4 t = iblk5 V c 4 t)
    (t : Fin cfg5.N) (d) : dat.before 4 t d = iblk5 V c 4 t := by
  have kept : ∀ s, (cfg5.win 4).cut (cfg5.grid.coords s) (dat.after 4 s) = dat.blockOf 4 s := fun s => by
    rw [hafter]; unfold Dat.blockOf iblk5; rw [hA]; try rfl
  rw [dat.before_in_eq_fetched 4 rfl (fun _ => rfl) (fun _ _ _ => rfl) kept t d]
  unfold Dat.fetched Dat.blockOf iblk5; rw [hA]; try rfl

/-! ## The body's accesses and what it leaves in the output window -/

/-- The whole 5000x64 window and the whole 1x64 window: the only two rectangles the body touches. -/
abbrev blockRect5 : Rect S5000x64 := Rect.unit (s := S5000x64) ![0, 0] S5000x64.size inb_S5000x64_S5000x64_0_0
abbrev rowRect5 : Rect S1x64 := Rect.unit (s := S1x64) ![0, 0] S1x64.size inb_S1x64_S1x64_0_0

/-- The output window after the body, from the five input buffers: its single store, of the pointwise
    function of the loaded values, laid over the buffer. -/
def normed5 (z : Vec F S5000x64 .f32) (mean var scale shift : Vec F S1x64 .f32) : Vec F S5000x64 .f32 :=
  View.canon [⟨blockRect5, k5_pay1 (View.ld mean rowRect5) (View.ld var rowRect5) (View.ld z blockRect5)
    (View.ld scale rowRect5) (View.ld shift rowRect5)⟩]

/-- That store is of the whole window, so it covers it. -/
theorem cover5 (p : Vec F S5000x64 .f32) (y : S5000x64.Idx) :
    ∃ pc ∈ ([⟨blockRect5, p⟩] : List (View.Piece (Elt F) S5000x64 .f32)), y ∈ pc.1.set :=
  View.cover_of_tiled [⟨blockRect5, p⟩] S5000x64.size (by rfl) y

/-! ## The body's triple -/

set_option maxHeartbeats 1000000 in
/-- The body on six whole staging memrefs — the five inputs holding `z mean var scale shift`, the output
    holding anything — runs to a state where the inputs are as they were and the output holds
    `normed5` of them. The printed function is its skeleton of six loads and one store; the loads return
    the buffers' contents and the store is the one piece of `normed5`. -/
theorem body_triple5 (c : Dev nD) (E : Set ℕ) (i : grid5.Coords)
    (a1 : Memref sig .tc .vmem S5000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S5000x64 .f32) (h6 : a6.IsWhole)
    (z : Vec F S5000x64 .f32) (mean var scale shift : Vec F S1x64 .f32) (K : PUnit → sProp 𝕄) :
    iprop(owns (c : Thread nD τ) a1 fullShare z ∗ owns (c : Thread nD τ) a2 fullShare mean
        ∗ owns (c : Thread nD τ) a3 fullShare var ∗ owns (c : Thread nD τ) a4 fullShare scale
        ∗ owns (c : Thread nD τ) a5 fullShare shift ∗ (∃ d, owns (c : Thread nD τ) a6 fullShare d)
        ∗ (iprop(owns (c : Thread nD τ) a1 fullShare z ∗ owns (c : Thread nD τ) a2 fullShare mean
            ∗ owns (c : Thread nD τ) a3 fullShare var ∗ owns (c : Thread nD τ) a4 fullShare scale
            ∗ owns (c : Thread nD τ) a5 fullShare shift
            ∗ owns (c : Thread nD τ) a6 fullShare (normed5 z mean var scale shift)) -∗ K ⟨⟩))
      ⊢ wp frame (wpE (defs₀ (F := F)) Variants.none c none) E
          (cc5__stageB_kernel i a1 h1 a2 h2 a3 h3 a4 h4 a5 h5 a6 h6) K := by
  simp only [cc5__stageB_kernel_eq_skeleton]; unfold cc5__stageB_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover5 _)

/-! ## The pipeline's proof data -/

/-- The proof data of this region's pipeline on core `c`: the arrays are what the region finds (`V`);
    after the body at point `t` each input's buffer still holds its block and the output's holds
    `normed5` of the five input blocks; the invariant is the plain one (the rest of the scoped memory and
    the generator register, untouched); shares are full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => normed5 (iblk5 V c 0 t) (iblk5 V c 1 t) (iblk5 V c 2 t) (iblk5 V c 3 t) (iblk5 V c 4 t)
  Φ _ := Pipeline.ΦA spec5 c
  q _ := fullShare
  owed _ := 0

/-- Its arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t =
    normed5 (iblk5 V c 0 t) (iblk5 V c 1 t) (iblk5 V c 2 t) (iblk5 V c 3 t) (iblk5 V c 4 t) := by dsimp only [dat5]

/-- What each input's buffer holds when the body starts: its block, at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

/-- What the body is handed at point `t`: the invariant, the (empty) debt, and each window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- What it hands back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the five input buffers hold their blocks, so the triple applies with those
    blocks; the invariant and the debt do not depend on the point and pass through. -/
theorem body_at5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (body_triple5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) :
    BodyObligation (dat5 (F := F) V c) (defs₀ (F := F)) Variants.none () Set.univ := fun t => by
  rw [bigSep_W5, bigSep_W5]
  exact body_at5 V c t

end Cert.KernelIdeal.Hand
-- ==== Proof.KI.Run.lean ====
/-
  The whole run of the kernel program: @main is twelve items — a stretch of host operations, then a kernel region, six
  times.  The contents of every unscoped buffer are followed item by item from the launch memory: a host stretch
  applies its operations, a region replaces its output arrays by what its write-backs leave and changes nothing else.
  Every region is entered from the state the item before it left, so the run ends with every unscoped buffer at the
  last contents, and from that both the unchanged arguments and the result array are read.
-/
import proofs.«135128_j52475910423111_1_alg».proof.Proof.Gen.KernelIdeal.Launch
import proofs.«135128_j52475910423111_1_alg».proof.Proof.Gen.KernelIdeal.Points
import proofs.«135128_j52475910423111_1_alg».proof.Proof.Gen.KernelIdeal.Regions
import proofs.«135128_j52475910423111_1_alg».proof.Proof.KI.StageA0
import proofs.«135128_j52475910423111_1_alg».proof.Proof.KI.StageB1
import proofs.«135128_j52475910423111_1_alg».proof.Proof.KI.StageA2
import proofs.«135128_j52475910423111_1_alg».proof.Proof.KI.StageB3
import proofs.«135128_j52475910423111_1_alg».proof.Proof.KI.StageA4
import proofs.«135128_j52475910423111_1_alg».proof.Proof.KI.StageB5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core c's buffers at launch. -/
abbrev W0 : Dev nD → Valuation τ sig (Elt F) := fun c b => m ((c : Dev nD), b)
/-- After the host stretch before region 0. -/
abbrev W1 : Dev nD → Valuation τ sig (Elt F) := fun c => StableHlo.after hostOps0 (W0 m c)
/-- The same, read at the TensorCore's references: what region 0 is entered from. -/
abbrev V1 : (c : Dev nD) → (b : Ref sig .tc) → Buf (Elt F) ((c : Thread nD τ).loc b) := fun c b => W1 m c b
/-- After region 0: its arrays at what its write-backs leave, every other buffer as it was entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem arrays_after0 (c : Dev nD) (w : Fin cfg0.W) : (dat0 (V1 m) c).arrAt w cfg0.N = V2 m c (Pipeline.arrRef spec0 w) :=
  (W2_arr m c w).symm
theorem others_after0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array is left as the region found it. -/
theorem input_after0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- After the host stretch before region 1. -/
abbrev W3 : Dev nD → Valuation τ sig (Elt F) := fun c => StableHlo.after hostOps1 (W2 m c)
/-- The same, read at the TensorCore's references: what region 1 is entered from. -/
abbrev V3 : (c : Dev nD) → (b : Ref sig .tc) → Buf (Elt F) ((c : Thread nD τ).loc b) := fun c b => W3 m c b
/-- After region 1: its arrays at what its write-backs leave, every other buffer as it was entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem arrays_after1 (c : Dev nD) (w : Fin cfg1.W) : (dat1 (V3 m) c).arrAt w cfg1.N = V4 m c (Pipeline.arrRef spec1 w) :=
  (W4_arr m c w).symm
theorem others_after1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- An input window's array is left as the region found it. -/
theorem input_after1 (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-- After the host stretch before region 2. -/
abbrev W5 : Dev nD → Valuation τ sig (Elt F) := fun c => StableHlo.after hostOps2 (W4 m c)
/-- The same, read at the TensorCore's references: what region 2 is entered from. -/
abbrev V5 : (c : Dev nD) → (b : Ref sig .tc) → Buf (Elt F) ((c : Thread nD τ).loc b) := fun c b => W5 m c b
/-- After region 2: its arrays at what its write-backs leave, every other buffer as it was entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem arrays_after2 (c : Dev nD) (w : Fin cfg2.W) : (dat2 (V5 m) c).arrAt w cfg2.N = V6 m c (Pipeline.arrRef spec2 w) :=
  (W6_arr m c w).symm
theorem others_after2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- An input window's array is left as the region found it. -/
theorem input_after2 (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))

/-- After the host stretch before region 3. -/
abbrev W7 : Dev nD → Valuation τ sig (Elt F) := fun c => StableHlo.after hostOps3 (W6 m c)
/-- The same, read at the TensorCore's references: what region 3 is entered from. -/
abbrev V7 : (c : Dev nD) → (b : Ref sig .tc) → Buf (Elt F) ((c : Thread nD τ).loc b) := fun c b => W7 m c b
/-- After region 3: its arrays at what its write-backs leave, every other buffer as it was entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem arrays_after3 (c : Dev nD) (w : Fin cfg3.W) : (dat3 (V7 m) c).arrAt w cfg3.N = V8 m c (Pipeline.arrRef spec3 w) :=
  (W8_arr m c w).symm
theorem others_after3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- An input window's array is left as the region found it. -/
theorem input_after3 (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))

/-- After the host stretch before region 4. -/
abbrev W9 : Dev nD → Valuation τ sig (Elt F) := fun c => StableHlo.after hostOps4 (W8 m c)
/-- The same, read at the TensorCore's references: what region 4 is entered from. -/
abbrev V9 : (c : Dev nD) → (b : Ref sig .tc) → Buf (Elt F) ((c : Thread nD τ).loc b) := fun c b => W9 m c b
/-- After region 4: its arrays at what its write-backs leave, every other buffer as it was entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem arrays_after4 (c : Dev nD) (w : Fin cfg4.W) : (dat4 (V9 m) c).arrAt w cfg4.N = V10 m c (Pipeline.arrRef spec4 w) :=
  (W10_arr m c w).symm
theorem others_after4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- An input window's array is left as the region found it. -/
theorem input_after4 (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))

/-- After the host stretch before region 5. -/
abbrev W11 : Dev nD → Valuation τ sig (Elt F) := fun c => StableHlo.after hostOps5 (W10 m c)
/-- The same, read at the TensorCore's references: what region 5 is entered from. -/
abbrev V11 : (c : Dev nD) → (b : Ref sig .tc) → Buf (Elt F) ((c : Thread nD τ).loc b) := fun c b => W11 m c b
/-- After region 5: its arrays at what its write-backs leave, every other buffer as it was entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem arrays_after5 (c : Dev nD) (w : Fin cfg5.W) : (dat5 (V11 m) c).arrAt w cfg5.N = V12 m c (Pipeline.arrRef spec5 w) :=
  (W12_arr m c w).symm
theorem others_after5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- An input window's array is left as the region found it. -/
theorem input_after5 (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))

/-! ## The proof data of the six pipelines and the state carried between items -/

/-- No pipeline has a prefetched table. -/
abbrev adm : (p : Fin 6) → (pcfgs (F := F) p).Adm := fun p => (cfgs p).toPCfg_adm
/-- Each pipeline's proof data at the contents its region is entered from. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and nothing owed. -/
abbrev Rest (c : Dev nD) : sProp 𝕄 := iprop((∃ r, prngReg c r) ∗ ∃ W, owes (c : Thread nD τ) (0 : CellTallies nD τ sig Unit) W)
/-- A host stretch as a segment over the unscoped references. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owes. -/
abbrev Tlast (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0: entered with every unscoped buffer at W1, left with them at W2.  Its arrays are split out of the
    unscoped buffers and put back at their final contents; the generator register goes into the kernel's invariant
    and comes back; nothing is owed; the kernel has no semaphore of its own. -/
def region0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arrays_after0 m c) (others_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at W3, left with them at W4.  Its arrays are split out of the
    unscoped buffers and put back at their final contents; the generator register goes into the kernel's invariant
    and comes back; nothing is owed; the kernel has no semaphore of its own. -/
def region1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arrays_after1 m c) (others_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at W5, left with them at W6.  Its arrays are split out of the
    unscoped buffers and put back at their final contents; the generator register goes into the kernel's invariant
    and comes back; nothing is owed; the kernel has no semaphore of its own. -/
def region2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ Rest c)
  post c := iprop(StableHlo.held (c : Thread nD τ) (Pipeline.ucRefs τ sig) (W6 m c) ∗ Rest c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (arrays_after2 m c) (others_after2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at W7, left with them at W8.  Its arrays are split out of the
    unscoped buffers and put back at their final contents; the generator register goes into the kernel's invariant
    and comes back; nothing is owed; the kernel has no semaphore of its own. -/
def region3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ Rest c)
  post c := iprop(StableHlo.held (c : Thread nD τ) (Pipeline.ucRefs τ sig) (W8 m c) ∗ Rest c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (arrays_after3 m c) (others_after3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at W9, left with them at W10.  Its arrays are split out of the
    unscoped buffers and put back at their final contents; the generator register goes into the kernel's invariant
    and comes back; nothing is owed; the kernel has no semaphore of its own. -/
def region4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ Rest c)
  post c := iprop(StableHlo.held (c : Thread nD τ) (Pipeline.ucRefs τ sig) (W10 m c) ∗ Rest c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m) c)
    unfold Pipeline.ΦA
    iintro ⟨Hp, -, Hr⟩
    isplitl [Hr]; · iexact Hr
    iexact Hp
  hout c := by
    rw [Pipeline.ownSems0_none]
    refine BIBase.Entails.trans (hout4 (V9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (arrays_after4 m c) (others_after4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at W11, left with them at W12.  Its arrays are split out of the
    unscoped buffers and put back at their final contents; the generator register goes into the kernel's invariant
    and comes back; nothing is owed; the kernel has no semaphore of its own. -/
def region5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (arrays_after5 m c) (others_after5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its twelve items, and the launch -/

abbrev items : List (Pipeline.Seg (pcfgs (F := F)) adm (pdats m) () defs₀ 𝒱₀ L lv) :=
  [ .host (hostSeg hostOps0 hostOps0_sub hostOps0_fresh (W0 m)),
    .region (region0 m),
    .host (hostSeg hostOps1 hostOps1_sub hostOps1_fresh (W2 m)),
    .region (region1 m),
    .host (hostSeg hostOps2 hostOps2_sub hostOps2_fresh (W4 m)),
    .region (region2 m),
    .host (hostSeg hostOps3 hostOps3_sub hostOps3_fresh (W6 m)),
    .region (region3 m),
    .host (hostSeg hostOps4 hostOps4_sub hostOps4_fresh (W8 m)),
    .region (region4 m),
    .host (hostSeg hostOps5 hostOps5_sub hostOps5_fresh (W10 m)),
    .region (region5 m) ]

set_option backward.isDefEq.respectTransparency.types false in
/-- Every weakly fair execution of @main from the memory m with zero counters terminates, nothing faulting, and in
    every final state each unscoped buffer of each core holds the last contents W12. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Hand

end
-- ==== Proof.KI.Frame.lean ====
/-
  The frame of the kernel program: no host operation writes an argument array and no region has one as an output,
  so each argument's buffer is followed back from the last contents to the launch memory, item by item.
-/
import proofs.«135128_j52475910423111_1_alg».proof.Proof.KI.Run

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ)

/-- A host stretch leaves a buffer none of its operations writes as it was. -/
theorem host_keeps0 (c : Dev nD) (b : Ref sig .tc) (h : b ∉ hostOps0_W) :
    W1 m c (Proc.devRef .tc b) = W0 m c (Proc.devRef .tc b) :=
  StableHlo.after_of_writes_sub hostOps0 _ hostOps0_writes h
/-- A region leaves a buffer that is none of its output arrays as it was. -/
theorem region_keeps0 (c : Dev nD) (b : Ref sig .tc) (h : ∀ w, Pipeline.arrRef spec0 w = b → (cfg0.win w).isOut = false) :
    W2 m c (Proc.devRef .tc b) = W1 m c (Proc.devRef .tc b) := by
  by_cases hb : ∃ w, Pipeline.arrRef spec0 w = b
  · obtain ⟨w, rfl⟩ := hb
    exact input_after0 m c w (h w rfl)
  · exact W2_of_ne m c b fun w e => hb ⟨w, e⟩

/-- A host stretch leaves a buffer none of its operations writes as it was. -/
theorem host_keeps1 (c : Dev nD) (b : Ref sig .tc) (h : b ∉ hostOps1_W) :
    W3 m c (Proc.devRef .tc b) = W2 m c (Proc.devRef .tc b) :=
  StableHlo.after_of_writes_sub hostOps1 _ hostOps1_writes h
/-- A region leaves a buffer that is none of its output arrays as it was. -/
theorem region_keeps1 (c : Dev nD) (b : Ref sig .tc) (h : ∀ w, Pipeline.arrRef spec1 w = b → (cfg1.win w).isOut = false) :
    W4 m c (Proc.devRef .tc b) = W3 m c (Proc.devRef .tc b) := by
  by_cases hb : ∃ w, Pipeline.arrRef spec1 w = b
  · obtain ⟨w, rfl⟩ := hb
    exact input_after1 m c w (h w rfl)
  · exact W4_of_ne m c b fun w e => hb ⟨w, e⟩

/-- A host stretch leaves a buffer none of its operations writes as it was. -/
theorem host_keeps2 (c : Dev nD) (b : Ref sig .tc) (h : b ∉ hostOps2_W) :
    W5 m c (Proc.devRef .tc b) = W4 m c (Proc.devRef .tc b) :=
  StableHlo.after_of_writes_sub hostOps2 _ hostOps2_writes h
/-- A region leaves a buffer that is none of its output arrays as it was. -/
theorem region_keeps2 (c : Dev nD) (b : Ref sig .tc) (h : ∀ w, Pipeline.arrRef spec2 w = b → (cfg2.win w).isOut = false) :
    W6 m c (Proc.devRef .tc b) = W5 m c (Proc.devRef .tc b) := by
  by_cases hb : ∃ w, Pipeline.arrRef spec2 w = b
  · obtain ⟨w, rfl⟩ := hb
    exact input_after2 m c w (h w rfl)
  · exact W6_of_ne m c b fun w e => hb ⟨w, e⟩

/-- A host stretch leaves a buffer none of its operations writes as it was. -/
theorem host_keeps3 (c : Dev nD) (b : Ref sig .tc) (h : b ∉ hostOps3_W) :
    W7 m c (Proc.devRef .tc b) = W6 m c (Proc.devRef .tc b) :=
  StableHlo.after_of_writes_sub hostOps3 _ hostOps3_writes h
/-- A region leaves a buffer that is none of its output arrays as it was. -/
theorem region_keeps3 (c : Dev nD) (b : Ref sig .tc) (h : ∀ w, Pipeline.arrRef spec3 w = b → (cfg3.win w).isOut = false) :
    W8 m c (Proc.devRef .tc b) = W7 m c (Proc.devRef .tc b) := by
  by_cases hb : ∃ w, Pipeline.arrRef spec3 w = b
  · obtain ⟨w, rfl⟩ := hb
    exact input_after3 m c w (h w rfl)
  · exact W8_of_ne m c b fun w e => hb ⟨w, e⟩

/-- A host stretch leaves a buffer none of its operations writes as it was. -/
theorem host_keeps4 (c : Dev nD) (b : Ref sig .tc) (h : b ∉ hostOps4_W) :
    W9 m c (Proc.devRef .tc b) = W8 m c (Proc.devRef .tc b) :=
  StableHlo.after_of_writes_sub hostOps4 _ hostOps4_writes h
/-- A region leaves a buffer that is none of its output arrays as it was. -/
theorem region_keeps4 (c : Dev nD) (b : Ref sig .tc) (h : ∀ w, Pipeline.arrRef spec4 w = b → (cfg4.win w).isOut = false) :
    W10 m c (Proc.devRef .tc b) = W9 m c (Proc.devRef .tc b) := by
  by_cases hb : ∃ w, Pipeline.arrRef spec4 w = b
  · obtain ⟨w, rfl⟩ := hb
    exact input_after4 m c w (h w rfl)
  · exact W10_of_ne m c b fun w e => hb ⟨w, e⟩

/-- A host stretch leaves a buffer none of its operations writes as it was. -/
theorem host_keeps5 (c : Dev nD) (b : Ref sig .tc) (h : b ∉ hostOps5_W) :
    W11 m c (Proc.devRef .tc b) = W10 m c (Proc.devRef .tc b) :=
  StableHlo.after_of_writes_sub hostOps5 _ hostOps5_writes h
/-- A region leaves a buffer that is none of its output arrays as it was. -/
theorem region_keeps5 (c : Dev nD) (b : Ref sig .tc) (h : ∀ w, Pipeline.arrRef spec5 w = b → (cfg5.win w).isOut = false) :
    W12 m c (Proc.devRef .tc b) = W11 m c (Proc.devRef .tc b) := by
  by_cases hb : ∃ w, Pipeline.arrRef spec5 w = b
  · obtain ⟨w, rfl⟩ := hb
    exact input_after5 m c w (h w rfl)
  · exact W12_of_ne m c b fun w e => hb ⟨w, e⟩

/-- A buffer no item changes holds its launch contents at the end. -/
theorem kept_to_the_end (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (r0 : ∀ w, Pipeline.arrRef spec0 w = b → (cfg0.win w).isOut = false) (r1 : ∀ w, Pipeline.arrRef spec1 w = b → (cfg1.win w).isOut = false)
    (r2 : ∀ w, Pipeline.arrRef spec2 w = b → (cfg2.win w).isOut = false) (r3 : ∀ w, Pipeline.arrRef spec3 w = b → (cfg3.win w).isOut = false)
    (r4 : ∀ w, Pipeline.arrRef spec4 w = b → (cfg4.win w).isOut = false) (r5 : ∀ w, Pipeline.arrRef spec5 w = b → (cfg5.win w).isOut = false) :
    W12 m c (Proc.devRef .tc b) = m ((c : Thread nD τ).loc b) :=
  (region_keeps5 m c b r5).trans <| (host_keeps5 m c b h5).trans <| (region_keeps4 m c b r4).trans <| (host_keeps4 m c b h4).trans <|
  (region_keeps3 m c b r3).trans <| (host_keeps3 m c b h3).trans <| (region_keeps2 m c b r2).trans <| (host_keeps2 m c b h2).trans <|
  (region_keeps1 m c b r1).trans <| (host_keeps1 m c b h1).trans <| (region_keeps0 m c b r0).trans <| (host_keeps0 m c b h0).trans rfl

theorem W12_main_arg0 (c : Dev nD) : W12 m c (Proc.devRef .tc main_arg0) = m ((c : Thread nD τ).loc main_arg0) :=
  kept_to_the_end m c main_arg0 (by decide) (by decide) (by decide) (by decide) (by decide) (by decide)
    (by decide) (by decide) (by decide) (by decide) (by decide) (by decide)
theorem W12_main_arg1 (c : Dev nD) : W12 m c (Proc.devRef .tc main_arg1) = m ((c : Thread nD τ).loc main_arg1) :=
  kept_to_the_end m c main_arg1 (by decide) (by decide) (by decide) (by decide) (by decide) (by decide)
    (by decide) (by decide) (by decide) (by decide) (by decide) (by decide)
theorem W12_main_arg2 (c : Dev nD) : W12 m c (Proc.devRef .tc main_arg2) = m ((c : Thread nD τ).loc main_arg2) :=
  kept_to_the_end m c main_arg2 (by decide) (by decide) (by decide) (by decide) (by decide) (by decide)
    (by decide) (by decide) (by decide) (by decide) (by decide) (by decide)
theorem W12_main_arg3 (c : Dev nD) : W12 m c (Proc.devRef .tc main_arg3) = m ((c : Thread nD τ).loc main_arg3) :=
  kept_to_the_end m c main_arg3 (by decide) (by decide) (by decide) (by decide) (by decide) (by decide)
    (by decide) (by decide) (by decide) (by decide) (by decide) (by decide)
theorem W12_main_arg4 (c : Dev nD) : W12 m c (Proc.devRef .tc main_arg4) = m ((c : Thread nD τ).loc main_arg4) :=
  kept_to_the_end m c main_arg4 (by decide) (by decide) (by decide) (by decide) (by decide) (by decide)
    (by decide) (by decide) (by decide) (by decide) (by decide) (by decide)
theorem W12_main_arg5 (c : Dev nD) : W12 m c (Proc.devRef .tc main_arg5) = m ((c : Thread nD τ).loc main_arg5) :=
  kept_to_the_end m c main_arg5 (by decide) (by decide) (by decide) (by decide) (by decide) (by decide)
    (by decide) (by decide) (by decide) (by decide) (by decide) (by decide)
theorem W12_main_arg6 (c : Dev nD) : W12 m c (Proc.devRef .tc main_arg6) = m ((c : Thread nD τ).loc main_arg6) :=
  kept_to_the_end m c main_arg6 (by decide) (by decide) (by decide) (by decide) (by decide) (by decide)
    (by decide) (by decide) (by decide) (by decide) (by decide) (by decide)
theorem W12_main_arg7 (c : Dev nD) : W12 m c (Proc.devRef .tc main_arg7) = m ((c : Thread nD τ).loc main_arg7) :=
  kept_to_the_end m c main_arg7 (by decide) (by decide) (by decide) (by decide) (by decide) (by decide)
    (by decide) (by decide) (by decide) (by decide) (by decide) (by decide)

/-- Every weakly fair execution of @main terminates, nothing faulting, with the eight argument arrays unchanged. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W12_main_arg0 m c), (h c _ (mem_uc main_arg1 (by decide))).trans (W12_main_arg1 m c),
     (h c _ (mem_uc main_arg2 (by decide))).trans (W12_main_arg2 m c), (h c _ (mem_uc main_arg3 (by decide))).trans (W12_main_arg3 m c),
     (h c _ (mem_uc main_arg4 (by decide))).trans (W12_main_arg4 m c), (h c _ (mem_uc main_arg5 (by decide))).trans (W12_main_arg5 m c),
     (h c _ (mem_uc main_arg6 (by decide))).trans (W12_main_arg6 m c), (h c _ (mem_uc main_arg7 (by decide))).trans (W12_main_arg7 m c)⟩)
    (run_all m ρ)

end Cert.KernelIdeal.Hand

end
-- ==== Proof.Ref.Ops.lean ====
import proofs.«135128_j52475910423111_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 37 of the inlined program (window 0), ending with the one that writes main_v32. -/
def p0a : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg0 main_v13 main_v14 (addf : (⟨S50000x64, .f32⟩ : BufTy).Contents (Elt F) → (⟨S50000x64, .f32⟩ : BufTy).Contents (Elt F) → (⟨S50000x64, .f32⟩ : BufTy).Contents (Elt F)),
    unary main_arg2 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v15 main_v16 rfl shapeCasts_S1x64x64_S64x64,
    binary main_v14 main_v16 main_v17 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S50000x64 ![0, 1] bcast_S1x64_S50000x64_0_1 : (⟨S1x64, .f32⟩ : BufTy).Contents (Elt F) → (⟨S50000x64, .f32⟩ : BufTy).Contents (Elt F)),
    binary main_v17 main_v21 main_v22 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x00000000#32),
    unary main_cst_1 main_v23 (broadcastInDim S50000x64 ![] bcast_S_S50000x64 : (⟨S_, .f32⟩ : BufTy).Contents (Elt F) → (⟨S50000x64, .f32⟩ : BufTy).Contents (Elt F)),
    binary main_v22 main_v23 main_v24 (maximumf : (⟨S50000x64, .f32⟩ : BufTy).Contents (Elt F) → (⟨S50000x64, .f32⟩ : BufTy).Contents (Elt F) → (⟨S50000x64, .f32⟩ : BufTy).Contents (Elt F)),
    unary main_arg4 main_v25 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v25 main_v26 rfl shapeCasts_S1x64x64_S64x64,
    binary main_v24 main_v26 main_v27 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v28 ((extractStridedSlice S1x64 ![0, 0] · slices_S3x64_S1x64_0_0) : (⟨S3x64, .f32⟩ : BufTy).Contents (Elt F) → (⟨S1x64, .f32⟩ : BufTy).Contents (Elt F)),
    reshape main_v28 main_v29 rfl shapeCasts_S1x64_S64,
    unary main_v29 main_v30 (broadcastInDim S1x64 ![1] bcast_S64_S1x64_1 : (⟨S64, .f32⟩ : BufTy).Contents (Elt F) → (⟨S1x64, .f32⟩ : BufTy).Contents (Elt F)),
    unary main_v30 main_v31 (broadcastInDim S50000x64 ![0, 1] bcast_S1x64_S50000x64_0_1 : (⟨S1x64, .f32⟩ : BufTy).Contents (Elt F) → (⟨S50000x64, .f32⟩ : BufTy).Contents (Elt F)),
    binary main_v27 main_v31 main_v32 (addf : (⟨S50000x64, .f32⟩ : BufTy).Contents (Elt F) → (⟨S50000x64, .f32⟩ : BufTy).Contents (Elt F) → (⟨S50000x64, .f32⟩ : BufTy).Contents (Elt F)) ]

/-- The buffers the operations of p0a write, in order. -/
def p0a_w : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_cst_1, main_v23, main_v24, main_v25, main_v26, main_v27, main_v28, main_v29, main_v30, main_v31, main_v32]

/-- Every operation of p0a touches TensorCore buffers only (one fact per operation, by its builder). -/
theorem p0a_sub : (p0a : List (HloOp τ sig (Elt F))).Forall fun op => op.bufs ⊆ tcRefs τ sig := by
  unfold p0a
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

/-- Operations 38 … 65 of the inlined program (window 0), ending with the one that writes main_v36. -/
def p0b : List (HloOp τ sig (Elt F)) :=
  [ nullary main_cst_2 (constant S_ .f32 0x00000000#32),
    binary main_v32 main_cst_2 main_v33 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_3 (constant S_ .f32 0x47435000#32),
    unary main_cst_3 main_v34 (broadcastInDim S64 ![] bcast_S_S64 : (⟨S_, .f32⟩ : BufTy).Contents (Elt F) → (⟨S64, .f32⟩ : BufTy).Contents (Elt F)),
    binary main_v33 main_v34 main_v35 (Host.divf : (⟨S64, .f32⟩ : BufTy).Contents (Elt F) → (⟨S64, .f32⟩ : BufTy).Contents (Elt F) → (⟨S64, .f32⟩ : BufTy).Contents (Elt F)),
    nullary main_c_4 (constantI S_ 32 0#32),
    TRef.nullary main_call0.cst (constant S_ .f32 0x00000000#32),
    TRef.binary (.of main_v32) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v32) main_call0.v4 main_call0.v5 subf,
    TRef.binary main_call0.v5 main_call0.v5 main_call0.v6 mulf,
    TRef.unary (.of main_c_4) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- The buffers the operations of p0b write, in order. -/
def p0b_w : List (Ref sig .tc) :=
  [main_cst_2, main_v33, main_cst_3, main_v34, main_v35, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v36]

/-- Every operation of p0b touches TensorCore buffers only (one fact per operation, by its builder). -/
theorem p0b_sub : (p0b : List (HloOp τ sig (Elt F))).Forall fun op => op.bufs ⊆ tcRefs τ sig := by
  unfold p0b
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Operations 66 … 81 of the inlined program (window 0), ending with the one that writes main_v51. -/
def p0c : List (HloOp τ sig (Elt F)) :=
  [ unary main_v35 main_v37 (broadcastInDim S1x64 ![1] bcast_S64_S1x64_1 : (⟨S64, .f32⟩ : BufTy).Contents (Elt F) → (⟨S1x64, .f32⟩ : BufTy).Contents (Elt F)),
    unary main_v37 main_v38 (broadcastInDim S50000x64 ![0, 1] bcast_S1x64_S50000x64_0_1 : (⟨S1x64, .f32⟩ : BufTy).Contents (Elt F) → (⟨S50000x64, .f32⟩ : BufTy).Contents (Elt F)),
    binary main_v32 main_v38 main_v39 (subf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3727C5AC#32),
    unary main_cst_5 main_v40 (broadcastInDim S64 ![] bcast_S_S64 : (⟨S_, .f32⟩ : BufTy).Contents (Elt F) → (⟨S64, .f32⟩ : BufTy).Contents (Elt F)),
    binary main_v36 main_v40 main_v41 (addf : (⟨S64, .f32⟩ : BufTy).Contents (Elt F) → (⟨S64, .f32⟩ : BufTy).Contents (Elt F) → (⟨S64, .f32⟩ : BufTy).Contents (Elt F)),
    unary main_v41 main_v42 (Host.rsqrt : (⟨S64, .f32⟩ : BufTy).Contents (Elt F) → (⟨S64, .f32⟩ : BufTy).Contents (Elt F)),
    unary main_v42 main_v43 (broadcastInDim S1x64 ![1] bcast_S64_S1x64_1 : (⟨S64, .f32⟩ : BufTy).Contents (Elt F) → (⟨S1x64, .f32⟩ : BufTy).Contents (Elt F)),
    unary main_v43 main_v44 (broadcastInDim S50000x64 ![0, 1] bcast_S1x64_S50000x64_0_1 : (⟨S1x64, .f32⟩ : BufTy).Contents (Elt F) → (⟨S50000x64, .f32⟩ : BufTy).Contents (Elt F)),
    binary main_v39 main_v44 main_v45 (mulf : (⟨S50000x64, .f32⟩ : BufTy).Contents (Elt F) → (⟨S50000x64, .f32⟩ : BufTy).Contents (Elt F) → (⟨S50000x64, .f32⟩ : BufTy).Contents (Elt F)),
    unary main_arg6 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x64 ![1] bcast_S64_S1x64_1 : (⟨S64, .f32⟩ : BufTy).Contents (Elt F) → (⟨S1x64, .f32⟩ : BufTy).Contents (Elt F)),
    unary main_v48 main_v49 (broadcastInDim S50000x64 ![0, 1] bcast_S1x64_S50000x64_0_1 : (⟨S1x64, .f32⟩ : BufTy).Contents (Elt F) → (⟨S50000x64, .f32⟩ : BufTy).Contents (Elt F)),
    binary main_v45 main_v49 main_v50 (mulf : (⟨S50000x64, .f32⟩ : BufTy).Contents (Elt F) → (⟨S50000x64, .f32⟩ : BufTy).Contents (Elt F) → (⟨S50000x64, .f32⟩ : BufTy).Contents (Elt F)),
    unary main_arg7 main_v51 ((extractStridedSlice S1x64 ![0, 0] · slices_S3x64_S1x64_0_0) : (⟨S3x64, .f32⟩ : BufTy).Contents (Elt F) → (⟨S1x64, .f32⟩ : BufTy).Contents (Elt F)) ]

/-- The buffers the operations of p0c write, in order. -/
def p0c_w : List (Ref sig .tc) :=
  [main_v37, main_v38, main_v39, main_cst_5, main_v40, main_v41, main_v42, main_v43, main_v44, main_v45, main_v46, main_v47, main_v48, main_v49, main_v50, main_v51]

/-- Every operation of p0c touches TensorCore buffers only (one fact per operation, by its builder). -/
theorem p0c_sub : (p0c : List (HloOp τ sig (Elt F))).Forall fun op => op.bufs ⊆ tcRefs τ sig := by
  unfold p0c
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub ..⟩

/-- Operations 82 … 121 of the inlined program (window 1), ending with the one that writes main_v86. -/
def p1a : List (HloOp τ sig (Elt F)) :=
  [ reshape main_v51 main_v52 rfl shapeCasts_S1x64_S64,
    unary main_v52 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v50 main_v54 main_v55 (addf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x00000000#32),
    unary main_cst_6 main_v56 (broadcastInDim S50000x64 ![] bcast_S_S50000x64 : (⟨S_, .f32⟩ : BufTy).Contents (Elt F) → (⟨S50000x64, .f32⟩ : BufTy).Contents (Elt F)),
    binary main_v55 main_v56 main_v57 (maximumf : (⟨S50000x64, .f32⟩ : BufTy).Contents (Elt F) → (⟨S50000x64, .f32⟩ : BufTy).Contents (Elt F) → (⟨S50000x64, .f32⟩ : BufTy).Contents (Elt F)),
    nullary main_c_7 (constantI S_ 32 0#32),
    unary main_c_7 main_v58 (broadcastInDim S800000 ![] bcast_S_S800000 : (⟨S_, .i32⟩ : BufTy).Contents (Elt F) → (⟨S800000, .i32⟩ : BufTy).Contents (Elt F)),
    binary main_v1 main_v58 main_v59 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v60 (broadcastInDim S800000 ![] bcast_S_S800000 : (⟨S_, .i32⟩ : BufTy).Contents (Elt F) → (⟨S800000, .i32⟩ : BufTy).Contents (Elt F)),
    binary main_v1 main_v60 main_v61 (addi : (⟨S800000, .i32⟩ : BufTy).Contents (Elt F) → (⟨S800000, .i32⟩ : BufTy).Contents (Elt F) → (⟨S800000, .i32⟩ : BufTy).Contents (Elt F)),
    ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v62 main_v63 (broadcastInDim S800000x1 ![0] bcast_S800000_S800000x1_0 : (⟨S800000, .i32⟩ : BufTy).Contents (Elt F) → (⟨S800000x1, .i32⟩ : BufTy).Contents (Elt F)),
    binary main_v57 main_v63 main_v64 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_9 (constant S_ .f32 0x00000000#32),
    unary main_cst_9 main_v65 (broadcastInDim S50000x64 ![] bcast_S_S50000x64 : (⟨S_, .f32⟩ : BufTy).Contents (Elt F) → (⟨S50000x64, .f32⟩ : BufTy).Contents (Elt F)),
    unary main_v3 main_v66 (broadcastInDim S800000x1 ![0] bcast_S800000_S800000x1_0 : (⟨S800000, .i32⟩ : BufTy).Contents (Elt F) → (⟨S800000x1, .i32⟩ : BufTy).Contents (Elt F)),
    ternary main_v65 main_v66 main_v64 main_v67 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v57 main_v67 main_v68 (addf : (⟨S50000x64, .f32⟩ : BufTy).Contents (Elt F) → (⟨S50000x64, .f32⟩ : BufTy).Contents (Elt F) → (⟨S50000x64, .f32⟩ : BufTy).Contents (Elt F)),
    unary main_arg2 main_v69 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v69 main_v70 rfl shapeCasts_S1x64x64_S64x64,
    binary main_v68 main_v70 main_v71 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v72 ((extractStridedSlice S1x64 ![1, 0] · slices_S3x64_S1x64_1_0) : (⟨S3x64, .f32⟩ : BufTy).Contents (Elt F) → (⟨S1x64, .f32⟩ : BufTy).Contents (Elt F)),
    reshape main_v72 main_v73 rfl shapeCasts_S1x64_S64,
    unary main_v73 main_v74 (broadcastInDim S1x64 ![1] bcast_S64_S1x64_1 : (⟨S64, .f32⟩ : BufTy).Contents (Elt F) → (⟨S1x64, .f32⟩ : BufTy).Contents (Elt F)),
    unary main_v74 main_v75 (broadcastInDim S50000x64 ![0, 1] bcast_S1x64_S50000x64_0_1 : (⟨S1x64, .f32⟩ : BufTy).Contents (Elt F) → (⟨S50000x64, .f32⟩ : BufTy).Contents (Elt F)),
    binary main_v71 main_v75 main_v76 (addf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x00000000#32),
    unary main_cst_10 main_v77 (broadcastInDim S50000x64 ![] bcast_S_S50000x64 : (⟨S_, .f32⟩ : BufTy).Contents (Elt F) → (⟨S50000x64, .f32⟩ : BufTy).Contents (Elt F)),
    binary main_v76 main_v77 main_v78 (maximumf : (⟨S50000x64, .f32⟩ : BufTy).Contents (Elt F) → (⟨S50000x64, .f32⟩ : BufTy).Contents (Elt F) → (⟨S50000x64, .f32⟩ : BufTy).Contents (Elt F)),
    unary main_arg4 main_v79 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v79 main_v80 rfl shapeCasts_S1x64x64_S64x64,
    binary main_v78 main_v80 main_v81 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v82 ((extractStridedSlice S1x64 ![1, 0] · slices_S3x64_S1x64_1_0) : (⟨S3x64, .f32⟩ : BufTy).Contents (Elt F) → (⟨S1x64, .f32⟩ : BufTy).Contents (Elt F)),
    reshape main_v82 main_v83 rfl shapeCasts_S1x64_S64,
    unary main_v83 main_v84 (broadcastInDim S1x64 ![1] bcast_S64_S1x64_1 : (⟨S64, .f32⟩ : BufTy).Contents (Elt F) → (⟨S1x64, .f32⟩ : BufTy).Contents (Elt F)),
    unary main_v84 main_v85 (broadcastInDim S50000x64 ![0, 1] bcast_S1x64_S50000x64_0_1 : (⟨S1x64, .f32⟩ : BufTy).Contents (Elt F) → (⟨S50000x64, .f32⟩ : BufTy).Contents (Elt F)),
    binary main_v81 main_v85 main_v86 (addf : (⟨S50000x64, .f32⟩ : BufTy).Contents (Elt F) → (⟨S50000x64, .f32⟩ : BufTy).Contents (Elt F) → (⟨S50000x64, .f32⟩ : BufTy).Contents (Elt F)) ]

/-- The buffers the operations of p1a write, in order. -/
def p1a_w : List (Ref sig .tc) :=
  [main_v52, main_v53, main_v54, main_v55, main_cst_6, main_v56, main_v57, main_c_7, main_v58, main_v59, main_c_8, main_v60, main_v61, main_v62, main_v63, main_v64, main_cst_9, main_v65, main_v66, main_v67, main_v68, main_v69, main_v70, main_v71, main_v72, main_v73, main_v74, main_v75, main_v76, main_cst_10, main_v77, main_v78, main_v79, main_v80, main_v81, main_v82, main_v83, main_v84, main_v85, main_v86]

/-- Every operation of p1a touches TensorCore buffers only (one fact per operation, by its builder). -/
theorem p1a_sub : (p1a : List (HloOp τ sig (Elt F))).Forall fun op => op.bufs ⊆ tcRefs τ sig := by
  unfold p1a
  exact ⟨reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

/-- Operations 122 … 149 of the inlined program (window 1), ending with the one that writes main_v90. -/
def p1b : List (HloOp τ sig (Elt F)) :=
  [ nullary main_cst_11 (constant S_ .f32 0x00000000#32),
    binary main_v86 main_cst_11 main_v87 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_12 (constant S_ .f32 0x47435000#32),
    unary main_cst_12 main_v88 (broadcastInDim S64 ![] bcast_S_S64 : (⟨S_, .f32⟩ : BufTy).Contents (Elt F) → (⟨S64, .f32⟩ : BufTy).Contents (Elt F)),
    binary main_v87 main_v88 main_v89 (Host.divf : (⟨S64, .f32⟩ : BufTy).Contents (Elt F) → (⟨S64, .f32⟩ : BufTy).Contents (Elt F) → (⟨S64, .f32⟩ : BufTy).Contents (Elt F)),
    nullary main_c_13 (constantI S_ 32 0#32),
    TRef.nullary main_call1.cst (constant S_ .f32 0x00000000#32),
    TRef.binary (.of main_v86) main_call1.cst main_call1.v0 (fun x v => Host.reduceAdd x v reducesTo_S50000x64_S64_d0 h_S_),
    TRef.unary main_call1.v0 main_call1.v1 (broadcastInDim S1x64 ![1] bcast_S64_S1x64_1),
    TRef.nullary main_call1.cst_0 (constant S_ .f32 0x47435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S50000x64 ![0, 1] bcast_S1x64_S50000x64_0_1),
    TRef.binary (.of main_v86) main_call1.v4 main_call1.v5 subf,
    TRef.binary main_call1.v5 main_call1.v5 main_call1.v6 mulf,
    TRef.unary (.of main_c_13) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- The buffers the operations of p1b write, in order. -/
def p1b_w : List (Ref sig .tc) :=
  [main_cst_11, main_v87, main_cst_12, main_v88, main_v89, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v90]

/-- Every operation of p1b touches TensorCore buffers only (one fact per operation, by its builder). -/
theorem p1b_sub : (p1b : List (HloOp τ sig (Elt F))).Forall fun op => op.bufs ⊆ tcRefs τ sig := by
  unfold p1b
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Operations 150 … 162 of the inlined program (window 1), ending with the one that writes main_v102. -/
def p1c : List (HloOp τ sig (Elt F)) :=
  [ unary main_v89 main_v91 (broadcastInDim S1x64 ![1] bcast_S64_S1x64_1 : (⟨S64, .f32⟩ : BufTy).Contents (Elt F) → (⟨S1x64, .f32⟩ : BufTy).Contents (Elt F)),
    unary main_v91 main_v92 (broadcastInDim S50000x64 ![0, 1] bcast_S1x64_S50000x64_0_1 : (⟨S1x64, .f32⟩ : BufTy).Contents (Elt F) → (⟨S50000x64, .f32⟩ : BufTy).Contents (Elt F)),
    binary main_v86 main_v92 main_v93 (subf : (⟨S50000x64, .f32⟩ : BufTy).Contents (Elt F) → (⟨S50000x64, .f32⟩ : BufTy).Contents (Elt F) → (⟨S50000x64, .f32⟩ : BufTy).Contents (Elt F)),
    nullary main_cst_14 (constant S_ .f32 0x3727C5AC#32),
    unary main_cst_14 main_v94 (broadcastInDim S64 ![] bcast_S_S64 : (⟨S_, .f32⟩ : BufTy).Contents (Elt F) → (⟨S64, .f32⟩ : BufTy).Contents (Elt F)),
    binary main_v90 main_v94 main_v95 (addf : (⟨S64, .f32⟩ : BufTy).Contents (Elt F) → (⟨S64, .f32⟩ : BufTy).Contents (Elt F) → (⟨S64, .f32⟩ : BufTy).Contents (Elt F)),
    unary main_v95 main_v96 (Host.rsqrt : (⟨S64, .f32⟩ : BufTy).Contents (Elt F) → (⟨S64, .f32⟩ : BufTy).Contents (Elt F)),
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S50000x64 ![0, 1] bcast_S1x64_S50000x64_0_1 : (⟨S1x64, .f32⟩ : BufTy).Contents (Elt F) → (⟨S50000x64, .f32⟩ : BufTy).Contents (Elt F)),
    binary main_v93 main_v98 main_v99 (mulf : (⟨S50000x64, .f32⟩ : BufTy).Contents (Elt F) → (⟨S50000x64, .f32⟩ : BufTy).Contents (Elt F) → (⟨S50000x64, .f32⟩ : BufTy).Contents (Elt F)),
    unary main_arg6 main_v100 ((extractStridedSlice S1x64 ![1, 0] · slices_S3x64_S1x64_1_0) : (⟨S3x64, .f32⟩ : BufTy).Contents (Elt F) → (⟨S1x64, .f32⟩ : BufTy).Contents (Elt F)),
    reshape main_v100 main_v101 rfl shapeCasts_S1x64_S64,
    unary main_v101 main_v102 (broadcastInDim S1x64 ![1] bcast_S64_S1x64_1 : (⟨S64, .f32⟩ : BufTy).Contents (Elt F) → (⟨S1x64, .f32⟩ : BufTy).Contents (Elt F)) ]

/-- The buffers the operations of p1c write, in order. -/
def p1c_w : List (Ref sig .tc) :=
  [main_v91, main_v92, main_v93, main_cst_14, main_v94, main_v95, main_v96, main_v97, main_v98, main_v99, main_v100, main_v101, main_v102]

/-- Every operation of p1c touches TensorCore buffers only (one fact per operation, by its builder). -/
theorem p1c_sub : (p1c : List (HloOp τ sig (Elt F))).Forall fun op => op.bufs ⊆ tcRefs τ sig := by
  unfold p1c
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub ..⟩

/-- Operations 163 … 205 of the inlined program (window 2), ending with the one that writes main_v140. -/
def p2a : List (HloOp τ sig (Elt F)) :=
  [ unary main_v102 main_v103 (broadcastInDim S50000x64 ![0, 1] bcast_S1x64_S50000x64_0_1 : (⟨S1x64, .f32⟩ : BufTy).Contents (Elt F) → (⟨S50000x64, .f32⟩ : BufTy).Contents (Elt F)),
    binary main_v99 main_v103 main_v104 (mulf : (⟨S50000x64, .f32⟩ : BufTy).Contents (Elt F) → (⟨S50000x64, .f32⟩ : BufTy).Contents (Elt F) → (⟨S50000x64, .f32⟩ : BufTy).Contents (Elt F)),
    unary main_arg7 main_v105 ((extractStridedSlice S1x64 ![1, 0] · slices_S3x64_S1x64_1_0) : (⟨S3x64, .f32⟩ : BufTy).Contents (Elt F) → (⟨S1x64, .f32⟩ : BufTy).Contents (Elt F)),
    reshape main_v105 main_v106 rfl shapeCasts_S1x64_S64,
    unary main_v106 main_v107 (broadcastInDim S1x64 ![1] bcast_S64_S1x64_1 : (⟨S64, .f32⟩ : BufTy).Contents (Elt F) → (⟨S1x64, .f32⟩ : BufTy).Contents (Elt F)),
    unary main_v107 main_v108 (broadcastInDim S50000x64 ![0, 1] bcast_S1x64_S50000x64_0_1 : (⟨S1x64, .f32⟩ : BufTy).Contents (Elt F) → (⟨S50000x64, .f32⟩ : BufTy).Contents (Elt F)),
    binary main_v104 main_v108 main_v109 (addf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x00000000#32),
    unary main_cst_15 main_v110 (broadcastInDim S50000x64 ![] bcast_S_S50000x64 : (⟨S_, .f32⟩ : BufTy).Contents (Elt F) → (⟨S50000x64, .f32⟩ : BufTy).Contents (Elt F)),
    binary main_v109 main_v110 main_v111 (maximumf : (⟨S50000x64, .f32⟩ : BufTy).Contents (Elt F) → (⟨S50000x64, .f32⟩ : BufTy).Contents (Elt F) → (⟨S50000x64, .f32⟩ : BufTy).Contents (Elt F)),
    nullary main_c_16 (constantI S_ 32 0#32),
    unary main_c_16 main_v112 (broadcastInDim S800000 ![] bcast_S_S800000 : (⟨S_, .i32⟩ : BufTy).Contents (Elt F) → (⟨S800000, .i32⟩ : BufTy).Contents (Elt F)),
    binary main_v1 main_v112 main_v113 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v114 (broadcastInDim S800000 ![] bcast_S_S800000 : (⟨S_, .i32⟩ : BufTy).Contents (Elt F) → (⟨S800000, .i32⟩ : BufTy).Contents (Elt F)),
    binary main_v1 main_v114 main_v115 (addi : (⟨S800000, .i32⟩ : BufTy).Contents (Elt F) → (⟨S800000, .i32⟩ : BufTy).Contents (Elt F) → (⟨S800000, .i32⟩ : BufTy).Contents (Elt F)),
    ternary main_v113 main_v115 main_v1 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v116 main_v117 (broadcastInDim S800000x1 ![0] bcast_S800000_S800000x1_0 : (⟨S800000, .i32⟩ : BufTy).Contents (Elt F) → (⟨S800000x1, .i32⟩ : BufTy).Contents (Elt F)),
    binary main_v111 main_v117 main_v118 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_18 (constant S_ .f32 0x00000000#32),
    unary main_cst_18 main_v119 (broadcastInDim S50000x64 ![] bcast_S_S50000x64 : (⟨S_, .f32⟩ : BufTy).Contents (Elt F) → (⟨S50000x64, .f32⟩ : BufTy).Contents (Elt F)),
    unary main_v3 main_v120 (broadcastInDim S800000x1 ![0] bcast_S800000_S800000x1_0 : (⟨S800000, .i32⟩ : BufTy).Contents (Elt F) → (⟨S800000x1, .i32⟩ : BufTy).Contents (Elt F)),
    ternary main_v119 main_v120 main_v118 main_v121 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v111 main_v121 main_v122 (addf : (⟨S50000x64, .f32⟩ : BufTy).Contents (Elt F) → (⟨S50000x64, .f32⟩ : BufTy).Contents (Elt F) → (⟨S50000x64, .f32⟩ : BufTy).Contents (Elt F)),
    unary main_arg2 main_v123 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v123 main_v124 rfl shapeCasts_S1x64x64_S64x64,
    binary main_v122 main_v124 main_v125 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v126 ((extractStridedSlice S1x64 ![2, 0] · slices_S3x64_S1x64_2_0) : (⟨S3x64, .f32⟩ : BufTy).Contents (Elt F) → (⟨S1x64, .f32⟩ : BufTy).Contents (Elt F)),
    reshape main_v126 main_v127 rfl shapeCasts_S1x64_S64,
    unary main_v127 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v125 main_v129 main_v130 (addf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x00000000#32),
    unary main_cst_19 main_v131 (broadcastInDim S50000x64 ![] bcast_S_S50000x64 : (⟨S_, .f32⟩ : BufTy).Contents (Elt F) → (⟨S50000x64, .f32⟩ : BufTy).Contents (Elt F)),
    binary main_v130 main_v131 main_v132 (maximumf : (⟨S50000x64, .f32⟩ : BufTy).Contents (Elt F) → (⟨S50000x64, .f32⟩ : BufTy).Contents (Elt F) → (⟨S50000x64, .f32⟩ : BufTy).Contents (Elt F)),
    unary main_arg4 main_v133 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v133 main_v134 rfl shapeCasts_S1x64x64_S64x64,
    binary main_v132 main_v134 main_v135 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v136 ((extractStridedSlice S1x64 ![2, 0] · slices_S3x64_S1x64_2_0) : (⟨S3x64, .f32⟩ : BufTy).Contents (Elt F) → (⟨S1x64, .f32⟩ : BufTy).Contents (Elt F)),
    reshape main_v136 main_v137 rfl shapeCasts_S1x64_S64,
    unary main_v137 main_v138 (broadcastInDim S1x64 ![1] bcast_S64_S1x64_1 : (⟨S64, .f32⟩ : BufTy).Contents (Elt F) → (⟨S1x64, .f32⟩ : BufTy).Contents (Elt F)),
    unary main_v138 main_v139 (broadcastInDim S50000x64 ![0, 1] bcast_S1x64_S50000x64_0_1 : (⟨S1x64, .f32⟩ : BufTy).Contents (Elt F) → (⟨S50000x64, .f32⟩ : BufTy).Contents (Elt F)),
    binary main_v135 main_v139 main_v140 (addf : (⟨S50000x64, .f32⟩ : BufTy).Contents (Elt F) → (⟨S50000x64, .f32⟩ : BufTy).Contents (Elt F) → (⟨S50000x64, .f32⟩ : BufTy).Contents (Elt F)) ]

/-- The buffers the operations of p2a write, in order. -/
def p2a_w : List (Ref sig .tc) :=
  [main_v103, main_v104, main_v105, main_v106, main_v107, main_v108, main_v109, main_cst_15, main_v110, main_v111, main_c_16, main_v112, main_v113, main_c_17, main_v114, main_v115, main_v116, main_v117, main_v118, main_cst_18, main_v119, main_v120, main_v121, main_v122, main_v123, main_v124, main_v125, main_v126, main_v127, main_v128, main_v129, main_v130, main_cst_19, main_v131, main_v132, main_v133, main_v134, main_v135, main_v136, main_v137, main_v138, main_v139, main_v140]

/-- Every operation of p2a touches TensorCore buffers only (one fact per operation, by its builder). -/
theorem p2a_sub : (p2a : List (HloOp τ sig (Elt F))).Forall fun op => op.bufs ⊆ tcRefs τ sig := by
  unfold p2a
  exact ⟨unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

/-- Operations 206 … 233 of the inlined program (window 2), ending with the one that writes main_v144. -/
def p2b : List (HloOp τ sig (Elt F)) :=
  [ nullary main_cst_20 (constant S_ .f32 0x00000000#32),
    binary main_v140 main_cst_20 main_v141 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_21 (constant S_ .f32 0x47435000#32),
    unary main_cst_21 main_v142 (broadcastInDim S64 ![] bcast_S_S64 : (⟨S_, .f32⟩ : BufTy).Contents (Elt F) → (⟨S64, .f32⟩ : BufTy).Contents (Elt F)),
    binary main_v141 main_v142 main_v143 (Host.divf : (⟨S64, .f32⟩ : BufTy).Contents (Elt F) → (⟨S64, .f32⟩ : BufTy).Contents (Elt F) → (⟨S64, .f32⟩ : BufTy).Contents (Elt F)),
    nullary main_c_22 (constantI S_ 32 0#32),
    TRef.nullary main_call2.cst (constant S_ .f32 0x00000000#32),
    TRef.binary (.of main_v140) main_call2.cst main_call2.v0 (fun x v => Host.reduceAdd x v reducesTo_S50000x64_S64_d0 h_S_),
    TRef.unary main_call2.v0 main_call2.v1 (broadcastInDim S1x64 ![1] bcast_S64_S1x64_1),
    TRef.nullary main_call2.cst_0 (constant S_ .f32 0x47435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S50000x64 ![0, 1] bcast_S1x64_S50000x64_0_1),
    TRef.binary (.of main_v140) main_call2.v4 main_call2.v5 subf,
    TRef.binary main_call2.v5 main_call2.v5 main_call2.v6 mulf,
    TRef.unary (.of main_c_22) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b) ]

/-- The buffers the operations of p2b write, in order. -/
def p2b_w : List (Ref sig .tc) :=
  [main_cst_20, main_v141, main_cst_21, main_v142, main_v143, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v144]

/-- Every operation of p2b touches TensorCore buffers only (one fact per operation, by its builder). -/
theorem p2b_sub : (p2b : List (HloOp τ sig (Elt F))).Forall fun op => op.bufs ⊆ tcRefs τ sig := by
  unfold p2b
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Operations 234 … 243 of the inlined program (window 2), ending with the one that writes main_v153. -/
def p2c : List (HloOp τ sig (Elt F)) :=
  [ unary main_v143 main_v145 (broadcastInDim S1x64 ![1] bcast_S64_S1x64_1 : (⟨S64, .f32⟩ : BufTy).Contents (Elt F) → (⟨S1x64, .f32⟩ : BufTy).Contents (Elt F)),
    unary main_v145 main_v146 (broadcastInDim S50000x64 ![0, 1] bcast_S1x64_S50000x64_0_1 : (⟨S1x64, .f32⟩ : BufTy).Contents (Elt F) → (⟨S50000x64, .f32⟩ : BufTy).Contents (Elt F)),
    binary main_v140 main_v146 main_v147 (subf : (⟨S50000x64, .f32⟩ : BufTy).Contents (Elt F) → (⟨S50000x64, .f32⟩ : BufTy).Contents (Elt F) → (⟨S50000x64, .f32⟩ : BufTy).Contents (Elt F)),
    nullary main_cst_23 (constant S_ .f32 0x3727C5AC#32),
    unary main_cst_23 main_v148 (broadcastInDim S64 ![] bcast_S_S64 : (⟨S_, .f32⟩ : BufTy).Contents (Elt F) → (⟨S64, .f32⟩ : BufTy).Contents (Elt F)),
    binary main_v144 main_v148 main_v149 (addf : (⟨S64, .f32⟩ : BufTy).Contents (Elt F) → (⟨S64, .f32⟩ : BufTy).Contents (Elt F) → (⟨S64, .f32⟩ : BufTy).Contents (Elt F)),
    unary main_v149 main_v150 (Host.rsqrt : (⟨S64, .f32⟩ : BufTy).Contents (Elt F) → (⟨S64, .f32⟩ : BufTy).Contents (Elt F)),
    unary main_v150 main_v151 (broadcastInDim S1x64 ![1] bcast_S64_S1x64_1 : (⟨S64, .f32⟩ : BufTy).Contents (Elt F) → (⟨S1x64, .f32⟩ : BufTy).Contents (Elt F)),
    unary main_v151 main_v152 (broadcastInDim S50000x64 ![0, 1] bcast_S1x64_S50000x64_0_1 : (⟨S1x64, .f32⟩ : BufTy).Contents (Elt F) → (⟨S50000x64, .f32⟩ : BufTy).Contents (Elt F)),
    binary main_v147 main_v152 main_v153 (mulf : (⟨S50000x64, .f32⟩ : BufTy).Contents (Elt F) → (⟨S50000x64, .f32⟩ : BufTy).Contents (Elt F) → (⟨S50000x64, .f32⟩ : BufTy).Contents (Elt F)) ]

/-- The buffers the operations of p2c write, in order. -/
def p2c_w : List (Ref sig .tc) :=
  [main_v145, main_v146, main_v147, main_cst_23, main_v148, main_v149, main_v150, main_v151, main_v152, main_v153]

/-- Every operation of p2c touches TensorCore buffers only (one fact per operation, by its builder). -/
theorem p2c_sub : (p2c : List (HloOp τ sig (Elt F))).Forall fun op => op.bufs ⊆ tcRefs τ sig := by
  unfold p2c
  exact ⟨unary_bufs_sub .., unary_bufs_sub .., binary_bufs_sub .., nullary_bufs_sub .., unary_bufs_sub .., binary_bufs_sub .., unary_bufs_sub .., unary_bufs_sub .., unary_bufs_sub .., binary_bufs_sub ..⟩

/-- Operations 244 … 253 of the inlined program (window 3), ending with the one that writes main_v163. -/
def p3 : List (HloOp τ sig (Elt F)) :=
  [ unary main_arg6 main_v154 ((extractStridedSlice S1x64 ![2, 0] · slices_S3x64_S1x64_2_0) : (⟨S3x64, .f32⟩ : BufTy).Contents (Elt F) → (⟨S1x64, .f32⟩ : BufTy).Contents (Elt F)),
    reshape main_v154 main_v155 rfl shapeCasts_S1x64_S64,
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S50000x64 ![0, 1] bcast_S1x64_S50000x64_0_1 : (⟨S1x64, .f32⟩ : BufTy).Contents (Elt F) → (⟨S50000x64, .f32⟩ : BufTy).Contents (Elt F)),
    binary main_v153 main_v157 main_v158 (mulf : (⟨S50000x64, .f32⟩ : BufTy).Contents (Elt F) → (⟨S50000x64, .f32⟩ : BufTy).Contents (Elt F) → (⟨S50000x64, .f32⟩ : BufTy).Contents (Elt F)),
    unary main_arg7 main_v159 ((extractStridedSlice S1x64 ![2, 0] · slices_S3x64_S1x64_2_0) : (⟨S3x64, .f32⟩ : BufTy).Contents (Elt F) → (⟨S1x64, .f32⟩ : BufTy).Contents (Elt F)),
    reshape main_v159 main_v160 rfl shapeCasts_S1x64_S64,
    unary main_v160 main_v161 (broadcastInDim S1x64 ![1] bcast_S64_S1x64_1 : (⟨S64, .f32⟩ : BufTy).Contents (Elt F) → (⟨S1x64, .f32⟩ : BufTy).Contents (Elt F)),
    unary main_v161 main_v162 (broadcastInDim S50000x64 ![0, 1] bcast_S1x64_S50000x64_0_1 : (⟨S1x64, .f32⟩ : BufTy).Contents (Elt F) → (⟨S50000x64, .f32⟩ : BufTy).Contents (Elt F)),
    binary main_v158 main_v162 main_v163 (addf : (⟨S50000x64, .f32⟩ : BufTy).Contents (Elt F) → (⟨S50000x64, .f32⟩ : BufTy).Contents (Elt F) → (⟨S50000x64, .f32⟩ : BufTy).Contents (Elt F)) ]

/-- The buffers the operations of p3 write, in order. -/
def p3_w : List (Ref sig .tc) :=
  [main_v154, main_v155, main_v156, main_v157, main_v158, main_v159, main_v160, main_v161, main_v162, main_v163]

/-- Every operation of p3 touches TensorCore buffers only (one fact per operation, by its builder). -/
theorem p3_sub : (p3 : List (HloOp τ sig (Elt F))).Forall fun op => op.bufs ⊆ tcRefs τ sig := by
  unfold p3
  exact ⟨unary_bufs_sub .., reshape_bufs_sub .., unary_bufs_sub .., unary_bufs_sub .., binary_bufs_sub .., unary_bufs_sub .., reshape_bufs_sub .., unary_bufs_sub .., unary_bufs_sub .., binary_bufs_sub ..⟩

end Cert.ReferenceIdeal.Hand

end
-- ==== Proof.Ref.Terms.lean ====
/-
  The reference network's arithmetic as named pure functions of array contents, for any float values.

  A graph layer takes the node array H (50000 rows, 64 columns) and the two rows of the edge table; it adds to H the
  sum, over the edges that arrive at a node, of the rows of H at the edges' sources; passes the sum through two dense
  layers with a maximum-with-zero between them; and normalises every column of the result Z with that column's mean and
  variance over the 50000 rows, scales it by gamma and shifts it by beta. Three such layers follow one another, the
  first two closed by a maximum with zero. Each function below is one stretch of the program's operations, spelt with
  the program's own operations in the program's order, so that reading the program's buffers back is a comparison of
  identical terms.
-/
import proofs.«135128_j52475910423111_1_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Contents of an array of 32-bit floats of the given shape. -/
abbrev Fl (F : FTy → Type) (S : Shape) : Type := (⟨S, .f32⟩ : BufTy).Contents (Elt F)
/-- Contents of an array of 32-bit integers of the given shape. -/
abbrev In (F : FTy → Type) (S : Shape) : Type := (⟨S, .i32⟩ : BufTy).Contents (Elt F)

/-- The edges' source nodes: row 0 of the edge table, as a flat list. -/
def srcOf (E : In F S2x800000) : In F S800000 :=
  shapeCast _ (extractStridedSlice S1x800000 ![0, 0] E slices_S2x800000_S1x800000_0_0) shapeCasts_S1x800000_S800000

/-- The edges' destination nodes: row 1 of the edge table, as a flat list. -/
def dstOf (E : In F S2x800000) : In F S800000 :=
  shapeCast _ (extractStridedSlice S1x800000 ![1, 0] E slices_S2x800000_S1x800000_1_0) shapeCasts_S1x800000_S800000

/-- The all-zero node array. -/
def zerosR : Fl F S50000x64 :=
  broadcastInDim S50000x64 ![] bcast_S_S50000x64 (constant S_ .f32 0x00000000#32)

/-- The neighbourhood sum of H: the rows of H gathered at the edges' sources (a negative node number counted from
    the end), added into a zero array at the edges' destinations. One function of H and the two edge rows; nothing
    here looks inside the gather or the scatter. -/
def aggR (s d : In F S800000) (H : Fl F S50000x64) : Fl F S50000x64 :=
  Host.scatterAdd scatter_S50000x64_S800000x1_S800000x64_1_0_0_1 zerosR
    (broadcastInDim S800000x1 ![0] bcast_S800000_S800000x1_0 d)
    (Host.gather gather_S50000x64_S800000x1_S800000x64_1_0_n_n_0_1_164 H
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- A vector of 64 entries as a one-row array. -/
def rowR (v : Fl F S64) : Fl F S1x64 := broadcastInDim S1x64 ![1] bcast_S64_S1x64_1 v

/-- A one-row array repeated down the 50000 rows. -/
def downR (r : Fl F S1x64) : Fl F S50000x64 := broadcastInDim S50000x64 ![0, 1] bcast_S1x64_S50000x64_0_1 r

/-- One layer's slice [1,64] of a [3,64] parameter, as a vector of 64 entries. -/
def vecR (b : Fl F S1x64) : Fl F S64 := shapeCast _ b shapeCasts_S1x64_S64

/-- One layer's slice [1,64,64] of a [3,64,64] parameter, as a 64 by 64 matrix. -/
def matR (w : Fl F S1x64x64) : Fl F S64x64 := shapeCast _ w shapeCasts_S1x64x64_S64x64

/-- The node array times a 64 by 64 matrix. -/
def mmR (X : Fl F S50000x64) (W : Fl F S64x64) : Fl F S50000x64 :=
  Host.dotGeneral dot_S50000x64_S64x64_S50000x64_1_0_0_1_n_n none X W

/-- The entrywise maximum with zero. -/
def reluR (X : Fl F S50000x64) : Fl F S50000x64 := maximumf X zerosR

/-- A layer before its normalisation: (max ((H + A) W1 + b1) 0) W2 + b2, the parameters given as the layer's slices. -/
def preR (H A : Fl F S50000x64) (w1 : Fl F S1x64x64) (c1 : Fl F S1x64) (w2 : Fl F S1x64x64) (c2 : Fl F S1x64) :
    Fl F S50000x64 :=
  addf (mmR (reluR (addf (mmR (addf H A) (matR w1)) (downR (rowR (vecR c1))))) (matR w2)) (downR (rowR (vecR c2)))

/-- The column sums over the 50000 rows. -/
def sumR (Z : Fl F S50000x64) : Fl F S64 :=
  Host.reduceAdd Z (constant S_ .f32 0x00000000#32) reducesTo_S50000x64_S64_d0 h_S_

/-- The column means: the column sums over 50000 (the word 0x47435000). -/
def meanR (Z : Fl F S50000x64) : Fl F S64 :=
  Host.divf (sumR Z) (broadcastInDim S64 ![] bcast_S_S64 (constant S_ .f32 0x47435000#32))

/-- The number the variance divides by: 50000 less the integer 0 converted to a float. -/
def countR : Fl F S_ := subf (constant S_ .f32 0x47435000#32) (sitofp .f32 (constantI S_ 32 0#32))

/-- Z less its column means, the means computed as a one-row array first (as the variance function computes them). -/
def centredR (Z : Fl F S50000x64) : Fl F S50000x64 :=
  subf Z (downR (Host.divf (rowR (sumR Z)) (broadcastInDim S1x64 ![] bcast_S_S1x64 (constant S_ .f32 0x47435000#32))))

/-- The column variances as the variance function computes them: the column sums of the squared centred entries over
    the count, where the count is positive, and the word 0x7FC00000 elsewhere. -/
def varR (Z : Fl F S50000x64) : Fl F S64 :=
  select (broadcastInDim S64 ![] bcast_S_S64 (cmpf .ogt (countR : Fl F S_) (constant S_ .f32 0x00000000#32 : Fl F S_)))
    (Host.divf (sumR (mulf (centredR Z) (centredR Z))) (broadcastInDim S64 ![] bcast_S_S64 (countR : Fl F S_)))
    (broadcastInDim S64 ![] bcast_S_S64 (id (constant S_ .f32 0x7FC00000#32)))

/-- (Z − mean) · rsqrt (var + eps), column by column; eps is the word 0x3727C5AC. -/
def scaleR (Z : Fl F S50000x64) (mu var : Fl F S64) : Fl F S50000x64 :=
  mulf (subf Z (downR (rowR mu)))
    (downR (rowR (Host.rsqrt (addf var (broadcastInDim S64 ![] bcast_S_S64 (constant S_ .f32 0x3727C5AC#32))))))

/-- A layer's output before any closing maximum: the normalised Z times gamma plus beta (the layer's slices). -/
def layerR (H A : Fl F S50000x64) (w1 : Fl F S1x64x64) (c1 : Fl F S1x64) (w2 : Fl F S1x64x64) (c2 g b : Fl F S1x64) :
    Fl F S50000x64 :=
  addf (mulf (scaleR (preR H A w1 c1 w2 c2) (meanR (preR H A w1 c1 w2 c2)) (varR (preR H A w1 c1 w2 c2)))
      (downR (rowR (vecR g))))
    (downR (rowR (vecR b)))

/-- Layer k's slice of a [3,64,64] parameter and of a [3,64] parameter, k = 0, 1, 2. -/
def w0R (a : Fl F S3x64x64) : Fl F S1x64x64 := extractStridedSlice S1x64x64 ![0, 0, 0] a slices_S3x64x64_S1x64x64_0_0_0
def w1R (a : Fl F S3x64x64) : Fl F S1x64x64 := extractStridedSlice S1x64x64 ![1, 0, 0] a slices_S3x64x64_S1x64x64_1_0_0
def w2R (a : Fl F S3x64x64) : Fl F S1x64x64 := extractStridedSlice S1x64x64 ![2, 0, 0] a slices_S3x64x64_S1x64x64_2_0_0
def b0R (a : Fl F S3x64) : Fl F S1x64 := extractStridedSlice S1x64 ![0, 0] a slices_S3x64_S1x64_0_0
def b1R (a : Fl F S3x64) : Fl F S1x64 := extractStridedSlice S1x64 ![1, 0] a slices_S3x64_S1x64_1_0
def b2R (a : Fl F S3x64) : Fl F S1x64 := extractStridedSlice S1x64 ![2, 0] a slices_S3x64_S1x64_2_0

/-- The node array after the first layer and its closing maximum. -/
def h1R (a0 : Fl F S50000x64) (a1 : In F S2x800000) (a2 : Fl F S3x64x64) (a3 : Fl F S3x64) (a4 : Fl F S3x64x64)
    (a5 a6 a7 : Fl F S3x64) : Fl F S50000x64 :=
  reluR (layerR a0 (aggR (srcOf a1) (dstOf a1) a0) (w0R a2) (b0R a3) (w0R a4) (b0R a5) (b0R a6) (b0R a7))

/-- The node array after the second layer and its closing maximum. -/
def h2R (a0 : Fl F S50000x64) (a1 : In F S2x800000) (a2 : Fl F S3x64x64) (a3 : Fl F S3x64) (a4 : Fl F S3x64x64)
    (a5 a6 a7 : Fl F S3x64) : Fl F S50000x64 :=
  reluR (layerR (h1R a0 a1 a2 a3 a4 a5 a6 a7) (aggR (srcOf a1) (dstOf a1) (h1R a0 a1 a2 a3 a4 a5 a6 a7))
    (w1R a2) (b1R a3) (w1R a4) (b1R a5) (b1R a6) (b1R a7))

/-- The program's result: the third layer, with no closing maximum. -/
def outR (a0 : Fl F S50000x64) (a1 : In F S2x800000) (a2 : Fl F S3x64x64) (a3 : Fl F S3x64) (a4 : Fl F S3x64x64)
    (a5 a6 a7 : Fl F S3x64) : Fl F S50000x64 :=
  layerR (h2R a0 a1 a2 a3 a4 a5 a6 a7) (aggR (srcOf a1) (dstOf a1) (h2R a0 a1 a2 a3 a4 a5 a6 a7))
    (w2R a2) (b2R a3) (w2R a4) (b2R a5) (b2R a6) (b2R a7)

end Cert.ReferenceIdeal.Hand

end
-- ==== Proof.LibHostCut.lean ====
/-
  Cutting a straight line of host operations, and comparing two lines without ever comparing two large terms that differ.

  The contents of the buffers after a line of operations are a fold over the line, so a line run as its first n
  operations and then the rest is the line run whole (`after_append`, `after_split`).  Cutting two programs' lines at
  the same joints — after a value that later operations read several times, or right after a concatenation, whose pieces
  a rewriting pass does not enter — lets each stretch be read from a state in which that value is ONE buffer, so no
  stretch's term repeats it.

  To show a = b for two long terms that are equal only after some rewriting, it is enough to show that a is whatever b is:
  for every y, b = y → a = y (`via_right`).  While the two sides are being brought to one spelling each of them stands
  in an equation with the variable y only, never with the other, and they are matched once, at the end, when they are
  the same term.  (An equation between two large terms that still differ invites a check of their definitional equality,
  and refuting that can mean unfolding a fold over every element of a full-size array.)
-/
import Idealize.ShloMosaic.Lib.StableHlo.Run

namespace Cert.LibHostCut

open Idealize.ShloMosaic Idealize.ShloMosaic.StableHlo

/-- To prove a = b it is enough to show that a is whatever b is: b then only ever meets a variable. -/
theorem via_right {α : Sort _} {a b : α} (h : ∀ y, b = y → a = y) : a = b := h b rfl

/-- Two lines of host operations run one after the other are their concatenation run as one. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => rw [List.cons_append, after_cons, after_cons, ih]

/-- A line run as its first n operations and then the rest. -/
theorem after_split {τ : Topo} {sig : RefSig} {Val : EltTy → Type} (n : ℕ) (l : List (HloOp τ sig Val))
    (V : Valuation τ sig Val) : after l V = after (List.drop n l) (after (List.take n l) V) := by
  rw [← after_append, List.take_append_drop]

end Cert.LibHostCut
-- ==== Proof.Ref.Run.lean ====
/-
  The reference program's run, read back.

  @main is a straight line of 253 host operations once the three calls of the variance function (each ending in a
  call of the selecting function) are unfolded at their call sites. The line is cut into ten pieces: per layer the
  stretch that ends with the layer's pre-normalisation array Z, the stretch that computes Z's column means and
  variances, and the stretch that normalises; the cuts also fall on the ends of the four windows in which the program
  is printed. Each piece is read from ARBITRARY contents W: the few buffers a later piece reads are stated as the
  named stretch functions of the reference's arithmetic applied to W at the buffers the piece reads, and every buffer the piece does not write
  is unchanged. Composing the ten readings gives the result buffer as `outR` of the eight arguments and each argument
  unchanged; the library's theorem on straight lines turns that into the statement about every weakly fair execution.
-/
import proofs.«135128_j52475910423111_1_alg».proof.Defs
import proofs.«135128_j52475910423111_1_alg».proof.Proof.Gen.Pre_finite_inputs
import proofs.«135128_j52475910423111_1_alg».proof.Proof.Ref.Ops
import proofs.«135128_j52475910423111_1_alg».proof.Proof.Ref.Terms
import proofs.«135128_j52475910423111_1_alg».proof.Proof.LibHostCut

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Contents `W` at the TensorCore buffer `b`. -/
local macro:max W:term:max "⟦" b:term "⟧" : term => `($W (Proc.devRef .tc $b))

/-! ## @main is the straight line -/

/-- The whole line: the four printed windows in order, each the pieces it holds. -/
def ops : List (HloOp τ sig (Elt F)) :=
  (p0a ++ p0b ++ p0c) ++ ((p1a ++ p1b ++ p1c) ++ ((p2a ++ p2b ++ p2c) ++ p3))

set_option maxRecDepth 8192 in
set_option maxHeartbeats 1000000 in
/-- The first window: the two functions' definitions unfolded at the call, the sequencing re-associated, both sides
    are one chain of host steps. -/
theorem part0_eq (c : Dev nD) : main_part0 (F := F) c = seq (p0a ++ p0b ++ p0c) := by
  simp only [main_part0, fn_var.body, fn_where.body, p0a, p0b, p0c, List.cons_append, List.nil_append, seq, bind_assoc,
    pure_bind]
  rfl

set_option maxRecDepth 8192 in
set_option maxHeartbeats 1000000 in
theorem part1_eq (c : Dev nD) : main_part1 (F := F) c = seq (p1a ++ p1b ++ p1c) := by
  simp only [main_part1, fn_var.body, fn_where.body, p1a, p1b, p1c, List.cons_append, List.nil_append, seq, bind_assoc,
    pure_bind]
  rfl

set_option maxRecDepth 8192 in
set_option maxHeartbeats 1000000 in
theorem part2_eq (c : Dev nD) : main_part2 (F := F) c = seq (p2a ++ p2b ++ p2c) := by
  simp only [main_part2, fn_var.body, fn_where.body, p2a, p2b, p2c, List.cons_append, List.nil_append, seq, bind_assoc,
    pure_bind]
  rfl

set_option maxRecDepth 8192 in
theorem part3_eq (c : Dev nD) : main_part3 (F := F) c = seq p3 := by
  simp only [main_part3, p3, seq, bind_assoc, pure_bind]

/-- @main runs its four windows in order, and a line after a line is their concatenation. -/
theorem main_eq (c : Dev nD) : main (F := F) c = seq ops := by
  unfold ops
  rw [seq_append (p0a ++ p0b ++ p0c), seq_append (p1a ++ p1b ++ p1c), seq_append (p2a ++ p2b ++ p2c), ← part0_eq c,
    ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only: piece by piece. -/
theorem ops_sub : (ops : List (HloOp τ sig (Elt F))).Forall fun op => op.bufs ⊆ tcRefs τ sig := by
  unfold ops
  simp only [List.forall_append]
  exact ⟨⟨⟨p0a_sub, p0b_sub⟩, p0c_sub⟩, ⟨⟨p1a_sub, p1b_sub⟩, p1c_sub⟩, ⟨⟨p2a_sub, p2b_sub⟩, p2c_sub⟩, p3_sub⟩

/-- No operation of the line is an allocation without contents: piece by piece, by inspection of each literal. -/
theorem p0a_fresh : ∀ op ∈ (p0a : List (HloOp τ sig (Elt F))), op.fresh = ∅ := by
  unfold p0a; intro _ h; (repeat (cases h with | head => rfl | tail _ h => ?_)); exact nomatch h
theorem p0b_fresh : ∀ op ∈ (p0b : List (HloOp τ sig (Elt F))), op.fresh = ∅ := by
  unfold p0b; intro _ h; (repeat (cases h with | head => rfl | tail _ h => ?_)); exact nomatch h
theorem p0c_fresh : ∀ op ∈ (p0c : List (HloOp τ sig (Elt F))), op.fresh = ∅ := by
  unfold p0c; intro _ h; (repeat (cases h with | head => rfl | tail _ h => ?_)); exact nomatch h
theorem p1a_fresh : ∀ op ∈ (p1a : List (HloOp τ sig (Elt F))), op.fresh = ∅ := by
  unfold p1a; intro _ h; (repeat (cases h with | head => rfl | tail _ h => ?_)); exact nomatch h
theorem p1b_fresh : ∀ op ∈ (p1b : List (HloOp τ sig (Elt F))), op.fresh = ∅ := by
  unfold p1b; intro _ h; (repeat (cases h with | head => rfl | tail _ h => ?_)); exact nomatch h
theorem p1c_fresh : ∀ op ∈ (p1c : List (HloOp τ sig (Elt F))), op.fresh = ∅ := by
  unfold p1c; intro _ h; (repeat (cases h with | head => rfl | tail _ h => ?_)); exact nomatch h
theorem p2a_fresh : ∀ op ∈ (p2a : List (HloOp τ sig (Elt F))), op.fresh = ∅ := by
  unfold p2a; intro _ h; (repeat (cases h with | head => rfl | tail _ h => ?_)); exact nomatch h
theorem p2b_fresh : ∀ op ∈ (p2b : List (HloOp τ sig (Elt F))), op.fresh = ∅ := by
  unfold p2b; intro _ h; (repeat (cases h with | head => rfl | tail _ h => ?_)); exact nomatch h
theorem p2c_fresh : ∀ op ∈ (p2c : List (HloOp τ sig (Elt F))), op.fresh = ∅ := by
  unfold p2c; intro _ h; (repeat (cases h with | head => rfl | tail _ h => ?_)); exact nomatch h
theorem p3_fresh : ∀ op ∈ (p3 : List (HloOp τ sig (Elt F))), op.fresh = ∅ := by
  unfold p3; intro _ h; (repeat (cases h with | head => rfl | tail _ h => ?_)); exact nomatch h

theorem ops_fresh : ∀ op ∈ (ops : List (HloOp τ sig (Elt F))), op.fresh = ∅ := by
  intro op h
  unfold ops at h
  simp only [List.mem_append] at h
  rcases h with ((h | h) | h) | ((h | h) | h) | ((h | h) | h) | h
  · exact p0a_fresh op h
  · exact p0b_fresh op h
  · exact p0c_fresh op h
  · exact p1a_fresh op h
  · exact p1b_fresh op h
  · exact p1c_fresh op h
  · exact p2a_fresh op h
  · exact p2b_fresh op h
  · exact p2c_fresh op h
  · exact p3_fresh op h

/-! ## What each piece leaves alone

Each operation writes its one result buffer, and the piece's table lists them; a buffer outside the table holds
after the piece what it held before. -/

/-- One operation's written buffer is in the piece's table (after the builders' `writes` are unfolded). -/
macro "in_table" : tactic =>
  `(tactic| (simp only [List.Forall, nullary_writes, unary_writes, binary_writes, ternary_writes, reshape_writes,
      Finset.singleton_subset_iff, List.mem_toFinset]; (repeat' apply And.intro); all_goals exact List.mem_map_of_mem (by decide)))

set_option maxRecDepth 8192 in
theorem p0a_writes : (p0a : List (HloOp τ sig (Elt F))).Forall fun op =>
    op.writes ⊆ (p0a_w.map (Proc.devRef (τ := τ) .tc)).toFinset := by unfold p0a p0a_w; in_table
set_option maxRecDepth 8192 in
theorem p0b_writes : (p0b : List (HloOp τ sig (Elt F))).Forall fun op =>
    op.writes ⊆ (p0b_w.map (Proc.devRef (τ := τ) .tc)).toFinset := by unfold p0b p0b_w; in_table
set_option maxRecDepth 8192 in
theorem p0c_writes : (p0c : List (HloOp τ sig (Elt F))).Forall fun op =>
    op.writes ⊆ (p0c_w.map (Proc.devRef (τ := τ) .tc)).toFinset := by unfold p0c p0c_w; in_table
set_option maxRecDepth 8192 in
theorem p1a_writes : (p1a : List (HloOp τ sig (Elt F))).Forall fun op =>
    op.writes ⊆ (p1a_w.map (Proc.devRef (τ := τ) .tc)).toFinset := by unfold p1a p1a_w; in_table
set_option maxRecDepth 8192 in
theorem p1b_writes : (p1b : List (HloOp τ sig (Elt F))).Forall fun op =>
    op.writes ⊆ (p1b_w.map (Proc.devRef (τ := τ) .tc)).toFinset := by unfold p1b p1b_w; in_table
set_option maxRecDepth 8192 in
theorem p1c_writes : (p1c : List (HloOp τ sig (Elt F))).Forall fun op =>
    op.writes ⊆ (p1c_w.map (Proc.devRef (τ := τ) .tc)).toFinset := by unfold p1c p1c_w; in_table
set_option maxRecDepth 8192 in
theorem p2a_writes : (p2a : List (HloOp τ sig (Elt F))).Forall fun op =>
    op.writes ⊆ (p2a_w.map (Proc.devRef (τ := τ) .tc)).toFinset := by unfold p2a p2a_w; in_table
set_option maxRecDepth 8192 in
theorem p2b_writes : (p2b : List (HloOp τ sig (Elt F))).Forall fun op =>
    op.writes ⊆ (p2b_w.map (Proc.devRef (τ := τ) .tc)).toFinset := by unfold p2b p2b_w; in_table
set_option maxRecDepth 8192 in
theorem p2c_writes : (p2c : List (HloOp τ sig (Elt F))).Forall fun op =>
    op.writes ⊆ (p2c_w.map (Proc.devRef (τ := τ) .tc)).toFinset := by unfold p2c p2c_w; in_table
set_option maxRecDepth 8192 in
theorem p3_writes : (p3 : List (HloOp τ sig (Elt F))).Forall fun op =>
    op.writes ⊆ (p3_w.map (Proc.devRef (τ := τ) .tc)).toFinset := by unfold p3 p3_w; in_table

variable (W : Valuation τ sig (Elt F))

theorem p0a_keep {r : Ref sig .tc} (h : r ∉ p0a_w) : after p0a W (no_index (Proc.devRef .tc r)) = W⟦r⟧ :=
  after_of_writes_sub p0a W p0a_writes h
theorem p0b_keep {r : Ref sig .tc} (h : r ∉ p0b_w) : after p0b W (no_index (Proc.devRef .tc r)) = W⟦r⟧ :=
  after_of_writes_sub p0b W p0b_writes h
theorem p0c_keep {r : Ref sig .tc} (h : r ∉ p0c_w) : after p0c W (no_index (Proc.devRef .tc r)) = W⟦r⟧ :=
  after_of_writes_sub p0c W p0c_writes h
theorem p1a_keep {r : Ref sig .tc} (h : r ∉ p1a_w) : after p1a W (no_index (Proc.devRef .tc r)) = W⟦r⟧ :=
  after_of_writes_sub p1a W p1a_writes h
theorem p1b_keep {r : Ref sig .tc} (h : r ∉ p1b_w) : after p1b W (no_index (Proc.devRef .tc r)) = W⟦r⟧ :=
  after_of_writes_sub p1b W p1b_writes h
theorem p1c_keep {r : Ref sig .tc} (h : r ∉ p1c_w) : after p1c W (no_index (Proc.devRef .tc r)) = W⟦r⟧ :=
  after_of_writes_sub p1c W p1c_writes h
theorem p2a_keep {r : Ref sig .tc} (h : r ∉ p2a_w) : after p2a W (no_index (Proc.devRef .tc r)) = W⟦r⟧ :=
  after_of_writes_sub p2a W p2a_writes h
theorem p2b_keep {r : Ref sig .tc} (h : r ∉ p2b_w) : after p2b W (no_index (Proc.devRef .tc r)) = W⟦r⟧ :=
  after_of_writes_sub p2b W p2b_writes h
theorem p2c_keep {r : Ref sig .tc} (h : r ∉ p2c_w) : after p2c W (no_index (Proc.devRef .tc r)) = W⟦r⟧ :=
  after_of_writes_sub p2c W p2c_writes h
theorem p3_keep {r : Ref sig .tc} (h : r ∉ p3_w) : after p3 W (no_index (Proc.devRef .tc r)) = W⟦r⟧ :=
  after_of_writes_sub p3 W p3_writes h

/-! ## What each piece computes, from arbitrary contents

Each statement is the piece's operations composed, which is the named function's own definition: the result lemmas
rewrite the fold operation by operation, and what is left is an equation between identical terms. -/

set_option maxRecDepth 8192 in
set_option maxHeartbeats 2000000 in
/-- The first layer's pre-normalisation array. -/
theorem p0a_v32 : after p0a W (no_index (Proc.devRef .tc main_v32))
    = preR W⟦main_arg0⟧ (aggR (srcOf W⟦main_arg1⟧) (dstOf W⟦main_arg1⟧) W⟦main_arg0⟧)
        (w0R W⟦main_arg2⟧) (b0R W⟦main_arg3⟧) (w0R W⟦main_arg4⟧) (b0R W⟦main_arg5⟧) := by
  unfold p0a
  after_results_simp
  rfl

set_option maxRecDepth 8192 in
set_option maxHeartbeats 2000000 in
/-- The edges' sources, kept in their buffer for the later layers. -/
theorem p0a_v1 : after p0a W (no_index (Proc.devRef .tc main_v1)) = srcOf W⟦main_arg1⟧ := by
  unfold p0a
  after_results_simp
  rfl

set_option maxRecDepth 8192 in
set_option maxHeartbeats 2000000 in
/-- The edges' destinations, likewise. -/
theorem p0a_v3 : after p0a W (no_index (Proc.devRef .tc main_v3)) = dstOf W⟦main_arg1⟧ := by
  unfold p0a
  after_results_simp
  rfl

set_option maxRecDepth 8192 in
set_option maxHeartbeats 2000000 in
theorem p0b_v35 : after p0b W (no_index (Proc.devRef .tc main_v35)) = meanR W⟦main_v32⟧ := by
  unfold p0b
  after_results_simp
  rfl

set_option maxRecDepth 8192 in
set_option maxHeartbeats 2000000 in
/-- The variance function's call, and inside it the selecting function's: their operations over the call's buffers. -/
theorem p0b_v36 : after p0b W (no_index (Proc.devRef .tc main_v36)) = varR W⟦main_v32⟧ := by
  unfold p0b
  after_results_simp
  rfl

set_option maxRecDepth 8192 in
set_option maxHeartbeats 2000000 in
/-- The first layer normalised and scaled by gamma; the window ends before beta is added. -/
theorem p0c_v50 : after p0c W (no_index (Proc.devRef .tc main_v50))
    = mulf (scaleR W⟦main_v32⟧ W⟦main_v35⟧ W⟦main_v36⟧) (downR (rowR (vecR (b0R W⟦main_arg6⟧)))) := by
  unfold p0c
  after_results_simp
  rfl

set_option maxRecDepth 8192 in
set_option maxHeartbeats 2000000 in
theorem p0c_v51 : after p0c W (no_index (Proc.devRef .tc main_v51)) = b0R W⟦main_arg7⟧ := by
  unfold p0c
  after_results_simp
  rfl

set_option maxRecDepth 8192 in
set_option maxHeartbeats 2000000 in
/-- Beta added and the closing maximum taken give the second layer's input; then its pre-normalisation array, the
    neighbourhood sum taken over the edge rows computed by the first piece. -/
theorem p1a_v86 : after p1a W (no_index (Proc.devRef .tc main_v86))
    = preR (reluR (addf W⟦main_v50⟧ (downR (rowR (vecR W⟦main_v51⟧)))))
        (aggR W⟦main_v1⟧ W⟦main_v3⟧ (reluR (addf W⟦main_v50⟧ (downR (rowR (vecR W⟦main_v51⟧))))))
        (w1R W⟦main_arg2⟧) (b1R W⟦main_arg3⟧) (w1R W⟦main_arg4⟧) (b1R W⟦main_arg5⟧) := by
  unfold p1a
  after_results_simp
  rfl

set_option maxRecDepth 8192 in
set_option maxHeartbeats 2000000 in
theorem p1b_v89 : after p1b W (no_index (Proc.devRef .tc main_v89)) = meanR W⟦main_v86⟧ := by
  unfold p1b
  after_results_simp
  rfl

set_option maxRecDepth 8192 in
set_option maxHeartbeats 2000000 in
theorem p1b_v90 : after p1b W (no_index (Proc.devRef .tc main_v90)) = varR W⟦main_v86⟧ := by
  unfold p1b
  after_results_simp
  rfl

set_option maxRecDepth 8192 in
set_option maxHeartbeats 2000000 in
/-- The second layer normalised; the window ends before gamma is applied. -/
theorem p1c_v99 : after p1c W (no_index (Proc.devRef .tc main_v99))
    = scaleR W⟦main_v86⟧ W⟦main_v89⟧ W⟦main_v90⟧ := by
  unfold p1c
  after_results_simp
  rfl

set_option maxRecDepth 8192 in
set_option maxHeartbeats 2000000 in
/-- The second layer's gamma as a one-row array. -/
theorem p1c_v102 : after p1c W (no_index (Proc.devRef .tc main_v102)) = rowR (vecR (b1R W⟦main_arg6⟧)) := by
  unfold p1c
  after_results_simp
  rfl

set_option maxRecDepth 8192 in
set_option maxHeartbeats 2000000 in
/-- Gamma, beta and the closing maximum give the third layer's input; then its pre-normalisation array. -/
theorem p2a_v140 : after p2a W (no_index (Proc.devRef .tc main_v140))
    = preR (reluR (addf (mulf W⟦main_v99⟧ (downR W⟦main_v102⟧)) (downR (rowR (vecR (b1R W⟦main_arg7⟧))))))
        (aggR W⟦main_v1⟧ W⟦main_v3⟧
          (reluR (addf (mulf W⟦main_v99⟧ (downR W⟦main_v102⟧)) (downR (rowR (vecR (b1R W⟦main_arg7⟧)))))))
        (w2R W⟦main_arg2⟧) (b2R W⟦main_arg3⟧) (w2R W⟦main_arg4⟧) (b2R W⟦main_arg5⟧) := by
  unfold p2a
  after_results_simp
  rfl

set_option maxRecDepth 8192 in
set_option maxHeartbeats 2000000 in
theorem p2b_v143 : after p2b W (no_index (Proc.devRef .tc main_v143)) = meanR W⟦main_v140⟧ := by
  unfold p2b
  after_results_simp
  rfl

set_option maxRecDepth 8192 in
set_option maxHeartbeats 2000000 in
theorem p2b_v144 : after p2b W (no_index (Proc.devRef .tc main_v144)) = varR W⟦main_v140⟧ := by
  unfold p2b
  after_results_simp
  rfl

set_option maxRecDepth 8192 in
set_option maxHeartbeats 2000000 in
/-- The third layer normalised. -/
theorem p2c_v153 : after p2c W (no_index (Proc.devRef .tc main_v153))
    = scaleR W⟦main_v140⟧ W⟦main_v143⟧ W⟦main_v144⟧ := by
  unfold p2c
  after_results_simp
  rfl

set_option maxRecDepth 8192 in
set_option maxHeartbeats 2000000 in
/-- The third layer's gamma and beta: the program's result. -/
theorem p3_v163 : after p3 W (no_index (Proc.devRef .tc main_v163))
    = addf (mulf W⟦main_v153⟧ (downR (rowR (vecR (b2R W⟦main_arg6⟧))))) (downR (rowR (vecR (b2R W⟦main_arg7⟧)))) := by
  unfold p3
  after_results_simp
  rfl

/-! ## The whole line -/

/-- A buffer that no piece writes holds at the end what it held at the start. -/
theorem ops_keep (V : Valuation τ sig (Elt F)) {r : Ref sig .tc}
    (h : r ∉ p0a_w ++ p0b_w ++ p0c_w ++ p1a_w ++ p1b_w ++ p1c_w ++ p2a_w ++ p2b_w ++ p2c_w ++ p3_w) :
    (after ops V)⟦r⟧ = V⟦r⟧ := by
  simp only [List.mem_append, not_or] at h
  obtain ⟨⟨⟨⟨⟨⟨⟨⟨⟨h0a, h0b⟩, h0c⟩, h1a⟩, h1b⟩, h1c⟩, h2a⟩, h2b⟩, h2c⟩, h3⟩ := h
  unfold ops
  simp only [Cert.LibHostCut.after_append]
  rw [p3_keep _ h3, p2c_keep _ h2c, p2b_keep _ h2b, p2a_keep _ h2a, p1c_keep _ h1c, p1b_keep _ h1b, p1a_keep _ h1a,
    p0c_keep _ h0c, p0b_keep _ h0b, p0a_keep _ h0a]

set_option maxRecDepth 8192 in
set_option maxHeartbeats 4000000 in
/-- The result buffer after the whole line: the ten readings composed, from the last piece inwards. A buffer read
    across a piece that does not write it is carried by that piece's table (membership decided); what is left is the
    definition of `outR` unfolded. -/
theorem ops_out (V : Valuation τ sig (Elt F)) :
    (after ops V)⟦main_v163⟧
      = outR V⟦main_arg0⟧ V⟦main_arg1⟧ V⟦main_arg2⟧ V⟦main_arg3⟧ V⟦main_arg4⟧ V⟦main_arg5⟧ V⟦main_arg6⟧ V⟦main_arg7⟧ := by
  unfold ops
  simp only [Cert.LibHostCut.after_append]
  simp (disch := decide) only [p3_v163, p2c_v153, p2b_v143, p2b_v144, p2a_v140, p1c_v99, p1c_v102, p1b_v89, p1b_v90,
    p1a_v86, p0c_v50, p0c_v51, p0b_v35, p0b_v36, p0a_v32, p0a_v1, p0a_v3,
    p3_keep, p2c_keep, p2b_keep, p2a_keep, p1c_keep, p1b_keep, p1a_keep, p0c_keep, p0b_keep, p0a_keep]
  rfl

/-- On every device, for any float values, from any memory with zero counters: every weakly fair execution of @main
    terminates with the result buffer at `outR` of the eight arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v163)
        = outR (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v163).trans (ops_out _),
      (h c main_arg0).trans (ops_keep _ (r := main_arg0) (by decide)), (h c main_arg1).trans (ops_keep _ (r := main_arg1) (by decide)),
      (h c main_arg2).trans (ops_keep _ (r := main_arg2) (by decide)), (h c main_arg3).trans (ops_keep _ (r := main_arg3) (by decide)),
      (h c main_arg4).trans (ops_keep _ (r := main_arg4) (by decide)), (h c main_arg5).trans (ops_keep _ (r := main_arg5) (by decide)),
      (h c main_arg6).trans (ops_keep _ (r := main_arg6) (by decide)), (h c main_arg7).trans (ops_keep _ (r := main_arg7) (by decide))⟩)
    (run_seq scopedRefs_eq scopedSems_eq defs main (fun _ => ops) main_eq (fun _ => ops_sub) m ρ (fun _ => ops_fresh))

/-- The reference's frame: its run with the result dropped. -/
theorem frame_ri : Cert.frame_ReferenceIdeal := fun m ρ _ =>
  (θ_run Cert.ReferenceIdeal.defs _ _).mono (fun _ h c => (h c).2) (run (F := Ideal) m ρ)

end Cert.ReferenceIdeal.Hand

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«135128_j52475910423111_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«135128_j52475910423111_1_alg».proof.Proof.LibPlainDot
import proofs.«135128_j52475910423111_1_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.LibBiasRow.lean ====
/-
  A bias vector as one row, and a row added to every row, for any sizes.

  A vector b of d entries becomes the one-row matrix whose entry (0, j) is b j either by a reshape ([d] viewed as [1, d])
  or by a broadcast in dimension along the second axis ([d] to [1, d] with dims = [1]): the same matrix. A one-row matrix
  broadcast in dimension to n rows (dims = [0, 1]) and added entry by entry to an n-row matrix is that row added to every
  row (`Cert.Spec.addRow`).
-/
import Idealize.ShloMosaic.Lib.ValueIdx
import Idealize.ShloMosaic.Lib.Pipeline.Value
import Idealize.ShloMosaic.PureOps.Ideal
import proofs.«135128_j52475910423111_1_alg».proof.Proof.LibMatOps

noncomputable section

namespace Cert.LibBiasRow

open Idealize.ShloMosaic Idealize.ShloMosaic.ValueIdx Cert.Spec

variable {α : Type} {n d : ℕ}

/-- A [d] vector viewed as [1, d] reads, at (u, j), the vector at j. -/
theorem shapeCast_d_1d_apply (x : (⟨1, ![d]⟩ : Shape).Idx → α) (h : (⟨1, ![d]⟩ : Shape).ShapeCasts ⟨2, ![1, d]⟩)
    (u : Fin 1) (j : Fin d) : shapeCast ⟨2, ![1, d]⟩ x h (ix2 u j) = x (ix1 j) :=
  shapeCast_apply x h _ _ (by
    have hu : u.val = 0 := by omega
    rw [Shape.rowMajor_val_two, Shape.rowMajor_val_one]
    show j.val = u.val * d + j.val
    rw [hu, Nat.zero_mul, Nat.zero_add])

/-- A [d] vector broadcast in dimension to [1, d] along the second axis reads, at (u, j), the vector at j. -/
theorem broadcastInDim_d_1d_apply (x : (⟨1, ![d]⟩ : Shape).Idx → α)
    (h : (⟨1, ![d]⟩ : Shape).BroadcastsInDim ⟨2, ![1, d]⟩ ![1]) (u : Fin 1) (j : Fin d) :
    broadcastInDim ⟨2, ![1, d]⟩ ![1] h x (ix2 u j) = x (ix1 j) := by
  refine broadcastInDim_apply _ h x (ix2 u j) (ix1 j) fun a => ?_
  match a with
  | ⟨0, _⟩ =>
    show j.val = if d = 1 then 0 else j.val
    split
    · have := j.isLt; omega
    · rfl

/-- The reshape and the broadcast in dimension give the same one-row matrix. -/
theorem shapeCast_eq_broadcastInDim (x : (⟨1, ![d]⟩ : Shape).Idx → α) (h : (⟨1, ![d]⟩ : Shape).ShapeCasts ⟨2, ![1, d]⟩)
    (hb : (⟨1, ![d]⟩ : Shape).BroadcastsInDim ⟨2, ![1, d]⟩ ![1]) :
    shapeCast ⟨2, ![1, d]⟩ x h = broadcastInDim ⟨2, ![1, d]⟩ ![1] hb x := by
  funext i
  obtain ⟨u, j, rfl⟩ : ∃ (u : Fin 1) (j : Fin d), i = ix2 u j := ⟨i 0, i 1, eq_ix2 i⟩
  rw [shapeCast_d_1d_apply, broadcastInDim_d_1d_apply]

/-- A one-row matrix broadcast in dimension to n rows reads, at (p, j), the row's entry j. -/
theorem broadcastInDim_1d_nd_apply (v : (⟨2, ![1, d]⟩ : Shape).Idx → α)
    (h : (⟨2, ![1, d]⟩ : Shape).BroadcastsInDim ⟨2, ![n, d]⟩ ![0, 1]) (p : Fin n) (j : Fin d) :
    broadcastInDim ⟨2, ![n, d]⟩ ![0, 1] h v (ix2 p j) = v (ix2 (0 : Fin 1) j) := by
  refine broadcastInDim_apply _ h v (ix2 p j) (ix2 (0 : Fin 1) j) fun a => ?_
  match a with
  | ⟨0, _⟩ =>
    show 0 = if 1 = 1 then 0 else p.val
    rfl
  | ⟨1, _⟩ =>
    show j.val = if d = 1 then 0 else j.val
    split
    · have := j.isLt; omega
    · rfl

/-- Adding the broadcast row entry by entry is adding the row to every row. -/
theorem addf_broadcastInDim_eq_addRow (X : FVec Ideal ⟨2, ![n, d]⟩ .f32) (Bv : FVec Ideal ⟨2, ![1, d]⟩ .f32)
    (h : (⟨2, ![1, d]⟩ : Shape).BroadcastsInDim ⟨2, ![n, d]⟩ ![0, 1]) :
    addf X (broadcastInDim ⟨2, ![n, d]⟩ ![0, 1] h Bv) = addRow X Bv := by
  funext i
  obtain ⟨p, j, rfl⟩ : ∃ (p : Fin n) (j : Fin d), i = ix2 p j := ⟨i 0, i 1, eq_ix2 i⟩
  show X (ix2 p j) + broadcastInDim ⟨2, ![n, d]⟩ ![0, 1] h Bv (ix2 p j) = _
  rw [broadcastInDim_1d_nd_apply, addRow_apply]

end Cert.LibBiasRow

end
-- ==== Proof.LibLayerSpec.lean ====
/-
  The perceptron of one message-passing layer, as whole-array functions over the extended reals, for any sizes.

  A layer's update is two dense maps with a column-wise normalisation between them.  With Z = A · W₁ + b₁ the first
  dense map of the aggregated features A, the second stage takes each column j of Z, subtracts a given number μ j,
  scales by the reciprocal square root of a given number v j plus a fixed ε, scales by g j, shifts by β j, and keeps
  the positive part (normRelu); the result goes through the second dense map, (·) · W₂ + b₂, and — in every layer
  but the last — through the positive part again.  Written with the matrix vocabulary (mm, addRow, relu) these are
  dense and layerOut below; the lemmas named _apply read them at an entry, by definition.
-/
import proofs.«135128_j52475910423111_1_alg».proof.Proof.LibMatOps

noncomputable section

open scoped BigOperators

namespace Cert.Spec

open Idealize.ShloMosaic Idealize.ShloMosaic.ValueIdx

variable {n k d : ℕ}

/-- The dense map: X · W plus the row B added to every row. -/
def dense (X : Mat n k) (W : Mat k d) (B : Mat 1 d) : Mat n d := addRow (mm X W) B

theorem dense_apply (X : Mat n k) (W : Mat k d) (B : Mat 1 d) (p : Fin n) (j : Fin d) :
    dense X W B (ix2 p j) = (∑ q : Fin k, X (ix2 p q) * W (ix2 q j)) + B (ix2 (0 : Fin 1) j) := rfl

/-- Column j of X centred at MU j, scaled by rsqrt (VAR j + ε) and by G j, shifted by BT j; then the positive part. -/
def normRelu (ε : EReal) (X : Mat n d) (MU VAR G BT : Mat 1 d) : Mat n d := fun i =>
  max ((X i - MU (ix2 (0 : Fin 1) (i 1))) * Ideal.rsqrt (VAR (ix2 (0 : Fin 1) (i 1)) + ε) * G (ix2 (0 : Fin 1) (i 1))
    + BT (ix2 (0 : Fin 1) (i 1))) 0

theorem normRelu_apply (ε : EReal) (X : Mat n d) (MU VAR G BT : Mat 1 d) (p : Fin n) (j : Fin d) :
    normRelu ε X MU VAR G BT (ix2 p j)
      = max ((X (ix2 p j) - MU (ix2 (0 : Fin 1) j)) * Ideal.rsqrt (VAR (ix2 (0 : Fin 1) j) + ε) * G (ix2 (0 : Fin 1) j)
          + BT (ix2 (0 : Fin 1) j)) 0 := rfl

/-- The second stage of a layer without the closing positive part: normalise, keep the positive part, dense map. -/
def layerOut (ε : EReal) (Z : Mat n k) (MU VAR G BT : Mat 1 k) (W : Mat k d) (B : Mat 1 d) : Mat n d :=
  dense (normRelu ε Z MU VAR G BT) W B

end Cert.Spec

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.LibCoeOps.lean ====
/-
  The extended-real operations on real values (any index types; no program involved).

  On the image of the reals in the extended reals every operation used here is the real operation: a finite sum
  of reals, a maximum folded from the bottom element over a nonempty family, a quotient by a nonzero real, the
  exponential and the square root. The bottom element is the identity of the maximum, and exp (⊥ − a) = 0.
-/
import Idealize.ShloMosaic.PureOps.Ideal
import Mathlib.Tactic

namespace Cert.CoeOps

open Idealize.ShloMosaic

/-- A finite sum of reals, summed in the extended reals. -/
theorem coe_sum {ι : Type*} (s : Finset ι) (f : ι → ℝ) :
    (∑ i ∈ s, ((f i : ℝ) : EReal)) = ((∑ i ∈ s, f i : ℝ) : EReal) := by
  classical
  refine Finset.induction_on s ?_ ?_
  · simp only [Finset.sum_empty, EReal.coe_zero]
  · intro a t ha ih
    rw [Finset.sum_insert ha, Finset.sum_insert ha, ih, EReal.coe_add]

/-- A finite sum of products of reals, computed in the extended reals. -/
theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]
  apply Finset.sum_congr rfl
  intro i _
  rw [EReal.coe_mul]

/-- The maximum of two reals, taken in the extended reals. -/
theorem coe_max (a b : ℝ) : ((max a b : ℝ) : EReal) = max ((a : ℝ) : EReal) ((b : ℝ) : EReal) :=
  EReal.coe_strictMono.monotone.map_max

theorem max_coe_coe (a b : ℝ) : max ((a : ℝ) : EReal) ((b : ℝ) : EReal) = ((max a b : ℝ) : EReal) :=
  (coe_max a b).symm

/-- The maximum of a nonempty finite family of reals, folded from the bottom element. -/
theorem fold_max_bot_coe {ι : Type*} [Fintype ι] [Nonempty ι] (f : ι → ℝ) :
    Finset.fold max (⊥ : EReal) (fun i => ((f i : ℝ) : EReal)) Finset.univ
      = ((Finset.univ.sup' Finset.univ_nonempty f : ℝ) : EReal) := by
  rw [Finset.apply_sup'_eq_sup'_comp Finset.univ_nonempty (fun a : ℝ => (a : EReal))
    (fun x y => coe_max x y), Finset.sup'_eq_sup]
  rfl

/-- A quotient of reals by a nonzero real. -/
theorem div_coe_coe (a b : ℝ) (hb : b ≠ 0) :
    Idealize.ShloMosaic.Ideal.div ((a : ℝ) : EReal) ((b : ℝ) : EReal) = ((a / b : ℝ) : EReal) := by
  rw [Ideal.div_coe hb, ← EReal.coe_mul, mul_one_div]

/-- The exponential of a real. -/
theorem exp_coe (a : ℝ) : Idealize.ShloMosaic.Ideal.exp ((a : ℝ) : EReal) = ((Real.exp a : ℝ) : EReal) := rfl

/-- The exponential of a difference of reals. -/
theorem exp_sub_coe_coe (a b : ℝ) :
    Idealize.ShloMosaic.Ideal.exp (((a : ℝ) : EReal) - ((b : ℝ) : EReal)) = ((Real.exp (a - b) : ℝ) : EReal) := by
  rw [← EReal.coe_sub]
  rfl

/-- Below every real the exponential vanishes. -/
theorem exp_bot_sub_coe (a : ℝ) :
    Idealize.ShloMosaic.Ideal.exp ((⊥ : EReal) - ((a : ℝ) : EReal)) = 0 := by
  rw [EReal.bot_sub]
  rfl

/-- The bottom element is the identity of the maximum. -/
theorem max_bot_coe (a : ℝ) : max (⊥ : EReal) ((a : ℝ) : EReal) = ((a : ℝ) : EReal) :=
  max_bot_left _

theorem max_coe_bot (a : ℝ) : max ((a : ℝ) : EReal) (⊥ : EReal) = ((a : ℝ) : EReal) :=
  max_bot_right _

/-- A real weight times zero, and zero plus a real, in the extended reals. -/
theorem coe_mul_zero (a : ℝ) : ((a : ℝ) : EReal) * 0 = 0 := mul_zero _

theorem zero_add_coe (a : ℝ) : (0 : EReal) + ((a : ℝ) : EReal) = ((a : ℝ) : EReal) := zero_add _

/-- The square root of 64. -/
theorem sqrt_64 : Idealize.ShloMosaic.Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

end Cert.CoeOps
-- ==== Proof.Spec.lean ====
/-
  The mathematics of one graph-isomorphism layer with batch normalisation, over the extended reals and for any sizes.

  With H the node features (n rows, d columns) and A their aggregate over the edges, a layer forms
  Z = relu ((H + A) · W₁ + b₁) · W₂ + b₂, takes for each column j its mean μ j = (Σ_p Z p j) / ν and a variance v j, and
  returns (Z − μ) · rsqrt (v + ε) · γ + β column by column.  The variance can be computed from the two moments,
  v j = (Σ_p (Z p j)²) / ν − (μ j)², or from the centred entries, v j = (Σ_p (Z p j − μ j)²) / ν.  When every entry of Z is a
  real number and ν is the number of rows, the two are the same real number (expand the square: the cross term is
  −2 μ · ν μ and the constant term ν μ²), and it is not negative; so with a positive ε the reciprocal square root is
  a real number and the layer's result has real entries again.  That is what lets three layers be chained.
-/
import proofs.«135128_j52475910423111_1_alg».proof.Proof.LibMatOps
import proofs.«135128_j52475910423111_1_alg».proof.Proof.LibLayerSpec
import proofs.«135128_j52475910423111_1_alg».proof.Proof.LibConsts
import proofs.«135128_j52475910423111_1_alg».proof.Proof.LibCoeOps
import Mathlib.Tactic

noncomputable section

open scoped BigOperators

namespace Cert.Gin

open Idealize.ShloMosaic Idealize.ShloMosaic.ValueIdx Cert.Spec

variable {n d k : ℕ}

/-! ## The layer -/

/-- The entrywise sum of the features and their aggregate. -/
def plus (H A : Mat n d) : Mat n d := fun i => H i + A i

/-- The two dense maps with the positive part between them: relu ((H + A) · W₁ + b₁) · W₂ + b₂. -/
def preact (H A : Mat n d) (W1 : Mat d d) (B1 : Mat 1 d) (W2 : Mat d d) (B2 : Mat 1 d) : Mat n d :=
  dense (relu (dense (plus H A) W1 B1)) W2 B2

/-- Column j of Z centred at MU j, scaled by rsqrt (VAR j + ε) and by G j, shifted by BT j. -/
def bnApply (ε : EReal) (Z : Mat n d) (MU VAR G BT : Mat 1 d) : Mat n d := fun i =>
  (Z i - MU (ix2 (0 : Fin 1) (i 1))) * Ideal.rsqrt (VAR (ix2 (0 : Fin 1) (i 1)) + ε) * G (ix2 (0 : Fin 1) (i 1))
    + BT (ix2 (0 : Fin 1) (i 1))

theorem bnApply_apply (ε : EReal) (Z : Mat n d) (MU VAR G BT : Mat 1 d) (p : Fin n) (j : Fin d) :
    bnApply ε Z MU VAR G BT (ix2 p j)
      = (Z (ix2 p j) - MU (ix2 (0 : Fin 1) j)) * Ideal.rsqrt (VAR (ix2 (0 : Fin 1) j) + ε) * G (ix2 (0 : Fin 1) j)
          + BT (ix2 (0 : Fin 1) j) := rfl

/-- A row divided entry by entry by the number ν. -/
def divRow (R : Mat 1 d) (ν : EReal) : Mat 1 d := fun i => Ideal.div (R i) ν

/-- The column means: the column sums over ν. -/
def meanRow (ν : EReal) (Z : Mat n d) : Mat 1 d := divRow (colSum Z) ν

/-- The variance from the two moments: (Σ z²) / ν − μ². -/
def varMoments (ν : EReal) (Z : Mat n d) : Mat 1 d := fun i =>
  Ideal.div (colSumSq Z i) ν - meanRow ν Z i * meanRow ν Z i

/-- The variance from the centred entries: (Σ (z − μ)²) / ν. -/
def varCentred (ν : EReal) (Z : Mat n d) : Mat 1 d := fun i =>
  Ideal.div (∑ p : Fin n, (Z (ix2 p (i 1)) - meanRow ν Z i) * (Z (ix2 p (i 1)) - meanRow ν Z i)) ν

/-- One layer with the variance from the moments. -/
def layerMoments (ν ε : EReal) (H A : Mat n d) (W1 : Mat d d) (B1 : Mat 1 d) (W2 : Mat d d) (B2 G BT : Mat 1 d) : Mat n d :=
  bnApply ε (preact H A W1 B1 W2 B2) (meanRow ν (preact H A W1 B1 W2 B2)) (varMoments ν (preact H A W1 B1 W2 B2)) G BT

/-- One layer with the variance from the centred entries. -/
def layerCentred (ν ε : EReal) (H A : Mat n d) (W1 : Mat d d) (B1 : Mat 1 d) (W2 : Mat d d) (B2 G BT : Mat 1 d) : Mat n d :=
  bnApply ε (preact H A W1 B1 W2 B2) (meanRow ν (preact H A W1 B1 W2 B2)) (varCentred ν (preact H A W1 B1 W2 B2)) G BT

/-! ## Arrays of real numbers -/

/-- Every entry is a real number. -/
def IsReal (X : Mat n d) : Prop := ∀ i, ∃ r : ℝ, X i = (r : EReal)

theorem IsReal.plus {H A : Mat n d} (hH : IsReal H) (hA : IsReal A) : IsReal (plus H A) := fun i => by
  obtain ⟨a, ha⟩ := hH i; obtain ⟨b, hb⟩ := hA i
  exact ⟨a + b, by show H i + A i = _; rw [ha, hb, EReal.coe_add]⟩

theorem IsReal.mm {X : Mat n k} {W : Mat k d} (hX : IsReal X) (hW : IsReal W) : IsReal (mm X W) := fun i => by
  choose x hx using hX; choose w hw using hW
  refine ⟨∑ q : Fin k, x (ix2 (i 0) q) * w (ix2 q (i 1)), ?_⟩
  show ∑ q : Fin k, X (ix2 (i 0) q) * W (ix2 q (i 1)) = _
  rw [← Cert.CoeOps.coe_sum_mul]
  exact Finset.sum_congr rfl fun q _ => by rw [hx, hw]

theorem IsReal.addRow {Y : Mat n d} {B : Mat 1 d} (hY : IsReal Y) (hB : IsReal B) : IsReal (addRow Y B) := fun i => by
  obtain ⟨a, ha⟩ := hY i; obtain ⟨b, hb⟩ := hB (ix2 (0 : Fin 1) (i 1))
  exact ⟨a + b, by show Y i + B (ix2 (0 : Fin 1) (i 1)) = _; rw [ha, hb, EReal.coe_add]⟩

theorem IsReal.relu {Y : Mat n d} (hY : IsReal Y) : IsReal (relu Y) := fun i => by
  obtain ⟨a, ha⟩ := hY i
  exact ⟨max a 0, by show max (Y i) 0 = _; rw [ha, ← EReal.coe_zero, Cert.CoeOps.max_coe_coe]⟩

theorem IsReal.dense {X : Mat n k} {W : Mat k d} {B : Mat 1 d} (hX : IsReal X) (hW : IsReal W) (hB : IsReal B) :
    IsReal (dense X W B) := (hX.mm hW).addRow hB

theorem IsReal.preact {H A : Mat n d} {W1 W2 : Mat d d} {B1 B2 : Mat 1 d} (hH : IsReal H) (hA : IsReal A)
    (hW1 : IsReal W1) (hB1 : IsReal B1) (hW2 : IsReal W2) (hB2 : IsReal B2) : IsReal (preact H A W1 B1 W2 B2) :=
  (((hH.plus hA).dense hW1 hB1).relu).dense hW2 hB2

/-! ## The two variances -/

/-- Over the reals: the mean of the centred squares is the mean of the squares less the squared mean. -/
theorem real_variance (hn : (n : ℝ) ≠ 0) (z : Fin n → ℝ) :
    (∑ p, (z p - (∑ q, z q) / n) * (z p - (∑ q, z q) / n)) / n
      = (∑ p, z p * z p) / n - ((∑ q, z q) / n) * ((∑ q, z q) / n) := by
  have h1 : ∑ p, (z p - (∑ q, z q) / n) * (z p - (∑ q, z q) / n)
      = (∑ p, z p * z p) - 2 * ((∑ q, z q) / n) * (∑ q, z q) + n * (((∑ q, z q) / n) * ((∑ q, z q) / n)) := by
    have h2 : ∀ p, (z p - (∑ q, z q) / n) * (z p - (∑ q, z q) / n)
        = z p * z p - 2 * ((∑ q, z q) / n) * z p + ((∑ q, z q) / n) * ((∑ q, z q) / n) := fun p => by ring
    simp only [h2, Finset.sum_add_distrib, Finset.sum_sub_distrib, ← Finset.mul_sum, Finset.sum_const,
      Finset.card_univ, Fintype.card_fin, nsmul_eq_mul]
    ring
  rw [h1]; field_simp; ring

/-- The centred squares are not negative, so neither is their mean. -/
theorem real_variance_nonneg (z : Fin n → ℝ) (μ : ℝ) : 0 ≤ (∑ p, (z p - μ) * (z p - μ)) / n :=
  div_nonneg (Finset.sum_nonneg fun p _ => mul_self_nonneg _) (Nat.cast_nonneg n)

section Columns

variable (hn : (n : ℝ) ≠ 0) (Z : Mat n d) (hZ : IsReal Z)

include hZ in
theorem colSum_real (i : (⟨2, ![1, d]⟩ : Shape).Idx) (z : Fin n → ℝ) (hz : ∀ p, Z (ix2 p (i 1)) = (z p : EReal)) :
    colSum Z i = ((∑ p, z p : ℝ) : EReal) := by
  show ∑ p : Fin n, Z (ix2 p (i 1)) = _
  rw [← Cert.CoeOps.coe_sum]; exact Finset.sum_congr rfl fun p _ => hz p

include hZ in
theorem colSumSq_real (i : (⟨2, ![1, d]⟩ : Shape).Idx) (z : Fin n → ℝ) (hz : ∀ p, Z (ix2 p (i 1)) = (z p : EReal)) :
    colSumSq Z i = ((∑ p, z p * z p : ℝ) : EReal) := by
  show ∑ p : Fin n, Z (ix2 p (i 1)) * Z (ix2 p (i 1)) = _
  rw [← Cert.CoeOps.coe_sum_mul]; exact Finset.sum_congr rfl fun p _ => by rw [hz p]

include hn hZ in
theorem meanRow_real (i : (⟨2, ![1, d]⟩ : Shape).Idx) (z : Fin n → ℝ) (hz : ∀ p, Z (ix2 p (i 1)) = (z p : EReal)) :
    meanRow ((n : ℝ) : EReal) Z i = (((∑ p, z p) / n : ℝ) : EReal) := by
  show Ideal.div (colSum Z i) _ = _
  rw [colSum_real Z hZ i z hz, Cert.CoeOps.div_coe_coe _ _ hn]

include hn hZ in
theorem varCentred_real (i : (⟨2, ![1, d]⟩ : Shape).Idx) (z : Fin n → ℝ) (hz : ∀ p, Z (ix2 p (i 1)) = (z p : EReal)) :
    varCentred ((n : ℝ) : EReal) Z i
      = (((∑ p, (z p - (∑ q, z q) / n) * (z p - (∑ q, z q) / n)) / n : ℝ) : EReal) := by
  show Ideal.div (∑ p : Fin n, (Z (ix2 p (i 1)) - meanRow _ Z i) * (Z (ix2 p (i 1)) - meanRow _ Z i)) _ = _
  rw [meanRow_real hn Z hZ i z hz]
  have hterm : ∀ p : Fin n, (Z (ix2 p (i 1)) - (((∑ q, z q) / n : ℝ) : EReal)) * (Z (ix2 p (i 1)) - (((∑ q, z q) / n : ℝ) : EReal))
      = (((z p - (∑ q, z q) / n) * (z p - (∑ q, z q) / n) : ℝ) : EReal) := fun p => by
    rw [hz p, ← EReal.coe_sub, ← EReal.coe_mul]
  rw [Finset.sum_congr rfl fun p _ => hterm p, Cert.CoeOps.coe_sum, Cert.CoeOps.div_coe_coe _ _ hn]

include hn hZ in
theorem varMoments_real (i : (⟨2, ![1, d]⟩ : Shape).Idx) (z : Fin n → ℝ) (hz : ∀ p, Z (ix2 p (i 1)) = (z p : EReal)) :
    varMoments ((n : ℝ) : EReal) Z i
      = (((∑ p, z p * z p) / n - ((∑ q, z q) / n) * ((∑ q, z q) / n) : ℝ) : EReal) := by
  show Ideal.div (colSumSq Z i) _ - meanRow _ Z i * meanRow _ Z i = _
  rw [meanRow_real hn Z hZ i z hz, colSumSq_real Z hZ i z hz, Cert.CoeOps.div_coe_coe _ _ hn, ← EReal.coe_mul, ← EReal.coe_sub]

include hn hZ in
/-- For real entries and ν the number of rows the two variances are one row. -/
theorem varMoments_eq_varCentred : varMoments ((n : ℝ) : EReal) Z = varCentred ((n : ℝ) : EReal) Z := by
  funext i
  choose z hz using fun p : Fin n => hZ (ix2 p (i 1))
  rw [varMoments_real hn Z hZ i z hz, varCentred_real hn Z hZ i z hz, real_variance hn z]

include hn hZ in
theorem IsReal.meanRow : IsReal (meanRow ((n : ℝ) : EReal) Z) := fun i => by
  choose z hz using fun p : Fin n => hZ (ix2 p (i 1))
  exact ⟨_, meanRow_real hn Z hZ i z hz⟩

include hn hZ in
/-- The centred variance is a real number that is not negative. -/
theorem varCentred_nonneg (i : (⟨2, ![1, d]⟩ : Shape).Idx) :
    ∃ v : ℝ, 0 ≤ v ∧ varCentred ((n : ℝ) : EReal) Z i = (v : EReal) := by
  choose z hz using fun p : Fin n => hZ (ix2 p (i 1))
  exact ⟨_, real_variance_nonneg z _, varCentred_real hn Z hZ i z hz⟩

end Columns

/-! ## The normalisation keeps real entries -/

theorem IsReal.bnApply {ε : EReal} {Z : Mat n d} {MU VAR G BT : Mat 1 d} (hε : ∃ e : ℝ, 0 < e ∧ ε = (e : EReal))
    (hZ : IsReal Z) (hMU : IsReal MU) (hVAR : ∀ i, ∃ v : ℝ, 0 ≤ v ∧ VAR i = (v : EReal)) (hG : IsReal G) (hBT : IsReal BT) :
    IsReal (bnApply ε Z MU VAR G BT) := fun i => by
  obtain ⟨e, he, rfl⟩ := hε
  obtain ⟨z, hz⟩ := hZ i; obtain ⟨mu, hmu⟩ := hMU (ix2 (0 : Fin 1) (i 1))
  obtain ⟨v, hv, hv'⟩ := hVAR (ix2 (0 : Fin 1) (i 1))
  obtain ⟨g, hg⟩ := hG (ix2 (0 : Fin 1) (i 1)); obtain ⟨b, hb⟩ := hBT (ix2 (0 : Fin 1) (i 1))
  refine ⟨(z - mu) * (Real.sqrt (v + e))⁻¹ * g + b, ?_⟩
  show (Z i - MU _) * Ideal.rsqrt (VAR _ + _) * G _ + BT _ = _
  rw [hz, hmu, hv', hg, hb, ← EReal.coe_add v e, Cert.Consts.rsqrt_pos (by positivity : 0 < v + e), ← EReal.coe_sub,
    ← EReal.coe_mul, ← EReal.coe_mul, ← EReal.coe_add]

/-! ## One layer, either way -/

section Layer

variable (hn : (n : ℝ) ≠ 0) {ε : EReal} (hε : ∃ e : ℝ, 0 < e ∧ ε = (e : EReal))
variable {H A : Mat n d} {W1 W2 : Mat d d} {B1 B2 G BT : Mat 1 d}

include hn in
/-- With real features, aggregate and weights the layer computed from the moments is the layer computed from the
    centred entries. -/
theorem layerMoments_eq_layerCentred (hH : IsReal H) (hA : IsReal A) (hW1 : IsReal W1) (hB1 : IsReal B1)
    (hW2 : IsReal W2) (hB2 : IsReal B2) :
    layerMoments ((n : ℝ) : EReal) ε H A W1 B1 W2 B2 G BT = layerCentred ((n : ℝ) : EReal) ε H A W1 B1 W2 B2 G BT := by
  unfold layerMoments layerCentred
  rw [varMoments_eq_varCentred hn _ (hH.preact hA hW1 hB1 hW2 hB2)]

include hn hε in
/-- And its entries are real numbers again. -/
theorem IsReal.layerCentred (hH : IsReal H) (hA : IsReal A) (hW1 : IsReal W1) (hB1 : IsReal B1)
    (hW2 : IsReal W2) (hB2 : IsReal B2) (hG : IsReal G) (hBT : IsReal BT) :
    IsReal (layerCentred ((n : ℝ) : EReal) ε H A W1 B1 W2 B2 G BT) :=
  IsReal.bnApply hε (hH.preact hA hW1 hB1 hW2 hB2) (IsReal.meanRow hn _ (hH.preact hA hW1 hB1 hW2 hB2))
    (varCentred_nonneg hn _ (hH.preact hA hW1 hB1 hW2 hB2)) hG hBT

end Layer

end Cert.Gin

end
-- ==== Proof.GinBody.lean ====
/-
  The arithmetic of one block of the MLP-and-column-sums body, over the extended reals and for any sizes.

  A block of n rows is mapped to Z = relu ((H + A) · W₁ + b₁) · W₂ + b₂, and two one-row accumulators take the sums
  down each column of Z and of Z·Z.  Read entry by entry: a row b broadcast to n rows and added is b added to every
  row; a sum over the row axis of an n × d array is, at column j, the sum over the rows p of the entry (p, j); and a
  column sum computed as a vector and viewed as one row is that row.  Row p of Z reads row p of H and of A only, so a
  block of rows of the inputs gives the same rows of Z; and the sum over m·n rows is the sum over m blocks of the
  sums over their n rows, since addition of extended reals is commutative and associative.
-/
import Idealize.ShloMosaic.Lib.ValueIdx
import Idealize.ShloMosaic.Lib.Pipeline.Value
import Idealize.ShloMosaic.PureOps.Ideal.Laws
import proofs.«135128_j52475910423111_1_alg».proof.Proof.LibGcn
import proofs.«135128_j52475910423111_1_alg».proof.Proof.LibBiasRow
import proofs.«135128_j52475910423111_1_alg».proof.Proof.Spec

noncomputable section

open scoped BigOperators

namespace Cert.GinBody

open Idealize.ShloMosaic Idealize.ShloMosaic.ValueIdx Cert.Spec Cert.Gin

variable {n d m : ℕ}

/-- A one-row array broadcast to n rows reads, at (p, j), the row's entry j. -/
theorem broadcastTo_row_apply {α : Type} (v : (⟨2, ![1, d]⟩ : Shape).Idx → α) (h : (⟨2, ![1, d]⟩ : Shape).Broadcasts ⟨2, ![n, d]⟩)
    (p : Fin n) (j : Fin d) : broadcastTo ⟨2, ![n, d]⟩ v h (ix2 p j) = v (ix2 (0 : Fin 1) j) := by
  refine broadcastTo_apply v h (ix2 p j) (ix2 (0 : Fin 1) j) fun ax => ?_
  match ax with
  | ⟨0, _⟩ =>
    show 0 = if 1 = 1 then 0 else p.val
    rfl
  | ⟨1, _⟩ =>
    show j.val = if d = 1 then 0 else j.val
    split
    · have := j.isLt; omega
    · rfl

/-- Adding the broadcast row entry by entry is adding the row to every row. -/
theorem addf_broadcastTo_eq_addRow (X : FVec Ideal ⟨2, ![n, d]⟩ .f32) (Bv : FVec Ideal ⟨2, ![1, d]⟩ .f32)
    (h : (⟨2, ![1, d]⟩ : Shape).Broadcasts ⟨2, ![n, d]⟩) : addf X (broadcastTo ⟨2, ![n, d]⟩ Bv h) = addRow X Bv := by
  funext i
  obtain ⟨p, j, rfl⟩ : ∃ (p : Fin n) (j : Fin d), i = ix2 p j := ⟨i 0, i 1, eq_ix2 i⟩
  show X (ix2 p j) + broadcastTo ⟨2, ![n, d]⟩ Bv h (ix2 p j) = _
  rw [broadcastTo_row_apply, addRow_apply]

/-- The block of Z from its six operands, as the body computes it: two products into zero accumulators, the biases
    broadcast over the rows, the positive part between. -/
theorem block_eq_preact (D : DotDims ⟨2, ![n, d]⟩ ⟨2, ![d, d]⟩ ⟨2, ![n, d]⟩) (hD : D = DotDims.plain n d d)
    (hcX : (⟨2, ![n, d]⟩ : Shape).ShapeCasts ⟨2, ![n, d]⟩) (hcW : (⟨2, ![d, d]⟩ : Shape).ShapeCasts ⟨2, ![d, d]⟩)
    (hcB : (⟨2, ![1, d]⟩ : Shape).ShapeCasts ⟨2, ![1, d]⟩) (hb : (⟨2, ![1, d]⟩ : Shape).Broadcasts ⟨2, ![n, d]⟩)
    (H A : FVec Ideal ⟨2, ![n, d]⟩ .f32) (W1 : FVec Ideal ⟨2, ![d, d]⟩ .f32) (B1 : FVec Ideal ⟨2, ![1, d]⟩ .f32)
    (W2 : FVec Ideal ⟨2, ![d, d]⟩ .f32) (B2 : FVec Ideal ⟨2, ![1, d]⟩ .f32) :
    addf (matmul D none
          (maximumf (addf (matmul D none (addf H (shapeCast ⟨2, ![n, d]⟩ A hcX)) (shapeCast ⟨2, ![d, d]⟩ W1 hcW)
              (constant (F := Ideal) ⟨2, ![n, d]⟩ .f32 0x00000000#32))
            (broadcastTo ⟨2, ![n, d]⟩ (shapeCast ⟨2, ![1, d]⟩ B1 hcB) hb))
            (broadcast ⟨2, ![n, d]⟩ (Scalar.ofBits .f32 0x00000000#32 : Ideal .f32)))
          (shapeCast ⟨2, ![d, d]⟩ W2 hcW) (constant (F := Ideal) ⟨2, ![n, d]⟩ .f32 0x00000000#32))
        (broadcastTo ⟨2, ![n, d]⟩ (shapeCast ⟨2, ![1, d]⟩ B2 hcB) hb)
      = preact H A W1 B1 W2 B2 := by
  rw [shapeCast_self, shapeCast_self, shapeCast_self, shapeCast_self, shapeCast_self]
  rw [Cert.LibGcn.matmul_zero_eq_mm D hD, addf_broadcastTo_eq_addRow, Cert.LibGcn.max_splat_zero,
    Cert.LibGcn.matmul_zero_eq_mm D hD, addf_broadcastTo_eq_addRow]
  rfl

/-- Summing an n × d array over its row axis, the index of column j with row p put back is (p, j). -/
theorem lift_col (h : (⟨2, ![n, d]⟩ : Shape).Reduces [(0 : Fin 2)] ⟨1, ![d]⟩) (j : Fin d) (p : Fin n) :
    h.lift (ix1 j) p = ix2 p j :=
  funext fun c => Fin.ext (by
    match c with
    | ⟨0, _⟩ => rfl
    | ⟨1, _⟩ => rfl)

/-- The sum of an n × d array over its row axis, at column j: the sum over the rows. -/
theorem multiReduction_add_col {φ : FTy} (src : FVec Ideal ⟨2, ![n, d]⟩ φ) (acc : BitVec φ.bits)
    (h : (⟨2, ![n, d]⟩ : Shape).Reduces [(0 : Fin 2)] ⟨1, ![d]⟩) (hφ : FKind.Formats φ) (hacc : acc = FKind.add.neutral φ hφ)
    (j : Fin d) :
    multiReduction .add [(0 : Fin 2)] ⟨1, ![d]⟩ src acc h hφ hacc (ix1 j) = ∑ p : Fin n, src (ix2 p j) :=
  (Ideal.multiReduction_add_single src acc h hφ hacc (ix1 j)).trans
    (Finset.sum_congr rfl fun p _ => congrArg src (lift_col h j p))

/-- An accumulator row plus the column sums of a block, as the body computes it. -/
theorem acc_add_colSum (h : (⟨2, ![n, d]⟩ : Shape).Reduces [(0 : Fin 2)] ⟨1, ![d]⟩) (hφ : FKind.Formats .f32)
    (hacc : (0x00000000#32 : BitVec (FTy.bits .f32)) = FKind.add.neutral .f32 hφ)
    (hc : (⟨1, ![d]⟩ : Shape).ShapeCasts ⟨2, ![1, d]⟩) (hs : (⟨2, ![1, d]⟩ : Shape).ShapeCasts ⟨2, ![1, d]⟩)
    (Z : FVec Ideal ⟨2, ![n, d]⟩ .f32) (acc : FVec Ideal ⟨2, ![1, d]⟩ .f32) :
    shapeCast ⟨2, ![1, d]⟩ (addf acc (shapeCast ⟨2, ![1, d]⟩ (multiReduction .add [(0 : Fin 2)] ⟨1, ![d]⟩ Z 0x00000000#32 h hφ hacc) hc)) hs
      = fun i => acc i + colSum Z i := by
  rw [shapeCast_self]
  funext i
  obtain ⟨u, j, rfl⟩ : ∃ (u : Fin 1) (j : Fin d), i = ix2 u j := ⟨i 0, i 1, eq_ix2 i⟩
  show acc (ix2 u j) + shapeCast ⟨2, ![1, d]⟩ (multiReduction .add [(0 : Fin 2)] ⟨1, ![d]⟩ Z 0x00000000#32 h hφ hacc) hc (ix2 u j) = _
  rw [Cert.LibBiasRow.shapeCast_d_1d_apply, multiReduction_add_col, colSum_apply]

/-- The same with the squares: the column sums of Z·Z are the sums of the squares. -/
theorem acc_add_colSumSq (h : (⟨2, ![n, d]⟩ : Shape).Reduces [(0 : Fin 2)] ⟨1, ![d]⟩) (hφ : FKind.Formats .f32)
    (hacc : (0x00000000#32 : BitVec (FTy.bits .f32)) = FKind.add.neutral .f32 hφ)
    (hc : (⟨1, ![d]⟩ : Shape).ShapeCasts ⟨2, ![1, d]⟩) (hs : (⟨2, ![1, d]⟩ : Shape).ShapeCasts ⟨2, ![1, d]⟩)
    (Z : FVec Ideal ⟨2, ![n, d]⟩ .f32) (acc : FVec Ideal ⟨2, ![1, d]⟩ .f32) :
    shapeCast ⟨2, ![1, d]⟩ (addf acc (shapeCast ⟨2, ![1, d]⟩ (multiReduction .add [(0 : Fin 2)] ⟨1, ![d]⟩ (mulf Z Z) 0x00000000#32 h hφ hacc) hc)) hs
      = fun i => acc i + colSumSq Z i :=
  (acc_add_colSum h hφ hacc hc hs (mulf Z Z) acc).trans rfl

/-- The cleared accumulator: a splat of the zero word viewed as itself is the zero row. -/
theorem cleared_eq_zero (hs : (⟨2, ![1, d]⟩ : Shape).ShapeCasts ⟨2, ![1, d]⟩) :
    shapeCast ⟨2, ![1, d]⟩ (broadcast ⟨2, ![1, d]⟩ (Scalar.ofBits .f32 0x00000000#32 : Ideal .f32)) hs = fun _ => (0 : EReal) := by
  rw [shapeCast_self]
  funext i
  show Ideal.ofBits .f32 0x00000000#32 = 0
  exact Ideal.ofBits_zero_f32

/-- Row p of Z reads row p of the features and of their aggregate only. -/
theorem preact_rows {N : ℕ} (H' A' : Mat n d) (H A : Mat N d) (W1 : Mat d d) (B1 : Mat 1 d) (W2 : Mat d d) (B2 : Mat 1 d)
    (p : Fin n) (p' : Fin N) (j : Fin d)
    (hH : ∀ s : Fin d, H' (ix2 p s) = H (ix2 p' s)) (hA : ∀ s : Fin d, A' (ix2 p s) = A (ix2 p' s)) :
    preact H' A' W1 B1 W2 B2 (ix2 p j) = preact H A W1 B1 W2 B2 (ix2 p' j) := by
  unfold preact
  rw [dense_apply, dense_apply]
  refine congrArg (· + B2 (ix2 (0 : Fin 1) j)) (Finset.sum_congr rfl fun q _ => ?_)
  rw [relu_apply, relu_apply, dense_apply, dense_apply]
  refine congrArg (fun x => max (x + B1 (ix2 (0 : Fin 1) q)) 0 * W2 (ix2 q j)) (Finset.sum_congr rfl fun s _ => ?_)
  show (H' (ix2 p s) + A' (ix2 p s)) * W1 (ix2 s q) = (H (ix2 p' s) + A (ix2 p' s)) * W1 (ix2 s q)
  rw [hH s, hA s]

/-- A sum over m·n rows is the sum over the m blocks of the sums over their n rows. -/
theorem sum_rows_blocks {N : ℕ} (hN : N = m * n) (f : Fin N → EReal) :
    ∑ p : Fin N, f p = ∑ t : Fin m, ∑ r : Fin n, f ⟨t.val * n + r.val, by
      subst hN
      calc t.val * n + r.val < t.val * n + n := Nat.add_lt_add_left r.isLt _
        _ = (t.val + 1) * n := (Nat.succ_mul _ _).symm
        _ ≤ m * n := Nat.mul_le_mul_right _ t.isLt⟩ := by
  subst hN
  rw [← Fintype.sum_prod_type', ← Equiv.sum_comp finProdFinEquiv]
  refine Finset.sum_congr rfl fun x _ => congrArg f (Fin.ext ?_)
  show x.2.val + n * x.1.val = x.1.val * n + x.2.val
  rw [Nat.mul_comm, Nat.add_comm]

end Cert.GinBody

end
-- ==== Proof.KI.ValA0.lean ====
/- The first MLP-and-column-sums call (region 0): what its three output arrays hold after the region, over the
   extended reals. Each point stores the block z = relu ((h + agg) · W₁ + b₁) · W₂ + b₂ of its 5000 rows and adds the
   block's column sums, and the column sums of its squares, into the two accumulators; a row of z reads the same
   row of h and agg only, so the ten blocks are the rows of z over the whole arrays; and the accumulators after the
   last point are the sums over all 50000 rows, because a sum of extended reals may be regrouped block by block. -/
import proofs.«135128_j52475910423111_1_alg».proof.Proof.KI.StageA0
import proofs.«135128_j52475910423111_1_alg».proof.Proof.GinBody
import Idealize.ShloMosaic.Lib.Pipeline.Value

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz_0 : (![0, 0] : Fin 2 → Nat) = fun _ => 0 := funext fun a => by fin_cases a <;> rfl

/-! ## What the found pieces read back as: the payloads of the loaded blocks (at any float instance) -/

theorem outs0_A_z (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    (outs0_A c i arg1 harg1 arg2 harg2 arg3 harg3 arg4 harg4 arg5 harg5 arg6 harg6 arg7 harg7 arg8 harg8 arg9 harg9 arg10 harg10 arg11 harg11 hc0 hc1 x0 x1 x2 x3 x4 x5).z = k0_pay4 x0 x1 x2 x3 x4 x5 := by
  unfold outs0_A; dsimp only
  rw [View.read_writes_junk_eq_canon]
  unfold kernelRun0_A
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread,
    View.ld_unit_zero (S := S5000x64) hz_0, View.ld_unit_zero (S := S64x64) hz_0, View.ld_unit_zero (S := S1x64) hz_0]

theorem outs0_A_acc (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    (outs0_A c i arg1 harg1 arg2 harg2 arg3 harg3 arg4 harg4 arg5 harg5 arg6 harg6 arg7 harg7 arg8 harg8 arg9 harg9 arg10 harg10 arg11 harg11 hc0 hc1 x0 x1 x2 x3 x4 x5).acc = k0_pay5 x0 x1 x2 x3 x4 x5 k0_pay2 := by
  unfold outs0_A; dsimp only
  rw [View.read_writes_junk_eq_canon]
  unfold kernelRun0_A
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread,
    View.ld_unit_zero (S := S5000x64) hz_0, View.ld_unit_zero (S := S64x64) hz_0, View.ld_unit_zero (S := S1x64) hz_0]

theorem outs0_A_accq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) :
    (outs0_A c i arg1 harg1 arg2 harg2 arg3 harg3 arg4 harg4 arg5 harg5 arg6 harg6 arg7 harg7 arg8 harg8 arg9 harg9 arg10 harg10 arg11 harg11 hc0 hc1 x0 x1 x2 x3 x4 x5).accq = k0_pay1 (k0_pay4 x0 x1 x2 x3 x4 x5) k0_pay3 := by
  unfold outs0_A; dsimp only
  rw [View.read_writes_junk_eq_canon]
  unfold kernelRun0_A
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread,
    View.ld_unit_zero (S := S5000x64) hz_0, View.ld_unit_zero (S := S64x64) hz_0, View.ld_unit_zero (S := S1x64) hz_0]

theorem outs0_B_z (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).z = k0_pay4 x0 x1 x2 x3 x4 x5 := by
  unfold outs0_B; dsimp only
  rw [View.read_writes_junk_eq_canon]
  unfold kernelRun0_B
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

theorem outs0_B_acc (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).acc = k0_pay5 x0 x1 x2 x3 x4 x5 xs0 := by
  unfold outs0_B; dsimp only
  rw [View.read_writes_junk_eq_canon]
  unfold kernelRun0_B
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

theorem outs0_B_accq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).accq = k0_pay1 (k0_pay4 x0 x1 x2 x3 x4 x5) xs1 := by
  unfold outs0_B; dsimp only
  rw [View.read_writes_junk_eq_canon]
  unfold kernelRun0_B
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

theorem outs0_C_z (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).z = k0_pay4 x0 x1 x2 x3 x4 x5 := by
  unfold outs0_C; dsimp only
  rw [View.read_writes_junk_eq_canon]
  unfold kernelRun0_C
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

theorem outs0_C_acc (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).acc = k0_pay5 x0 x1 x2 x3 x4 x5 xs0 := by
  unfold outs0_C; dsimp only
  rw [View.read_writes_junk_eq_canon]
  unfold kernelRun0_C
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

theorem outs0_C_accq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).accq = k0_pay1 (k0_pay4 x0 x1 x2 x3 x4 x5) xs1 := by
  unfold outs0_C; dsimp only
  rw [View.read_writes_junk_eq_canon]
  unfold kernelRun0_C
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

theorem outs0_C_s (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).s = k0_pay5 x0 x1 x2 x3 x4 x5 xs0 := by
  unfold outs0_C; dsimp only
  rw [View.read_writes_junk_eq_canon]
  unfold kernelRun0_C
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

theorem outs0_C_q (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).q = k0_pay1 (k0_pay4 x0 x1 x2 x3 x4 x5) xs1 := by
  unfold outs0_C; dsimp only
  rw [View.read_writes_junk_eq_canon]
  unfold kernelRun0_C
  dsimp only
  try sl_unfold_run_names
  simp only [View.canon_unit_zero (S := S5000x64) hz_0, View.canon_unit_zero (S := S1x64) hz_0, View.canon_cons_unit_zero (S := S1x64) hz_0,
    View.readCov_unit_zero (S := S1x64) _ hz_0, View.readAt_eq_ld,
    harg1.read_unread, harg2.read_unread, harg3.read_unread, harg4.read_unread, harg5.read_unread, harg6.read_unread, harg10.read_unread, harg11.read_unread,
    View.ld_unit_zero (S := S5000x64) hz_0, View.ld_unit_zero (S := S64x64) hz_0, View.ld_unit_zero (S := S1x64) hz_0]

/-! ## The arithmetic of the payloads, over the extended reals -/

section Exact

open Cert.Spec Cert.Gin Idealize.ShloMosaic.ValueIdx
open scoped BigOperators

variable (V : (c : Dev nD) → (b : Ref sig .tc) → Buf (Elt Ideal) ((c : Thread nD τ).loc b))

/-- The stored block is relu ((h + agg) · W₁ + b₁) · W₂ + b₂ of the loaded blocks. -/
theorem pay4_0 (x0 x1 : Vec Ideal S5000x64 .f32) (x2 : Vec Ideal S64x64 .f32) (x3 : Vec Ideal S1x64 .f32) (x4 : Vec Ideal S64x64 .f32) (x5 : Vec Ideal S1x64 .f32) :
    k0_pay4 (F := Ideal) x0 x1 x2 x3 x4 x5 = preact x0 x1 x2 x3 x4 x5 :=
  Cert.GinBody.block_eq_preact dot_S5000x64_S64x64_S5000x64_1_0_0_1_n_n rfl shapeCasts_S5000x64_S5000x64 shapeCasts_S64x64_S64x64
    shapeCasts_S1x64_S1x64 broadcasts_S1x64_S5000x64 x0 x1 x2 x3 x4 x5

/-- The sum accumulator's new contents: the old ones plus the block's column sums. -/
theorem pay5_0 (x0 x1 : Vec Ideal S5000x64 .f32) (x2 : Vec Ideal S64x64 .f32) (x3 : Vec Ideal S1x64 .f32) (x4 : Vec Ideal S64x64 .f32) (x5 : Vec Ideal S1x64 .f32) (a : Vec Ideal S1x64 .f32) :
    k0_pay5 (F := Ideal) x0 x1 x2 x3 x4 x5 a = fun i => a i + colSum (preact x0 x1 x2 x3 x4 x5) i :=
  (Cert.GinBody.acc_add_colSum reduces_S5000x64_S64 (.inl rfl) rfl shapeCasts_S64_S1x64 shapeCasts_S1x64_S1x64
      (k0_pay4 (F := Ideal) x0 x1 x2 x3 x4 x5) a).trans (by rw [pay4_0])

/-- The sum-of-squares accumulator's new contents: the old ones plus the column sums of the block's squares. -/
theorem pay1_0 (z : FVec Ideal S5000x64 .f32) (a : Vec Ideal S1x64 .f32) :
    k0_pay1 (F := Ideal) z a = fun i => a i + colSumSq z i :=
  Cert.GinBody.acc_add_colSumSq reduces_S5000x64_S64 (.inl rfl) rfl shapeCasts_S64_S1x64 shapeCasts_S1x64_S1x64 z a

theorem pay2_0 : k0_pay2 (F := Ideal) = fun _ => (0 : EReal) := Cert.GinBody.cleared_eq_zero shapeCasts_S1x64_S1x64
theorem pay3_0 : k0_pay3 (F := Ideal) = fun _ => (0 : EReal) := Cert.GinBody.cleared_eq_zero shapeCasts_S1x64_S1x64

/-! ## Which rows a block holds -/

/-- The block indices, decided over the grid: the three row-blocked windows are at block t, the others at block 0. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_6.index t (0 : Fin 2) = t.val
    ∧ win0_6.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Row r of window 0's block at point t is row 5000·t + r of its array. -/
theorem iblk0_0_apply (c : Dev nD) (t : Fin cfg0.N) (r : Fin 5000) (s : Fin 64) (p : Fin 50000) (hp : p.val = t.val * 5000 + r.val) :
    iblk0 V c 0 t (ix2 r s) = V c main_arg0 (ix2 p s) := by
  obtain ⟨e0_0, e0_1, e1_0, e1_1, e6_0, e6_1, e2_0, e2_1, e3_0, e3_1, e4_0, e4_1, e5_0, e5_1, e7_0, e7_1, e8_0, e8_1⟩ := idx_facts0 t
  show V c main_arg0 (((cfg0.win 0).blk t).view.emb (ix2 r s)) = V c main_arg0 (ix2 p s)
  refine congrArg (V c main_arg0) (funext fun a => Fin.ext ?_)
  match a with
  | ⟨0, _⟩ => show win0_0.index t (0 : Fin 2) * 5000 + 1 * r.val = p.val; omega
  | ⟨1, _⟩ => show win0_0.index t (1 : Fin 2) * 64 + 1 * s.val = s.val; omega

/-- Row r of window 1's block at point t is row 5000·t + r of its array. -/
theorem iblk0_1_apply (c : Dev nD) (t : Fin cfg0.N) (r : Fin 5000) (s : Fin 64) (p : Fin 50000) (hp : p.val = t.val * 5000 + r.val) :
    iblk0 V c 1 t (ix2 r s) = V c main_v13 (ix2 p s) := by
  obtain ⟨e0_0, e0_1, e1_0, e1_1, e6_0, e6_1, e2_0, e2_1, e3_0, e3_1, e4_0, e4_1, e5_0, e5_1, e7_0, e7_1, e8_0, e8_1⟩ := idx_facts0 t
  show V c main_v13 (((cfg0.win 1).blk t).view.emb (ix2 r s)) = V c main_v13 (ix2 p s)
  refine congrArg (V c main_v13) (funext fun a => Fin.ext ?_)
  match a with
  | ⟨0, _⟩ => show win0_1.index t (0 : Fin 2) * 5000 + 1 * r.val = p.val; omega
  | ⟨1, _⟩ => show win0_1.index t (1 : Fin 2) * 64 + 1 * s.val = s.val; omega

/-- Window 2's block is its whole array at every point. -/
theorem iblk0_2_eq (c : Dev nD) (t : Fin cfg0.N) : (iblk0 V c 2 t : Mat 64 64) = (V c main_v15 : Mat 64 64) := by
  obtain ⟨e0_0, e0_1, e1_0, e1_1, e6_0, e6_1, e2_0, e2_1, e3_0, e3_1, e4_0, e4_1, e5_0, e5_1, e7_0, e7_1, e8_0, e8_1⟩ := idx_facts0 t
  funext y
  show V c main_v15 (((cfg0.win 2).blk t).view.emb y) = V c main_v15 y
  refine congrArg (V c main_v15) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block is its whole array at every point. -/
theorem iblk0_3_eq (c : Dev nD) (t : Fin cfg0.N) : (iblk0 V c 3 t : Mat 1 64) = (V c main_v18 : Mat 1 64) := by
  obtain ⟨e0_0, e0_1, e1_0, e1_1, e6_0, e6_1, e2_0, e2_1, e3_0, e3_1, e4_0, e4_1, e5_0, e5_1, e7_0, e7_1, e8_0, e8_1⟩ := idx_facts0 t
  funext y
  show V c main_v18 (((cfg0.win 3).blk t).view.emb y) = V c main_v18 y
  refine congrArg (V c main_v18) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block is its whole array at every point. -/
theorem iblk0_4_eq (c : Dev nD) (t : Fin cfg0.N) : (iblk0 V c 4 t : Mat 64 64) = (V c main_v20 : Mat 64 64) := by
  obtain ⟨e0_0, e0_1, e1_0, e1_1, e6_0, e6_1, e2_0, e2_1, e3_0, e3_1, e4_0, e4_1, e5_0, e5_1, e7_0, e7_1, e8_0, e8_1⟩ := idx_facts0 t
  funext y
  show V c main_v20 (((cfg0.win 4).blk t).view.emb y) = V c main_v20 y
  refine congrArg (V c main_v20) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's block is its whole array at every point. -/
theorem iblk0_5_eq (c : Dev nD) (t : Fin cfg0.N) : (iblk0 V c 5 t : Mat 1 64) = (V c main_v23 : Mat 1 64) := by
  obtain ⟨e0_0, e0_1, e1_0, e1_1, e6_0, e6_1, e2_0, e2_1, e3_0, e3_1, e4_0, e4_1, e5_0, e5_1, e7_0, e7_1, e8_0, e8_1⟩ := idx_facts0 t
  funext y
  show V c main_v23 (((cfg0.win 5).blk t).view.emb y) = V c main_v23 y
  refine congrArg (V c main_v23) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The block of z a point computes, and z over all 50000 rows. -/
def zblk0 (c : Dev nD) (t : Fin cfg0.N) : Mat 5000 64 :=
  preact (iblk0 V c 0 t) (iblk0 V c 1 t) (iblk0 V c 2 t) (iblk0 V c 3 t) (iblk0 V c 4 t) (iblk0 V c 5 t)
abbrev zAll0 (c : Dev nD) : Mat 50000 64 := preact (V c main_arg0) (V c main_v13) (V c main_v15) (V c main_v18) (V c main_v20) (V c main_v23)

/-- Row r of the block at point t is row 5000·t + r of z: a row of z reads the same row of h and agg only. -/
theorem zblk0_apply (c : Dev nD) (t : Fin cfg0.N) (r : Fin 5000) (j : Fin 64) (p : Fin 50000) (hp : p.val = t.val * 5000 + r.val) :
    zblk0 V c t (ix2 r j) = zAll0 V c (ix2 p j) := by
  unfold zblk0
  rw [iblk0_2_eq, iblk0_3_eq, iblk0_4_eq, iblk0_5_eq]
  exact Cert.GinBody.preact_rows _ _ _ _ _ _ _ _ r p j (fun s => iblk0_0_apply V c t r s p hp) (fun s => iblk0_1_apply V c t r s p hp)

/-! ## What each point leaves, in closed form -/

theorem outsAt0_z (c : Dev nD) (t : Fin cfg0.N) : (outsAt0 V c t.val t.isLt).z = zblk0 V c t := by
  by_cases h0 : t.val = 0
  · rw [outsAt0_A V c t h0]
    exact (outs0_A_z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t)).trans (pay4_0 (iblk0 V c 0 t) (iblk0 V c 1 t) (iblk0 V c 2 t) (iblk0 V c 3 t) (iblk0 V c 4 t) (iblk0 V c 5 t))
  · by_cases h1 : t.val = 9
    · rw [outsAt0_C V c t h0 h1]
      exact (outs0_C_z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans (pay4_0 (iblk0 V c 0 t) (iblk0 V c 1 t) (iblk0 V c 2 t) (iblk0 V c 3 t) (iblk0 V c 4 t) (iblk0 V c 5 t))
    · rw [outsAt0_B V c t h0 h1]
      exact (outs0_B_z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans (pay4_0 (iblk0 V c 0 t) (iblk0 V c 1 t) (iblk0 V c 2 t) (iblk0 V c 3 t) (iblk0 V c 4 t) (iblk0 V c 5 t))

/-- After the first point the accumulators hold the first block's column sums (they were cleared first). -/
theorem acc_first0 (c : Dev nD) (t : Fin cfg0.N) (h0 : t.val = 0) :
    (outsAt0 V c t.val t.isLt).acc = (fun i => colSum (zblk0 V c t) i)
    ∧ (outsAt0 V c t.val t.isLt).accq = (fun i => colSumSq (zblk0 V c t) i) := by
  rw [outsAt0_A V c t h0]
  constructor
  · refine (outs0_A_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t)).trans ((pay5_0 (iblk0 V c 0 t) (iblk0 V c 1 t) (iblk0 V c 2 t) (iblk0 V c 3 t) (iblk0 V c 4 t) (iblk0 V c 5 t) _).trans ?_)
    funext i; rw [pay2_0]; exact zero_add _
  · refine (outs0_A_accq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t)).trans ((pay1_0 _ _).trans ?_)
    funext i; rw [pay3_0, pay4_0]; exact zero_add _

/-- After a later point they hold what the point before left plus this block's column sums. -/
theorem acc_step0 (c : Dev nD) (t : Fin cfg0.N) (h0 : ¬t.val = 0) :
    (outsAt0 V c t.val t.isLt).acc = (fun i => (outsAt0 V c (t.val - 1) (Nat.lt_of_le_of_lt (Nat.sub_le _ _) t.isLt)).acc i + colSum (zblk0 V c t) i)
    ∧ (outsAt0 V c t.val t.isLt).accq = (fun i => (outsAt0 V c (t.val - 1) (Nat.lt_of_le_of_lt (Nat.sub_le _ _) t.isLt)).accq i + colSumSq (zblk0 V c t) i) := by
  by_cases h1 : t.val = 9
  · rw [outsAt0_C V c t h0 h1]
    exact ⟨(outs0_C_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans (pay5_0 (iblk0 V c 0 t) (iblk0 V c 1 t) (iblk0 V c 2 t) (iblk0 V c 3 t) (iblk0 V c 4 t) (iblk0 V c 5 t) _),
      (outs0_C_accq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans ((pay1_0 _ _).trans (by rw [pay4_0]; rfl))⟩
  · rw [outsAt0_B V c t h0 h1]
    exact ⟨(outs0_B_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans (pay5_0 (iblk0 V c 0 t) (iblk0 V c 1 t) (iblk0 V c 2 t) (iblk0 V c 3 t) (iblk0 V c 4 t) (iblk0 V c 5 t) _),
      (outs0_B_accq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans ((pay1_0 _ _).trans (by rw [pay4_0]; rfl))⟩

/-- At the last point the two sum outputs are copies of the accumulators. -/
theorem last_sq0 (c : Dev nD) (t : Fin cfg0.N) (h0 : ¬t.val = 0) (h1 : t.val = 9) :
    (outsAt0 V c t.val t.isLt).s = (outsAt0 V c t.val t.isLt).acc ∧ (outsAt0 V c t.val t.isLt).q = (outsAt0 V c t.val t.isLt).accq := by
  rw [outsAt0_C V c t h0 h1]
  exact ⟨(outs0_C_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans (outs0_C_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).symm,
    (outs0_C_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).trans (outs0_C_accq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).acc (outsAt0 V c (t.val - 1) (Nat.lt_of_le_of_lt (Nat.sub_le _ _) t.isLt)).accq).symm⟩

/-- So after point n they hold the column sums of the blocks 0..n, added in order. -/
theorem acc_closed0 (c : Dev nD) : ∀ (n : ℕ) (hn : n < cfg0.N),
    (outsAt0 V c n hn).acc = (fun i => ∑ s ∈ Finset.range (n + 1), if h : s < cfg0.N then colSum (zblk0 V c ⟨s, h⟩) i else 0)
    ∧ (outsAt0 V c n hn).accq = (fun i => ∑ s ∈ Finset.range (n + 1), if h : s < cfg0.N then colSumSq (zblk0 V c ⟨s, h⟩) i else 0)
  | 0, hn => by
    obtain ⟨ha, hq⟩ := acc_first0 V c ⟨0, hn⟩ rfl
    refine ⟨ha.trans ?_, hq.trans ?_⟩ <;> funext i <;> rw [Finset.sum_range_one, dif_pos hn]
  | n + 1, hn => by
    obtain ⟨ha, hq⟩ := acc_step0 V c ⟨n + 1, hn⟩ (Nat.succ_ne_zero n)
    obtain ⟨iha, ihq⟩ := acc_closed0 c n (Nat.lt_of_succ_lt hn)
    refine ⟨ha.trans ?_, hq.trans ?_⟩
    · funext i; rw [Finset.sum_range_succ, dif_pos hn]
      exact congrArg (· + colSum (zblk0 V c ⟨n + 1, hn⟩) i) (congrFun iha i)
    · funext i; rw [Finset.sum_range_succ, dif_pos hn]
      exact congrArg (· + colSumSq (zblk0 V c ⟨n + 1, hn⟩) i) (congrFun ihq i)

/-- The sum over the points in order is the sum over the grid. -/
theorem sum_range_fin0 (f : Fin cfg0.N → EReal) :
    (∑ s ∈ Finset.range (9 + 1), if h : s < cfg0.N then f ⟨s, h⟩ else 0) = ∑ t : Fin cfg0.N, f t := by
  have e : (9 + 1 : ℕ) = cfg0.N := N_0.symm
  rw [e, ← Fin.sum_univ_eq_sum_range (fun s => if h : s < cfg0.N then f ⟨s, h⟩ else 0) cfg0.N]
  exact Finset.sum_congr rfl fun t _ => dif_pos t.isLt

/-- After the last point the accumulators hold the column sums of z and of its squares over all 50000 rows: the
    rows are the ten blocks' rows, and the order of a sum of extended reals does not matter. -/
theorem acc_total0 (c : Dev nD) (t : Fin cfg0.N) (h9 : t.val = 9) :
    (outsAt0 V c t.val t.isLt).acc = colSum (zAll0 V c) ∧ (outsAt0 V c t.val t.isLt).accq = colSumSq (zAll0 V c) := by
  have hN : cfg0.N = 10 := N_0
  obtain ⟨n, hn⟩ := t
  dsimp only at h9
  subst h9
  obtain ⟨ha, hq⟩ := acc_closed0 V c 9 hn
  refine ⟨ha.trans ?_, hq.trans ?_⟩
  · funext i
    obtain ⟨u, j, rfl⟩ : ∃ (u : Fin 1) (j : Fin 64), i = ix2 u j := ⟨i 0, i 1, eq_ix2 i⟩
    refine (sum_range_fin0 (fun t => colSum (zblk0 V c t) (ix2 u j))).trans ?_
    rw [colSum_apply, Cert.GinBody.sum_rows_blocks (m := cfg0.N) (n := 5000) (by rw [hN]) (fun p => zAll0 V c (ix2 p j))]
    refine Finset.sum_congr rfl fun t _ => ?_
    rw [colSum_apply]
    exact Finset.sum_congr rfl fun r _ => zblk0_apply V c t r j _ (by rfl)
  · funext i
    obtain ⟨u, j, rfl⟩ : ∃ (u : Fin 1) (j : Fin 64), i = ix2 u j := ⟨i 0, i 1, eq_ix2 i⟩
    refine (sum_range_fin0 (fun t => colSumSq (zblk0 V c t) (ix2 u j))).trans ?_
    rw [colSumSq_apply, Cert.GinBody.sum_rows_blocks (m := cfg0.N) (n := 5000) (by rw [hN]) (fun p => zAll0 V c (ix2 p j) * zAll0 V c (ix2 p j))]
    refine Finset.sum_congr rfl fun t _ => ?_
    rw [colSumSq_apply]
    exact Finset.sum_congr rfl fun r _ => congrArg (fun x => x * x) (zblk0_apply V c t r j _ (by rfl))

/-! ## The three output arrays after the region -/

theorem mem_blk0_6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v30_0).slice (win0_6.rect t)).set ↔ _
  rw [View.set_slice_whole, Rect.mem_set_unit]
  exact Iff.rfl
theorem mem_blk0_7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v30_1).slice (win0_7.rect t)).set ↔ _
  rw [View.set_slice_whole, Rect.mem_set_unit]
  exact Iff.rfl
theorem mem_blk0_8 (t : Fin cfg0.N) (i : S1x64.Idx) :
    i ∈ ((cfg0.win 8).blk t).view.set ↔ ∀ a : Fin 2, win0_8.index t a * S1x64.size a ≤ (i a).val ∧ (i a).val < win0_8.index t a * S1x64.size a + S1x64.size a := by
  show i ∈ ((View.whole main_v30_2).slice (win0_8.rect t)).set ↔ _
  rw [View.set_slice_whole, Rect.mem_set_unit]
  exact Iff.rfl

/-- The z output after the region: every point writes its block back, the blocks tile the 50000 rows, and each is
    the same rows of relu ((h + agg) · W₁ + b₁) · W₂ + b₂ over the whole arrays. -/
theorem z_array0 (c : Dev nD) : (dat0 (F := Ideal) V c).arrAt 6 cfg0.N = preact (V c main_arg0) (V c main_v13) (V c main_v15) (V c main_v18) (V c main_v20) (V c main_v23) := by
  have hN : cfg0.N = 10 := N_0
  refine (dat0 V c).arrAt_eq_of_cover 6 _ (fun t _ => ?_) (fun i => ?_)
  · obtain ⟨e0_0, e0_1, e1_0, e1_1, e6_0, e6_1, e2_0, e2_1, e3_0, e3_1, e4_0, e4_1, e5_0, e5_1, e7_0, e7_1, e8_0, e8_1⟩ := idx_facts0 t
    show (cfg0.win 6).cut (grid0.coords t) ((dat0 V c).after 6 t) = _
    rw [after0_6, outsAt0_z]
    funext y
    obtain ⟨r, j, rfl⟩ : ∃ (r : Fin 5000) (j : Fin 64), y = ix2 r j := ⟨y 0, y 1, eq_ix2 y⟩
    have hlt : t.val * 5000 + r.val < 50000 := by have := t.isLt; have := r.isLt; omega
    show zblk0 V c t (ix2 r j) = zAll0 V c (((cfg0.win 6).blk t).view.emb (ix2 r j))
    rw [zblk0_apply V c t r j ⟨t.val * 5000 + r.val, hlt⟩ rfl]
    refine congrArg (zAll0 V c) (funext fun a => Fin.ext ?_)
    match a with
    | ⟨0, _⟩ => show t.val * 5000 + r.val = win0_6.index t (0 : Fin 2) * 5000 + 1 * r.val; omega
    | ⟨1, _⟩ => show j.val = win0_6.index t (1 : Fin 2) * 64 + 1 * j.val; omega
  · have hi0 : (i 0).val < 50000 := (i 0).isLt
    have hi1 : (i 1).val < 64 := (i 1).isLt
    have hq : (i 0).val / 5000 < cfg0.N := by omega
    obtain ⟨e0_0, e0_1, e1_0, e1_1, e6_0, e6_1, e2_0, e2_1, e3_0, e3_1, e4_0, e4_1, e5_0, e5_1, e7_0, e7_1, e8_0, e8_1⟩ := idx_facts0 (⟨(i 0).val / 5000, hq⟩ : Fin cfg0.N)
    refine ⟨⟨(i 0).val / 5000, hq⟩, flush0_6 _, ?_⟩
    rw [mem_blk0_6]
    intro a
    match a with
    | ⟨0, _⟩ =>
      show win0_6.index ⟨(i 0).val / 5000, hq⟩ (0 : Fin 2) * 5000 ≤ (i 0).val ∧ (i 0).val < win0_6.index ⟨(i 0).val / 5000, hq⟩ (0 : Fin 2) * 5000 + 5000
      rw [e6_0]; show (i 0).val / 5000 * 5000 ≤ (i 0).val ∧ (i 0).val < (i 0).val / 5000 * 5000 + 5000; omega
    | ⟨1, _⟩ =>
      show win0_6.index ⟨(i 0).val / 5000, hq⟩ (1 : Fin 2) * 64 ≤ (i 1).val ∧ (i 1).val < win0_6.index ⟨(i 0).val / 5000, hq⟩ (1 : Fin 2) * 64 + 64
      omega

/-- The sum output after the region: written back at the last point only, where it was copied from the accumulator,
    which by then holds the sums over all 50000 rows. -/
theorem sum_array0 (c : Dev nD) : (dat0 (F := Ideal) V c).arrAt 7 cfg0.N = colSum (preact (V c main_arg0) (V c main_v13) (V c main_v15) (V c main_v18) (V c main_v20) (V c main_v23)) := by
  have hN : cfg0.N = 10 := N_0
  refine (dat0 V c).arrAt_eq_of_cover 7 _ (fun t hf => ?_) (fun i => ?_)
  · have h9 : t.val = 9 := by have h := (flush0_7 t).mp hf; have := t.isLt; omega
    have h0 : ¬t.val = 0 := by omega
    obtain ⟨e0_0, e0_1, e1_0, e1_1, e6_0, e6_1, e2_0, e2_1, e3_0, e3_1, e4_0, e4_1, e5_0, e5_1, e7_0, e7_1, e8_0, e8_1⟩ := idx_facts0 t
    show (cfg0.win 7).cut (grid0.coords t) ((dat0 V c).after 7 t) = _
    rw [after0_7, (last_sq0 V c t h0 h9).1, (acc_total0 V c t h9).1]
    generalize colSum (zAll0 V c) = G
    funext y
    obtain ⟨u, j, rfl⟩ : ∃ (u : Fin 1) (j : Fin 64), y = ix2 u j := ⟨y 0, y 1, eq_ix2 y⟩
    show G (ix2 u j) = G (((cfg0.win 7).blk t).view.emb (ix2 u j))
    refine congrArg G (funext fun a => Fin.ext ?_)
    match a with
    | ⟨0, _⟩ => show u.val = win0_7.index t (0 : Fin 2) * 1 + 1 * u.val; omega
    | ⟨1, _⟩ => show j.val = win0_7.index t (1 : Fin 2) * 64 + 1 * j.val; omega
  · have hi0 : (i 0).val < 1 := (i 0).isLt
    have hi1 : (i 1).val < 64 := (i 1).isLt
    obtain ⟨e0_0, e0_1, e1_0, e1_1, e6_0, e6_1, e2_0, e2_1, e3_0, e3_1, e4_0, e4_1, e5_0, e5_1, e7_0, e7_1, e8_0, e8_1⟩ := idx_facts0 (⟨9, by omega⟩ : Fin cfg0.N)
    refine ⟨⟨9, by omega⟩, (flush0_7 _).mpr rfl, ?_⟩
    rw [mem_blk0_7]
    intro a
    match a with
    | ⟨0, _⟩ => show win0_7.index ⟨9, _⟩ (0 : Fin 2) * 1 ≤ (i 0).val ∧ (i 0).val < win0_7.index ⟨9, _⟩ (0 : Fin 2) * 1 + 1; omega
    | ⟨1, _⟩ => show win0_7.index ⟨9, _⟩ (1 : Fin 2) * 64 ≤ (i 1).val ∧ (i 1).val < win0_7.index ⟨9, _⟩ (1 : Fin 2) * 64 + 64; omega

/-- The sumsq output after the region: written back at the last point only, where it was copied from the accumulator,
    which by then holds the sums over all 50000 rows. -/
theorem sumsq_array0 (c : Dev nD) : (dat0 (F := Ideal) V c).arrAt 8 cfg0.N = colSumSq (preact (V c main_arg0) (V c main_v13) (V c main_v15) (V c main_v18) (V c main_v20) (V c main_v23)) := by
  have hN : cfg0.N = 10 := N_0
  refine (dat0 V c).arrAt_eq_of_cover 8 _ (fun t hf => ?_) (fun i => ?_)
  · have h9 : t.val = 9 := by have h := (flush0_8 t).mp hf; have := t.isLt; omega
    have h0 : ¬t.val = 0 := by omega
    obtain ⟨e0_0, e0_1, e1_0, e1_1, e6_0, e6_1, e2_0, e2_1, e3_0, e3_1, e4_0, e4_1, e5_0, e5_1, e7_0, e7_1, e8_0, e8_1⟩ := idx_facts0 t
    show (cfg0.win 8).cut (grid0.coords t) ((dat0 V c).after 8 t) = _
    rw [after0_8, (last_sq0 V c t h0 h9).2, (acc_total0 V c t h9).2]
    generalize colSumSq (zAll0 V c) = G
    funext y
    obtain ⟨u, j, rfl⟩ : ∃ (u : Fin 1) (j : Fin 64), y = ix2 u j := ⟨y 0, y 1, eq_ix2 y⟩
    show G (ix2 u j) = G (((cfg0.win 8).blk t).view.emb (ix2 u j))
    refine congrArg G (funext fun a => Fin.ext ?_)
    match a with
    | ⟨0, _⟩ => show u.val = win0_8.index t (0 : Fin 2) * 1 + 1 * u.val; omega
    | ⟨1, _⟩ => show j.val = win0_8.index t (1 : Fin 2) * 64 + 1 * j.val; omega
  · have hi0 : (i 0).val < 1 := (i 0).isLt
    have hi1 : (i 1).val < 64 := (i 1).isLt
    obtain ⟨e0_0, e0_1, e1_0, e1_1, e6_0, e6_1, e2_0, e2_1, e3_0, e3_1, e4_0, e4_1, e5_0, e5_1, e7_0, e7_1, e8_0, e8_1⟩ := idx_facts0 (⟨9, by omega⟩ : Fin cfg0.N)
    refine ⟨⟨9, by omega⟩, (flush0_8 _).mpr rfl, ?_⟩
    rw [mem_blk0_8]
    intro a
    match a with
    | ⟨0, _⟩ => show win0_8.index ⟨9, _⟩ (0 : Fin 2) * 1 ≤ (i 0).val ∧ (i 0).val < win0_8.index ⟨9, _⟩ (0 : Fin 2) * 1 + 1; omega
    | ⟨1, _⟩ => show win0_8.index ⟨9, _⟩ (1 : Fin 2) * 64 ≤ (i 1).val ∧ (i 1).val < win0_8.index ⟨9, _⟩ (1 : Fin 2) * 64 + 64; omega

end Exact

end Cert.KernelIdeal.Hand

end
-- ==== Proof.KI.ValB1.lean ====
/- Region 1 of the program's @main at the ideal model: what its output array holds when the region ends.
   With Z the 50000x64 array of window 0 and MU, VAR, G, BT the 1x64 arrays of windows 1–4, as the
   region finds them, the output array ends at
       max ((Z r j − MU j) · rsqrt (VAR j + ε) · G j + BT j) 0        at row r, column j,
   with ε the constant the program prints. Three steps: the body's pointwise function read at one index
   of a block; the blocks read as parts of the arrays (point t owns rows 5000 t … 5000 t + 4999 of Z and
   of the output, and the whole of each one-row array); and the ten output blocks cover the array, row r
   lying in the block of point r / 5000. -/
import proofs.«135128_j52475910423111_1_alg».proof.Proof.KI.StageB1
import proofs.«135128_j52475910423111_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Spec Cert.Gin

/-! ## The body's function at one index -/

set_option maxHeartbeats 400000 in
/-- Entry (p, q) of what the body stores, from the five values it loaded: the shape casts are to the
    same shape, each one-row operand is read at column q whatever the row p, the arithmetic is the
    extended reals', and the closing maximum is against the zero word, which is 0. -/
theorem pay1_at (z : Vec Ideal S5000x64 .f32) (mean var scale shift : Vec Ideal S1x64 .f32) (p : Fin 5000) (q : Fin 64) :
    k1_pay1 mean var z scale shift (ix2 p q)
      = max ((z (ix2 p q) - mean (ix2 (0 : Fin 1) q)) * Ideal.rsqrt (var (ix2 (0 : Fin 1) q) + Ideal.ofBits .f32 0x3727C5AC#32) * scale (ix2 (0 : Fin 1) q)
          + shift (ix2 (0 : Fin 1) q)) 0 := by
  unfold k1_pay1
  simp only [maximumf_apply, addf_apply, mulf_apply, subf_apply, shapeCast_self]
  rw [broadcastTo_1b_ab_apply, broadcastTo_1b_ab_apply, broadcastTo_1b_ab_apply, broadcastTo_1b_ab_apply]
  show max ((z (ix2 p q) - mean (ix2 (0 : Fin 1) q)) * Ideal.rsqrt (var (ix2 (0 : Fin 1) q) + Ideal.ofBits .f32 0x3727C5AC#32)
      * scale (ix2 (0 : Fin 1) q) + shift (ix2 (0 : Fin 1) q)) (Ideal.ofBits .f32 0x00000000#32) = _
  rw [Ideal.ofBits_zero_f32]

/-! ## The blocks as parts of the arrays -/

-- what every TensorCore buffer holds when the region is entered, at the ideal model
variable (V : (c : Dev nD) → (b : Ref sig .tc) → Buf (Elt Ideal) ((c : Thread nD τ).loc b))

theorem zeroOff1 : (![0, 0] : Fin 2 → Nat) = fun _ => 0 := funext fun a => by fin_cases a <;> rfl

/-- The windows' block indices at grid point t, decided over the ten points: windows 0 and 5 are at
    block row t, column 0; windows 1–4 stay at block (0, 0). -/
theorem idx1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- There are ten grid points. -/
theorem point_lt1 (t : Fin cfg1.N) : t.val < 10 := lt_of_lt_of_eq t.isLt N_1

/-- The region's result as one function of the five arrays it reads. -/
abbrev result1 (c : Dev nD) : Mat 50000 64 :=
  relu (bnApply (Ideal.ofBits .f32 0x3727C5AC#32) (V c (Pipeline.arrRef spec1 0)) (V c (Pipeline.arrRef spec1 1))
    (V c (Pipeline.arrRef spec1 2)) (V c (Pipeline.arrRef spec1 3)) (V c (Pipeline.arrRef spec1 4)))

set_option maxHeartbeats 400000 in
/-- Entry (p, q) of window 0's block at point t is entry (5000 t + p, q) of its array. -/
theorem zblk1_at (c : Dev nD) (t : Fin cfg1.N) (p : Fin 5000) (q : Fin 64) (r : Fin 50000) (hr : r.val = 5000 * t.val + p.val) :
    (iblk1 V c 0 t : Vec Ideal S5000x64 .f32) (ix2 p q) = (V c (Pipeline.arrRef spec1 0) : Mat 50000 64) (ix2 r q) := by
  obtain ⟨h0, h1, -⟩ := idx1 t
  unfold iblk1
  rw [View.read_apply]
  show (V c (Pipeline.arrRef spec1 0) : Mat 50000 64) (((cfg1.win 0).blk t).view.emb (ix2 p q)) = _
  congr 1
  funext a; apply Fin.ext
  match a with
  | ⟨0, _⟩ => show win1_0.index t (0 : Fin 2) * 5000 + 1 * p.val = r.val; omega
  | ⟨1, _⟩ => show win1_0.index t (1 : Fin 2) * 64 + 1 * q.val = q.val; omega

/-- Each one-row window's block, at any point, is its whole array. -/
theorem rowblk1_1_at (c : Dev nD) (t : Fin cfg1.N) (q : Fin 64) :
    (iblk1 V c 1 t : Vec Ideal S1x64 .f32) (ix2 (0 : Fin 1) q) = (V c (Pipeline.arrRef spec1 1) : Mat 1 64) (ix2 (0 : Fin 1) q) := by
  have h0 : win1_1.index t (0 : Fin 2) = 0 := (idx1 t).2.2.2.2.1
  have h1 : win1_1.index t (1 : Fin 2) = 0 := (idx1 t).2.2.2.2.2.1
  unfold iblk1
  rw [View.read_apply]
  show (V c (Pipeline.arrRef spec1 1) : Mat 1 64) (((cfg1.win 1).blk t).view.emb (ix2 (0 : Fin 1) q)) = _
  congr 1
  funext a; apply Fin.ext
  match a with
  | ⟨0, _⟩ => show win1_1.index t (0 : Fin 2) * 1 + 1 * ((0 : Fin 1) : ℕ) = ((0 : Fin 1) : ℕ); rw [h0]; rfl
  | ⟨1, _⟩ => show win1_1.index t (1 : Fin 2) * 64 + 1 * q.val = q.val; rw [h1]; omega

theorem rowblk1_2_at (c : Dev nD) (t : Fin cfg1.N) (q : Fin 64) :
    (iblk1 V c 2 t : Vec Ideal S1x64 .f32) (ix2 (0 : Fin 1) q) = (V c (Pipeline.arrRef spec1 2) : Mat 1 64) (ix2 (0 : Fin 1) q) := by
  have h0 : win1_2.index t (0 : Fin 2) = 0 := (idx1 t).2.2.2.2.2.2.1
  have h1 : win1_2.index t (1 : Fin 2) = 0 := (idx1 t).2.2.2.2.2.2.2.1
  unfold iblk1
  rw [View.read_apply]
  show (V c (Pipeline.arrRef spec1 2) : Mat 1 64) (((cfg1.win 2).blk t).view.emb (ix2 (0 : Fin 1) q)) = _
  congr 1
  funext a; apply Fin.ext
  match a with
  | ⟨0, _⟩ => show win1_2.index t (0 : Fin 2) * 1 + 1 * ((0 : Fin 1) : ℕ) = ((0 : Fin 1) : ℕ); rw [h0]; rfl
  | ⟨1, _⟩ => show win1_2.index t (1 : Fin 2) * 64 + 1 * q.val = q.val; rw [h1]; omega

theorem rowblk1_3_at (c : Dev nD) (t : Fin cfg1.N) (q : Fin 64) :
    (iblk1 V c 3 t : Vec Ideal S1x64 .f32) (ix2 (0 : Fin 1) q) = (V c (Pipeline.arrRef spec1 3) : Mat 1 64) (ix2 (0 : Fin 1) q) := by
  have h0 : win1_3.index t (0 : Fin 2) = 0 := (idx1 t).2.2.2.2.2.2.2.2.1
  have h1 : win1_3.index t (1 : Fin 2) = 0 := (idx1 t).2.2.2.2.2.2.2.2.2.1
  unfold iblk1
  rw [View.read_apply]
  show (V c (Pipeline.arrRef spec1 3) : Mat 1 64) (((cfg1.win 3).blk t).view.emb (ix2 (0 : Fin 1) q)) = _
  congr 1
  funext a; apply Fin.ext
  match a with
  | ⟨0, _⟩ => show win1_3.index t (0 : Fin 2) * 1 + 1 * ((0 : Fin 1) : ℕ) = ((0 : Fin 1) : ℕ); rw [h0]; rfl
  | ⟨1, _⟩ => show win1_3.index t (1 : Fin 2) * 64 + 1 * q.val = q.val; rw [h1]; omega

theorem rowblk1_4_at (c : Dev nD) (t : Fin cfg1.N) (q : Fin 64) :
    (iblk1 V c 4 t : Vec Ideal S1x64 .f32) (ix2 (0 : Fin 1) q) = (V c (Pipeline.arrRef spec1 4) : Mat 1 64) (ix2 (0 : Fin 1) q) := by
  have h0 : win1_4.index t (0 : Fin 2) = 0 := (idx1 t).2.2.2.2.2.2.2.2.2.2.1
  have h1 : win1_4.index t (1 : Fin 2) = 0 := (idx1 t).2.2.2.2.2.2.2.2.2.2.2
  unfold iblk1
  rw [View.read_apply]
  show (V c (Pipeline.arrRef spec1 4) : Mat 1 64) (((cfg1.win 4).blk t).view.emb (ix2 (0 : Fin 1) q)) = _
  congr 1
  funext a; apply Fin.ext
  match a with
  | ⟨0, _⟩ => show win1_4.index t (0 : Fin 2) * 1 + 1 * ((0 : Fin 1) : ℕ) = ((0 : Fin 1) : ℕ); rw [h0]; rfl
  | ⟨1, _⟩ => show win1_4.index t (1 : Fin 2) * 64 + 1 * q.val = q.val; rw [h1]; omega

/-- Entry (p, q) of the output's block at point t sits at (5000 t + p, q) of the output array. -/
theorem outblk1_emb (t : Fin cfg1.N) (p : Fin 5000) (q : Fin 64) (r : Fin 50000) (hr : r.val = 5000 * t.val + p.val) :
    (((cfg1.win 5).blk t).view.emb (ix2 p q) : S50000x64.Idx) = ix2 r q := by
  obtain ⟨-, -, h0, h1, -⟩ := idx1 t
  funext a; apply Fin.ext
  match a with
  | ⟨0, _⟩ => show win1_5.index t (0 : Fin 2) * 5000 + 1 * p.val = r.val; omega
  | ⟨1, _⟩ => show win1_5.index t (1 : Fin 2) * 64 + 1 * q.val = q.val; omega

/-! ## What a point writes back, and the array at the end -/

set_option maxHeartbeats 400000 in
/-- What point t writes back is block t of `result1`: the one store covers the buffer, the loads read the
    buffers whole, and at entry (p, q) both sides are the same expression in entry (5000 t + p, q) of Z
    and entries (0, q) of the four rows. -/
theorem flushed1_eq (c : Dev nD) (t : Fin cfg1.N) :
    (dat1 (F := Ideal) V c).flushed 5 t = ((cfg1.win 5).blk t).view.read (Elt Ideal) (result1 V c) := by
  show (cfg1.win 5).cut (grid1.coords t) ((dat1 V c).after 5 t) = _
  rw [after1_5]
  unfold normed1
  rw [View.canon_unit_zero zeroOff1]
  simp only [View.ld_unit_zero (S := S5000x64) zeroOff1, View.ld_unit_zero (S := S1x64) zeroOff1]
  funext j
  obtain ⟨p, q, rfl⟩ : ∃ (p : Fin 5000) (q : Fin 64), (j : S5000x64.Idx) = ix2 p q := ⟨j 0, j 1, eq_ix2 j⟩
  have ht := point_lt1 t
  have hr : 5000 * t.val + p.val < 50000 := by have := p.isLt; omega
  show k1_pay1 (iblk1 V c 1 t) (iblk1 V c 2 t) (iblk1 V c 0 t) (iblk1 V c 3 t) (iblk1 V c 4 t) (ix2 p q)
    = result1 V c (((cfg1.win 5).blk t).view.emb (ix2 p q))
  rw [pay1_at, outblk1_emb t p q ⟨_, hr⟩ rfl, zblk1_at V c t p q ⟨_, hr⟩ rfl,
    rowblk1_1_at, rowblk1_2_at, rowblk1_3_at, rowblk1_4_at]
  rfl

/-- Every index of the output array is in the block of a point that writes back: row r is in the block
    of point r / 5000, and every point writes back. -/
theorem covered1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hlt : (i 0).val / 5000 < cfg1.N := by rw [show cfg1.N = 10 from N_1]; omega
  obtain ⟨-, -, h0, h1, -⟩ := idx1 ⟨(i 0).val / 5000, hlt⟩
  refine ⟨⟨(i 0).val / 5000, hlt⟩, flush1_5 _, ?_⟩
  show i ∈ ((View.whole main_v37).slice (win1_5.rect ⟨(i 0).val / 5000, hlt⟩)).set
  rw [View.set_slice_whole, Rect.mem_set_unit]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [h0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    rw [h1]; omega

/-- The output array when the region ends. -/
theorem out1_5 (c : Dev nD) : (dat1 (F := Ideal) V c).arrAt 5 cfg1.N = result1 V c :=
  (dat1 V c).arrAt_eq_of_cover 5 (result1 V c) (fun t _ => flushed1_eq V c t) covered1

/-- The same, with the five arrays under the names the program gives their buffers. -/
theorem normed_array1 (c : Dev nD) : (dat1 (F := Ideal) V c).arrAt 5 cfg1.N =
    Cert.Spec.relu (Cert.Gin.bnApply (Ideal.ofBits .f32 0x3727C5AC#32) (V c main_v30_0) (V c main_v32) (V c main_v36) (V c main_v26) (V c main_v29)) :=
  out1_5 V c

end Cert.KernelIdeal.Hand
-- ==== Proof.KI.ValA2.lean ====
/- The second MLP-and-column-sums call (region 2): what its three output arrays hold after the region, over the
   extended reals. Each point stores the block z = relu ((h + agg) · W₁ + b₁) · W₂ + b₂ of its 5000 rows and adds the
   block's column sums, and the column sums of its squares, into the two accumulators; a row of z reads the same
   row of h and agg only, so the ten blocks are the rows of z over the whole arrays; and the accumulators after the
   last point are the sums over all 50000 rows, because a sum of extended reals may be regrouped block by block. -/
import proofs.«135128_j52475910423111_1_alg».proof.Proof.KI.StageA2
import proofs.«135128_j52475910423111_1_alg».proof.Proof.GinBody
import Idealize.ShloMosaic.Lib.Pipeline.Value

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz_2 : (![0, 0] : Fin 2 → Nat) = fun _ => 0 := funext fun a => by fin_cases a <;> rfl

/-! ## What the found pieces read back as: the payloads of the loaded blocks (at any float instance) -/

theorem outs2_A_z (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    (outs2_A c i arg1 harg1 arg2 harg2 arg3 harg3 arg4 harg4 arg5 harg5 arg6 harg6 arg7 harg7 arg8 harg8 arg9 harg9 arg10 harg10 arg11 harg11 hc0 hc1 x0 x1 x2 x3 x4 x5).z = k2_pay4 x0 x1 x2 x3 x4 x5 := by
  unfold outs2_A; dsimp only
  rw [View.read_writes_junk_eq_canon]
  unfold kernelRun2_A
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread,
    View.ld_unit_zero (S := S5000x64) hz_2, View.ld_unit_zero (S := S64x64) hz_2, View.ld_unit_zero (S := S1x64) hz_2]

theorem outs2_A_acc (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    (outs2_A c i arg1 harg1 arg2 harg2 arg3 harg3 arg4 harg4 arg5 harg5 arg6 harg6 arg7 harg7 arg8 harg8 arg9 harg9 arg10 harg10 arg11 harg11 hc0 hc1 x0 x1 x2 x3 x4 x5).acc = k2_pay5 x0 x1 x2 x3 x4 x5 k2_pay2 := by
  unfold outs2_A; dsimp only
  rw [View.read_writes_junk_eq_canon]
  unfold kernelRun2_A
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread,
    View.ld_unit_zero (S := S5000x64) hz_2, View.ld_unit_zero (S := S64x64) hz_2, View.ld_unit_zero (S := S1x64) hz_2]

theorem outs2_A_accq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) :
    (outs2_A c i arg1 harg1 arg2 harg2 arg3 harg3 arg4 harg4 arg5 harg5 arg6 harg6 arg7 harg7 arg8 harg8 arg9 harg9 arg10 harg10 arg11 harg11 hc0 hc1 x0 x1 x2 x3 x4 x5).accq = k2_pay1 (k2_pay4 x0 x1 x2 x3 x4 x5) k2_pay3 := by
  unfold outs2_A; dsimp only
  rw [View.read_writes_junk_eq_canon]
  unfold kernelRun2_A
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread,
    View.ld_unit_zero (S := S5000x64) hz_2, View.ld_unit_zero (S := S64x64) hz_2, View.ld_unit_zero (S := S1x64) hz_2]

theorem outs2_B_z (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).z = k2_pay4 x0 x1 x2 x3 x4 x5 := by
  unfold outs2_B; dsimp only
  rw [View.read_writes_junk_eq_canon]
  unfold kernelRun2_B
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

theorem outs2_B_acc (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).acc = k2_pay5 x0 x1 x2 x3 x4 x5 xs0 := by
  unfold outs2_B; dsimp only
  rw [View.read_writes_junk_eq_canon]
  unfold kernelRun2_B
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

theorem outs2_B_accq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).accq = k2_pay1 (k2_pay4 x0 x1 x2 x3 x4 x5) xs1 := by
  unfold outs2_B; dsimp only
  rw [View.read_writes_junk_eq_canon]
  unfold kernelRun2_B
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

theorem outs2_C_z (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).z = k2_pay4 x0 x1 x2 x3 x4 x5 := by
  unfold outs2_C; dsimp only
  rw [View.read_writes_junk_eq_canon]
  unfold kernelRun2_C
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

theorem outs2_C_acc (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).acc = k2_pay5 x0 x1 x2 x3 x4 x5 xs0 := by
  unfold outs2_C; dsimp only
  rw [View.read_writes_junk_eq_canon]
  unfold kernelRun2_C
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

theorem outs2_C_accq (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).accq = k2_pay1 (k2_pay4 x0 x1 x2 x3 x4 x5) xs1 := by
  unfold outs2_C; dsimp only
  rw [View.read_writes_junk_eq_canon]
  unfold kernelRun2_C
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

theorem outs2_C_s (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).s = k2_pay5 x0 x1 x2 x3 x4 x5 xs0 := by
  unfold outs2_C; dsimp only
  rw [View.read_writes_junk_eq_canon]
  unfold kernelRun2_C
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

theorem outs2_C_q (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).q = k2_pay1 (k2_pay4 x0 x1 x2 x3 x4 x5) xs1 := by
  unfold outs2_C; dsimp only
  rw [View.read_writes_junk_eq_canon]
  unfold kernelRun2_C
  dsimp only
  try sl_unfold_run_names
  simp only [View.canon_unit_zero (S := S5000x64) hz_2, View.canon_unit_zero (S := S1x64) hz_2, View.canon_cons_unit_zero (S := S1x64) hz_2,
    View.readCov_unit_zero (S := S1x64) _ hz_2, View.readAt_eq_ld,
    harg1.read_unread, harg2.read_unread, harg3.read_unread, harg4.read_unread, harg5.read_unread, harg6.read_unread, harg10.read_unread, harg11.read_unread,
    View.ld_unit_zero (S := S5000x64) hz_2, View.ld_unit_zero (S := S64x64) hz_2, View.ld_unit_zero (S := S1x64) hz_2]

/-! ## The arithmetic of the payloads, over the extended reals -/

section Exact

open Cert.Spec Cert.Gin Idealize.ShloMosaic.ValueIdx
open scoped BigOperators

variable (V : (c : Dev nD) → (b : Ref sig .tc) → Buf (Elt Ideal) ((c : Thread nD τ).loc b))

/-- The stored block is relu ((h + agg) · W₁ + b₁) · W₂ + b₂ of the loaded blocks (here the block of h is first
    viewed at its own shape, which changes nothing). -/
theorem pay4_2 (x0 x1 : Vec Ideal S5000x64 .f32) (x2 : Vec Ideal S64x64 .f32) (x3 : Vec Ideal S1x64 .f32) (x4 : Vec Ideal S64x64 .f32) (x5 : Vec Ideal S1x64 .f32) :
    k2_pay4 (F := Ideal) x0 x1 x2 x3 x4 x5 = preact x0 x1 x2 x3 x4 x5 :=
  (Cert.GinBody.block_eq_preact dot_S5000x64_S64x64_S5000x64_1_0_0_1_n_n rfl shapeCasts_S5000x64_S5000x64 shapeCasts_S64x64_S64x64
    shapeCasts_S1x64_S1x64 broadcasts_S1x64_S5000x64 (shapeCast S5000x64 x0 shapeCasts_S5000x64_S5000x64) x1 x2 x3 x4 x5).trans
    (by rw [shapeCast_self])

/-- The sum accumulator's new contents: the old ones plus the block's column sums. -/
theorem pay5_2 (x0 x1 : Vec Ideal S5000x64 .f32) (x2 : Vec Ideal S64x64 .f32) (x3 : Vec Ideal S1x64 .f32) (x4 : Vec Ideal S64x64 .f32) (x5 : Vec Ideal S1x64 .f32) (a : Vec Ideal S1x64 .f32) :
    k2_pay5 (F := Ideal) x0 x1 x2 x3 x4 x5 a = fun i => a i + colSum (preact x0 x1 x2 x3 x4 x5) i :=
  (Cert.GinBody.acc_add_colSum reduces_S5000x64_S64 (.inl rfl) rfl shapeCasts_S64_S1x64 shapeCasts_S1x64_S1x64
      (k2_pay4 (F := Ideal) x0 x1 x2 x3 x4 x5) a).trans (by rw [pay4_2])

/-- The sum-of-squares accumulator's new contents: the old ones plus the column sums of the block's squares. -/
theorem pay1_2 (z : FVec Ideal S5000x64 .f32) (a : Vec Ideal S1x64 .f32) :
    k2_pay1 (F := Ideal) z a = fun i => a i + colSumSq z i :=
  Cert.GinBody.acc_add_colSumSq reduces_S5000x64_S64 (.inl rfl) rfl shapeCasts_S64_S1x64 shapeCasts_S1x64_S1x64 z a

theorem pay2_2 : k2_pay2 (F := Ideal) = fun _ => (0 : EReal) := Cert.GinBody.cleared_eq_zero shapeCasts_S1x64_S1x64
theorem pay3_2 : k2_pay3 (F := Ideal) = fun _ => (0 : EReal) := Cert.GinBody.cleared_eq_zero shapeCasts_S1x64_S1x64

/-! ## Which rows a block holds -/

/-- The block indices, decided over the grid: the three row-blocked windows are at block t, the others at block 0. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_6.index t (0 : Fin 2) = t.val
    ∧ win2_6.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

/-- Row r of window 0's block at point t is row 5000·t + r of its array. -/
theorem iblk2_0_apply (c : Dev nD) (t : Fin cfg2.N) (r : Fin 5000) (s : Fin 64) (p : Fin 50000) (hp : p.val = t.val * 5000 + r.val) :
    iblk2 V c 0 t (ix2 r s) = V c main_v37 (ix2 p s) := by
  obtain ⟨e0_0, e0_1, e1_0, e1_1, e6_0, e6_1, e2_0, e2_1, e3_0, e3_1, e4_0, e4_1, e5_0, e5_1, e7_0, e7_1, e8_0, e8_1⟩ := idx_facts2 t
  show V c main_v37 (((cfg2.win 0).blk t).view.emb (ix2 r s)) = V c main_v37 (ix2 p s)
  refine congrArg (V c main_v37) (funext fun a => Fin.ext ?_)
  match a with
  | ⟨0, _⟩ => show win2_0.index t (0 : Fin 2) * 5000 + 1 * r.val = p.val; omega
  | ⟨1, _⟩ => show win2_0.index t (1 : Fin 2) * 64 + 1 * s.val = s.val; omega

/-- Row r of window 1's block at point t is row 5000·t + r of its array. -/
theorem iblk2_1_apply (c : Dev nD) (t : Fin cfg2.N) (r : Fin 5000) (s : Fin 64) (p : Fin 50000) (hp : p.val = t.val * 5000 + r.val) :
    iblk2 V c 1 t (ix2 r s) = V c main_v47 (ix2 p s) := by
  obtain ⟨e0_0, e0_1, e1_0, e1_1, e6_0, e6_1, e2_0, e2_1, e3_0, e3_1, e4_0, e4_1, e5_0, e5_1, e7_0, e7_1, e8_0, e8_1⟩ := idx_facts2 t
  show V c main_v47 (((cfg2.win 1).blk t).view.emb (ix2 r s)) = V c main_v47 (ix2 p s)
  refine congrArg (V c main_v47) (funext fun a => Fin.ext ?_)
  match a with
  | ⟨0, _⟩ => show win2_1.index t (0 : Fin 2) * 5000 + 1 * r.val = p.val; omega
  | ⟨1, _⟩ => show win2_1.index t (1 : Fin 2) * 64 + 1 * s.val = s.val; omega

/-- Window 2's block is its whole array at every point. -/
theorem iblk2_2_eq (c : Dev nD) (t : Fin cfg2.N) : (iblk2 V c 2 t : Mat 64 64) = (V c main_v49 : Mat 64 64) := by
  obtain ⟨e0_0, e0_1, e1_0, e1_1, e6_0, e6_1, e2_0, e2_1, e3_0, e3_1, e4_0, e4_1, e5_0, e5_1, e7_0, e7_1, e8_0, e8_1⟩ := idx_facts2 t
  funext y
  show V c main_v49 (((cfg2.win 2).blk t).view.emb y) = V c main_v49 y
  refine congrArg (V c main_v49) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's block is its whole array at every point. -/
theorem iblk2_3_eq (c : Dev nD) (t : Fin cfg2.N) : (iblk2 V c 3 t : Mat 1 64) = (V c main_v52 : Mat 1 64) := by
  obtain ⟨e0_0, e0_1, e1_0, e1_1, e6_0, e6_1, e2_0, e2_1, e3_0, e3_1, e4_0, e4_1, e5_0, e5_1, e7_0, e7_1, e8_0, e8_1⟩ := idx_facts2 t
  funext y
  show V c main_v52 (((cfg2.win 3).blk t).view.emb y) = V c main_v52 y
  refine congrArg (V c main_v52) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Window 4's block is its whole array at every point. -/
theorem iblk2_4_eq (c : Dev nD) (t : Fin cfg2.N) : (iblk2 V c 4 t : Mat 64 64) = (V c main_v54 : Mat 64 64) := by
  obtain ⟨e0_0, e0_1, e1_0, e1_1, e6_0, e6_1, e2_0, e2_1, e3_0, e3_1, e4_0, e4_1, e5_0, e5_1, e7_0, e7_1, e8_0, e8_1⟩ := idx_facts2 t
  funext y
  show V c main_v54 (((cfg2.win 4).blk t).view.emb y) = V c main_v54 y
  refine congrArg (V c main_v54) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Window 5's block is its whole array at every point. -/
theorem iblk2_5_eq (c : Dev nD) (t : Fin cfg2.N) : (iblk2 V c 5 t : Mat 1 64) = (V c main_v57 : Mat 1 64) := by
  obtain ⟨e0_0, e0_1, e1_0, e1_1, e6_0, e6_1, e2_0, e2_1, e3_0, e3_1, e4_0, e4_1, e5_0, e5_1, e7_0, e7_1, e8_0, e8_1⟩ := idx_facts2 t
  funext y
  show V c main_v57 (((cfg2.win 5).blk t).view.emb y) = V c main_v57 y
  refine congrArg (V c main_v57) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- The block of z a point computes, and z over all 50000 rows. -/
def zblk2 (c : Dev nD) (t : Fin cfg2.N) : Mat 5000 64 :=
  preact (iblk2 V c 0 t) (iblk2 V c 1 t) (iblk2 V c 2 t) (iblk2 V c 3 t) (iblk2 V c 4 t) (iblk2 V c 5 t)
abbrev zAll2 (c : Dev nD) : Mat 50000 64 := preact (V c main_v37) (V c main_v47) (V c main_v49) (V c main_v52) (V c main_v54) (V c main_v57)

/-- Row r of the block at point t is row 5000·t + r of z: a row of z reads the same row of h and agg only. -/
theorem zblk2_apply (c : Dev nD) (t : Fin cfg2.N) (r : Fin 5000) (j : Fin 64) (p : Fin 50000) (hp : p.val = t.val * 5000 + r.val) :
    zblk2 V c t (ix2 r j) = zAll2 V c (ix2 p j) := by
  unfold zblk2
  rw [iblk2_2_eq, iblk2_3_eq, iblk2_4_eq, iblk2_5_eq]
  exact Cert.GinBody.preact_rows _ _ _ _ _ _ _ _ r p j (fun s => iblk2_0_apply V c t r s p hp) (fun s => iblk2_1_apply V c t r s p hp)

/-! ## What each point leaves, in closed form -/

theorem outsAt2_z (c : Dev nD) (t : Fin cfg2.N) : (outsAt2 V c t.val t.isLt).z = zblk2 V c t := by
  by_cases h0 : t.val = 0
  · rw [outsAt2_A V c t h0]
    exact (outs2_A_z c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t)).trans (pay4_2 (iblk2 V c 0 t) (iblk2 V c 1 t) (iblk2 V c 2 t) (iblk2 V c 3 t) (iblk2 V c 4 t) (iblk2 V c 5 t))
  · by_cases h1 : t.val = 9
    · rw [outsAt2_C V c t h0 h1]
      exact (outs2_C_z c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans (pay4_2 (iblk2 V c 0 t) (iblk2 V c 1 t) (iblk2 V c 2 t) (iblk2 V c 3 t) (iblk2 V c 4 t) (iblk2 V c 5 t))
    · rw [outsAt2_B V c t h0 h1]
      exact (outs2_B_z c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans (pay4_2 (iblk2 V c 0 t) (iblk2 V c 1 t) (iblk2 V c 2 t) (iblk2 V c 3 t) (iblk2 V c 4 t) (iblk2 V c 5 t))

/-- After the first point the accumulators hold the first block's column sums (they were cleared first). -/
theorem acc_first2 (c : Dev nD) (t : Fin cfg2.N) (h0 : t.val = 0) :
    (outsAt2 V c t.val t.isLt).acc = (fun i => colSum (zblk2 V c t) i)
    ∧ (outsAt2 V c t.val t.isLt).accq = (fun i => colSumSq (zblk2 V c t) i) := by
  rw [outsAt2_A V c t h0]
  constructor
  · refine (outs2_A_acc c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t)).trans ((pay5_2 (iblk2 V c 0 t) (iblk2 V c 1 t) (iblk2 V c 2 t) (iblk2 V c 3 t) (iblk2 V c 4 t) (iblk2 V c 5 t) _).trans ?_)
    funext i; rw [pay2_2]; exact zero_add _
  · refine (outs2_A_accq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t)).trans ((pay1_2 _ _).trans ?_)
    funext i; rw [pay3_2, pay4_2]; exact zero_add _

/-- After a later point they hold what the point before left plus this block's column sums. -/
theorem acc_step2 (c : Dev nD) (t : Fin cfg2.N) (h0 : ¬t.val = 0) :
    (outsAt2 V c t.val t.isLt).acc = (fun i => (outsAt2 V c (t.val - 1) (Nat.lt_of_le_of_lt (Nat.sub_le _ _) t.isLt)).acc i + colSum (zblk2 V c t) i)
    ∧ (outsAt2 V c t.val t.isLt).accq = (fun i => (outsAt2 V c (t.val - 1) (Nat.lt_of_le_of_lt (Nat.sub_le _ _) t.isLt)).accq i + colSumSq (zblk2 V c t) i) := by
  by_cases h1 : t.val = 9
  · rw [outsAt2_C V c t h0 h1]
    exact ⟨(outs2_C_acc c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans (pay5_2 (iblk2 V c 0 t) (iblk2 V c 1 t) (iblk2 V c 2 t) (iblk2 V c 3 t) (iblk2 V c 4 t) (iblk2 V c 5 t) _),
      (outs2_C_accq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans ((pay1_2 _ _).trans (by rw [pay4_2]; rfl))⟩
  · rw [outsAt2_B V c t h0 h1]
    exact ⟨(outs2_B_acc c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans (pay5_2 (iblk2 V c 0 t) (iblk2 V c 1 t) (iblk2 V c 2 t) (iblk2 V c 3 t) (iblk2 V c 4 t) (iblk2 V c 5 t) _),
      (outs2_B_accq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans ((pay1_2 _ _).trans (by rw [pay4_2]; rfl))⟩

/-- At the last point the two sum outputs are copies of the accumulators. -/
theorem last_sq2 (c : Dev nD) (t : Fin cfg2.N) (h0 : ¬t.val = 0) (h1 : t.val = 9) :
    (outsAt2 V c t.val t.isLt).s = (outsAt2 V c t.val t.isLt).acc ∧ (outsAt2 V c t.val t.isLt).q = (outsAt2 V c t.val t.isLt).accq := by
  rw [outsAt2_C V c t h0 h1]
  exact ⟨(outs2_C_s c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans (outs2_C_acc c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).symm,
    (outs2_C_q c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).trans (outs2_C_accq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) _ _ (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).acc (outsAt2 V c (t.val - 1) (Nat.lt_of_le_of_lt (Nat.sub_le _ _) t.isLt)).accq).symm⟩

/-- So after point n they hold the column sums of the blocks 0..n, added in order. -/
theorem acc_closed2 (c : Dev nD) : ∀ (n : ℕ) (hn : n < cfg2.N),
    (outsAt2 V c n hn).acc = (fun i => ∑ s ∈ Finset.range (n + 1), if h : s < cfg2.N then colSum (zblk2 V c ⟨s, h⟩) i else 0)
    ∧ (outsAt2 V c n hn).accq = (fun i => ∑ s ∈ Finset.range (n + 1), if h : s < cfg2.N then colSumSq (zblk2 V c ⟨s, h⟩) i else 0)
  | 0, hn => by
    obtain ⟨ha, hq⟩ := acc_first2 V c ⟨0, hn⟩ rfl
    refine ⟨ha.trans ?_, hq.trans ?_⟩ <;> funext i <;> rw [Finset.sum_range_one, dif_pos hn]
  | n + 1, hn => by
    obtain ⟨ha, hq⟩ := acc_step2 V c ⟨n + 1, hn⟩ (Nat.succ_ne_zero n)
    obtain ⟨iha, ihq⟩ := acc_closed2 c n (Nat.lt_of_succ_lt hn)
    refine ⟨ha.trans ?_, hq.trans ?_⟩
    · funext i; rw [Finset.sum_range_succ, dif_pos hn]
      exact congrArg (· + colSum (zblk2 V c ⟨n + 1, hn⟩) i) (congrFun iha i)
    · funext i; rw [Finset.sum_range_succ, dif_pos hn]
      exact congrArg (· + colSumSq (zblk2 V c ⟨n + 1, hn⟩) i) (congrFun ihq i)

/-- The sum over the points in order is the sum over the grid. -/
theorem sum_range_fin2 (f : Fin cfg2.N → EReal) :
    (∑ s ∈ Finset.range (9 + 1), if h : s < cfg2.N then f ⟨s, h⟩ else 0) = ∑ t : Fin cfg2.N, f t := by
  have e : (9 + 1 : ℕ) = cfg2.N := N_2.symm
  rw [e, ← Fin.sum_univ_eq_sum_range (fun s => if h : s < cfg2.N then f ⟨s, h⟩ else 0) cfg2.N]
  exact Finset.sum_congr rfl fun t _ => dif_pos t.isLt

/-- After the last point the accumulators hold the column sums of z and of its squares over all 50000 rows: the
    rows are the ten blocks' rows, and the order of a sum of extended reals does not matter. -/
theorem acc_total2 (c : Dev nD) (t : Fin cfg2.N) (h9 : t.val = 9) :
    (outsAt2 V c t.val t.isLt).acc = colSum (zAll2 V c) ∧ (outsAt2 V c t.val t.isLt).accq = colSumSq (zAll2 V c) := by
  have hN : cfg2.N = 10 := N_2
  obtain ⟨n, hn⟩ := t
  dsimp only at h9
  subst h9
  obtain ⟨ha, hq⟩ := acc_closed2 V c 9 hn
  refine ⟨ha.trans ?_, hq.trans ?_⟩
  · funext i
    obtain ⟨u, j, rfl⟩ : ∃ (u : Fin 1) (j : Fin 64), i = ix2 u j := ⟨i 0, i 1, eq_ix2 i⟩
    refine (sum_range_fin2 (fun t => colSum (zblk2 V c t) (ix2 u j))).trans ?_
    rw [colSum_apply, Cert.GinBody.sum_rows_blocks (m := cfg2.N) (n := 5000) (by rw [hN]) (fun p => zAll2 V c (ix2 p j))]
    refine Finset.sum_congr rfl fun t _ => ?_
    rw [colSum_apply]
    exact Finset.sum_congr rfl fun r _ => zblk2_apply V c t r j _ (by rfl)
  · funext i
    obtain ⟨u, j, rfl⟩ : ∃ (u : Fin 1) (j : Fin 64), i = ix2 u j := ⟨i 0, i 1, eq_ix2 i⟩
    refine (sum_range_fin2 (fun t => colSumSq (zblk2 V c t) (ix2 u j))).trans ?_
    rw [colSumSq_apply, Cert.GinBody.sum_rows_blocks (m := cfg2.N) (n := 5000) (by rw [hN]) (fun p => zAll2 V c (ix2 p j) * zAll2 V c (ix2 p j))]
    refine Finset.sum_congr rfl fun t _ => ?_
    rw [colSumSq_apply]
    exact Finset.sum_congr rfl fun r _ => congrArg (fun x => x * x) (zblk2_apply V c t r j _ (by rfl))

/-! ## The three output arrays after the region -/

theorem mem_blk2_6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v64_0).slice (win2_6.rect t)).set ↔ _
  rw [View.set_slice_whole, Rect.mem_set_unit]
  exact Iff.rfl
theorem mem_blk2_7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v64_1).slice (win2_7.rect t)).set ↔ _
  rw [View.set_slice_whole, Rect.mem_set_unit]
  exact Iff.rfl
theorem mem_blk2_8 (t : Fin cfg2.N) (i : S1x64.Idx) :
    i ∈ ((cfg2.win 8).blk t).view.set ↔ ∀ a : Fin 2, win2_8.index t a * S1x64.size a ≤ (i a).val ∧ (i a).val < win2_8.index t a * S1x64.size a + S1x64.size a := by
  show i ∈ ((View.whole main_v64_2).slice (win2_8.rect t)).set ↔ _
  rw [View.set_slice_whole, Rect.mem_set_unit]
  exact Iff.rfl

/-- The z output after the region: every point writes its block back, the blocks tile the 50000 rows, and each is
    the same rows of relu ((h + agg) · W₁ + b₁) · W₂ + b₂ over the whole arrays. -/
theorem z_array2 (c : Dev nD) : (dat2 (F := Ideal) V c).arrAt 6 cfg2.N = preact (V c main_v37) (V c main_v47) (V c main_v49) (V c main_v52) (V c main_v54) (V c main_v57) := by
  have hN : cfg2.N = 10 := N_2
  refine (dat2 V c).arrAt_eq_of_cover 6 _ (fun t _ => ?_) (fun i => ?_)
  · obtain ⟨e0_0, e0_1, e1_0, e1_1, e6_0, e6_1, e2_0, e2_1, e3_0, e3_1, e4_0, e4_1, e5_0, e5_1, e7_0, e7_1, e8_0, e8_1⟩ := idx_facts2 t
    show (cfg2.win 6).cut (grid2.coords t) ((dat2 V c).after 6 t) = _
    rw [after2_6, outsAt2_z]
    funext y
    obtain ⟨r, j, rfl⟩ : ∃ (r : Fin 5000) (j : Fin 64), y = ix2 r j := ⟨y 0, y 1, eq_ix2 y⟩
    have hlt : t.val * 5000 + r.val < 50000 := by have := t.isLt; have := r.isLt; omega
    show zblk2 V c t (ix2 r j) = zAll2 V c (((cfg2.win 6).blk t).view.emb (ix2 r j))
    rw [zblk2_apply V c t r j ⟨t.val * 5000 + r.val, hlt⟩ rfl]
    refine congrArg (zAll2 V c) (funext fun a => Fin.ext ?_)
    match a with
    | ⟨0, _⟩ => show t.val * 5000 + r.val = win2_6.index t (0 : Fin 2) * 5000 + 1 * r.val; omega
    | ⟨1, _⟩ => show j.val = win2_6.index t (1 : Fin 2) * 64 + 1 * j.val; omega
  · have hi0 : (i 0).val < 50000 := (i 0).isLt
    have hi1 : (i 1).val < 64 := (i 1).isLt
    have hq : (i 0).val / 5000 < cfg2.N := by omega
    obtain ⟨e0_0, e0_1, e1_0, e1_1, e6_0, e6_1, e2_0, e2_1, e3_0, e3_1, e4_0, e4_1, e5_0, e5_1, e7_0, e7_1, e8_0, e8_1⟩ := idx_facts2 (⟨(i 0).val / 5000, hq⟩ : Fin cfg2.N)
    refine ⟨⟨(i 0).val / 5000, hq⟩, flush2_6 _, ?_⟩
    rw [mem_blk2_6]
    intro a
    match a with
    | ⟨0, _⟩ =>
      show win2_6.index ⟨(i 0).val / 5000, hq⟩ (0 : Fin 2) * 5000 ≤ (i 0).val ∧ (i 0).val < win2_6.index ⟨(i 0).val / 5000, hq⟩ (0 : Fin 2) * 5000 + 5000
      rw [e6_0]; show (i 0).val / 5000 * 5000 ≤ (i 0).val ∧ (i 0).val < (i 0).val / 5000 * 5000 + 5000; omega
    | ⟨1, _⟩ =>
      show win2_6.index ⟨(i 0).val / 5000, hq⟩ (1 : Fin 2) * 64 ≤ (i 1).val ∧ (i 1).val < win2_6.index ⟨(i 0).val / 5000, hq⟩ (1 : Fin 2) * 64 + 64
      omega

/-- The sum output after the region: written back at the last point only, where it was copied from the accumulator,
    which by then holds the sums over all 50000 rows. -/
theorem sum_array2 (c : Dev nD) : (dat2 (F := Ideal) V c).arrAt 7 cfg2.N = colSum (preact (V c main_v37) (V c main_v47) (V c main_v49) (V c main_v52) (V c main_v54) (V c main_v57)) := by
  have hN : cfg2.N = 10 := N_2
  refine (dat2 V c).arrAt_eq_of_cover 7 _ (fun t hf => ?_) (fun i => ?_)
  · have h9 : t.val = 9 := by have h := (flush2_7 t).mp hf; have := t.isLt; omega
    have h0 : ¬t.val = 0 := by omega
    obtain ⟨e0_0, e0_1, e1_0, e1_1, e6_0, e6_1, e2_0, e2_1, e3_0, e3_1, e4_0, e4_1, e5_0, e5_1, e7_0, e7_1, e8_0, e8_1⟩ := idx_facts2 t
    show (cfg2.win 7).cut (grid2.coords t) ((dat2 V c).after 7 t) = _
    rw [after2_7, (last_sq2 V c t h0 h9).1, (acc_total2 V c t h9).1]
    generalize colSum (zAll2 V c) = G
    funext y
    obtain ⟨u, j, rfl⟩ : ∃ (u : Fin 1) (j : Fin 64), y = ix2 u j := ⟨y 0, y 1, eq_ix2 y⟩
    show G (ix2 u j) = G (((cfg2.win 7).blk t).view.emb (ix2 u j))
    refine congrArg G (funext fun a => Fin.ext ?_)
    match a with
    | ⟨0, _⟩ => show u.val = win2_7.index t (0 : Fin 2) * 1 + 1 * u.val; omega
    | ⟨1, _⟩ => show j.val = win2_7.index t (1 : Fin 2) * 64 + 1 * j.val; omega
  · have hi0 : (i 0).val < 1 := (i 0).isLt
    have hi1 : (i 1).val < 64 := (i 1).isLt
    obtain ⟨e0_0, e0_1, e1_0, e1_1, e6_0, e6_1, e2_0, e2_1, e3_0, e3_1, e4_0, e4_1, e5_0, e5_1, e7_0, e7_1, e8_0, e8_1⟩ := idx_facts2 (⟨9, by omega⟩ : Fin cfg2.N)
    refine ⟨⟨9, by omega⟩, (flush2_7 _).mpr rfl, ?_⟩
    rw [mem_blk2_7]
    intro a
    match a with
    | ⟨0, _⟩ => show win2_7.index ⟨9, _⟩ (0 : Fin 2) * 1 ≤ (i 0).val ∧ (i 0).val < win2_7.index ⟨9, _⟩ (0 : Fin 2) * 1 + 1; omega
    | ⟨1, _⟩ => show win2_7.index ⟨9, _⟩ (1 : Fin 2) * 64 ≤ (i 1).val ∧ (i 1).val < win2_7.index ⟨9, _⟩ (1 : Fin 2) * 64 + 64; omega

/-- The sumsq output after the region: written back at the last point only, where it was copied from the accumulator,
    which by then holds the sums over all 50000 rows. -/
theorem sumsq_array2 (c : Dev nD) : (dat2 (F := Ideal) V c).arrAt 8 cfg2.N = colSumSq (preact (V c main_v37) (V c main_v47) (V c main_v49) (V c main_v52) (V c main_v54) (V c main_v57)) := by
  have hN : cfg2.N = 10 := N_2
  refine (dat2 V c).arrAt_eq_of_cover 8 _ (fun t hf => ?_) (fun i => ?_)
  · have h9 : t.val = 9 := by have h := (flush2_8 t).mp hf; have := t.isLt; omega
    have h0 : ¬t.val = 0 := by omega
    obtain ⟨e0_0, e0_1, e1_0, e1_1, e6_0, e6_1, e2_0, e2_1, e3_0, e3_1, e4_0, e4_1, e5_0, e5_1, e7_0, e7_1, e8_0, e8_1⟩ := idx_facts2 t
    show (cfg2.win 8).cut (grid2.coords t) ((dat2 V c).after 8 t) = _
    rw [after2_8, (last_sq2 V c t h0 h9).2, (acc_total2 V c t h9).2]
    generalize colSumSq (zAll2 V c) = G
    funext y
    obtain ⟨u, j, rfl⟩ : ∃ (u : Fin 1) (j : Fin 64), y = ix2 u j := ⟨y 0, y 1, eq_ix2 y⟩
    show G (ix2 u j) = G (((cfg2.win 8).blk t).view.emb (ix2 u j))
    refine congrArg G (funext fun a => Fin.ext ?_)
    match a with
    | ⟨0, _⟩ => show u.val = win2_8.index t (0 : Fin 2) * 1 + 1 * u.val; omega
    | ⟨1, _⟩ => show j.val = win2_8.index t (1 : Fin 2) * 64 + 1 * j.val; omega
  · have hi0 : (i 0).val < 1 := (i 0).isLt
    have hi1 : (i 1).val < 64 := (i 1).isLt
    obtain ⟨e0_0, e0_1, e1_0, e1_1, e6_0, e6_1, e2_0, e2_1, e3_0, e3_1, e4_0, e4_1, e5_0, e5_1, e7_0, e7_1, e8_0, e8_1⟩ := idx_facts2 (⟨9, by omega⟩ : Fin cfg2.N)
    refine ⟨⟨9, by omega⟩, (flush2_8 _).mpr rfl, ?_⟩
    rw [mem_blk2_8]
    intro a
    match a with
    | ⟨0, _⟩ => show win2_8.index ⟨9, _⟩ (0 : Fin 2) * 1 ≤ (i 0).val ∧ (i 0).val < win2_8.index ⟨9, _⟩ (0 : Fin 2) * 1 + 1; omega
    | ⟨1, _⟩ => show win2_8.index ⟨9, _⟩ (1 : Fin 2) * 64 ≤ (i 1).val ∧ (i 1).val < win2_8.index ⟨9, _⟩ (1 : Fin 2) * 64 + 64; omega

end Exact

end Cert.KernelIdeal.Hand

end
-- ==== Proof.KI.ValB3.lean ====
/- Region 3 of the program's @main at the ideal model: what its output array holds when the region ends.
   With Z the 50000x64 array of window 0 and MU, VAR, G, BT the 1x64 arrays of windows 1–4, as the
   region finds them, the output array ends at
       max ((Z r j − MU j) · rsqrt (VAR j + ε) · G j + BT j) 0        at row r, column j,
   with ε the constant the program prints. Three steps: the body's pointwise function read at one index
   of a block; the blocks read as parts of the arrays (point t owns rows 5000 t … 5000 t + 4999 of Z and
   of the output, and the whole of each one-row array); and the ten output blocks cover the array, row r
   lying in the block of point r / 5000. -/
import proofs.«135128_j52475910423111_1_alg».proof.Proof.KI.StageB3
import proofs.«135128_j52475910423111_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Spec Cert.Gin

/-! ## The body's function at one index -/

set_option maxHeartbeats 400000 in
/-- Entry (p, q) of what the body stores, from the five values it loaded: the shape casts are to the
    same shape, each one-row operand is read at column q whatever the row p, the arithmetic is the
    extended reals', and the closing maximum is against the zero word, which is 0. -/
theorem pay3_at (z : Vec Ideal S5000x64 .f32) (mean var scale shift : Vec Ideal S1x64 .f32) (p : Fin 5000) (q : Fin 64) :
    k3_pay1 mean var z scale shift (ix2 p q)
      = max ((z (ix2 p q) - mean (ix2 (0 : Fin 1) q)) * Ideal.rsqrt (var (ix2 (0 : Fin 1) q) + Ideal.ofBits .f32 0x3727C5AC#32) * scale (ix2 (0 : Fin 1) q)
          + shift (ix2 (0 : Fin 1) q)) 0 := by
  unfold k3_pay1
  simp only [maximumf_apply, addf_apply, mulf_apply, subf_apply, shapeCast_self]
  rw [broadcastTo_1b_ab_apply, broadcastTo_1b_ab_apply, broadcastTo_1b_ab_apply, broadcastTo_1b_ab_apply]
  show max ((z (ix2 p q) - mean (ix2 (0 : Fin 1) q)) * Ideal.rsqrt (var (ix2 (0 : Fin 1) q) + Ideal.ofBits .f32 0x3727C5AC#32)
      * scale (ix2 (0 : Fin 1) q) + shift (ix2 (0 : Fin 1) q)) (Ideal.ofBits .f32 0x00000000#32) = _
  rw [Ideal.ofBits_zero_f32]

/-! ## The blocks as parts of the arrays -/

-- what every TensorCore buffer holds when the region is entered, at the ideal model
variable (V : (c : Dev nD) → (b : Ref sig .tc) → Buf (Elt Ideal) ((c : Thread nD τ).loc b))

theorem zeroOff3 : (![0, 0] : Fin 2 → Nat) = fun _ => 0 := funext fun a => by fin_cases a <;> rfl

/-- The windows' block indices at grid point t, decided over the ten points: windows 0 and 5 are at
    block row t, column 0; windows 1–4 stay at block (0, 0). -/
theorem idx3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- There are ten grid points. -/
theorem point_lt3 (t : Fin cfg3.N) : t.val < 10 := lt_of_lt_of_eq t.isLt N_3

/-- The region's result as one function of the five arrays it reads. -/
abbrev result3 (c : Dev nD) : Mat 50000 64 :=
  relu (bnApply (Ideal.ofBits .f32 0x3727C5AC#32) (V c (Pipeline.arrRef spec3 0)) (V c (Pipeline.arrRef spec3 1))
    (V c (Pipeline.arrRef spec3 2)) (V c (Pipeline.arrRef spec3 3)) (V c (Pipeline.arrRef spec3 4)))

set_option maxHeartbeats 400000 in
/-- Entry (p, q) of window 0's block at point t is entry (5000 t + p, q) of its array. -/
theorem zblk3_at (c : Dev nD) (t : Fin cfg3.N) (p : Fin 5000) (q : Fin 64) (r : Fin 50000) (hr : r.val = 5000 * t.val + p.val) :
    (iblk3 V c 0 t : Vec Ideal S5000x64 .f32) (ix2 p q) = (V c (Pipeline.arrRef spec3 0) : Mat 50000 64) (ix2 r q) := by
  obtain ⟨h0, h1, -⟩ := idx3 t
  unfold iblk3
  rw [View.read_apply]
  show (V c (Pipeline.arrRef spec3 0) : Mat 50000 64) (((cfg3.win 0).blk t).view.emb (ix2 p q)) = _
  congr 1
  funext a; apply Fin.ext
  match a with
  | ⟨0, _⟩ => show win3_0.index t (0 : Fin 2) * 5000 + 1 * p.val = r.val; omega
  | ⟨1, _⟩ => show win3_0.index t (1 : Fin 2) * 64 + 1 * q.val = q.val; omega

/-- Each one-row window's block, at any point, is its whole array. -/
theorem rowblk3_1_at (c : Dev nD) (t : Fin cfg3.N) (q : Fin 64) :
    (iblk3 V c 1 t : Vec Ideal S1x64 .f32) (ix2 (0 : Fin 1) q) = (V c (Pipeline.arrRef spec3 1) : Mat 1 64) (ix2 (0 : Fin 1) q) := by
  have h0 : win3_1.index t (0 : Fin 2) = 0 := (idx3 t).2.2.2.2.1
  have h1 : win3_1.index t (1 : Fin 2) = 0 := (idx3 t).2.2.2.2.2.1
  unfold iblk3
  rw [View.read_apply]
  show (V c (Pipeline.arrRef spec3 1) : Mat 1 64) (((cfg3.win 1).blk t).view.emb (ix2 (0 : Fin 1) q)) = _
  congr 1
  funext a; apply Fin.ext
  match a with
  | ⟨0, _⟩ => show win3_1.index t (0 : Fin 2) * 1 + 1 * ((0 : Fin 1) : ℕ) = ((0 : Fin 1) : ℕ); rw [h0]; rfl
  | ⟨1, _⟩ => show win3_1.index t (1 : Fin 2) * 64 + 1 * q.val = q.val; rw [h1]; omega

theorem rowblk3_2_at (c : Dev nD) (t : Fin cfg3.N) (q : Fin 64) :
    (iblk3 V c 2 t : Vec Ideal S1x64 .f32) (ix2 (0 : Fin 1) q) = (V c (Pipeline.arrRef spec3 2) : Mat 1 64) (ix2 (0 : Fin 1) q) := by
  have h0 : win3_2.index t (0 : Fin 2) = 0 := (idx3 t).2.2.2.2.2.2.1
  have h1 : win3_2.index t (1 : Fin 2) = 0 := (idx3 t).2.2.2.2.2.2.2.1
  unfold iblk3
  rw [View.read_apply]
  show (V c (Pipeline.arrRef spec3 2) : Mat 1 64) (((cfg3.win 2).blk t).view.emb (ix2 (0 : Fin 1) q)) = _
  congr 1
  funext a; apply Fin.ext
  match a with
  | ⟨0, _⟩ => show win3_2.index t (0 : Fin 2) * 1 + 1 * ((0 : Fin 1) : ℕ) = ((0 : Fin 1) : ℕ); rw [h0]; rfl
  | ⟨1, _⟩ => show win3_2.index t (1 : Fin 2) * 64 + 1 * q.val = q.val; rw [h1]; omega

theorem rowblk3_3_at (c : Dev nD) (t : Fin cfg3.N) (q : Fin 64) :
    (iblk3 V c 3 t : Vec Ideal S1x64 .f32) (ix2 (0 : Fin 1) q) = (V c (Pipeline.arrRef spec3 3) : Mat 1 64) (ix2 (0 : Fin 1) q) := by
  have h0 : win3_3.index t (0 : Fin 2) = 0 := (idx3 t).2.2.2.2.2.2.2.2.1
  have h1 : win3_3.index t (1 : Fin 2) = 0 := (idx3 t).2.2.2.2.2.2.2.2.2.1
  unfold iblk3
  rw [View.read_apply]
  show (V c (Pipeline.arrRef spec3 3) : Mat 1 64) (((cfg3.win 3).blk t).view.emb (ix2 (0 : Fin 1) q)) = _
  congr 1
  funext a; apply Fin.ext
  match a with
  | ⟨0, _⟩ => show win3_3.index t (0 : Fin 2) * 1 + 1 * ((0 : Fin 1) : ℕ) = ((0 : Fin 1) : ℕ); rw [h0]; rfl
  | ⟨1, _⟩ => show win3_3.index t (1 : Fin 2) * 64 + 1 * q.val = q.val; rw [h1]; omega

theorem rowblk3_4_at (c : Dev nD) (t : Fin cfg3.N) (q : Fin 64) :
    (iblk3 V c 4 t : Vec Ideal S1x64 .f32) (ix2 (0 : Fin 1) q) = (V c (Pipeline.arrRef spec3 4) : Mat 1 64) (ix2 (0 : Fin 1) q) := by
  have h0 : win3_4.index t (0 : Fin 2) = 0 := (idx3 t).2.2.2.2.2.2.2.2.2.2.1
  have h1 : win3_4.index t (1 : Fin 2) = 0 := (idx3 t).2.2.2.2.2.2.2.2.2.2.2
  unfold iblk3
  rw [View.read_apply]
  show (V c (Pipeline.arrRef spec3 4) : Mat 1 64) (((cfg3.win 4).blk t).view.emb (ix2 (0 : Fin 1) q)) = _
  congr 1
  funext a; apply Fin.ext
  match a with
  | ⟨0, _⟩ => show win3_4.index t (0 : Fin 2) * 1 + 1 * ((0 : Fin 1) : ℕ) = ((0 : Fin 1) : ℕ); rw [h0]; rfl
  | ⟨1, _⟩ => show win3_4.index t (1 : Fin 2) * 64 + 1 * q.val = q.val; rw [h1]; omega

/-- Entry (p, q) of the output's block at point t sits at (5000 t + p, q) of the output array. -/
theorem outblk3_emb (t : Fin cfg3.N) (p : Fin 5000) (q : Fin 64) (r : Fin 50000) (hr : r.val = 5000 * t.val + p.val) :
    (((cfg3.win 5).blk t).view.emb (ix2 p q) : S50000x64.Idx) = ix2 r q := by
  obtain ⟨-, -, h0, h1, -⟩ := idx3 t
  funext a; apply Fin.ext
  match a with
  | ⟨0, _⟩ => show win3_5.index t (0 : Fin 2) * 5000 + 1 * p.val = r.val; omega
  | ⟨1, _⟩ => show win3_5.index t (1 : Fin 2) * 64 + 1 * q.val = q.val; omega

/-! ## What a point writes back, and the array at the end -/

set_option maxHeartbeats 400000 in
/-- What point t writes back is block t of `result3`: the one store covers the buffer, the loads read the
    buffers whole, and at entry (p, q) both sides are the same expression in entry (5000 t + p, q) of Z
    and entries (0, q) of the four rows. -/
theorem flushed3_eq (c : Dev nD) (t : Fin cfg3.N) :
    (dat3 (F := Ideal) V c).flushed 5 t = ((cfg3.win 5).blk t).view.read (Elt Ideal) (result3 V c) := by
  show (cfg3.win 5).cut (grid3.coords t) ((dat3 V c).after 5 t) = _
  rw [after3_5]
  unfold normed3
  rw [View.canon_unit_zero zeroOff3]
  simp only [View.ld_unit_zero (S := S5000x64) zeroOff3, View.ld_unit_zero (S := S1x64) zeroOff3]
  funext j
  obtain ⟨p, q, rfl⟩ : ∃ (p : Fin 5000) (q : Fin 64), (j : S5000x64.Idx) = ix2 p q := ⟨j 0, j 1, eq_ix2 j⟩
  have ht := point_lt3 t
  have hr : 5000 * t.val + p.val < 50000 := by have := p.isLt; omega
  show k3_pay1 (iblk3 V c 1 t) (iblk3 V c 2 t) (iblk3 V c 0 t) (iblk3 V c 3 t) (iblk3 V c 4 t) (ix2 p q)
    = result3 V c (((cfg3.win 5).blk t).view.emb (ix2 p q))
  rw [pay3_at, outblk3_emb t p q ⟨_, hr⟩ rfl, zblk3_at V c t p q ⟨_, hr⟩ rfl,
    rowblk3_1_at, rowblk3_2_at, rowblk3_3_at, rowblk3_4_at]
  rfl

/-- Every index of the output array is in the block of a point that writes back: row r is in the block
    of point r / 5000, and every point writes back. -/
theorem covered3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hlt : (i 0).val / 5000 < cfg3.N := by rw [show cfg3.N = 10 from N_3]; omega
  obtain ⟨-, -, h0, h1, -⟩ := idx3 ⟨(i 0).val / 5000, hlt⟩
  refine ⟨⟨(i 0).val / 5000, hlt⟩, flush3_5 _, ?_⟩
  show i ∈ ((View.whole main_v71).slice (win3_5.rect ⟨(i 0).val / 5000, hlt⟩)).set
  rw [View.set_slice_whole, Rect.mem_set_unit]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [h0]; show (i 0).val / 5000 * 5000 ≤ (i 0).val ∧ (i 0).val < (i 0).val / 5000 * 5000 + 5000; omega
  | ⟨1, _⟩ =>
    show win3_5.index ⟨(i 0).val / 5000, hlt⟩ (1 : Fin 2) * 64 ≤ (i 1).val
      ∧ (i 1).val < win3_5.index ⟨(i 0).val / 5000, hlt⟩ (1 : Fin 2) * 64 + 64
    rw [h1]; omega

/-- The output array when the region ends. -/
theorem out3_5 (c : Dev nD) : (dat3 (F := Ideal) V c).arrAt 5 cfg3.N = result3 V c :=
  (dat3 V c).arrAt_eq_of_cover 5 (result3 V c) (fun t _ => flushed3_eq V c t) covered3

/-- The same, with the five arrays under the names the program gives their buffers. -/
theorem normed_array3 (c : Dev nD) : (dat3 (F := Ideal) V c).arrAt 5 cfg3.N =
    Cert.Spec.relu (Cert.Gin.bnApply (Ideal.ofBits .f32 0x3727C5AC#32) (V c main_v64_0) (V c main_v66) (V c main_v70) (V c main_v60) (V c main_v63)) :=
  out3_5 V c

end Cert.KernelIdeal.Hand
-- ==== Proof.KI.ValA4.lean ====
/- The third MLP-and-column-sums call (region 4): what its three output arrays hold after the region, over the
   extended reals. Each point stores the block z = relu ((h + agg) · W₁ + b₁) · W₂ + b₂ of its 5000 rows and adds the
   block's column sums, and the column sums of its squares, into the two accumulators; a row of z reads the same
   row of h and agg only, so the ten blocks are the rows of z over the whole arrays; and the accumulators after the
   last point are the sums over all 50000 rows, because a sum of extended reals may be regrouped block by block. -/
import proofs.«135128_j52475910423111_1_alg».proof.Proof.KI.StageA4
import proofs.«135128_j52475910423111_1_alg».proof.Proof.GinBody
import Idealize.ShloMosaic.Lib.Pipeline.Value

-- membership in a rectangle as long as a 5000-row block is checked structurally, one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz_4 : (![0, 0] : Fin 2 → Nat) = fun _ => 0 := funext fun a => by fin_cases a <;> rfl

/-! ## What the found pieces read back as: the payloads of the loaded blocks (at any float instance) -/

theorem outs4_A_z (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    (outs4_A c i arg1 harg1 arg2 harg2 arg3 harg3 arg4 harg4 arg5 harg5 arg6 harg6 arg7 harg7 arg8 harg8 arg9 harg9 arg10 harg10 arg11 harg11 hc0 hc1 x0 x1 x2 x3 x4 x5).z = k4_pay4 x0 x1 x2 x3 x4 x5 := by
  unfold outs4_A; dsimp only
  rw [View.read_writes_junk_eq_canon]
  unfold kernelRun4_A
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread,
    View.ld_unit_zero (S := S5000x64) hz_4, View.ld_unit_zero (S := S64x64) hz_4, View.ld_unit_zero (S := S1x64) hz_4]

theorem outs4_A_acc (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    (outs4_A c i arg1 harg1 arg2 harg2 arg3 harg3 arg4 harg4 arg5 harg5 arg6 harg6 arg7 harg7 arg8 harg8 arg9 harg9 arg10 harg10 arg11 harg11 hc0 hc1 x0 x1 x2 x3 x4 x5).acc = k4_pay5 x0 x1 x2 x3 x4 x5 k4_pay2 := by
  unfold outs4_A; dsimp only
  rw [View.read_writes_junk_eq_canon]
  unfold kernelRun4_A
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread,
    View.ld_unit_zero (S := S5000x64) hz_4, View.ld_unit_zero (S := S64x64) hz_4, View.ld_unit_zero (S := S1x64) hz_4]

theorem outs4_A_accq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) :
    (outs4_A c i arg1 harg1 arg2 harg2 arg3 harg3 arg4 harg4 arg5 harg5 arg6 harg6 arg7 harg7 arg8 harg8 arg9 harg9 arg10 harg10 arg11 harg11 hc0 hc1 x0 x1 x2 x3 x4 x5).accq = k4_pay1 (k4_pay4 x0 x1 x2 x3 x4 x5) k4_pay3 := by
  unfold outs4_A; dsimp only
  rw [View.read_writes_junk_eq_canon]
  unfold kernelRun4_A
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread,
    View.ld_unit_zero (S := S5000x64) hz_4, View.ld_unit_zero (S := S64x64) hz_4, View.ld_unit_zero (S := S1x64) hz_4]

theorem outs4_B_z (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).z = k4_pay4 x0 x1 x2 x3 x4 x5 := by
  unfold outs4_B; dsimp only
  rw [View.read_writes_junk_eq_canon]
  unfold kernelRun4_B
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

theorem outs4_B_acc (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).acc = k4_pay5 x0 x1 x2 x3 x4 x5 xs0 := by
  unfold outs4_B; dsimp only
  rw [View.read_writes_junk_eq_canon]
  unfold kernelRun4_B
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

theorem outs4_B_accq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : ¬cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).accq = k4_pay1 (k4_pay4 x0 x1 x2 x3 x4 x5) xs1 := by
  unfold outs4_B; dsimp only
  rw [View.read_writes_junk_eq_canon]
  unfold kernelRun4_B
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

theorem outs4_C_z (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).z = k4_pay4 x0 x1 x2 x3 x4 x5 := by
  unfold outs4_C; dsimp only
  rw [View.read_writes_junk_eq_canon]
  unfold kernelRun4_C
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

theorem outs4_C_acc (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).acc = k4_pay5 x0 x1 x2 x3 x4 x5 xs0 := by
  unfold outs4_C; dsimp only
  rw [View.read_writes_junk_eq_canon]
  unfold kernelRun4_C
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

theorem outs4_C_accq (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).accq = k4_pay1 (k4_pay4 x0 x1 x2 x3 x4 x5) xs1 := by
  unfold outs4_C; dsimp only
  rw [View.read_writes_junk_eq_canon]
  unfold kernelRun4_C
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

theorem outs4_C_s (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).s = k4_pay5 x0 x1 x2 x3 x4 x5 xs0 := by
  unfold outs4_C; dsimp only
  rw [View.read_writes_junk_eq_canon]
  unfold kernelRun4_C
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

theorem outs4_C_q (c : Dev nD) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond4_0 i) (hc1 : cond4_1 i)
    (x0 : Vec F S5000x64 .f32) (x1 : Vec F S5000x64 .f32) (x2 : Vec F S64x64 .f32) (x3 : Vec F S1x64 .f32) (x4 : Vec F S64x64 .f32) (x5 : Vec F S1x64 .f32) (xs0 : Vec F S1x64 .f32) (xs1 : Vec F S1x64 .f32) :
    (outs4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).q = k4_pay1 (k4_pay4 x0 x1 x2 x3 x4 x5) xs1 := by
  unfold outs4_C; dsimp only
  rw [View.read_writes_junk_eq_canon]
  unfold kernelRun4_C
  dsimp only
  try sl_unfold_run_names
  simp only [View.canon_unit_zero (S := S5000x64) hz_4, View.canon_unit_zero (S := S1x64) hz_4, View.canon_cons_unit_zero (S := S1x64) hz_4,
    View.readCov_unit_zero (S := S1x64) _ hz_4, View.readAt_eq_ld,
    harg1.read_unread, harg2.read_unread, harg3.read_unread, harg4.read_unread, harg5.read_unread, harg6.read_unread, harg10.read_unread, harg11.read_unread,
    View.ld_unit_zero (S := S5000x64) hz_4, View.ld_unit_zero (S := S64x64) hz_4, View.ld_unit_zero (S := S1x64) hz_4]

/-! ## The arithmetic of the payloads, over the extended reals -/

section Exact

open Cert.Spec Cert.Gin Idealize.ShloMosaic.ValueIdx
open scoped BigOperators

variable (V : (c : Dev nD) → (b : Ref sig .tc) → Buf (Elt Ideal) ((c : Thread nD τ).loc b))

/-- The stored block is relu ((h + agg) · W₁ + b₁) · W₂ + b₂ of the loaded blocks (here the block of h is first
    viewed at its own shape, which changes nothing). -/
theorem pay4_4 (x0 x1 : Vec Ideal S5000x64 .f32) (x2 : Vec Ideal S64x64 .f32) (x3 : Vec Ideal S1x64 .f32) (x4 : Vec Ideal S64x64 .f32) (x5 : Vec Ideal S1x64 .f32) :
    k4_pay4 (F := Ideal) x0 x1 x2 x3 x4 x5 = preact x0 x1 x2 x3 x4 x5 :=
  (Cert.GinBody.block_eq_preact dot_S5000x64_S64x64_S5000x64_1_0_0_1_n_n rfl shapeCasts_S5000x64_S5000x64 shapeCasts_S64x64_S64x64
    shapeCasts_S1x64_S1x64 broadcasts_S1x64_S5000x64 (shapeCast S5000x64 x0 shapeCasts_S5000x64_S5000x64) x1 x2 x3 x4 x5).trans
    (by rw [shapeCast_self])

/-- The sum accumulator's new contents: the old ones plus the block's column sums. -/
theorem pay5_4 (x0 x1 : Vec Ideal S5000x64 .f32) (x2 : Vec Ideal S64x64 .f32) (x3 : Vec Ideal S1x64 .f32) (x4 : Vec Ideal S64x64 .f32) (x5 : Vec Ideal S1x64 .f32) (a : Vec Ideal S1x64 .f32) :
    k4_pay5 (F := Ideal) x0 x1 x2 x3 x4 x5 a = fun i => a i + colSum (preact x0 x1 x2 x3 x4 x5) i :=
  (Cert.GinBody.acc_add_colSum reduces_S5000x64_S64 (.inl rfl) rfl shapeCasts_S64_S1x64 shapeCasts_S1x64_S1x64
      (k4_pay4 (F := Ideal) x0 x1 x2 x3 x4 x5) a).trans (by rw [pay4_4])

/-- The sum-of-squares accumulator's new contents: the old ones plus the column sums of the block's squares. -/
theorem pay1_4 (z : FVec Ideal S5000x64 .f32) (a : Vec Ideal S1x64 .f32) :
    k4_pay1 (F := Ideal) z a = fun i => a i + colSumSq z i :=
  Cert.GinBody.acc_add_colSumSq reduces_S5000x64_S64 (.inl rfl) rfl shapeCasts_S64_S1x64 shapeCasts_S1x64_S1x64 z a

theorem pay2_4 : k4_pay2 (F := Ideal) = fun _ => (0 : EReal) := Cert.GinBody.cleared_eq_zero shapeCasts_S1x64_S1x64
theorem pay3_4 : k4_pay3 (F := Ideal) = fun _ => (0 : EReal) := Cert.GinBody.cleared_eq_zero shapeCasts_S1x64_S1x64

/-! ## Which rows a block holds -/

/-- The block indices, decided over the grid: the three row-blocked windows are at block t, the others at block 0. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_6.index t (0 : Fin 2) = t.val
    ∧ win4_6.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_7.index t (0 : Fin 2) = 0
    ∧ win4_7.index t (1 : Fin 2) = 0
    ∧ win4_8.index t (0 : Fin 2) = 0
    ∧ win4_8.index t (1 : Fin 2) = 0 :=
  (by decide +kernel : ∀ t : Fin grid4.N, _)

/-- Row r of window 0's block at point t is row 5000·t + r of its array. -/
theorem iblk4_0_apply (c : Dev nD) (t : Fin cfg4.N) (r : Fin 5000) (s : Fin 64) (p : Fin 50000) (hp : p.val = t.val * 5000 + r.val) :
    iblk4 V c 0 t (ix2 r s) = V c main_v71 (ix2 p s) := by
  obtain ⟨e0_0, e0_1, e1_0, e1_1, e6_0, e6_1, e2_0, e2_1, e3_0, e3_1, e4_0, e4_1, e5_0, e5_1, e7_0, e7_1, e8_0, e8_1⟩ := idx_facts4 t
  show V c main_v71 (((cfg4.win 0).blk t).view.emb (ix2 r s)) = V c main_v71 (ix2 p s)
  refine congrArg (V c main_v71) (funext fun a => Fin.ext ?_)
  match a with
  | ⟨0, _⟩ => show win4_0.index t (0 : Fin 2) * 5000 + 1 * r.val = p.val; omega
  | ⟨1, _⟩ => show win4_0.index t (1 : Fin 2) * 64 + 1 * s.val = s.val; omega

/-- Row r of window 1's block at point t is row 5000·t + r of its array. -/
theorem iblk4_1_apply (c : Dev nD) (t : Fin cfg4.N) (r : Fin 5000) (s : Fin 64) (p : Fin 50000) (hp : p.val = t.val * 5000 + r.val) :
    iblk4 V c 1 t (ix2 r s) = V c main_v81 (ix2 p s) := by
  obtain ⟨e0_0, e0_1, e1_0, e1_1, e6_0, e6_1, e2_0, e2_1, e3_0, e3_1, e4_0, e4_1, e5_0, e5_1, e7_0, e7_1, e8_0, e8_1⟩ := idx_facts4 t
  show V c main_v81 (((cfg4.win 1).blk t).view.emb (ix2 r s)) = V c main_v81 (ix2 p s)
  refine congrArg (V c main_v81) (funext fun a => Fin.ext ?_)
  match a with
  | ⟨0, _⟩ => show win4_1.index t (0 : Fin 2) * 5000 + 1 * r.val = p.val; omega
  | ⟨1, _⟩ => show win4_1.index t (1 : Fin 2) * 64 + 1 * s.val = s.val; omega

/-- Window 2's block is its whole array at every point. -/
theorem iblk4_2_eq (c : Dev nD) (t : Fin cfg4.N) : (iblk4 V c 2 t : Mat 64 64) = (V c main_v83 : Mat 64 64) := by
  obtain ⟨e0_0, e0_1, e1_0, e1_1, e6_0, e6_1, e2_0, e2_1, e3_0, e3_1, e4_0, e4_1, e5_0, e5_1, e7_0, e7_1, e8_0, e8_1⟩ := idx_facts4 t
  funext y
  show V c main_v83 (((cfg4.win 2).blk t).view.emb y) = V c main_v83 y
  refine congrArg (V c main_v83) (funext fun a => Fin.ext ?_)
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- Window 3's block is its whole array at every point. -/
theorem iblk4_3_eq (c : Dev nD) (t : Fin cfg4.N) : (iblk4 V c 3 t : Mat 1 64) = (V c main_v86 : Mat 1 64) := by
  obtain ⟨e0_0, e0_1, e1_0, e1_1, e6_0, e6_1, e2_0, e2_1, e3_0, e3_1, e4_0, e4_1, e5_0, e5_1, e7_0, e7_1, e8_0, e8_1⟩ := idx_facts4 t
  funext y
  show V c main_v86 (((cfg4.win 3).blk t).view.emb y) = V c main_v86 y
  refine congrArg (V c main_v86) (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- Window 4's block is its whole array at every point. -/
theorem iblk4_4_eq (c : Dev nD) (t : Fin cfg4.N) : (iblk4 V c 4 t : Mat 64 64) = (V c main_v88 : Mat 64 64) := by
  obtain ⟨e0_0, e0_1, e1_0, e1_1, e6_0, e6_1, e2_0, e2_1, e3_0, e3_1, e4_0, e4_1, e5_0, e5_1, e7_0, e7_1, e8_0, e8_1⟩ := idx_facts4 t
  funext y
  show V c main_v88 (((cfg4.win 4).blk t).view.emb y) = V c main_v88 y
  refine congrArg (V c main_v88) (funext fun a => Fin.ext ?_)
  match a with
  | ⟨0, _⟩ => show win4_4.index t (0 : Fin 2) * 64 + 1 * (y 0).val = (y 0).val; omega
  | ⟨1, _⟩ => show win4_4.index t (1 : Fin 2) * 64 + 1 * (y 1).val = (y 1).val; omega

/-- Window 5's block is its whole array at every point. -/
theorem iblk4_5_eq (c : Dev nD) (t : Fin cfg4.N) : (iblk4 V c 5 t : Mat 1 64) = (V c main_v91 : Mat 1 64) := by
  obtain ⟨e0_0, e0_1, e1_0, e1_1, e6_0, e6_1, e2_0, e2_1, e3_0, e3_1, e4_0, e4_1, e5_0, e5_1, e7_0, e7_1, e8_0, e8_1⟩ := idx_facts4 t
  funext y
  show V c main_v91 (((cfg4.win 5).blk t).view.emb y) = V c main_v91 y
  refine congrArg (V c main_v91) (funext fun a => Fin.ext ?_)
  match a with
  | ⟨0, _⟩ => show win4_5.index t (0 : Fin 2) * 1 + 1 * (y 0).val = (y 0).val; omega
  | ⟨1, _⟩ => show win4_5.index t (1 : Fin 2) * 64 + 1 * (y 1).val = (y 1).val; omega

/-- The block of z a point computes, and z over all 50000 rows. -/
def zblk4 (c : Dev nD) (t : Fin cfg4.N) : Mat 5000 64 :=
  preact (iblk4 V c 0 t) (iblk4 V c 1 t) (iblk4 V c 2 t) (iblk4 V c 3 t) (iblk4 V c 4 t) (iblk4 V c 5 t)
abbrev zAll4 (c : Dev nD) : Mat 50000 64 := preact (V c main_v71) (V c main_v81) (V c main_v83) (V c main_v86) (V c main_v88) (V c main_v91)

/-- Row r of the block at point t is row 5000·t + r of z: a row of z reads the same row of h and agg only. -/
theorem zblk4_apply (c : Dev nD) (t : Fin cfg4.N) (r : Fin 5000) (j : Fin 64) (p : Fin 50000) (hp : p.val = t.val * 5000 + r.val) :
    zblk4 V c t (ix2 r j) = zAll4 V c (ix2 p j) := by
  unfold zblk4
  rw [iblk4_2_eq, iblk4_3_eq, iblk4_4_eq, iblk4_5_eq]
  exact Cert.GinBody.preact_rows _ _ _ _ _ _ _ _ r p j (fun s => iblk4_0_apply V c t r s p hp) (fun s => iblk4_1_apply V c t r s p hp)

/-! ## What each point leaves, in closed form -/

theorem outsAt4_z (c : Dev nD) (t : Fin cfg4.N) : (outsAt4 V c t.val t.isLt).z = zblk4 V c t := by
  by_cases h0 : t.val = 0
  · rw [outsAt4_A V c t h0]
    exact (outs4_A_z c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t)).trans (pay4_4 (iblk4 V c 0 t) (iblk4 V c 1 t) (iblk4 V c 2 t) (iblk4 V c 3 t) (iblk4 V c 4 t) (iblk4 V c 5 t))
  · by_cases h1 : t.val = 9
    · rw [outsAt4_C V c t h0 h1]
      exact (outs4_C_z c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans (pay4_4 (iblk4 V c 0 t) (iblk4 V c 1 t) (iblk4 V c 2 t) (iblk4 V c 3 t) (iblk4 V c 4 t) (iblk4 V c 5 t))
    · rw [outsAt4_B V c t h0 h1]
      exact (outs4_B_z c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans (pay4_4 (iblk4 V c 0 t) (iblk4 V c 1 t) (iblk4 V c 2 t) (iblk4 V c 3 t) (iblk4 V c 4 t) (iblk4 V c 5 t))

/-- After the first point the accumulators hold the first block's column sums (they were cleared first). -/
theorem acc_first4 (c : Dev nD) (t : Fin cfg4.N) (h0 : t.val = 0) :
    (outsAt4 V c t.val t.isLt).acc = (fun i => colSum (zblk4 V c t) i)
    ∧ (outsAt4 V c t.val t.isLt).accq = (fun i => colSumSq (zblk4 V c t) i) := by
  rw [outsAt4_A V c t h0]
  constructor
  · refine (outs4_A_acc c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t)).trans ((pay5_4 (iblk4 V c 0 t) (iblk4 V c 1 t) (iblk4 V c 2 t) (iblk4 V c 3 t) (iblk4 V c 4 t) (iblk4 V c 5 t) _).trans ?_)
    funext i; rw [pay2_4]; exact zero_add _
  · refine (outs4_A_accq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t)).trans ((pay1_4 _ _).trans ?_)
    funext i; rw [pay3_4, pay4_4]; exact zero_add _

/-- After a later point they hold what the point before left plus this block's column sums. -/
theorem acc_step4 (c : Dev nD) (t : Fin cfg4.N) (h0 : ¬t.val = 0) :
    (outsAt4 V c t.val t.isLt).acc = (fun i => (outsAt4 V c (t.val - 1) (Nat.lt_of_le_of_lt (Nat.sub_le _ _) t.isLt)).acc i + colSum (zblk4 V c t) i)
    ∧ (outsAt4 V c t.val t.isLt).accq = (fun i => (outsAt4 V c (t.val - 1) (Nat.lt_of_le_of_lt (Nat.sub_le _ _) t.isLt)).accq i + colSumSq (zblk4 V c t) i) := by
  by_cases h1 : t.val = 9
  · rw [outsAt4_C V c t h0 h1]
    exact ⟨(outs4_C_acc c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans (pay5_4 (iblk4 V c 0 t) (iblk4 V c 1 t) (iblk4 V c 2 t) (iblk4 V c 3 t) (iblk4 V c 4 t) (iblk4 V c 5 t) _),
      (outs4_C_accq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans ((pay1_4 _ _).trans (by rw [pay4_4]; rfl))⟩
  · rw [outsAt4_B V c t h0 h1]
    exact ⟨(outs4_B_acc c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans (pay5_4 (iblk4 V c 0 t) (iblk4 V c 1 t) (iblk4 V c 2 t) (iblk4 V c 3 t) (iblk4 V c 4 t) (iblk4 V c 5 t) _),
      (outs4_B_accq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans ((pay1_4 _ _).trans (by rw [pay4_4]; rfl))⟩

/-- At the last point the two sum outputs are copies of the accumulators. -/
theorem last_sq4 (c : Dev nD) (t : Fin cfg4.N) (h0 : ¬t.val = 0) (h1 : t.val = 9) :
    (outsAt4 V c t.val t.isLt).s = (outsAt4 V c t.val t.isLt).acc ∧ (outsAt4 V c t.val t.isLt).q = (outsAt4 V c t.val t.isLt).accq := by
  rw [outsAt4_C V c t h0 h1]
  exact ⟨(outs4_C_s c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans (outs4_C_acc c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).symm,
    (outs4_C_q c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).trans (outs4_C_accq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).acc (outsAt4 V c (t.val - 1) (Nat.lt_of_le_of_lt (Nat.sub_le _ _) t.isLt)).accq).symm⟩

/-- So after point n they hold the column sums of the blocks 0..n, added in order. -/
theorem acc_closed4 (c : Dev nD) : ∀ (n : ℕ) (hn : n < cfg4.N),
    (outsAt4 V c n hn).acc = (fun i => ∑ s ∈ Finset.range (n + 1), if h : s < cfg4.N then colSum (zblk4 V c ⟨s, h⟩) i else 0)
    ∧ (outsAt4 V c n hn).accq = (fun i => ∑ s ∈ Finset.range (n + 1), if h : s < cfg4.N then colSumSq (zblk4 V c ⟨s, h⟩) i else 0)
  | 0, hn => by
    obtain ⟨ha, hq⟩ := acc_first4 V c ⟨0, hn⟩ rfl
    refine ⟨ha.trans ?_, hq.trans ?_⟩ <;> funext i <;> rw [Finset.sum_range_one, dif_pos hn]
  | n + 1, hn => by
    obtain ⟨ha, hq⟩ := acc_step4 V c ⟨n + 1, hn⟩ (Nat.succ_ne_zero n)
    obtain ⟨iha, ihq⟩ := acc_closed4 c n (Nat.lt_of_succ_lt hn)
    refine ⟨ha.trans ?_, hq.trans ?_⟩
    · funext i; rw [Finset.sum_range_succ, dif_pos hn]
      exact congrArg (· + colSum (zblk4 V c ⟨n + 1, hn⟩) i) (congrFun iha i)
    · funext i; rw [Finset.sum_range_succ, dif_pos hn]
      exact congrArg (· + colSumSq (zblk4 V c ⟨n + 1, hn⟩) i) (congrFun ihq i)

/-- The sum over the points in order is the sum over the grid. -/
theorem sum_range_fin4 (f : Fin cfg4.N → EReal) :
    (∑ s ∈ Finset.range (9 + 1), if h : s < cfg4.N then f ⟨s, h⟩ else 0) = ∑ t : Fin cfg4.N, f t := by
  have e : (9 + 1 : ℕ) = cfg4.N := N_4.symm
  rw [e, ← Fin.sum_univ_eq_sum_range (fun s => if h : s < cfg4.N then f ⟨s, h⟩ else 0) cfg4.N]
  exact Finset.sum_congr rfl fun t _ => dif_pos t.isLt

/-- After the last point the accumulators hold the column sums of z and of its squares over all 50000 rows: the
    rows are the ten blocks' rows, and the order of a sum of extended reals does not matter. -/
theorem acc_total4 (c : Dev nD) (t : Fin cfg4.N) (h9 : t.val = 9) :
    (outsAt4 V c t.val t.isLt).acc = colSum (zAll4 V c) ∧ (outsAt4 V c t.val t.isLt).accq = colSumSq (zAll4 V c) := by
  have hN : cfg4.N = 10 := N_4
  obtain ⟨n, hn⟩ := t
  dsimp only at h9
  subst h9
  obtain ⟨ha, hq⟩ := acc_closed4 V c 9 hn
  refine ⟨ha.trans ?_, hq.trans ?_⟩
  · funext i
    obtain ⟨u, j, rfl⟩ : ∃ (u : Fin 1) (j : Fin 64), i = ix2 u j := ⟨i 0, i 1, eq_ix2 i⟩
    refine (sum_range_fin4 (fun t => colSum (zblk4 V c t) (ix2 u j))).trans ?_
    rw [colSum_apply, Cert.GinBody.sum_rows_blocks (m := cfg4.N) (n := 5000) (by rw [hN]) (fun p => zAll4 V c (ix2 p j))]
    refine Finset.sum_congr rfl fun t _ => ?_
    rw [colSum_apply]
    exact Finset.sum_congr rfl fun r _ => zblk4_apply V c t r j _ (by rfl)
  · funext i
    obtain ⟨u, j, rfl⟩ : ∃ (u : Fin 1) (j : Fin 64), i = ix2 u j := ⟨i 0, i 1, eq_ix2 i⟩
    refine (sum_range_fin4 (fun t => colSumSq (zblk4 V c t) (ix2 u j))).trans ?_
    rw [colSumSq_apply, Cert.GinBody.sum_rows_blocks (m := cfg4.N) (n := 5000) (by rw [hN]) (fun p => zAll4 V c (ix2 p j) * zAll4 V c (ix2 p j))]
    refine Finset.sum_congr rfl fun t _ => ?_
    rw [colSumSq_apply]
    exact Finset.sum_congr rfl fun r _ => congrArg (fun x => x * x) (zblk4_apply V c t r j _ (by rfl))

/-! ## The three output arrays after the region -/

theorem mem_blk4_6 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v98_0).slice (win4_6.rect t)).set ↔ _
  rw [View.set_slice_whole, Rect.mem_set_unit]
  exact Iff.rfl
theorem mem_blk4_7 (t : Fin cfg4.N) (i : S1x64.Idx) :
    i ∈ ((cfg4.win 7).blk t).view.set ↔ ∀ a : Fin 2, win4_7.index t a * S1x64.size a ≤ (i a).val ∧ (i a).val < win4_7.index t a * S1x64.size a + S1x64.size a := by
  show i ∈ ((View.whole main_v98_1).slice (win4_7.rect t)).set ↔ _
  rw [View.set_slice_whole, Rect.mem_set_unit]
  exact Iff.rfl
theorem mem_blk4_8 (t : Fin cfg4.N) (i : S1x64.Idx) :
    i ∈ ((cfg4.win 8).blk t).view.set ↔ ∀ a : Fin 2, win4_8.index t a * S1x64.size a ≤ (i a).val ∧ (i a).val < win4_8.index t a * S1x64.size a + S1x64.size a := by
  show i ∈ ((View.whole main_v98_2).slice (win4_8.rect t)).set ↔ _
  rw [View.set_slice_whole, Rect.mem_set_unit]
  exact Iff.rfl

/-- The z output after the region: every point writes its block back, the blocks tile the 50000 rows, and each is
    the same rows of relu ((h + agg) · W₁ + b₁) · W₂ + b₂ over the whole arrays. -/
theorem z_array4 (c : Dev nD) : (dat4 (F := Ideal) V c).arrAt 6 cfg4.N = preact (V c main_v71) (V c main_v81) (V c main_v83) (V c main_v86) (V c main_v88) (V c main_v91) := by
  have hN : cfg4.N = 10 := N_4
  refine (dat4 V c).arrAt_eq_of_cover 6 _ (fun t _ => ?_) (fun i => ?_)
  · obtain ⟨e0_0, e0_1, e1_0, e1_1, e6_0, e6_1, e2_0, e2_1, e3_0, e3_1, e4_0, e4_1, e5_0, e5_1, e7_0, e7_1, e8_0, e8_1⟩ := idx_facts4 t
    show (cfg4.win 6).cut (grid4.coords t) ((dat4 V c).after 6 t) = _
    rw [after4_6, outsAt4_z]
    funext y
    obtain ⟨r, j, rfl⟩ : ∃ (r : Fin 5000) (j : Fin 64), y = ix2 r j := ⟨y 0, y 1, eq_ix2 y⟩
    have hlt : t.val * 5000 + r.val < 50000 := by have := t.isLt; have := r.isLt; omega
    show zblk4 V c t (ix2 r j) = zAll4 V c (((cfg4.win 6).blk t).view.emb (ix2 r j))
    rw [zblk4_apply V c t r j ⟨t.val * 5000 + r.val, hlt⟩ rfl]
    refine congrArg (zAll4 V c) (funext fun a => Fin.ext ?_)
    match a with
    | ⟨0, _⟩ => show t.val * 5000 + r.val = win4_6.index t (0 : Fin 2) * 5000 + 1 * r.val; omega
    | ⟨1, _⟩ => show j.val = win4_6.index t (1 : Fin 2) * 64 + 1 * j.val; omega
  · have hi0 : (i 0).val < 50000 := (i 0).isLt
    have hi1 : (i 1).val < 64 := (i 1).isLt
    have hq : (i 0).val / 5000 < cfg4.N := by omega
    obtain ⟨e0_0, e0_1, e1_0, e1_1, e6_0, e6_1, e2_0, e2_1, e3_0, e3_1, e4_0, e4_1, e5_0, e5_1, e7_0, e7_1, e8_0, e8_1⟩ := idx_facts4 (⟨(i 0).val / 5000, hq⟩ : Fin cfg4.N)
    refine ⟨⟨(i 0).val / 5000, hq⟩, flush4_6 _, ?_⟩
    rw [mem_blk4_6]
    intro a
    match a with
    | ⟨0, _⟩ =>
      show win4_6.index ⟨(i 0).val / 5000, hq⟩ (0 : Fin 2) * 5000 ≤ (i 0).val ∧ (i 0).val < win4_6.index ⟨(i 0).val / 5000, hq⟩ (0 : Fin 2) * 5000 + 5000
      rw [e6_0]; show (i 0).val / 5000 * 5000 ≤ (i 0).val ∧ (i 0).val < (i 0).val / 5000 * 5000 + 5000; omega
    | ⟨1, _⟩ =>
      show win4_6.index ⟨(i 0).val / 5000, hq⟩ (1 : Fin 2) * 64 ≤ (i 1).val ∧ (i 1).val < win4_6.index ⟨(i 0).val / 5000, hq⟩ (1 : Fin 2) * 64 + 64
      omega

/-- The sum output after the region: written back at the last point only, where it was copied from the accumulator,
    which by then holds the sums over all 50000 rows. -/
theorem sum_array4 (c : Dev nD) : (dat4 (F := Ideal) V c).arrAt 7 cfg4.N = colSum (preact (V c main_v71) (V c main_v81) (V c main_v83) (V c main_v86) (V c main_v88) (V c main_v91)) := by
  have hN : cfg4.N = 10 := N_4
  refine (dat4 V c).arrAt_eq_of_cover 7 _ (fun t hf => ?_) (fun i => ?_)
  · have h9 : t.val = 9 := by have h := (flush4_7 t).mp hf; have := t.isLt; omega
    have h0 : ¬t.val = 0 := by omega
    obtain ⟨e0_0, e0_1, e1_0, e1_1, e6_0, e6_1, e2_0, e2_1, e3_0, e3_1, e4_0, e4_1, e5_0, e5_1, e7_0, e7_1, e8_0, e8_1⟩ := idx_facts4 t
    show (cfg4.win 7).cut (grid4.coords t) ((dat4 V c).after 7 t) = _
    rw [after4_7, (last_sq4 V c t h0 h9).1, (acc_total4 V c t h9).1]
    generalize colSum (zAll4 V c) = G
    funext y
    obtain ⟨u, j, rfl⟩ : ∃ (u : Fin 1) (j : Fin 64), y = ix2 u j := ⟨y 0, y 1, eq_ix2 y⟩
    show G (ix2 u j) = G (((cfg4.win 7).blk t).view.emb (ix2 u j))
    refine congrArg G (funext fun a => Fin.ext ?_)
    match a with
    | ⟨0, _⟩ => show u.val = win4_7.index t (0 : Fin 2) * 1 + 1 * u.val; omega
    | ⟨1, _⟩ => show j.val = win4_7.index t (1 : Fin 2) * 64 + 1 * j.val; omega
  · have hi0 : (i 0).val < 1 := (i 0).isLt
    have hi1 : (i 1).val < 64 := (i 1).isLt
    obtain ⟨e0_0, e0_1, e1_0, e1_1, e6_0, e6_1, e2_0, e2_1, e3_0, e3_1, e4_0, e4_1, e5_0, e5_1, e7_0, e7_1, e8_0, e8_1⟩ := idx_facts4 (⟨9, by omega⟩ : Fin cfg4.N)
    refine ⟨⟨9, by omega⟩, (flush4_7 _).mpr rfl, ?_⟩
    rw [mem_blk4_7]
    intro a
    match a with
    | ⟨0, _⟩ => show win4_7.index ⟨9, _⟩ (0 : Fin 2) * 1 ≤ (i 0).val ∧ (i 0).val < win4_7.index ⟨9, _⟩ (0 : Fin 2) * 1 + 1; omega
    | ⟨1, _⟩ => show win4_7.index ⟨9, _⟩ (1 : Fin 2) * 64 ≤ (i 1).val ∧ (i 1).val < win4_7.index ⟨9, _⟩ (1 : Fin 2) * 64 + 64; omega

/-- The sumsq output after the region: written back at the last point only, where it was copied from the accumulator,
    which by then holds the sums over all 50000 rows. -/
theorem sumsq_array4 (c : Dev nD) : (dat4 (F := Ideal) V c).arrAt 8 cfg4.N = colSumSq (preact (V c main_v71) (V c main_v81) (V c main_v83) (V c main_v86) (V c main_v88) (V c main_v91)) := by
  have hN : cfg4.N = 10 := N_4
  refine (dat4 V c).arrAt_eq_of_cover 8 _ (fun t hf => ?_) (fun i => ?_)
  · have h9 : t.val = 9 := by have h := (flush4_8 t).mp hf; have := t.isLt; omega
    have h0 : ¬t.val = 0 := by omega
    obtain ⟨e0_0, e0_1, e1_0, e1_1, e6_0, e6_1, e2_0, e2_1, e3_0, e3_1, e4_0, e4_1, e5_0, e5_1, e7_0, e7_1, e8_0, e8_1⟩ := idx_facts4 t
    show (cfg4.win 8).cut (grid4.coords t) ((dat4 V c).after 8 t) = _
    rw [after4_8, (last_sq4 V c t h0 h9).2, (acc_total4 V c t h9).2]
    generalize colSumSq (zAll4 V c) = G
    funext y
    obtain ⟨u, j, rfl⟩ : ∃ (u : Fin 1) (j : Fin 64), y = ix2 u j := ⟨y 0, y 1, eq_ix2 y⟩
    show G (ix2 u j) = G (((cfg4.win 8).blk t).view.emb (ix2 u j))
    refine congrArg G (funext fun a => Fin.ext ?_)
    match a with
    | ⟨0, _⟩ => show u.val = win4_8.index t (0 : Fin 2) * 1 + 1 * u.val; omega
    | ⟨1, _⟩ => show j.val = win4_8.index t (1 : Fin 2) * 64 + 1 * j.val; omega
  · have hi0 : (i 0).val < 1 := (i 0).isLt
    have hi1 : (i 1).val < 64 := (i 1).isLt
    obtain ⟨e0_0, e0_1, e1_0, e1_1, e6_0, e6_1, e2_0, e2_1, e3_0, e3_1, e4_0, e4_1, e5_0, e5_1, e7_0, e7_1, e8_0, e8_1⟩ := idx_facts4 (⟨9, by omega⟩ : Fin cfg4.N)
    refine ⟨⟨9, by omega⟩, (flush4_8 _).mpr rfl, ?_⟩
    rw [mem_blk4_8]
    intro a
    match a with
    | ⟨0, _⟩ => show win4_8.index ⟨9, _⟩ (0 : Fin 2) * 1 ≤ (i 0).val ∧ (i 0).val < win4_8.index ⟨9, _⟩ (0 : Fin 2) * 1 + 1; omega
    | ⟨1, _⟩ => show win4_8.index ⟨9, _⟩ (1 : Fin 2) * 64 ≤ (i 1).val ∧ (i 1).val < win4_8.index ⟨9, _⟩ (1 : Fin 2) * 64 + 64; omega

end Exact

end Cert.KernelIdeal.Hand

end
-- ==== Proof.KI.ValB5.lean ====
/- Region 5 of the program's @main at the ideal model: what its output array holds when the region ends.
   With Z the 50000x64 array of window 0 and MU, VAR, G, BT the 1x64 arrays of windows 1–4, as the
   region finds them, the output array ends at
       (Z r j − MU j) · rsqrt (VAR j + ε) · G j + BT j        at row r, column j,
   with ε the constant the program prints. Three steps: the body's pointwise function read at one index
   of a block; the blocks read as parts of the arrays (point t owns rows 5000 t … 5000 t + 4999 of Z and
   of the output, and the whole of each one-row array); and the ten output blocks cover the array, row r
   lying in the block of point r / 5000. -/
import proofs.«135128_j52475910423111_1_alg».proof.Proof.KI.StageB5
import proofs.«135128_j52475910423111_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Spec Cert.Gin

/-! ## The body's function at one index -/

set_option maxHeartbeats 400000 in
/-- Entry (p, q) of what the body stores, from the five values it loaded: the shape casts are to the
    same shape, each one-row operand is read at column q whatever the row p, the arithmetic is the
    extended reals'. -/
theorem pay5_at (z : Vec Ideal S5000x64 .f32) (mean var scale shift : Vec Ideal S1x64 .f32) (p : Fin 5000) (q : Fin 64) :
    k5_pay1 mean var z scale shift (ix2 p q)
      = (z (ix2 p q) - mean (ix2 (0 : Fin 1) q)) * Ideal.rsqrt (var (ix2 (0 : Fin 1) q) + Ideal.ofBits .f32 0x3727C5AC#32) * scale (ix2 (0 : Fin 1) q)
          + shift (ix2 (0 : Fin 1) q) := by
  unfold k5_pay1
  simp only [addf_apply, mulf_apply, subf_apply, shapeCast_self]
  rw [broadcastTo_1b_ab_apply, broadcastTo_1b_ab_apply, broadcastTo_1b_ab_apply, broadcastTo_1b_ab_apply]
  rfl

/-! ## The blocks as parts of the arrays -/

-- what every TensorCore buffer holds when the region is entered, at the ideal model
variable (V : (c : Dev nD) → (b : Ref sig .tc) → Buf (Elt Ideal) ((c : Thread nD τ).loc b))

theorem zeroOff5 : (![0, 0] : Fin 2 → Nat) = fun _ => 0 := funext fun a => by fin_cases a <;> rfl

/-- The windows' block indices at grid point t, decided over the ten points: windows 0 and 5 are at
    block row t, column 0; windows 1–4 stay at block (0, 0). -/
theorem idx5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- There are ten grid points. -/
theorem point_lt5 (t : Fin cfg5.N) : t.val < 10 := lt_of_lt_of_eq t.isLt N_5

/-- The region's result as one function of the five arrays it reads. -/
abbrev result5 (c : Dev nD) : Mat 50000 64 :=
  bnApply (Ideal.ofBits .f32 0x3727C5AC#32) (V c (Pipeline.arrRef spec5 0)) (V c (Pipeline.arrRef spec5 1))
    (V c (Pipeline.arrRef spec5 2)) (V c (Pipeline.arrRef spec5 3)) (V c (Pipeline.arrRef spec5 4))

set_option maxHeartbeats 400000 in
/-- Entry (p, q) of window 0's block at point t is entry (5000 t + p, q) of its array. -/
theorem zblk5_at (c : Dev nD) (t : Fin cfg5.N) (p : Fin 5000) (q : Fin 64) (r : Fin 50000) (hr : r.val = 5000 * t.val + p.val) :
    (iblk5 V c 0 t : Vec Ideal S5000x64 .f32) (ix2 p q) = (V c (Pipeline.arrRef spec5 0) : Mat 50000 64) (ix2 r q) := by
  obtain ⟨h0, h1, -⟩ := idx5 t
  unfold iblk5
  rw [View.read_apply]
  show (V c (Pipeline.arrRef spec5 0) : Mat 50000 64) (((cfg5.win 0).blk t).view.emb (ix2 p q)) = _
  congr 1
  funext a; apply Fin.ext
  match a with
  | ⟨0, _⟩ => show win5_0.index t (0 : Fin 2) * 5000 + 1 * p.val = r.val; omega
  | ⟨1, _⟩ => show win5_0.index t (1 : Fin 2) * 64 + 1 * q.val = q.val; omega

/-- Each one-row window's block, at any point, is its whole array. -/
theorem rowblk5_1_at (c : Dev nD) (t : Fin cfg5.N) (q : Fin 64) :
    (iblk5 V c 1 t : Vec Ideal S1x64 .f32) (ix2 (0 : Fin 1) q) = (V c (Pipeline.arrRef spec5 1) : Mat 1 64) (ix2 (0 : Fin 1) q) := by
  have h0 : win5_1.index t (0 : Fin 2) = 0 := (idx5 t).2.2.2.2.1
  have h1 : win5_1.index t (1 : Fin 2) = 0 := (idx5 t).2.2.2.2.2.1
  unfold iblk5
  rw [View.read_apply]
  show (V c (Pipeline.arrRef spec5 1) : Mat 1 64) (((cfg5.win 1).blk t).view.emb (ix2 (0 : Fin 1) q)) = _
  congr 1
  funext a; apply Fin.ext
  match a with
  | ⟨0, _⟩ => show win5_1.index t (0 : Fin 2) * 1 + 1 * ((0 : Fin 1) : ℕ) = ((0 : Fin 1) : ℕ); rw [h0]; rfl
  | ⟨1, _⟩ => show win5_1.index t (1 : Fin 2) * 64 + 1 * q.val = q.val; rw [h1]; omega

theorem rowblk5_2_at (c : Dev nD) (t : Fin cfg5.N) (q : Fin 64) :
    (iblk5 V c 2 t : Vec Ideal S1x64 .f32) (ix2 (0 : Fin 1) q) = (V c (Pipeline.arrRef spec5 2) : Mat 1 64) (ix2 (0 : Fin 1) q) := by
  have h0 : win5_2.index t (0 : Fin 2) = 0 := (idx5 t).2.2.2.2.2.2.1
  have h1 : win5_2.index t (1 : Fin 2) = 0 := (idx5 t).2.2.2.2.2.2.2.1
  unfold iblk5
  rw [View.read_apply]
  show (V c (Pipeline.arrRef spec5 2) : Mat 1 64) (((cfg5.win 2).blk t).view.emb (ix2 (0 : Fin 1) q)) = _
  congr 1
  funext a; apply Fin.ext
  match a with
  | ⟨0, _⟩ => show win5_2.index t (0 : Fin 2) * 1 + 1 * ((0 : Fin 1) : ℕ) = ((0 : Fin 1) : ℕ); rw [h0]; rfl
  | ⟨1, _⟩ => show win5_2.index t (1 : Fin 2) * 64 + 1 * q.val = q.val; rw [h1]; omega

theorem rowblk5_3_at (c : Dev nD) (t : Fin cfg5.N) (q : Fin 64) :
    (iblk5 V c 3 t : Vec Ideal S1x64 .f32) (ix2 (0 : Fin 1) q) = (V c (Pipeline.arrRef spec5 3) : Mat 1 64) (ix2 (0 : Fin 1) q) := by
  have h0 : win5_3.index t (0 : Fin 2) = 0 := (idx5 t).2.2.2.2.2.2.2.2.1
  have h1 : win5_3.index t (1 : Fin 2) = 0 := (idx5 t).2.2.2.2.2.2.2.2.2.1
  unfold iblk5
  rw [View.read_apply]
  show (V c (Pipeline.arrRef spec5 3) : Mat 1 64) (((cfg5.win 3).blk t).view.emb (ix2 (0 : Fin 1) q)) = _
  congr 1
  funext a; apply Fin.ext
  match a with
  | ⟨0, _⟩ => show win5_3.index t (0 : Fin 2) * 1 + 1 * ((0 : Fin 1) : ℕ) = ((0 : Fin 1) : ℕ); rw [h0]; rfl
  | ⟨1, _⟩ => show win5_3.index t (1 : Fin 2) * 64 + 1 * q.val = q.val; rw [h1]; omega

theorem rowblk5_4_at (c : Dev nD) (t : Fin cfg5.N) (q : Fin 64) :
    (iblk5 V c 4 t : Vec Ideal S1x64 .f32) (ix2 (0 : Fin 1) q) = (V c (Pipeline.arrRef spec5 4) : Mat 1 64) (ix2 (0 : Fin 1) q) := by
  have h0 : win5_4.index t (0 : Fin 2) = 0 := (idx5 t).2.2.2.2.2.2.2.2.2.2.1
  have h1 : win5_4.index t (1 : Fin 2) = 0 := (idx5 t).2.2.2.2.2.2.2.2.2.2.2
  unfold iblk5
  rw [View.read_apply]
  show (V c (Pipeline.arrRef spec5 4) : Mat 1 64) (((cfg5.win 4).blk t).view.emb (ix2 (0 : Fin 1) q)) = _
  congr 1
  funext a; apply Fin.ext
  match a with
  | ⟨0, _⟩ => show win5_4.index t (0 : Fin 2) * 1 + 1 * ((0 : Fin 1) : ℕ) = ((0 : Fin 1) : ℕ); rw [h0]; rfl
  | ⟨1, _⟩ => show win5_4.index t (1 : Fin 2) * 64 + 1 * q.val = q.val; rw [h1]; omega

/-- Entry (p, q) of the output's block at point t sits at (5000 t + p, q) of the output array. -/
theorem outblk5_emb (t : Fin cfg5.N) (p : Fin 5000) (q : Fin 64) (r : Fin 50000) (hr : r.val = 5000 * t.val + p.val) :
    (((cfg5.win 5).blk t).view.emb (ix2 p q) : S50000x64.Idx) = ix2 r q := by
  obtain ⟨-, -, h0, h1, -⟩ := idx5 t
  funext a; apply Fin.ext
  match a with
  | ⟨0, _⟩ => show win5_5.index t (0 : Fin 2) * 5000 + 1 * p.val = r.val; omega
  | ⟨1, _⟩ => show win5_5.index t (1 : Fin 2) * 64 + 1 * q.val = q.val; omega

/-! ## What a point writes back, and the array at the end -/

set_option maxHeartbeats 400000 in
/-- What point t writes back is block t of `result5`: the one store covers the buffer, the loads read the
    buffers whole, and at entry (p, q) both sides are the same expression in entry (5000 t + p, q) of Z
    and entries (0, q) of the four rows. -/
theorem flushed5_eq (c : Dev nD) (t : Fin cfg5.N) :
    (dat5 (F := Ideal) V c).flushed 5 t = ((cfg5.win 5).blk t).view.read (Elt Ideal) (result5 V c) := by
  show (cfg5.win 5).cut (grid5.coords t) ((dat5 V c).after 5 t) = _
  rw [after5_5]
  unfold normed5
  rw [View.canon_unit_zero zeroOff5]
  simp only [View.ld_unit_zero (S := S5000x64) zeroOff5, View.ld_unit_zero (S := S1x64) zeroOff5]
  funext j
  obtain ⟨p, q, rfl⟩ : ∃ (p : Fin 5000) (q : Fin 64), (j : S5000x64.Idx) = ix2 p q := ⟨j 0, j 1, eq_ix2 j⟩
  have ht := point_lt5 t
  have hr : 5000 * t.val + p.val < 50000 := by have := p.isLt; omega
  show k5_pay1 (iblk5 V c 1 t) (iblk5 V c 2 t) (iblk5 V c 0 t) (iblk5 V c 3 t) (iblk5 V c 4 t) (ix2 p q)
    = result5 V c (((cfg5.win 5).blk t).view.emb (ix2 p q))
  rw [pay5_at, outblk5_emb t p q ⟨_, hr⟩ rfl, zblk5_at V c t p q ⟨_, hr⟩ rfl,
    rowblk5_1_at, rowblk5_2_at, rowblk5_3_at, rowblk5_4_at]
  rfl

/-- Every index of the output array is in the block of a point that writes back: row r is in the block
    of point r / 5000, and every point writes back. -/
theorem covered5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hlt : (i 0).val / 5000 < cfg5.N := by rw [show cfg5.N = 10 from N_5]; omega
  obtain ⟨-, -, h0, h1, -⟩ := idx5 ⟨(i 0).val / 5000, hlt⟩
  refine ⟨⟨(i 0).val / 5000, hlt⟩, flush5_5 _, ?_⟩
  show i ∈ ((View.whole main_v105).slice (win5_5.rect ⟨(i 0).val / 5000, hlt⟩)).set
  rw [View.set_slice_whole, Rect.mem_set_unit]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    rw [h0]; show (i 0).val / 5000 * 5000 ≤ (i 0).val ∧ (i 0).val < (i 0).val / 5000 * 5000 + 5000; omega
  | ⟨1, _⟩ =>
    show win5_5.index ⟨(i 0).val / 5000, hlt⟩ (1 : Fin 2) * 64 ≤ (i 1).val
      ∧ (i 1).val < win5_5.index ⟨(i 0).val / 5000, hlt⟩ (1 : Fin 2) * 64 + 64
    rw [h1]; omega

/-- The output array when the region ends. -/
theorem out5_5 (c : Dev nD) : (dat5 (F := Ideal) V c).arrAt 5 cfg5.N = result5 V c :=
  (dat5 V c).arrAt_eq_of_cover 5 (result5 V c) (fun t _ => flushed5_eq V c t) covered5

/-- The same, with the five arrays under the names the program gives their buffers. -/
theorem normed_array5 (c : Dev nD) : (dat5 (F := Ideal) V c).arrAt 5 cfg5.N =
    Cert.Gin.bnApply (Ideal.ofBits .f32 0x3727C5AC#32) (V c main_v98_0) (V c main_v100) (V c main_v104) (V c main_v94) (V c main_v97) :=
  out5_5 V c

end Cert.KernelIdeal.Hand
-- ==== Proof.KI.HostDefs.lean ====
/-
  What the host stretches of the kernel program compute, as functions of the buffers they read.  Every layer's
  aggregate is the same function of the node features and the two index rows: each edge's source row is gathered
  (a negative index counted from the end) and added into its destination row.  Every layer's parameters are the
  layer's slices of the stacked weights.  Between a layer's two regions the column sums are divided by the number of
  rows, and the variance is the mean square less the squared mean.
-/
import proofs.«135128_j52475910423111_1_alg».proof.Proof.Gen.KernelIdeal.Launch
import Idealize.ShloMosaic.Lib.StableHlo.Run

noncomputable section

namespace Cert.KernelIdeal.Hand

open Idealize.ShloMosaic Idealize.ShloMosaic.TcCoe Idealize.ShloMosaic.StableHlo
open Cert.KernelIdeal Cert.KernelIdeal.Gen

variable {F : FTy → Type} [FloatOps F]

/-- One row of the edge array as a vector of indices. -/
def edgeRow0 (E : (⟨S2x800000, .i32⟩ : BufTy).Contents (Elt F)) : (⟨S800000, .i32⟩ : BufTy).Contents (Elt F) :=
  shapeCast S800000 (extractStridedSlice S1x800000 ![0, 0] E slices_S2x800000_S1x800000_0_0) shapeCasts_S1x800000_S800000
def edgeRow1 (E : (⟨S2x800000, .i32⟩ : BufTy).Contents (Elt F)) : (⟨S800000, .i32⟩ : BufTy).Contents (Elt F) :=
  shapeCast S800000 (extractStridedSlice S1x800000 ![1, 0] E slices_S2x800000_S1x800000_1_0) shapeCasts_S1x800000_S800000

/-- The aggregate of the features H over the edges with source indices s and destination indices d. -/
def aggOf (s d : (⟨S800000, .i32⟩ : BufTy).Contents (Elt F)) (H : (⟨S50000x64, .f32⟩ : BufTy).Contents (Elt F)) : (⟨S50000x64, .f32⟩ : BufTy).Contents (Elt F) :=
  ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
    ((broadcastInDim S50000x64 ![] bcast_S_S50000x64 : (⟨S_, .f32⟩ : BufTy).Contents (Elt F) → (⟨S50000x64, .f32⟩ : BufTy).Contents (Elt F)) (constant S_ .f32 0x00000000#32))
    ((broadcastInDim S800000x1 ![0] bcast_S800000_S800000x1_0 : (⟨S800000, .i32⟩ : BufTy).Contents (Elt F) → (⟨S800000x1, .i32⟩ : BufTy).Contents (Elt F)) d)
    (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) H
      ((broadcastInDim S800000x1 ![0] bcast_S800000_S800000x1_0 : (⟨S800000, .i32⟩ : BufTy).Contents (Elt F) → (⟨S800000x1, .i32⟩ : BufTy).Contents (Elt F))
        ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
          ((cmpi .slt : (⟨S800000, .i32⟩ : BufTy).Contents (Elt F) → (⟨S800000, .i32⟩ : BufTy).Contents (Elt F) → (⟨S800000, .i1⟩ : BufTy).Contents (Elt F)) s
            ((broadcastInDim S800000 ![] bcast_S_S800000 : (⟨S_, .i32⟩ : BufTy).Contents (Elt F) → (⟨S800000, .i32⟩ : BufTy).Contents (Elt F)) (constantI S_ 32 0#32)))
          ((addi : (⟨S800000, .i32⟩ : BufTy).Contents (Elt F) → (⟨S800000, .i32⟩ : BufTy).Contents (Elt F) → (⟨S800000, .i32⟩ : BufTy).Contents (Elt F)) s
            ((broadcastInDim S800000 ![] bcast_S_S800000 : (⟨S_, .i32⟩ : BufTy).Contents (Elt F) → (⟨S800000, .i32⟩ : BufTy).Contents (Elt F)) (constantI S_ 32 50000#32)))
          s)))

/-- Layer 0's slice of a stack of three 64 × 64 matrices. -/
def matSlice0 (W : (⟨S3x64x64, .f32⟩ : BufTy).Contents (Elt F)) : (⟨S64x64, .f32⟩ : BufTy).Contents (Elt F) :=
  shapeCast S64x64 (extractStridedSlice S1x64x64 ![0, 0, 0] W slices_S3x64x64_S1x64x64_0_0_0) shapeCasts_S1x64x64_S64x64
/-- Layer 0's slice of a stack of three rows of 64, as a 1 × 64 matrix. -/
def rowSlice0 (B : (⟨S3x64, .f32⟩ : BufTy).Contents (Elt F)) : (⟨S1x64, .f32⟩ : BufTy).Contents (Elt F) :=
  shapeCast S1x64 (shapeCast S64 (extractStridedSlice S1x64 ![0, 0] B slices_S3x64_S1x64_0_0) shapeCasts_S1x64_S64) shapeCasts_S64_S1x64
/-- Layer 1's slice of a stack of three 64 × 64 matrices. -/
def matSlice1 (W : (⟨S3x64x64, .f32⟩ : BufTy).Contents (Elt F)) : (⟨S64x64, .f32⟩ : BufTy).Contents (Elt F) :=
  shapeCast S64x64 (extractStridedSlice S1x64x64 ![1, 0, 0] W slices_S3x64x64_S1x64x64_1_0_0) shapeCasts_S1x64x64_S64x64
/-- Layer 1's slice of a stack of three rows of 64, as a 1 × 64 matrix. -/
def rowSlice1 (B : (⟨S3x64, .f32⟩ : BufTy).Contents (Elt F)) : (⟨S1x64, .f32⟩ : BufTy).Contents (Elt F) :=
  shapeCast S1x64 (shapeCast S64 (extractStridedSlice S1x64 ![1, 0] B slices_S3x64_S1x64_1_0) shapeCasts_S1x64_S64) shapeCasts_S64_S1x64
/-- Layer 2's slice of a stack of three 64 × 64 matrices. -/
def matSlice2 (W : (⟨S3x64x64, .f32⟩ : BufTy).Contents (Elt F)) : (⟨S64x64, .f32⟩ : BufTy).Contents (Elt F) :=
  shapeCast S64x64 (extractStridedSlice S1x64x64 ![2, 0, 0] W slices_S3x64x64_S1x64x64_2_0_0) shapeCasts_S1x64x64_S64x64
/-- Layer 2's slice of a stack of three rows of 64, as a 1 × 64 matrix. -/
def rowSlice2 (B : (⟨S3x64, .f32⟩ : BufTy).Contents (Elt F)) : (⟨S1x64, .f32⟩ : BufTy).Contents (Elt F) :=
  shapeCast S1x64 (shapeCast S64 (extractStridedSlice S1x64 ![2, 0] B slices_S3x64_S1x64_2_0) shapeCasts_S1x64_S64) shapeCasts_S64_S1x64

/-- A row divided by the number of nodes. -/
def overNodes (R : (⟨S1x64, .f32⟩ : BufTy).Contents (Elt F)) : (⟨S1x64, .f32⟩ : BufTy).Contents (Elt F) :=
  (Host.divf : (⟨S1x64, .f32⟩ : BufTy).Contents (Elt F) → (⟨S1x64, .f32⟩ : BufTy).Contents (Elt F) → (⟨S1x64, .f32⟩ : BufTy).Contents (Elt F)) R
    ((broadcastInDim S1x64 ![] bcast_S_S1x64 : (⟨S_, .f32⟩ : BufTy).Contents (Elt F) → (⟨S1x64, .f32⟩ : BufTy).Contents (Elt F)) (constant S_ .f32 0x47435000#32))
/-- The variance row from the sums S and the sums of squares Q: Q / N − (S / N)². -/
def varOf (S Q : (⟨S1x64, .f32⟩ : BufTy).Contents (Elt F)) : (⟨S1x64, .f32⟩ : BufTy).Contents (Elt F) :=
  (subf : (⟨S1x64, .f32⟩ : BufTy).Contents (Elt F) → (⟨S1x64, .f32⟩ : BufTy).Contents (Elt F) → (⟨S1x64, .f32⟩ : BufTy).Contents (Elt F)) (overNodes Q)
    ((mulf : (⟨S1x64, .f32⟩ : BufTy).Contents (Elt F) → (⟨S1x64, .f32⟩ : BufTy).Contents (Elt F) → (⟨S1x64, .f32⟩ : BufTy).Contents (Elt F)) (overNodes S) (overNodes S))

end Cert.KernelIdeal.Hand

end
-- ==== Proof.KI.HostL0.lean ====
/-
  What the two host stretches of layer 0 of the kernel program leave in the buffers the layer's regions read.
-/
import proofs.«135128_j52475910423111_1_alg».proof.Proof.KI.HostDefs

noncomputable section

namespace Cert.KernelIdeal.Hand

open Idealize.ShloMosaic Idealize.ShloMosaic.TcCoe Idealize.ShloMosaic.StableHlo
open Cert.KernelIdeal Cert.KernelIdeal.Gen

variable {F : FTy → Type} [FloatOps F] (V : Valuation τ sig (Elt F))

set_option maxHeartbeats 1000000 in
theorem src_row : StableHlo.after (hostOps0 (F := F)) V (Proc.devRef .tc main_v1) = edgeRow0 (V (Proc.devRef .tc main_arg1)) := by
  after_results; rfl
set_option maxHeartbeats 1000000 in
theorem dst_row : StableHlo.after (hostOps0 (F := F)) V (Proc.devRef .tc main_v3) = edgeRow1 (V (Proc.devRef .tc main_arg1)) := by
  after_results; rfl

set_option maxHeartbeats 1000000 in
theorem agg0_eq : StableHlo.after (hostOps0 (F := F)) V (Proc.devRef .tc main_v13) = aggOf (StableHlo.after (hostOps0 (F := F)) V (Proc.devRef .tc main_v1)) (StableHlo.after (hostOps0 (F := F)) V (Proc.devRef .tc main_v3)) (V (Proc.devRef .tc main_arg0)) := by
  after_results; rfl
set_option maxHeartbeats 1000000 in
theorem w1_0_eq : StableHlo.after (hostOps0 (F := F)) V (Proc.devRef .tc main_v15) = matSlice0 (V (Proc.devRef .tc main_arg2)) := by
  after_results; rfl
set_option maxHeartbeats 1000000 in
theorem b1_0_eq : StableHlo.after (hostOps0 (F := F)) V (Proc.devRef .tc main_v18) = rowSlice0 (V (Proc.devRef .tc main_arg3)) := by
  after_results; rfl
set_option maxHeartbeats 1000000 in
theorem w2_0_eq : StableHlo.after (hostOps0 (F := F)) V (Proc.devRef .tc main_v20) = matSlice0 (V (Proc.devRef .tc main_arg4)) := by
  after_results; rfl
set_option maxHeartbeats 1000000 in
theorem b2_0_eq : StableHlo.after (hostOps0 (F := F)) V (Proc.devRef .tc main_v23) = rowSlice0 (V (Proc.devRef .tc main_arg5)) := by
  after_results; rfl
set_option maxHeartbeats 1000000 in
theorem gamma_0_eq : StableHlo.after (hostOps0 (F := F)) V (Proc.devRef .tc main_v26) = rowSlice0 (V (Proc.devRef .tc main_arg6)) := by
  after_results; rfl
set_option maxHeartbeats 1000000 in
theorem beta_0_eq : StableHlo.after (hostOps0 (F := F)) V (Proc.devRef .tc main_v29) = rowSlice0 (V (Proc.devRef .tc main_arg7)) := by
  after_results; rfl

set_option maxHeartbeats 1000000 in
theorem mean_0_eq : StableHlo.after (hostOps1 (F := F)) V (Proc.devRef .tc main_v32) = overNodes (V (Proc.devRef .tc main_v30_1)) := by
  after_results; rfl
set_option maxHeartbeats 1000000 in
theorem var_0_eq : StableHlo.after (hostOps1 (F := F)) V (Proc.devRef .tc main_v36)
    = varOf (V (Proc.devRef .tc main_v30_1)) (V (Proc.devRef .tc main_v30_2)) := by
  after_results; rfl

end Cert.KernelIdeal.Hand

end
-- ==== Proof.KI.HostL1.lean ====
/-
  What the two host stretches of layer 1 of the kernel program leave in the buffers the layer's regions read.
-/
import proofs.«135128_j52475910423111_1_alg».proof.Proof.KI.HostDefs

noncomputable section

namespace Cert.KernelIdeal.Hand

open Idealize.ShloMosaic Idealize.ShloMosaic.TcCoe Idealize.ShloMosaic.StableHlo
open Cert.KernelIdeal Cert.KernelIdeal.Gen

variable {F : FTy → Type} [FloatOps F] (V : Valuation τ sig (Elt F))

set_option maxHeartbeats 1000000 in
theorem agg1_eq : StableHlo.after (hostOps2 (F := F)) V (Proc.devRef .tc main_v47) = aggOf (V (Proc.devRef .tc main_v1)) (V (Proc.devRef .tc main_v3)) (V (Proc.devRef .tc main_v37)) := by
  after_results; rfl
set_option maxHeartbeats 1000000 in
theorem w1_1_eq : StableHlo.after (hostOps2 (F := F)) V (Proc.devRef .tc main_v49) = matSlice1 (V (Proc.devRef .tc main_arg2)) := by
  after_results; rfl
set_option maxHeartbeats 1000000 in
theorem b1_1_eq : StableHlo.after (hostOps2 (F := F)) V (Proc.devRef .tc main_v52) = rowSlice1 (V (Proc.devRef .tc main_arg3)) := by
  after_results; rfl
set_option maxHeartbeats 1000000 in
theorem w2_1_eq : StableHlo.after (hostOps2 (F := F)) V (Proc.devRef .tc main_v54) = matSlice1 (V (Proc.devRef .tc main_arg4)) := by
  after_results; rfl
set_option maxHeartbeats 1000000 in
theorem b2_1_eq : StableHlo.after (hostOps2 (F := F)) V (Proc.devRef .tc main_v57) = rowSlice1 (V (Proc.devRef .tc main_arg5)) := by
  after_results; rfl
set_option maxHeartbeats 1000000 in
theorem gamma_1_eq : StableHlo.after (hostOps2 (F := F)) V (Proc.devRef .tc main_v60) = rowSlice1 (V (Proc.devRef .tc main_arg6)) := by
  after_results; rfl
set_option maxHeartbeats 1000000 in
theorem beta_1_eq : StableHlo.after (hostOps2 (F := F)) V (Proc.devRef .tc main_v63) = rowSlice1 (V (Proc.devRef .tc main_arg7)) := by
  after_results; rfl

set_option maxHeartbeats 1000000 in
theorem mean_1_eq : StableHlo.after (hostOps3 (F := F)) V (Proc.devRef .tc main_v66) = overNodes (V (Proc.devRef .tc main_v64_1)) := by
  after_results; rfl
set_option maxHeartbeats 1000000 in
theorem var_1_eq : StableHlo.after (hostOps3 (F := F)) V (Proc.devRef .tc main_v70)
    = varOf (V (Proc.devRef .tc main_v64_1)) (V (Proc.devRef .tc main_v64_2)) := by
  after_results; rfl

end Cert.KernelIdeal.Hand

end
-- ==== Proof.KI.HostL2.lean ====
/-
  What the two host stretches of layer 2 of the kernel program leave in the buffers the layer's regions read.
-/
import proofs.«135128_j52475910423111_1_alg».proof.Proof.KI.HostDefs

noncomputable section

namespace Cert.KernelIdeal.Hand

open Idealize.ShloMosaic Idealize.ShloMosaic.TcCoe Idealize.ShloMosaic.StableHlo
open Cert.KernelIdeal Cert.KernelIdeal.Gen

variable {F : FTy → Type} [FloatOps F] (V : Valuation τ sig (Elt F))

set_option maxHeartbeats 1000000 in
theorem agg2_eq : StableHlo.after (hostOps4 (F := F)) V (Proc.devRef .tc main_v81) = aggOf (V (Proc.devRef .tc main_v1)) (V (Proc.devRef .tc main_v3)) (V (Proc.devRef .tc main_v71)) := by
  after_results; rfl
set_option maxHeartbeats 1000000 in
theorem w1_2_eq : StableHlo.after (hostOps4 (F := F)) V (Proc.devRef .tc main_v83) = matSlice2 (V (Proc.devRef .tc main_arg2)) := by
  after_results; rfl
set_option maxHeartbeats 1000000 in
theorem b1_2_eq : StableHlo.after (hostOps4 (F := F)) V (Proc.devRef .tc main_v86) = rowSlice2 (V (Proc.devRef .tc main_arg3)) := by
  after_results; rfl
set_option maxHeartbeats 1000000 in
theorem w2_2_eq : StableHlo.after (hostOps4 (F := F)) V (Proc.devRef .tc main_v88) = matSlice2 (V (Proc.devRef .tc main_arg4)) := by
  after_results; rfl
set_option maxHeartbeats 1000000 in
theorem b2_2_eq : StableHlo.after (hostOps4 (F := F)) V (Proc.devRef .tc main_v91) = rowSlice2 (V (Proc.devRef .tc main_arg5)) := by
  after_results; rfl
set_option maxHeartbeats 1000000 in
theorem gamma_2_eq : StableHlo.after (hostOps4 (F := F)) V (Proc.devRef .tc main_v94) = rowSlice2 (V (Proc.devRef .tc main_arg6)) := by
  after_results; rfl
set_option maxHeartbeats 1000000 in
theorem beta_2_eq : StableHlo.after (hostOps4 (F := F)) V (Proc.devRef .tc main_v97) = rowSlice2 (V (Proc.devRef .tc main_arg7)) := by
  after_results; rfl

set_option maxHeartbeats 1000000 in
theorem mean_2_eq : StableHlo.after (hostOps5 (F := F)) V (Proc.devRef .tc main_v100) = overNodes (V (Proc.devRef .tc main_v98_1)) := by
  after_results; rfl
set_option maxHeartbeats 1000000 in
theorem var_2_eq : StableHlo.after (hostOps5 (F := F)) V (Proc.devRef .tc main_v104)
    = varOf (V (Proc.devRef .tc main_v98_1)) (V (Proc.devRef .tc main_v98_2)) := by
  after_results; rfl

end Cert.KernelIdeal.Hand

end
-- ==== Proof.KI.Value.lean ====
/-
  The value of the kernel program at the ideal instance: each layer's two regions and the host stretches between
  them compute the layer with the variance taken from the two moments, of what the layer before left; the index rows
  and the stacked parameters are read from the launch memory, since nothing in between writes them.
-/
import proofs.«135128_j52475910423111_1_alg».proof.Proof.KI.Frame
import proofs.«135128_j52475910423111_1_alg».proof.Proof.KI.ValA0
import proofs.«135128_j52475910423111_1_alg».proof.Proof.KI.ValB1
import proofs.«135128_j52475910423111_1_alg».proof.Proof.KI.ValA2
import proofs.«135128_j52475910423111_1_alg».proof.Proof.KI.ValB3
import proofs.«135128_j52475910423111_1_alg».proof.Proof.KI.ValA4
import proofs.«135128_j52475910423111_1_alg».proof.Proof.KI.ValB5
import proofs.«135128_j52475910423111_1_alg».proof.Proof.KI.HostL0
import proofs.«135128_j52475910423111_1_alg».proof.Proof.KI.HostL1
import proofs.«135128_j52475910423111_1_alg».proof.Proof.KI.HostL2
import proofs.«135128_j52475910423111_1_alg».proof.Proof.Spec

set_option maxRecDepth 16384

noncomputable section

namespace Cert.KernelIdeal.Hand

open Idealize.ShloMosaic Idealize.ShloMosaic.TcCoe
open Idealize.SL.Sem
open Cert.KernelIdeal Cert.KernelIdeal.Gen Cert.Spec Cert.Gin

/-- The number of nodes and the variance's epsilon, as the words both programs spell. -/
abbrev νw : EReal := Ideal.ofBits .f32 0x47435000#32
abbrev εw : EReal := Ideal.ofBits .f32 0x3727C5AC#32

theorem overNodes_eq (R : Mat 1 64) : overNodes (F := Ideal) R = divRow R νw := by
  funext i; rfl
theorem varOf_eq (Z : Mat 50000 64) : varOf (F := Ideal) (colSum Z) (colSumSq Z) = varMoments νw Z := by
  funext i; rfl

variable (m : (ℓ : Loc nD τ sig) → Buf (Elt Ideal) ℓ) (c : Dev nD)

/-! ## Buffers that several items leave alone -/

theorem kept_to_4 (b : Ref sig .tc) (h0 : b ∉ hostOps0_W) (h1 : b ∉ hostOps1_W)
    (r0 : ∀ w, Pipeline.arrRef spec0 w = b → (cfg0.win w).isOut = false) (r1 : ∀ w, Pipeline.arrRef spec1 w = b → (cfg1.win w).isOut = false) :
    W4 m c (Proc.devRef .tc b) = m ((c : Thread nD τ).loc b) :=
  (region_keeps1 m c b r1).trans <| (host_keeps1 m c b h1).trans <| (region_keeps0 m c b r0).trans <| (host_keeps0 m c b h0).trans rfl
theorem kept_to_8 (b : Ref sig .tc) (h0 : b ∉ hostOps0_W) (h1 : b ∉ hostOps1_W) (h2 : b ∉ hostOps2_W) (h3 : b ∉ hostOps3_W)
    (r0 : ∀ w, Pipeline.arrRef spec0 w = b → (cfg0.win w).isOut = false) (r1 : ∀ w, Pipeline.arrRef spec1 w = b → (cfg1.win w).isOut = false)
    (r2 : ∀ w, Pipeline.arrRef spec2 w = b → (cfg2.win w).isOut = false) (r3 : ∀ w, Pipeline.arrRef spec3 w = b → (cfg3.win w).isOut = false) :
    W8 m c (Proc.devRef .tc b) = m ((c : Thread nD τ).loc b) :=
  (region_keeps3 m c b r3).trans <| (host_keeps3 m c b h3).trans <| (region_keeps2 m c b r2).trans <| (host_keeps2 m c b h2).trans <|
  kept_to_4 m c b h0 h1 r0 r1
theorem kept_1_to_4 (b : Ref sig .tc) (h1 : b ∉ hostOps1_W)
    (r0 : ∀ w, Pipeline.arrRef spec0 w = b → (cfg0.win w).isOut = false) (r1 : ∀ w, Pipeline.arrRef spec1 w = b → (cfg1.win w).isOut = false) :
    W4 m c (Proc.devRef .tc b) = W1 m c (Proc.devRef .tc b) :=
  (region_keeps1 m c b r1).trans <| (host_keeps1 m c b h1).trans <| region_keeps0 m c b r0
theorem kept_1_to_8 (b : Ref sig .tc) (h1 : b ∉ hostOps1_W) (h2 : b ∉ hostOps2_W) (h3 : b ∉ hostOps3_W)
    (r0 : ∀ w, Pipeline.arrRef spec0 w = b → (cfg0.win w).isOut = false) (r1 : ∀ w, Pipeline.arrRef spec1 w = b → (cfg1.win w).isOut = false)
    (r2 : ∀ w, Pipeline.arrRef spec2 w = b → (cfg2.win w).isOut = false) (r3 : ∀ w, Pipeline.arrRef spec3 w = b → (cfg3.win w).isOut = false) :
    W8 m c (Proc.devRef .tc b) = W1 m c (Proc.devRef .tc b) :=
  (region_keeps3 m c b r3).trans <| (host_keeps3 m c b h3).trans <| (region_keeps2 m c b r2).trans <| (host_keeps2 m c b h2).trans <|
  kept_1_to_4 m c b h1 r0 r1

/-! ## The three layers -/

set_option maxHeartbeats 4000000 in
/-- Layer 0 of the kernel program: what its second region leaves is the layer's function of what the layer before left. -/
theorem layer0_value : W4 m c (Proc.devRef .tc main_v37) = relu (layerMoments νw εw (m ((c : Thread nD τ).loc main_arg0)) (aggOf (edgeRow0 (m ((c : Thread nD τ).loc main_arg1))) (edgeRow1 (m ((c : Thread nD τ).loc main_arg1))) (m ((c : Thread nD τ).loc main_arg0))) (matSlice0 (m ((c : Thread nD τ).loc main_arg2))) (rowSlice0 (m ((c : Thread nD τ).loc main_arg3))) (matSlice0 (m ((c : Thread nD τ).loc main_arg4))) (rowSlice0 (m ((c : Thread nD τ).loc main_arg5))) (rowSlice0 (m ((c : Thread nD τ).loc main_arg6))) (rowSlice0 (m ((c : Thread nD τ).loc main_arg7)))) := by
  have hH : V1 m c main_arg0 = (m ((c : Thread nD τ).loc main_arg0)) := host_keeps0 m c main_arg0 (by decide)
  have hA : V1 m c main_v13 = aggOf (edgeRow0 (m ((c : Thread nD τ).loc main_arg1))) (edgeRow1 (m ((c : Thread nD τ).loc main_arg1))) (m ((c : Thread nD τ).loc main_arg0)) := (agg0_eq (W0 m c)).trans (by rw [src_row, dst_row])
  have hW1 : V1 m c main_v15 = matSlice0 (m ((c : Thread nD τ).loc main_arg2)) := (w1_0_eq (W0 m c)).trans (congrArg matSlice0 (rfl))
  have hB1 : V1 m c main_v18 = rowSlice0 (m ((c : Thread nD τ).loc main_arg3)) := (b1_0_eq (W0 m c)).trans (congrArg rowSlice0 (rfl))
  have hW2 : V1 m c main_v20 = matSlice0 (m ((c : Thread nD τ).loc main_arg4)) := (w2_0_eq (W0 m c)).trans (congrArg matSlice0 (rfl))
  have hB2 : V1 m c main_v23 = rowSlice0 (m ((c : Thread nD τ).loc main_arg5)) := (b2_0_eq (W0 m c)).trans (congrArg rowSlice0 (rfl))
  have hG0 : W1 m c (Proc.devRef .tc main_v26) = rowSlice0 (m ((c : Thread nD τ).loc main_arg6)) := (gamma_0_eq (W0 m c)).trans (congrArg rowSlice0 (rfl))
  have hT0 : W1 m c (Proc.devRef .tc main_v29) = rowSlice0 (m ((c : Thread nD τ).loc main_arg7)) := (beta_0_eq (W0 m c)).trans (congrArg rowSlice0 (rfl))
  have hz : W2 m c (Proc.devRef .tc main_v30_0) = (preact (m ((c : Thread nD τ).loc main_arg0)) (aggOf (edgeRow0 (m ((c : Thread nD τ).loc main_arg1))) (edgeRow1 (m ((c : Thread nD τ).loc main_arg1))) (m ((c : Thread nD τ).loc main_arg0))) (matSlice0 (m ((c : Thread nD τ).loc main_arg2))) (rowSlice0 (m ((c : Thread nD τ).loc main_arg3))) (matSlice0 (m ((c : Thread nD τ).loc main_arg4))) (rowSlice0 (m ((c : Thread nD τ).loc main_arg5)))) :=
    (W2_arr m c 6).trans ((z_array0 (V1 m) c).trans (by rw [hH, hA, hW1, hB1, hW2, hB2]))
  have hS : W2 m c (Proc.devRef .tc main_v30_1) = colSum (preact (m ((c : Thread nD τ).loc main_arg0)) (aggOf (edgeRow0 (m ((c : Thread nD τ).loc main_arg1))) (edgeRow1 (m ((c : Thread nD τ).loc main_arg1))) (m ((c : Thread nD τ).loc main_arg0))) (matSlice0 (m ((c : Thread nD τ).loc main_arg2))) (rowSlice0 (m ((c : Thread nD τ).loc main_arg3))) (matSlice0 (m ((c : Thread nD τ).loc main_arg4))) (rowSlice0 (m ((c : Thread nD τ).loc main_arg5)))) :=
    (W2_arr m c 7).trans ((sum_array0 (V1 m) c).trans (by rw [hH, hA, hW1, hB1, hW2, hB2]))
  have hQ : W2 m c (Proc.devRef .tc main_v30_2) = colSumSq (preact (m ((c : Thread nD τ).loc main_arg0)) (aggOf (edgeRow0 (m ((c : Thread nD τ).loc main_arg1))) (edgeRow1 (m ((c : Thread nD τ).loc main_arg1))) (m ((c : Thread nD τ).loc main_arg0))) (matSlice0 (m ((c : Thread nD τ).loc main_arg2))) (rowSlice0 (m ((c : Thread nD τ).loc main_arg3))) (matSlice0 (m ((c : Thread nD τ).loc main_arg4))) (rowSlice0 (m ((c : Thread nD τ).loc main_arg5)))) :=
    (W2_arr m c 8).trans ((sumsq_array0 (V1 m) c).trans (by rw [hH, hA, hW1, hB1, hW2, hB2]))
  have hz' : V3 m c main_v30_0 = (preact (m ((c : Thread nD τ).loc main_arg0)) (aggOf (edgeRow0 (m ((c : Thread nD τ).loc main_arg1))) (edgeRow1 (m ((c : Thread nD τ).loc main_arg1))) (m ((c : Thread nD τ).loc main_arg0))) (matSlice0 (m ((c : Thread nD τ).loc main_arg2))) (rowSlice0 (m ((c : Thread nD τ).loc main_arg3))) (matSlice0 (m ((c : Thread nD τ).loc main_arg4))) (rowSlice0 (m ((c : Thread nD τ).loc main_arg5)))) := (host_keeps1 m c main_v30_0 (by decide)).trans hz
  have hmu : V3 m c main_v32 = meanRow νw (preact (m ((c : Thread nD τ).loc main_arg0)) (aggOf (edgeRow0 (m ((c : Thread nD τ).loc main_arg1))) (edgeRow1 (m ((c : Thread nD τ).loc main_arg1))) (m ((c : Thread nD τ).loc main_arg0))) (matSlice0 (m ((c : Thread nD τ).loc main_arg2))) (rowSlice0 (m ((c : Thread nD τ).loc main_arg3))) (matSlice0 (m ((c : Thread nD τ).loc main_arg4))) (rowSlice0 (m ((c : Thread nD τ).loc main_arg5)))) :=
    (mean_0_eq (W2 m c)).trans (by rw [hS]; exact overNodes_eq _)
  have hvar : V3 m c main_v36 = varMoments νw (preact (m ((c : Thread nD τ).loc main_arg0)) (aggOf (edgeRow0 (m ((c : Thread nD τ).loc main_arg1))) (edgeRow1 (m ((c : Thread nD τ).loc main_arg1))) (m ((c : Thread nD τ).loc main_arg0))) (matSlice0 (m ((c : Thread nD τ).loc main_arg2))) (rowSlice0 (m ((c : Thread nD τ).loc main_arg3))) (matSlice0 (m ((c : Thread nD τ).loc main_arg4))) (rowSlice0 (m ((c : Thread nD τ).loc main_arg5)))) :=
    (var_0_eq (W2 m c)).trans (by rw [hS, hQ]; exact varOf_eq _)
  have hG : V3 m c main_v26 = rowSlice0 (m ((c : Thread nD τ).loc main_arg6)) :=
    (host_keeps1 m c main_v26 (by decide)).trans ((region_keeps0 m c main_v26 (by decide)).trans hG0)
  have hT : V3 m c main_v29 = rowSlice0 (m ((c : Thread nD τ).loc main_arg7)) :=
    (host_keeps1 m c main_v29 (by decide)).trans ((region_keeps0 m c main_v29 (by decide)).trans hT0)
  refine (W4_arr m c 5).trans ((normed_array1 (V3 m) c).trans ?_)
  rw [hz', hmu, hvar, hG, hT]
  rfl

set_option maxHeartbeats 4000000 in
/-- Layer 1 of the kernel program: what its second region leaves is the layer's function of what the layer before left. -/
theorem layer1_value : W8 m c (Proc.devRef .tc main_v71) = relu (layerMoments νw εw (W4 m c (Proc.devRef .tc main_v37)) (aggOf (edgeRow0 (m ((c : Thread nD τ).loc main_arg1))) (edgeRow1 (m ((c : Thread nD τ).loc main_arg1))) (W4 m c (Proc.devRef .tc main_v37))) (matSlice1 (m ((c : Thread nD τ).loc main_arg2))) (rowSlice1 (m ((c : Thread nD τ).loc main_arg3))) (matSlice1 (m ((c : Thread nD τ).loc main_arg4))) (rowSlice1 (m ((c : Thread nD τ).loc main_arg5))) (rowSlice1 (m ((c : Thread nD τ).loc main_arg6))) (rowSlice1 (m ((c : Thread nD τ).loc main_arg7)))) := by
  have hH : V5 m c main_v37 = (W4 m c (Proc.devRef .tc main_v37)) := host_keeps2 m c main_v37 (by decide)
  have hA : V5 m c main_v47 = aggOf (edgeRow0 (m ((c : Thread nD τ).loc main_arg1))) (edgeRow1 (m ((c : Thread nD τ).loc main_arg1))) (W4 m c (Proc.devRef .tc main_v37)) := (agg1_eq (W4 m c)).trans (by rw [show W4 m c (Proc.devRef .tc main_v1) = edgeRow0 (m ((c : Thread nD τ).loc main_arg1)) from (kept_1_to_4 m c main_v1 (by decide) (by decide) (by decide)).trans (src_row (W0 m c)), show W4 m c (Proc.devRef .tc main_v3) = edgeRow1 (m ((c : Thread nD τ).loc main_arg1)) from (kept_1_to_4 m c main_v3 (by decide) (by decide) (by decide)).trans (dst_row (W0 m c))])
  have hW1 : V5 m c main_v49 = matSlice1 (m ((c : Thread nD τ).loc main_arg2)) := (w1_1_eq (W4 m c)).trans (congrArg matSlice1 (kept_to_4 m c main_arg2 (by decide) (by decide) (by decide) (by decide)))
  have hB1 : V5 m c main_v52 = rowSlice1 (m ((c : Thread nD τ).loc main_arg3)) := (b1_1_eq (W4 m c)).trans (congrArg rowSlice1 (kept_to_4 m c main_arg3 (by decide) (by decide) (by decide) (by decide)))
  have hW2 : V5 m c main_v54 = matSlice1 (m ((c : Thread nD τ).loc main_arg4)) := (w2_1_eq (W4 m c)).trans (congrArg matSlice1 (kept_to_4 m c main_arg4 (by decide) (by decide) (by decide) (by decide)))
  have hB2 : V5 m c main_v57 = rowSlice1 (m ((c : Thread nD τ).loc main_arg5)) := (b2_1_eq (W4 m c)).trans (congrArg rowSlice1 (kept_to_4 m c main_arg5 (by decide) (by decide) (by decide) (by decide)))
  have hG0 : W5 m c (Proc.devRef .tc main_v60) = rowSlice1 (m ((c : Thread nD τ).loc main_arg6)) := (gamma_1_eq (W4 m c)).trans (congrArg rowSlice1 (kept_to_4 m c main_arg6 (by decide) (by decide) (by decide) (by decide)))
  have hT0 : W5 m c (Proc.devRef .tc main_v63) = rowSlice1 (m ((c : Thread nD τ).loc main_arg7)) := (beta_1_eq (W4 m c)).trans (congrArg rowSlice1 (kept_to_4 m c main_arg7 (by decide) (by decide) (by decide) (by decide)))
  have hz : W6 m c (Proc.devRef .tc main_v64_0) = (preact (W4 m c (Proc.devRef .tc main_v37)) (aggOf (edgeRow0 (m ((c : Thread nD τ).loc main_arg1))) (edgeRow1 (m ((c : Thread nD τ).loc main_arg1))) (W4 m c (Proc.devRef .tc main_v37))) (matSlice1 (m ((c : Thread nD τ).loc main_arg2))) (rowSlice1 (m ((c : Thread nD τ).loc main_arg3))) (matSlice1 (m ((c : Thread nD τ).loc main_arg4))) (rowSlice1 (m ((c : Thread nD τ).loc main_arg5)))) :=
    (W6_arr m c 6).trans ((z_array2 (V5 m) c).trans (by rw [hH, hA, hW1, hB1, hW2, hB2]))
  have hS : W6 m c (Proc.devRef .tc main_v64_1) = colSum (preact (W4 m c (Proc.devRef .tc main_v37)) (aggOf (edgeRow0 (m ((c : Thread nD τ).loc main_arg1))) (edgeRow1 (m ((c : Thread nD τ).loc main_arg1))) (W4 m c (Proc.devRef .tc main_v37))) (matSlice1 (m ((c : Thread nD τ).loc main_arg2))) (rowSlice1 (m ((c : Thread nD τ).loc main_arg3))) (matSlice1 (m ((c : Thread nD τ).loc main_arg4))) (rowSlice1 (m ((c : Thread nD τ).loc main_arg5)))) :=
    (W6_arr m c 7).trans ((sum_array2 (V5 m) c).trans (by rw [hH, hA, hW1, hB1, hW2, hB2]))
  have hQ : W6 m c (Proc.devRef .tc main_v64_2) = colSumSq (preact (W4 m c (Proc.devRef .tc main_v37)) (aggOf (edgeRow0 (m ((c : Thread nD τ).loc main_arg1))) (edgeRow1 (m ((c : Thread nD τ).loc main_arg1))) (W4 m c (Proc.devRef .tc main_v37))) (matSlice1 (m ((c : Thread nD τ).loc main_arg2))) (rowSlice1 (m ((c : Thread nD τ).loc main_arg3))) (matSlice1 (m ((c : Thread nD τ).loc main_arg4))) (rowSlice1 (m ((c : Thread nD τ).loc main_arg5)))) :=
    (W6_arr m c 8).trans ((sumsq_array2 (V5 m) c).trans (by rw [hH, hA, hW1, hB1, hW2, hB2]))
  have hz' : V7 m c main_v64_0 = (preact (W4 m c (Proc.devRef .tc main_v37)) (aggOf (edgeRow0 (m ((c : Thread nD τ).loc main_arg1))) (edgeRow1 (m ((c : Thread nD τ).loc main_arg1))) (W4 m c (Proc.devRef .tc main_v37))) (matSlice1 (m ((c : Thread nD τ).loc main_arg2))) (rowSlice1 (m ((c : Thread nD τ).loc main_arg3))) (matSlice1 (m ((c : Thread nD τ).loc main_arg4))) (rowSlice1 (m ((c : Thread nD τ).loc main_arg5)))) := (host_keeps3 m c main_v64_0 (by decide)).trans hz
  have hmu : V7 m c main_v66 = meanRow νw (preact (W4 m c (Proc.devRef .tc main_v37)) (aggOf (edgeRow0 (m ((c : Thread nD τ).loc main_arg1))) (edgeRow1 (m ((c : Thread nD τ).loc main_arg1))) (W4 m c (Proc.devRef .tc main_v37))) (matSlice1 (m ((c : Thread nD τ).loc main_arg2))) (rowSlice1 (m ((c : Thread nD τ).loc main_arg3))) (matSlice1 (m ((c : Thread nD τ).loc main_arg4))) (rowSlice1 (m ((c : Thread nD τ).loc main_arg5)))) :=
    (mean_1_eq (W6 m c)).trans (by rw [hS]; exact overNodes_eq _)
  have hvar : V7 m c main_v70 = varMoments νw (preact (W4 m c (Proc.devRef .tc main_v37)) (aggOf (edgeRow0 (m ((c : Thread nD τ).loc main_arg1))) (edgeRow1 (m ((c : Thread nD τ).loc main_arg1))) (W4 m c (Proc.devRef .tc main_v37))) (matSlice1 (m ((c : Thread nD τ).loc main_arg2))) (rowSlice1 (m ((c : Thread nD τ).loc main_arg3))) (matSlice1 (m ((c : Thread nD τ).loc main_arg4))) (rowSlice1 (m ((c : Thread nD τ).loc main_arg5)))) :=
    (var_1_eq (W6 m c)).trans (by rw [hS, hQ]; exact varOf_eq _)
  have hG : V7 m c main_v60 = rowSlice1 (m ((c : Thread nD τ).loc main_arg6)) :=
    (host_keeps3 m c main_v60 (by decide)).trans ((region_keeps2 m c main_v60 (by decide)).trans hG0)
  have hT : V7 m c main_v63 = rowSlice1 (m ((c : Thread nD τ).loc main_arg7)) :=
    (host_keeps3 m c main_v63 (by decide)).trans ((region_keeps2 m c main_v63 (by decide)).trans hT0)
  refine (W8_arr m c 5).trans ((normed_array3 (V7 m) c).trans ?_)
  rw [hz', hmu, hvar, hG, hT]
  rfl

set_option maxHeartbeats 4000000 in
/-- Layer 2 of the kernel program: what its second region leaves is the layer's function of what the layer before left. -/
theorem layer2_value : W12 m c (Proc.devRef .tc main_v105) = layerMoments νw εw (W8 m c (Proc.devRef .tc main_v71)) (aggOf (edgeRow0 (m ((c : Thread nD τ).loc main_arg1))) (edgeRow1 (m ((c : Thread nD τ).loc main_arg1))) (W8 m c (Proc.devRef .tc main_v71))) (matSlice2 (m ((c : Thread nD τ).loc main_arg2))) (rowSlice2 (m ((c : Thread nD τ).loc main_arg3))) (matSlice2 (m ((c : Thread nD τ).loc main_arg4))) (rowSlice2 (m ((c : Thread nD τ).loc main_arg5))) (rowSlice2 (m ((c : Thread nD τ).loc main_arg6))) (rowSlice2 (m ((c : Thread nD τ).loc main_arg7))) := by
  have hH : V9 m c main_v71 = (W8 m c (Proc.devRef .tc main_v71)) := host_keeps4 m c main_v71 (by decide)
  have hA : V9 m c main_v81 = aggOf (edgeRow0 (m ((c : Thread nD τ).loc main_arg1))) (edgeRow1 (m ((c : Thread nD τ).loc main_arg1))) (W8 m c (Proc.devRef .tc main_v71)) := (agg2_eq (W8 m c)).trans (by rw [show W8 m c (Proc.devRef .tc main_v1) = edgeRow0 (m ((c : Thread nD τ).loc main_arg1)) from (kept_1_to_8 m c main_v1 (by decide) (by decide) (by decide) (by decide) (by decide) (by decide) (by decide)).trans (src_row (W0 m c)), show W8 m c (Proc.devRef .tc main_v3) = edgeRow1 (m ((c : Thread nD τ).loc main_arg1)) from (kept_1_to_8 m c main_v3 (by decide) (by decide) (by decide) (by decide) (by decide) (by decide) (by decide)).trans (dst_row (W0 m c))])
  have hW1 : V9 m c main_v83 = matSlice2 (m ((c : Thread nD τ).loc main_arg2)) := (w1_2_eq (W8 m c)).trans (congrArg matSlice2 (kept_to_8 m c main_arg2 (by decide) (by decide) (by decide) (by decide) (by decide) (by decide) (by decide) (by decide)))
  have hB1 : V9 m c main_v86 = rowSlice2 (m ((c : Thread nD τ).loc main_arg3)) := (b1_2_eq (W8 m c)).trans (congrArg rowSlice2 (kept_to_8 m c main_arg3 (by decide) (by decide) (by decide) (by decide) (by decide) (by decide) (by decide) (by decide)))
  have hW2 : V9 m c main_v88 = matSlice2 (m ((c : Thread nD τ).loc main_arg4)) := (w2_2_eq (W8 m c)).trans (congrArg matSlice2 (kept_to_8 m c main_arg4 (by decide) (by decide) (by decide) (by decide) (by decide) (by decide) (by decide) (by decide)))
  have hB2 : V9 m c main_v91 = rowSlice2 (m ((c : Thread nD τ).loc main_arg5)) := (b2_2_eq (W8 m c)).trans (congrArg rowSlice2 (kept_to_8 m c main_arg5 (by decide) (by decide) (by decide) (by decide) (by decide) (by decide) (by decide) (by decide)))
  have hG0 : W9 m c (Proc.devRef .tc main_v94) = rowSlice2 (m ((c : Thread nD τ).loc main_arg6)) := (gamma_2_eq (W8 m c)).trans (congrArg rowSlice2 (kept_to_8 m c main_arg6 (by decide) (by decide) (by decide) (by decide) (by decide) (by decide) (by decide) (by decide)))
  have hT0 : W9 m c (Proc.devRef .tc main_v97) = rowSlice2 (m ((c : Thread nD τ).loc main_arg7)) := (beta_2_eq (W8 m c)).trans (congrArg rowSlice2 (kept_to_8 m c main_arg7 (by decide) (by decide) (by decide) (by decide) (by decide) (by decide) (by decide) (by decide)))
  have hz : W10 m c (Proc.devRef .tc main_v98_0) = (preact (W8 m c (Proc.devRef .tc main_v71)) (aggOf (edgeRow0 (m ((c : Thread nD τ).loc main_arg1))) (edgeRow1 (m ((c : Thread nD τ).loc main_arg1))) (W8 m c (Proc.devRef .tc main_v71))) (matSlice2 (m ((c : Thread nD τ).loc main_arg2))) (rowSlice2 (m ((c : Thread nD τ).loc main_arg3))) (matSlice2 (m ((c : Thread nD τ).loc main_arg4))) (rowSlice2 (m ((c : Thread nD τ).loc main_arg5)))) :=
    (W10_arr m c 6).trans ((z_array4 (V9 m) c).trans (by rw [hH, hA, hW1, hB1, hW2, hB2]))
  have hS : W10 m c (Proc.devRef .tc main_v98_1) = colSum (preact (W8 m c (Proc.devRef .tc main_v71)) (aggOf (edgeRow0 (m ((c : Thread nD τ).loc main_arg1))) (edgeRow1 (m ((c : Thread nD τ).loc main_arg1))) (W8 m c (Proc.devRef .tc main_v71))) (matSlice2 (m ((c : Thread nD τ).loc main_arg2))) (rowSlice2 (m ((c : Thread nD τ).loc main_arg3))) (matSlice2 (m ((c : Thread nD τ).loc main_arg4))) (rowSlice2 (m ((c : Thread nD τ).loc main_arg5)))) :=
    (W10_arr m c 7).trans ((sum_array4 (V9 m) c).trans (by rw [hH, hA, hW1, hB1, hW2, hB2]))
  have hQ : W10 m c (Proc.devRef .tc main_v98_2) = colSumSq (preact (W8 m c (Proc.devRef .tc main_v71)) (aggOf (edgeRow0 (m ((c : Thread nD τ).loc main_arg1))) (edgeRow1 (m ((c : Thread nD τ).loc main_arg1))) (W8 m c (Proc.devRef .tc main_v71))) (matSlice2 (m ((c : Thread nD τ).loc main_arg2))) (rowSlice2 (m ((c : Thread nD τ).loc main_arg3))) (matSlice2 (m ((c : Thread nD τ).loc main_arg4))) (rowSlice2 (m ((c : Thread nD τ).loc main_arg5)))) :=
    (W10_arr m c 8).trans ((sumsq_array4 (V9 m) c).trans (by rw [hH, hA, hW1, hB1, hW2, hB2]))
  have hz' : V11 m c main_v98_0 = (preact (W8 m c (Proc.devRef .tc main_v71)) (aggOf (edgeRow0 (m ((c : Thread nD τ).loc main_arg1))) (edgeRow1 (m ((c : Thread nD τ).loc main_arg1))) (W8 m c (Proc.devRef .tc main_v71))) (matSlice2 (m ((c : Thread nD τ).loc main_arg2))) (rowSlice2 (m ((c : Thread nD τ).loc main_arg3))) (matSlice2 (m ((c : Thread nD τ).loc main_arg4))) (rowSlice2 (m ((c : Thread nD τ).loc main_arg5)))) := (host_keeps5 m c main_v98_0 (by decide)).trans hz
  have hmu : V11 m c main_v100 = meanRow νw (preact (W8 m c (Proc.devRef .tc main_v71)) (aggOf (edgeRow0 (m ((c : Thread nD τ).loc main_arg1))) (edgeRow1 (m ((c : Thread nD τ).loc main_arg1))) (W8 m c (Proc.devRef .tc main_v71))) (matSlice2 (m ((c : Thread nD τ).loc main_arg2))) (rowSlice2 (m ((c : Thread nD τ).loc main_arg3))) (matSlice2 (m ((c : Thread nD τ).loc main_arg4))) (rowSlice2 (m ((c : Thread nD τ).loc main_arg5)))) :=
    (mean_2_eq (W10 m c)).trans (by rw [hS]; exact overNodes_eq _)
  have hvar : V11 m c main_v104 = varMoments νw (preact (W8 m c (Proc.devRef .tc main_v71)) (aggOf (edgeRow0 (m ((c : Thread nD τ).loc main_arg1))) (edgeRow1 (m ((c : Thread nD τ).loc main_arg1))) (W8 m c (Proc.devRef .tc main_v71))) (matSlice2 (m ((c : Thread nD τ).loc main_arg2))) (rowSlice2 (m ((c : Thread nD τ).loc main_arg3))) (matSlice2 (m ((c : Thread nD τ).loc main_arg4))) (rowSlice2 (m ((c : Thread nD τ).loc main_arg5)))) :=
    (var_2_eq (W10 m c)).trans (by rw [hS, hQ]; exact varOf_eq _)
  have hG : V11 m c main_v94 = rowSlice2 (m ((c : Thread nD τ).loc main_arg6)) :=
    (host_keeps5 m c main_v94 (by decide)).trans ((region_keeps4 m c main_v94 (by decide)).trans hG0)
  have hT : V11 m c main_v97 = rowSlice2 (m ((c : Thread nD τ).loc main_arg7)) :=
    (host_keeps5 m c main_v97 (by decide)).trans ((region_keeps4 m c main_v97 (by decide)).trans hT0)
  refine (W12_arr m c 5).trans ((normed_array5 (V11 m) c).trans ?_)
  rw [hz', hmu, hvar, hG, hT]
  rfl

end Cert.KernelIdeal.Hand

end
-- ==== Proof.KI.Params.lean ====
/- The kernel program's slices of the stacked layer parameters are plain re-indexings of the stacks.
   Layer k's matrix is block k of a stack of three 64 x 64 matrices with the leading unit axis dropped;
   layer k's row is block k of a stack of three rows of 64, viewed as a vector of 64 and then again as
   a 1 x 64 matrix, which is the block itself. So every entry of a slice is an entry of its stack. Also:
   the word the program divides the column sums by is the real number 50000. -/
import proofs.«135128_j52475910423111_1_alg».proof.Proof.KI.HostDefs
import Idealize.ShloMosaic.Lib.Pipeline.Value
import Idealize.ShloMosaic.PureOps.Ideal
import Idealize.ShloMosaic.PureOps.Ideal.Laws
import Mathlib.Tactic

noncomputable section

namespace Cert.KernelIdeal.Hand

open Idealize.ShloMosaic Idealize.ShloMosaic.TcCoe
open Cert.KernelIdeal Cert.KernelIdeal.Gen

variable {F : FTy → Type} [FloatOps F]

/-! ## A row slice is the block itself -/

/-- Viewing block 0's 1 x 64 row as a vector of 64 and back changes nothing. -/
theorem rowSlice0_eq (B : (⟨S3x64, .f32⟩ : BufTy).Contents (Elt F)) :
    rowSlice0 B = extractStridedSlice S1x64 ![0, 0] B slices_S3x64_S1x64_0_0 := by
  unfold rowSlice0
  exact shapeCast_shapeCast _ _ _

/-- Viewing block 1's 1 x 64 row as a vector of 64 and back changes nothing. -/
theorem rowSlice1_eq (B : (⟨S3x64, .f32⟩ : BufTy).Contents (Elt F)) :
    rowSlice1 B = extractStridedSlice S1x64 ![1, 0] B slices_S3x64_S1x64_1_0 := by
  unfold rowSlice1
  exact shapeCast_shapeCast _ _ _

/-- Viewing block 2's 1 x 64 row as a vector of 64 and back changes nothing. -/
theorem rowSlice2_eq (B : (⟨S3x64, .f32⟩ : BufTy).Contents (Elt F)) :
    rowSlice2 B = extractStridedSlice S1x64 ![2, 0] B slices_S3x64_S1x64_2_0 := by
  unfold rowSlice2
  exact shapeCast_shapeCast _ _ _

/-! ## Every entry of a slice is an entry of the stack

A slice and a shape cast both read their operand at an index computed from the index asked for. -/

theorem matSlice0_entry (W : (⟨S3x64x64, .f32⟩ : BufTy).Contents (Elt F)) (i : S64x64.Idx) :
    ∃ j, matSlice0 W i = W j := ⟨_, rfl⟩

theorem rowSlice0_entry (B : (⟨S3x64, .f32⟩ : BufTy).Contents (Elt F)) (i : S1x64.Idx) :
    ∃ j, rowSlice0 B i = B j := ⟨_, rfl⟩

theorem matSlice1_entry (W : (⟨S3x64x64, .f32⟩ : BufTy).Contents (Elt F)) (i : S64x64.Idx) :
    ∃ j, matSlice1 W i = W j := ⟨_, rfl⟩

theorem rowSlice1_entry (B : (⟨S3x64, .f32⟩ : BufTy).Contents (Elt F)) (i : S1x64.Idx) :
    ∃ j, rowSlice1 B i = B j := ⟨_, rfl⟩

theorem matSlice2_entry (W : (⟨S3x64x64, .f32⟩ : BufTy).Contents (Elt F)) (i : S64x64.Idx) :
    ∃ j, matSlice2 W i = W j := ⟨_, rfl⟩

theorem rowSlice2_entry (B : (⟨S3x64, .f32⟩ : BufTy).Contents (Elt F)) (i : S1x64.Idx) :
    ∃ j, rowSlice2 B i = B j := ⟨_, rfl⟩

/-! ## The number of nodes -/

/-- The word 0x47435000 is 50000.0 = 1.52587890625 · 2¹⁵. -/
theorem nodes_word : Ideal.ofBits .f32 0x47435000#32 = ((50000 : ℝ) : EReal) := by
  simp [Ideal.ofBits, Ideal.ieee, -EReal.coe_mul]; norm_num

end Cert.KernelIdeal.Hand
-- ==== Proof.Ref.Value.lean ====
/-
  The reference network's result as the mathematics' function of its arguments, over the extended reals.

  Read at the exact extended reals, each named stretch of the program is a whole-array function of the layer
  vocabulary: the two dense maps with the maximum between them are `preact`; the column sums over the word for 50000
  are the row of column means; the variance function's chain — centre every entry at its column mean, square, sum down
  the columns, divide by the count 50000 − 0, and keep that quotient because the count is positive — is the row of
  centred variances; and the normalisation, gamma and beta are `bnApply`. So one layer of the program is
  `layerCentred`, and the program's result is three of them chained, the first two closed by the positive part. The
  neighbourhood sum stays the program's own gather-and-scatter term `aggR`: nothing here reads it at an index.
-/
import proofs.«135128_j52475910423111_1_alg».proof.Proof.Ref.Terms
import proofs.«135128_j52475910423111_1_alg».proof.Proof.Spec
import proofs.«135128_j52475910423111_1_alg».proof.Proof.LibGcn
import proofs.«135128_j52475910423111_1_alg».proof.Proof.LibBiasRow
import proofs.«135128_j52475910423111_1_alg».proof.Proof.LibConsts
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx Cert.Spec Cert.Gin

/-! ## Layouts, for any element type -/

section Layout

variable {F : FTy → Type} [FloatOps F]

/-- A vector as a one-row array reads, at (u, j), the vector at j. -/
theorem rowR_apply (v : Fl F S64) (u : Fin 1) (j : Fin 64) : rowR v (ix2 u j) = v (ix1 j) :=
  Cert.LibBiasRow.broadcastInDim_d_1d_apply v bcast_S64_S1x64_1 u j

/-- A one-row array repeated down the rows reads, at (p, j), the row's entry j. -/
theorem downR_apply (r : Fl F S1x64) (p : Fin 50000) (j : Fin 64) : downR r (ix2 p j) = r (ix2 (0 : Fin 1) j) :=
  Cert.LibBiasRow.broadcastInDim_1d_nd_apply r bcast_S1x64_S50000x64_0_1 p j

/-- A one-row array flattened to a vector reads, at j, the row's entry j. -/
theorem vecR_apply (c : Fl F S1x64) (j : Fin 64) : vecR c (ix1 j) = c (ix2 (0 : Fin 1) j) :=
  shapeCast_apply c shapeCasts_S1x64_S64 _ _ (by
    rw [Shape.rowMajor_val_two, Shape.rowMajor_val_one]
    show (0 : Fin 1).val * 64 + j.val = j.val
    rw [Fin.val_zero, Nat.zero_mul, Nat.zero_add])

/-- Flattening a one-row array and viewing the vector as a one-row array again changes nothing. -/
theorem rowR_vecR (c : Fl F S1x64) : rowR (vecR c) = c := by
  funext i
  obtain ⟨u, j, rfl⟩ : ∃ (u : Fin 1) (j : Fin 64), i = ix2 u j := ⟨i 0, i 1, eq_ix2 i⟩
  rw [rowR_apply, vecR_apply, Subsingleton.elim u 0]

end Layout

/-! ## The dense maps -/

/-- The printed dimension numbers of the matrix products are the plain ones: rows × inner times inner × columns. -/
theorem dot_plain : dot_S50000x64_S64x64_S50000x64_1_0_0_1_n_n = DotDims.plain 50000 64 64 := rfl

/-- The stretch before the normalisation is the two dense maps with the positive part between them. -/
theorem preR_eq (H A : Fl Ideal S50000x64) (w1 : Fl Ideal S1x64x64) (c1 : Fl Ideal S1x64) (w2 : Fl Ideal S1x64x64)
    (c2 : Fl Ideal S1x64) :
    preR H A w1 c1 w2 c2 = preact (n := 50000) (d := 64) H A (matR w1) c1 (matR w2) c2 := by
  unfold preR preact dense reluR zerosR mmR downR
  rw [rowR_vecR, rowR_vecR, Cert.LibGcn.dotGeneral_eq_mm _ dot_plain, Cert.LibBiasRow.addf_broadcastInDim_eq_addRow,
    Cert.LibGcn.max_bcast_zero, Cert.LibGcn.dotGeneral_eq_mm _ dot_plain, Cert.LibBiasRow.addf_broadcastInDim_eq_addRow]
  rfl

/-! ## Column sums, means and variances -/

/-- Over result column j, the source index of a reduction of [a, b] down its rows with row coordinate p is (p, j). -/
theorem lift_cols {a b : ℕ} (h : (⟨2, ![a, b]⟩ : Shape).Reduces [0] ⟨1, ![b]⟩) (j : Fin b) (p : Fin a) :
    h.lift (ix1 j) p = ix2 p j := by
  funext c
  apply Fin.ext
  show h.liftVal (ix1 j) p.val c = (ix2 p j c).val
  match c with
  | ⟨0, _⟩ => simp [Shape.Reduces.liftVal]
  | ⟨1, _⟩ => simp [Shape.Reduces.liftVal]

/-- The host's column sum from the zero word, at column j: the sum of the column's 50000 entries. -/
theorem sumR_apply (Z : Fl Ideal S50000x64) (j : Fin 64) : sumR Z (ix1 j) = ∑ p : Fin 50000, Z (ix2 p j) := by
  have h : S50000x64.Reduces [0] S64 := by decide
  show Ideal.hostReduceAdd reducesTo_S50000x64_S64_d0 Z (Ideal.ofBits .f32 0x00000000#32) (ix1 j) = _
  rw [Ideal.hostReduceAdd_single reducesTo_S50000x64_S64_d0 h, Ideal.ofBits_zero_f32, zero_add]
  exact Finset.sum_congr rfl fun p _ => congrArg Z (lift_cols h j p)

/-- The word the sums are divided by, 0x47435000, is fifty thousand. -/
theorem nu_val : Ideal.ofBits .f32 0x47435000#32 = ((50000 : ℝ) : EReal) := by
  simp [Ideal.ofBits, Ideal.ieee, -EReal.coe_mul]; norm_num

/-- The row of column means: the column sums over the word for 50000. -/
theorem meanR_row (Z : Fl Ideal S50000x64) :
    rowR (meanR Z) = meanRow (n := 50000) (d := 64) (Ideal.ofBits .f32 0x47435000#32) Z := by
  funext i
  obtain ⟨u, j, rfl⟩ : ∃ (u : Fin 1) (j : Fin 64), i = ix2 u j := ⟨i 0, i 1, eq_ix2 i⟩
  rw [rowR_apply]
  show Ideal.div (sumR Z (ix1 j)) (Ideal.ofBits .f32 0x47435000#32) = Ideal.div (colSum (n := 50000) Z (ix2 u j)) _
  rw [sumR_apply, colSum_apply]

/-- The count the variance divides by, 50000 less the integer 0 as a float, is the word for 50000 itself. -/
theorem countR_apply (k : S_.Idx) : (countR : Fl Ideal S_) k = Ideal.ofBits .f32 0x47435000#32 := by
  show Ideal.ofBits .f32 0x47435000#32 - (((0#32 : BitVec 32).toInt : ℝ) : EReal) = _
  rw [show (0#32 : BitVec 32).toInt = 0 from rfl, Int.cast_zero, EReal.coe_zero, sub_zero]

/-- An entry centred as the variance function centres it: at its column's mean. -/
theorem centredR_apply (Z : Fl Ideal S50000x64) (p : Fin 50000) (j : Fin 64) :
    centredR Z (ix2 p j)
      = Z (ix2 p j) - meanRow (n := 50000) (d := 64) (Ideal.ofBits .f32 0x47435000#32) Z (ix2 (0 : Fin 1) j) := by
  show Z (ix2 p j) - downR (Host.divf (rowR (sumR Z))
      (broadcastInDim S1x64 ![] bcast_S_S1x64 (constant S_ .f32 0x47435000#32))) (ix2 p j) = _
  rw [downR_apply]
  show _ - Ideal.div (rowR (sumR Z) (ix2 (0 : Fin 1) j)) (Ideal.ofBits .f32 0x47435000#32)
    = _ - Ideal.div (colSum (n := 50000) Z (ix2 (0 : Fin 1) j)) _
  rw [rowR_apply, sumR_apply, colSum_apply]

/-- The variance function's result as a row: the comparison of the count with zero is true (the count is 50000), so
    the selection keeps the quotient — the column sums of the squared centred entries over the count. -/
theorem varR_row (Z : Fl Ideal S50000x64) :
    rowR (varR Z) = varCentred (n := 50000) (d := 64) (Ideal.ofBits .f32 0x47435000#32) Z := by
  funext i
  obtain ⟨u, j, rfl⟩ : ∃ (u : Fin 1) (j : Fin 64), i = ix2 u j := ⟨i 0, i 1, eq_ix2 i⟩
  rw [rowR_apply]
  have hpos : Ideal.cmp .ogt (Ideal.ofBits .f32 0x47435000#32) (Ideal.ofBits .f32 0x00000000#32) = 1 := by
    rw [nu_val, Ideal.ofBits_zero_f32]
    show BitVec.ofBool (decide ((0 : EReal) < ((50000 : ℝ) : EReal))) = 1
    rw [decide_eq_true (by exact_mod_cast (by norm_num : (0 : ℝ) < 50000))]
    rfl
  show Scalar.select (Ideal.cmp .ogt ((countR : Fl Ideal S_) _) (Ideal.ofBits .f32 0x00000000#32))
      (Ideal.div (sumR (mulf (centredR Z) (centredR Z)) (ix1 j)) ((countR : Fl Ideal S_) _)) _ = _
  rw [countR_apply, hpos]
  show Ideal.div (sumR (mulf (centredR Z) (centredR Z)) (ix1 j)) _ = _
  rw [sumR_apply]
  show Ideal.div (∑ p : Fin 50000, centredR Z (ix2 p j) * centredR Z (ix2 p j)) _
    = Ideal.div (∑ p : Fin 50000, (Z (ix2 p j) - meanRow (n := 50000) (d := 64) _ Z (ix2 u j))
        * (Z (ix2 p j) - meanRow (n := 50000) (d := 64) _ Z (ix2 u j))) _
  rw [Subsingleton.elim u 0]
  refine congrArg (fun s => Ideal.div s (Ideal.ofBits .f32 0x47435000#32)) ?_
  exact Finset.sum_congr rfl fun p _ => by rw [centredR_apply]

/-! ## One layer, and the three -/

/-- One layer of the program is the layer of the mathematics, its variance the centred one; the dense maps' weights
    are the layer's [1,64,64] slices flattened to matrices, its biases, gamma and beta the [1,64] slices themselves. -/
theorem layerR_eq (H A : Fl Ideal S50000x64) (w1 : Fl Ideal S1x64x64) (c1 : Fl Ideal S1x64) (w2 : Fl Ideal S1x64x64)
    (c2 g b : Fl Ideal S1x64) :
    layerR H A w1 c1 w2 c2 g b
      = layerCentred (n := 50000) (d := 64) (Ideal.ofBits .f32 0x47435000#32) (Ideal.ofBits .f32 0x3727C5AC#32)
          H A (matR w1) c1 (matR w2) c2 g b := by
  unfold layerR layerCentred
  rw [preR_eq]
  generalize preact (n := 50000) (d := 64) H A (matR w1) c1 (matR w2) c2 = Z
  funext i
  obtain ⟨p, j, rfl⟩ : ∃ (p : Fin 50000) (j : Fin 64), i = ix2 p j := ⟨i 0, i 1, eq_ix2 i⟩
  rw [bnApply_apply, ← meanR_row, ← varR_row, rowR_apply, rowR_apply]
  show (Z (ix2 p j) - downR (F := Ideal) (rowR (F := Ideal) (meanR (F := Ideal) Z)) (ix2 p j))
        * downR (F := Ideal) (rowR (F := Ideal) (Host.rsqrt (F := Ideal) (addf (F := Ideal) (varR (F := Ideal) Z)
            (broadcastInDim S64 ![] bcast_S_S64 (constant (F := Ideal) S_ .f32 0x3727C5AC#32))))) (ix2 p j)
        * downR (F := Ideal) (rowR (F := Ideal) (vecR (F := Ideal) g)) (ix2 p j)
      + downR (F := Ideal) (rowR (F := Ideal) (vecR (F := Ideal) b)) (ix2 p j) = _
  rw [downR_apply, downR_apply, downR_apply, downR_apply, rowR_apply, rowR_apply, rowR_apply, rowR_apply,
    vecR_apply, vecR_apply]
  rfl

/-- The closing maximum with the zero array is the positive part. -/
theorem reluR_eq (X : Fl Ideal S50000x64) : reluR X = relu (n := 50000) (d := 64) X := by
  unfold reluR zerosR
  exact Cert.LibGcn.max_bcast_zero _ _ X

/-- The program's result: three layers of the mathematics, the first two closed by the positive part, each taking the
    neighbourhood sum of its own input over the edge table's two rows. -/
theorem result_eq (a0 : Fl Ideal S50000x64) (a1 : In Ideal S2x800000) (a2 : Fl Ideal S3x64x64) (a3 : Fl Ideal S3x64)
    (a4 : Fl Ideal S3x64x64) (a5 a6 a7 : Fl Ideal S3x64) :
    outR a0 a1 a2 a3 a4 a5 a6 a7
      = layerCentred (n := 50000) (d := 64) (Ideal.ofBits .f32 0x47435000#32) (Ideal.ofBits .f32 0x3727C5AC#32)
          (h2R a0 a1 a2 a3 a4 a5 a6 a7) (aggR (srcOf a1) (dstOf a1) (h2R a0 a1 a2 a3 a4 a5 a6 a7))
          (matR (w2R a2)) (b2R a3) (matR (w2R a4)) (b2R a5) (b2R a6) (b2R a7) := by
  unfold outR
  exact layerR_eq _ _ _ _ _ _ _ _

/-- The third layer's input: the second layer and the positive part. -/
theorem h2R_eq (a0 : Fl Ideal S50000x64) (a1 : In Ideal S2x800000) (a2 : Fl Ideal S3x64x64) (a3 : Fl Ideal S3x64)
    (a4 : Fl Ideal S3x64x64) (a5 a6 a7 : Fl Ideal S3x64) :
    h2R a0 a1 a2 a3 a4 a5 a6 a7
      = relu (n := 50000) (d := 64)
          (layerCentred (n := 50000) (d := 64) (Ideal.ofBits .f32 0x47435000#32) (Ideal.ofBits .f32 0x3727C5AC#32)
            (h1R a0 a1 a2 a3 a4 a5 a6 a7) (aggR (srcOf a1) (dstOf a1) (h1R a0 a1 a2 a3 a4 a5 a6 a7))
            (matR (w1R a2)) (b1R a3) (matR (w1R a4)) (b1R a5) (b1R a6) (b1R a7)) := by
  unfold h2R
  rw [reluR_eq, layerR_eq]

/-- The second layer's input: the first layer and the positive part. -/
theorem h1R_eq (a0 : Fl Ideal S50000x64) (a1 : In Ideal S2x800000) (a2 : Fl Ideal S3x64x64) (a3 : Fl Ideal S3x64)
    (a4 : Fl Ideal S3x64x64) (a5 a6 a7 : Fl Ideal S3x64) :
    h1R a0 a1 a2 a3 a4 a5 a6 a7
      = relu (n := 50000) (d := 64)
          (layerCentred (n := 50000) (d := 64) (Ideal.ofBits .f32 0x47435000#32) (Ideal.ofBits .f32 0x3727C5AC#32)
            a0 (aggR (srcOf a1) (dstOf a1) a0)
            (matR (w0R a2)) (b0R a3) (matR (w0R a4)) (b0R a5) (b0R a6) (b0R a7)) := by
  unfold h1R
  rw [reluR_eq, layerR_eq]

/-! ## The chained form -/

/-- The node array after the first layer and its positive part, in the mathematics' words. -/
def net1 (a0 : Fl Ideal S50000x64) (a1 : In Ideal S2x800000) (a2 : Fl Ideal S3x64x64) (a3 : Fl Ideal S3x64)
    (a4 : Fl Ideal S3x64x64) (a5 a6 a7 : Fl Ideal S3x64) : Mat 50000 64 :=
  relu (layerCentred (n := 50000) (d := 64) (Ideal.ofBits .f32 0x47435000#32) (Ideal.ofBits .f32 0x3727C5AC#32)
    a0 (aggR (F := Ideal) (srcOf a1) (dstOf a1) a0)
    (matR (w0R a2)) (b0R a3) (matR (w0R a4)) (b0R a5) (b0R a6) (b0R a7))

/-- The node array after the second layer and its positive part. -/
def net2 (a0 : Fl Ideal S50000x64) (a1 : In Ideal S2x800000) (a2 : Fl Ideal S3x64x64) (a3 : Fl Ideal S3x64)
    (a4 : Fl Ideal S3x64x64) (a5 a6 a7 : Fl Ideal S3x64) : Mat 50000 64 :=
  relu (layerCentred (n := 50000) (d := 64) (Ideal.ofBits .f32 0x47435000#32) (Ideal.ofBits .f32 0x3727C5AC#32)
    (net1 a0 a1 a2 a3 a4 a5 a6 a7) (aggR (F := Ideal) (srcOf a1) (dstOf a1) (net1 a0 a1 a2 a3 a4 a5 a6 a7))
    (matR (w1R a2)) (b1R a3) (matR (w1R a4)) (b1R a5) (b1R a6) (b1R a7))

/-- The network: the third layer, with no closing positive part. -/
def net3 (a0 : Fl Ideal S50000x64) (a1 : In Ideal S2x800000) (a2 : Fl Ideal S3x64x64) (a3 : Fl Ideal S3x64)
    (a4 : Fl Ideal S3x64x64) (a5 a6 a7 : Fl Ideal S3x64) : Mat 50000 64 :=
  layerCentred (n := 50000) (d := 64) (Ideal.ofBits .f32 0x47435000#32) (Ideal.ofBits .f32 0x3727C5AC#32)
    (net2 a0 a1 a2 a3 a4 a5 a6 a7) (aggR (F := Ideal) (srcOf a1) (dstOf a1) (net2 a0 a1 a2 a3 a4 a5 a6 a7))
    (matR (w2R a2)) (b2R a3) (matR (w2R a4)) (b2R a5) (b2R a6) (b2R a7)

theorem h1R_net (a0 : Fl Ideal S50000x64) (a1 : In Ideal S2x800000) (a2 : Fl Ideal S3x64x64) (a3 : Fl Ideal S3x64)
    (a4 : Fl Ideal S3x64x64) (a5 a6 a7 : Fl Ideal S3x64) :
    h1R a0 a1 a2 a3 a4 a5 a6 a7 = net1 a0 a1 a2 a3 a4 a5 a6 a7 := h1R_eq a0 a1 a2 a3 a4 a5 a6 a7

theorem h2R_net (a0 : Fl Ideal S50000x64) (a1 : In Ideal S2x800000) (a2 : Fl Ideal S3x64x64) (a3 : Fl Ideal S3x64)
    (a4 : Fl Ideal S3x64x64) (a5 a6 a7 : Fl Ideal S3x64) :
    h2R a0 a1 a2 a3 a4 a5 a6 a7 = net2 a0 a1 a2 a3 a4 a5 a6 a7 := by
  rw [h2R_eq, h1R_net]
  rfl

/-- The program's result is the network of its eight arguments. -/
theorem outR_net (a0 : Fl Ideal S50000x64) (a1 : In Ideal S2x800000) (a2 : Fl Ideal S3x64x64) (a3 : Fl Ideal S3x64)
    (a4 : Fl Ideal S3x64x64) (a5 a6 a7 : Fl Ideal S3x64) :
    outR a0 a1 a2 a3 a4 a5 a6 a7 = net3 a0 a1 a2 a3 a4 a5 a6 a7 := by
  rw [result_eq, h2R_net]
  rfl

end Cert.ReferenceIdeal.Hand

end
-- ==== Proof.LibRows.lean ====
/-
  Whole rows of a matrix gathered and scatter-added, for any sizes.  A gather with one start index per result row
  (operand [N, C], start indices [E, 1], result [E, C]) reads, at (e, c), the operand at the row the e-th index names
  (read signed, clamped into [0, N - 1]) and column c.  A scatter-add with one index per update row adds, at (r, c),
  the column-c entries of exactly the update rows whose index, read signed, is r; a row whose index is outside the
  operand is dropped.  Summing gathered rows commutes with a matrix product on the right, for finite entries:
  the scatter-add into zeros of the gathered rows of X · W is (the scatter-add into zeros of the gathered rows of X) · W.
-/
import Idealize.ShloMosaic.Lib.ValueIdx
import Idealize.ShloMosaic.PureOps.Ideal
import Idealize.ShloMosaic.PureOps.Ideal.Laws
import proofs.«135128_j52475910423111_1_alg».proof.Proof.LibMatOps

noncomputable section

open scoped BigOperators

namespace Cert.LibRows

open Idealize.ShloMosaic Idealize.ShloMosaic.ValueIdx

variable {N C K E w : ℕ}

/-! ## Gathering whole rows -/

/-- The dimension numbers of a gather of whole rows: operand `[N, C]`, start indices `[E, 1]` (one row number per
    result row), result `[E, C]`; axis 0 of the operand is collapsed and indexed, axis 1 is taken whole. -/
abbrev gatherRowsDims (N C E : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row `e` reads: its start index, read signed, clamped into `[0, N - 1]`. -/
def rowAt (hN : 0 < N) (idx : IVec ⟨2, ![E, 1]⟩ w) (e : Fin E) : Fin N :=
  ⟨min (idx (ix2 e (0 : Fin 1))).toInt.toNat (N - 1), by omega⟩

/-- The gather read at `(e, c)`: the operand at row `rowAt e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N C E wf) x idx (ix2 e c) = x (ix2 (rowAt hN idx e) c) := by
  unfold Host.gather
  congr 1
  have h0 : (gatherRowsDims N C E wf).start (ix2 e c) idx (0 : Fin 2)
      + (gatherRowsDims N C E wf).batchCoord (ix2 e c) (0 : Fin 2)
      + (gatherRowsDims N C E wf).offCoord (ix2 e c) (0 : Fin 2) = (rowAt hN idx e).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gatherRowsDims N C E wf).startIndexMap from List.mem_singleton.mpr rfl)]
    have hsi : (gatherRowsDims N C E wf).siIdx (ix2 e c)
        ⟨List.idxOf (0 : Fin 2) (gatherRowsDims N C E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gatherRowsDims N C E wf).start (ix2 e c) idx (1 : Fin 2)
      + (gatherRowsDims N C E wf).batchCoord (ix2 e c) (1 : Fin 2)
      + (gatherRowsDims N C E wf).offCoord (ix2 e c) (1 : Fin 2) = c.val := by
    have hstart : (gatherRowsDims N C E wf).start (ix2 e c) idx (1 : Fin 2) = 0 := by
      unfold GatherDims.start
      rw [dif_neg (show (1 : Fin 2) ∉ (gatherRowsDims N C E wf).startIndexMap from
        (by decide : (1 : Fin 2) ∉ [(0 : Fin 2)]))]
    have hoff : (gatherRowsDims N C E wf).offCoord (ix2 e c) (1 : Fin 2) = c.val := by
      unfold GatherDims.offCoord
      rw [dif_pos (show (1 : Fin 2) ∈ (gatherRowsDims N C E wf).sKept from
        (by decide : (1 : Fin 2) ∈ (List.finRange 2).filter (· ∉ ([(0 : Fin 2)] ++ []))))]
      rfl
    rw [GatherDims.batchCoord_eq_zero _ _ _ List.not_mem_nil, hstart, hoff]; omega
  funext a
  refine Fin.ext ?_
  match a with
  | ⟨0, _⟩ => exact h0
  | ⟨1, _⟩ => exact h1

/-! ## Scatter-adding whole rows -/

/-- The dimension numbers of a scatter of whole rows: operand `[N, C]`, scatter indices `[E, 1]` (one row number per
    update row), updates `[E, C]`; update row `e` goes, whole, to the operand row its index names. -/
abbrev scatterRowsDims (N C E : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update element `(e, c')` lands on `(r, c)` exactly when row `e`'s index, read signed, is `r` and `c' = c`. -/
theorem resultIdx_rows_iff (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (scatterRowsDims N C E wf).resultIdx? (ix2 e c') idx = some (ix2 r c)
      ↔ (idx (ix2 e (0 : Fin 1))).toInt = (r.val : ℤ) ∧ c' = c := by
  have hs0 : (scatterRowsDims N C E wf).start (ix2 e c') idx (0 : Fin 2) = (idx (ix2 e (0 : Fin 1))).toInt := by
    unfold ScatterDims.start
    rw [dif_pos (show (0 : Fin 2) ∈ (scatterRowsDims N C E wf).scatterDimsToOperandDims from
      List.mem_singleton.mpr rfl)]
    have hsi : (scatterRowsDims N C E wf).siIdx (ix2 e c')
        ⟨List.idxOf (0 : Fin 2) (scatterRowsDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scatterRowsDims N C E wf).start (ix2 e c') idx (1 : Fin 2) = 0 := by
    unfold ScatterDims.start
    rw [dif_neg (show (1 : Fin 2) ∉ (scatterRowsDims N C E wf).scatterDimsToOperandDims from
      (by decide : (1 : Fin 2) ∉ [(0 : Fin 2)]))]
  have hw0 : (scatterRowsDims N C E wf).window (ix2 e c') (0 : Fin 2) = 0 := by
    unfold ScatterDims.window
    rw [dif_neg (show (0 : Fin 2) ∉ (scatterRowsDims N C E wf).sKept from
      (by decide : (0 : Fin 2) ∉ (List.finRange 2).filter (· ∉ [(0 : Fin 2)])))]
  have hw1 : (scatterRowsDims N C E wf).window (ix2 e c') (1 : Fin 2) = c'.val := by
    unfold ScatterDims.window
    rw [dif_pos (show (1 : Fin 2) ∈ (scatterRowsDims N C E wf).sKept from
      (by decide : (1 : Fin 2) ∈ (List.finRange 2).filter (· ∉ [(0 : Fin 2)])))]
    rfl
  unfold ScatterDims.resultIdx?
  constructor
  · intro h
    split at h
    · rename_i hall
      have hf := Option.some.inj h
      have h0 : ((scatterRowsDims N C E wf).start (ix2 e c') idx (0 : Fin 2)
          + ((scatterRowsDims N C E wf).window (ix2 e c') (0 : Fin 2) : ℤ)).toNat = r.val :=
        congrArg Fin.val (congrFun hf (0 : Fin 2))
      have h1 : ((scatterRowsDims N C E wf).start (ix2 e c') idx (1 : Fin 2)
          + ((scatterRowsDims N C E wf).window (ix2 e c') (1 : Fin 2) : ℤ)).toNat = c.val :=
        congrArg Fin.val (congrFun hf (1 : Fin 2))
      have ha0 := (hall (0 : Fin 2)).1
      rw [hs0, hw0] at h0 ha0
      rw [hs1, hw1] at h1
      refine ⟨by omega, Fin.ext (by omega)⟩
    · exact absurd h (by simp)
  · rintro ⟨hr, rfl⟩
    have hall : ∀ a : Fin 2, 0 ≤ (scatterRowsDims N C E wf).start (ix2 e c') idx a
          + ((scatterRowsDims N C E wf).window (ix2 e c') a : ℤ)
        ∧ (scatterRowsDims N C E wf).start (ix2 e c') idx a + ((scatterRowsDims N C E wf).window (ix2 e c') a : ℤ)
          < ((⟨2, ![N, C]⟩ : Shape).size a : ℤ) := by
      intro a
      match a with
      | ⟨0, _⟩ =>
        show 0 ≤ (scatterRowsDims N C E wf).start (ix2 e c') idx (0 : Fin 2)
            + ((scatterRowsDims N C E wf).window (ix2 e c') (0 : Fin 2) : ℤ)
          ∧ (scatterRowsDims N C E wf).start (ix2 e c') idx (0 : Fin 2)
            + ((scatterRowsDims N C E wf).window (ix2 e c') (0 : Fin 2) : ℤ) < (N : ℤ)
        rw [hs0, hw0, hr]; have := r.isLt; omega
      | ⟨1, _⟩ =>
        show 0 ≤ (scatterRowsDims N C E wf).start (ix2 e c') idx (1 : Fin 2)
            + ((scatterRowsDims N C E wf).window (ix2 e c') (1 : Fin 2) : ℤ)
          ∧ (scatterRowsDims N C E wf).start (ix2 e c') idx (1 : Fin 2)
            + ((scatterRowsDims N C E wf).window (ix2 e c') (1 : Fin 2) : ℤ) < (C : ℤ)
        rw [hs1, hw1]; have := c'.isLt; omega
    rw [dif_pos hall]
    congr 1
    funext a
    refine Fin.ext ?_
    match a with
    | ⟨0, _⟩ =>
      show ((scatterRowsDims N C E wf).start (ix2 e c') idx (0 : Fin 2)
        + ((scatterRowsDims N C E wf).window (ix2 e c') (0 : Fin 2) : ℤ)).toNat = r.val
      rw [hs0, hw0, hr]; omega
    | ⟨1, _⟩ =>
      show ((scatterRowsDims N C E wf).start (ix2 e c') idx (1 : Fin 2)
        + ((scatterRowsDims N C E wf).window (ix2 e c') (1 : Fin 2) : ℤ)).toNat = c'.val
      rw [hs1, hw1]; omega

/-- The scatter-add read at `(r, c)`: the operand's entry plus the updates' column-`c` entries of the rows whose
    index, read signed, is `r`. -/
theorem scatterRows_apply (wf : ScatterDims.WF ⟨2, ![N, C]⟩ ⟨2, ![E, 1]⟩ ⟨2, ![E, C]⟩ [1] [0] [0] 1)
    (x : Cert.Spec.Mat N C) (idx : IVec ⟨2, ![E, 1]⟩ w) (upd : Cert.Spec.Mat E C) (r : Fin N) (c : Fin C) :
    Ideal.hostScatterAdd (scatterRowsDims N C E wf) x idx upd (ix2 r c)
      = x (ix2 r c) + ∑ e ∈ Finset.univ.filter
          (fun e : Fin E => (idx (ix2 e (0 : Fin 1))).toInt = (r.val : ℤ)), upd (ix2 e c) := by
  unfold Ideal.hostScatterAdd
  congr 1
  rw [Finset.sum_filter, Finset.sum_filter, sum_idx2]
  refine Finset.sum_congr rfl fun e _ => ?_
  by_cases hP : (idx (ix2 e (0 : Fin 1))).toInt = (r.val : ℤ)
  · rw [if_pos hP, Finset.sum_eq_single c]
    · rw [if_pos ((resultIdx_rows_iff wf idx e c r c).mpr ⟨hP, rfl⟩)]
    · intro c' _ hc'
      rw [if_neg (fun h => hc' ((resultIdx_rows_iff wf idx e c' r c).mp h).2)]
    · intro h; exact absurd (Finset.mem_univ _) h
  · rw [if_neg hP]
    refine Finset.sum_eq_zero fun c' _ => ?_
    rw [if_neg (fun h => hP ((resultIdx_rows_iff wf idx e c' r c).mp h).1)]

/-! ## Aggregation commutes with a matrix product -/

/-- The coercion of the reals into the extended reals takes a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing gathered rows and multiplying by a matrix commute, for finite entries: scatter-adding, into zeros, the
    gathered rows of `X · W` is `(the scatter-add of the gathered rows of X) · W`. -/
theorem aggregate_mm (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    (X : Cert.Spec.Mat N K) (W : Cert.Spec.Mat K C)
    (hX : ∀ i, ∃ r : ℝ, X i = (r : EReal)) (hW : ∀ i, ∃ r : ℝ, W i = (r : EReal))
    (ZC : Cert.Spec.Mat N C) (ZK : Cert.Spec.Mat N K) (hZC : ∀ i, ZC i = 0) (hZK : ∀ i, ZK i = 0)
    (idxs idxd : IVec ⟨2, ![E, 1]⟩ w) :
    Ideal.hostScatterAdd (scatterRowsDims N C E wfsC) ZC idxd
        (Host.gather (gatherRowsDims N C E wfgC) (Cert.Spec.mm X W) idxs)
      = Cert.Spec.mm (Ideal.hostScatterAdd (scatterRowsDims N K E wfsK) ZK idxd
          (Host.gather (gatherRowsDims N K E wfgK) X idxs)) W := by
  funext i
  obtain ⟨r, c, rfl⟩ : ∃ (r : Fin N) (c : Fin C), i = ix2 r c := ⟨i 0, i 1, eq_ix2 i⟩
  rw [scatterRows_apply, Cert.Spec.mm_apply]
  simp only [scatterRows_apply, gatherRows_apply hN, hZC, hZK, zero_add, Cert.Spec.mm_apply]
  choose xr hxr using hX
  choose wr hwr using hW
  simp only [hxr, hwr, ← EReal.coe_mul, ← coe_sum]
  congr 1
  rw [Finset.sum_comm]
  exact Finset.sum_congr rfl fun q _ => (Finset.sum_mul _ _ _).symm

end Cert.LibRows

end
-- ==== Proof.AggReal.lean ====
/-
  The edge aggregation keeps real entries real.

  Both programs aggregate node features over the edges with the same two host operations: a gather of whole rows
  (row e of the result is the row of H that the e-th source index names) followed by a scatter-add of those rows into
  an array of zeros (row r of the result is the sum of the gathered rows whose destination index is r).  Entry (r, c)
  of the aggregate is therefore 0 plus a finite sum of entries of H, and a finite sum of real numbers, formed in the
  extended reals, is the real number that is their sum.
-/
import proofs.«135128_j52475910423111_1_alg».proof.KernelIdeal
import proofs.«135128_j52475910423111_1_alg».proof.ReferenceIdeal
import proofs.«135128_j52475910423111_1_alg».proof.Proof.LibRows
import proofs.«135128_j52475910423111_1_alg».proof.Proof.Spec

noncomputable section

open scoped BigOperators

namespace Cert.AggReal

open Idealize.ShloMosaic Idealize.ShloMosaic.ValueIdx Cert.Spec Cert.Gin Cert.LibRows

/-- For any sizes: scatter-adding, into an array of zeros, whole rows gathered from an array of reals gives an array
    of reals.  Entry (r, c) is the sum, over the edges whose destination is r, of the entry of H at the edge's source
    row and column c. -/
theorem aggregate_real_rows {N C E w : ℕ} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (Z : Mat N C) (hZ : ∀ i, Z i = 0) (src dst : IVec ⟨2, ![E, 1]⟩ w) (H : Mat N C) (hH : IsReal H) :
    IsReal (Ideal.hostScatterAdd (scatterRowsDims N C E wfs) Z dst
      (Host.gather (gatherRowsDims N C E wfg) H src)) := by
  intro i
  obtain ⟨r, c, rfl⟩ : ∃ (r : Fin N) (c : Fin C), i = ix2 r c := ⟨i 0, i 1, eq_ix2 i⟩
  choose hr hhr using hH
  rw [scatterRows_apply, hZ, zero_add]
  simp only [gatherRows_apply hN, hhr]
  exact ⟨_, Cert.CoeOps.coe_sum _ _⟩

section Kernel
variable [Cert.KernelIdeal.Facts₀]

set_option maxHeartbeats 400000 in
/-- The kernel program's aggregation (its printed gather and scatter records) of an array of reals is an array of reals. -/
theorem aggregate_real (src dst : IVec ⟨2, ![800000, 1]⟩ 32) (H : Mat 50000 64) (hH : IsReal H) :
    IsReal (Host.scatterAdd (F := Ideal) Cert.KernelIdeal.scatter_S50000x64_S800000x1_S800000x64_1_0_0_1
      (broadcastInDim Cert.KernelIdeal.S50000x64 ![] Cert.KernelIdeal.Facts₀.bcast_S_S50000x64
        (constant Cert.KernelIdeal.S_ .f32 0x00000000#32)) dst
      (Host.gather Cert.KernelIdeal.gather_S50000x64_S800000x1_S800000x64_1_0_n_n_0_1_164 H src)) :=
  aggregate_real_rows (by norm_num) Cert.KernelIdeal.Facts₀.gather_S50000x64_S800000x1_S800000x64_1_0_n_n_0_1_164_wf
    Cert.KernelIdeal.Facts₀.scatter_S50000x64_S800000x1_S800000x64_1_0_0_1_wf _
    (fun _ => Cert.Consts.ofBits_zero) src dst H hH

end Kernel

section Reference
variable [Cert.ReferenceIdeal.Facts₀]

set_option maxHeartbeats 400000 in
/-- The reference program's aggregation (its printed gather and scatter records) of an array of reals is an array of reals. -/
theorem aggregate_real_ref (src dst : IVec ⟨2, ![800000, 1]⟩ 32) (H : Mat 50000 64) (hH : IsReal H) :
    IsReal (Host.scatterAdd (F := Ideal) Cert.ReferenceIdeal.scatter_S50000x64_S800000x1_S800000x64_1_0_0_1
      (broadcastInDim Cert.ReferenceIdeal.S50000x64 ![] Cert.ReferenceIdeal.Facts₀.bcast_S_S50000x64
        (constant Cert.ReferenceIdeal.S_ .f32 0x00000000#32)) dst
      (Host.gather Cert.ReferenceIdeal.gather_S50000x64_S800000x1_S800000x64_1_0_n_n_0_1_164 H src)) :=
  aggregate_real_rows (by norm_num) Cert.ReferenceIdeal.Facts₀.gather_S50000x64_S800000x1_S800000x64_1_0_n_n_0_1_164_wf
    Cert.ReferenceIdeal.Facts₀.scatter_S50000x64_S800000x1_S800000x64_1_0_0_1_wf _
    (fun _ => Cert.Consts.ofBits_zero) src dst H hH

end Reference

end Cert.AggReal

end
-- ==== Proof.Net.lean ====
/-
  Three layers chained, with the positive part after the first two.  Computing each layer's variance from the two
  moments or from the centred entries gives the same network when the features, the parameters and every aggregate
  have real entries: the first layer's two forms agree, its result has real entries again, and so on down the chain.
-/
import proofs.«135128_j52475910423111_1_alg».proof.Proof.Spec

noncomputable section

namespace Cert.Gin

open Idealize.ShloMosaic Idealize.ShloMosaic.ValueIdx Cert.Spec

variable {n d : ℕ}

/-- One layer's parameters: the two dense maps and the normalisation's scale and shift. -/
structure LayerP (d : ℕ) where
  W1 : Mat d d
  B1 : Mat 1 d
  W2 : Mat d d
  B2 : Mat 1 d
  G : Mat 1 d
  BT : Mat 1 d

/-- Every parameter entry is a real number. -/
def LayerP.IsReal (P : LayerP d) : Prop :=
  Cert.Gin.IsReal P.W1 ∧ Cert.Gin.IsReal P.B1 ∧ Cert.Gin.IsReal P.W2 ∧ Cert.Gin.IsReal P.B2 ∧ Cert.Gin.IsReal P.G ∧ Cert.Gin.IsReal P.BT

/-- A layer over its parameter record, variance from the moments. -/
def stepMoments (agg : Mat n d → Mat n d) (ν ε : EReal) (P : LayerP d) (H : Mat n d) : Mat n d :=
  layerMoments ν ε H (agg H) P.W1 P.B1 P.W2 P.B2 P.G P.BT

/-- A layer over its parameter record, variance from the centred entries. -/
def stepCentred (agg : Mat n d → Mat n d) (ν ε : EReal) (P : LayerP d) (H : Mat n d) : Mat n d :=
  layerCentred ν ε H (agg H) P.W1 P.B1 P.W2 P.B2 P.G P.BT

/-- The three layers, variance from the moments. -/
def netMoments (agg : Mat n d → Mat n d) (ν ε : EReal) (P0 P1 P2 : LayerP d) (X : Mat n d) : Mat n d :=
  stepMoments agg ν ε P2 (relu (stepMoments agg ν ε P1 (relu (stepMoments agg ν ε P0 X))))

/-- The three layers, variance from the centred entries. -/
def netCentred (agg : Mat n d → Mat n d) (ν ε : EReal) (P0 P1 P2 : LayerP d) (X : Mat n d) : Mat n d :=
  stepCentred agg ν ε P2 (relu (stepCentred agg ν ε P1 (relu (stepCentred agg ν ε P0 X))))

section

variable (hn : (n : ℝ) ≠ 0) {ε : EReal} (hε : ∃ e : ℝ, 0 < e ∧ ε = (e : EReal))
variable {agg : Mat n d → Mat n d} (hagg : ∀ H, IsReal H → IsReal (agg H))

include hn hagg in
theorem stepMoments_eq_stepCentred {P : LayerP d} (hP : P.IsReal) {H : Mat n d} (hH : IsReal H) :
    stepMoments agg ((n : ℝ) : EReal) ε P H = stepCentred agg ((n : ℝ) : EReal) ε P H :=
  layerMoments_eq_layerCentred hn hH (hagg H hH) hP.1 hP.2.1 hP.2.2.1 hP.2.2.2.1

include hn hε hagg in
theorem IsReal.stepCentred {P : LayerP d} (hP : P.IsReal) {H : Mat n d} (hH : IsReal H) :
    IsReal (stepCentred agg ((n : ℝ) : EReal) ε P H) :=
  IsReal.layerCentred hn hε hH (hagg H hH) hP.1 hP.2.1 hP.2.2.1 hP.2.2.2.1 hP.2.2.2.2.1 hP.2.2.2.2.2

include hn hε hagg in
/-- With real features and parameters, and an aggregation that keeps real entries real, the two networks are one. -/
theorem netMoments_eq_netCentred {P0 P1 P2 : LayerP d} (h0 : P0.IsReal) (h1 : P1.IsReal) (h2 : P2.IsReal)
    {X : Mat n d} (hX : IsReal X) :
    netMoments agg ((n : ℝ) : EReal) ε P0 P1 P2 X = netCentred agg ((n : ℝ) : EReal) ε P0 P1 P2 X := by
  unfold netMoments netCentred
  have r1 : IsReal (relu (stepCentred agg ((n : ℝ) : EReal) ε P0 X)) := (IsReal.stepCentred hn hε hagg h0 hX).relu
  have r2 : IsReal (relu (stepCentred agg ((n : ℝ) : EReal) ε P1 (relu (stepCentred agg ((n : ℝ) : EReal) ε P0 X)))) :=
    (IsReal.stepCentred hn hε hagg h1 r1).relu
  rw [stepMoments_eq_stepCentred hn hagg h0 hX, stepMoments_eq_stepCentred hn hagg h1 r1,
    stepMoments_eq_stepCentred hn hagg h2 r2]

end

end Cert.Gin

end
-- ==== Proof.BridgeTerms.lean ====
/-
  The terms both results are stated over.  The two idealized programs compute one function of the arguments.  The kernel program's result is three layers
  with each layer's variance taken from the two moments; the reference's is the same three layers with the variance
  taken from the centred entries.  Both aggregate with the same gather and scatter-add, and both slice the same
  stacked parameters (the kernel program views a layer's row as a vector and back, which changes nothing).  Under
  the precondition every argument entry is a real number, aggregation keeps real entries real, and then the two
  variances agree layer after layer.
-/
import proofs.«135128_j52475910423111_1_alg».proof.Proof.KI.HostDefs
import proofs.«135128_j52475910423111_1_alg».proof.Proof.Spec
import proofs.«135128_j52475910423111_1_alg».proof.Proof.KI.Params
import proofs.«135128_j52475910423111_1_alg».proof.Proof.Ref.Value
import proofs.«135128_j52475910423111_1_alg».proof.Proof.AggReal
import proofs.«135128_j52475910423111_1_alg».proof.Proof.Net

set_option maxRecDepth 16384

noncomputable section

namespace Cert.Proof

open Idealize.ShloMosaic Idealize.ShloMosaic.TcCoe Idealize.SL.Sem
open Cert.Spec Cert.Gin
open Cert.KernelIdeal Cert.KernelIdeal.Hand
open Cert.ReferenceIdeal.Hand (outR h1R h2R aggR srcOf dstOf matR w0R w1R w2R b0R b1R b2R)

/-! ## Both results as three chained layers -/

/-- Layer 0's parameters in the kernel program's spelling. -/
def kerP0 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) : LayerP 64 :=
  ⟨matSlice0 a2, rowSlice0 a3, matSlice0 a4, rowSlice0 a5, rowSlice0 a6, rowSlice0 a7⟩
/-- Layer 0's parameters in the reference's spelling. -/
def refP0 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) : LayerP 64 :=
  ⟨matR (w0R a2), b0R a3, matR (w0R a4), b0R a5, b0R a6, b0R a7⟩
/-- The two spellings are one record: viewing a row as a vector and back changes nothing. -/
theorem params_eq0 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) :
    kerP0 a2 a3 a4 a5 a6 a7 = refP0 a2 a3 a4 a5 a6 a7 := by
  unfold kerP0 refP0
  rw [rowSlice0_eq a3, rowSlice0_eq a5, rowSlice0_eq a6, rowSlice0_eq a7]
  rfl
theorem kerP0_real (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal))
    (h2 : ∀ i, ∃ r : ℝ, a2 i = (r : EReal)) (h3 : ∀ i, ∃ r : ℝ, a3 i = (r : EReal)) (h4 : ∀ i, ∃ r : ℝ, a4 i = (r : EReal))
    (h5 : ∀ i, ∃ r : ℝ, a5 i = (r : EReal)) (h6 : ∀ i, ∃ r : ℝ, a6 i = (r : EReal)) (h7 : ∀ i, ∃ r : ℝ, a7 i = (r : EReal)) :
    (kerP0 a2 a3 a4 a5 a6 a7).IsReal :=
  ⟨fun i => by obtain ⟨j, hj⟩ := matSlice0_entry a2 i; obtain ⟨r, hr⟩ := h2 j; exact ⟨r, hj.trans hr⟩,
   fun i => by obtain ⟨j, hj⟩ := rowSlice0_entry a3 i; obtain ⟨r, hr⟩ := h3 j; exact ⟨r, hj.trans hr⟩,
   fun i => by obtain ⟨j, hj⟩ := matSlice0_entry a4 i; obtain ⟨r, hr⟩ := h4 j; exact ⟨r, hj.trans hr⟩,
   fun i => by obtain ⟨j, hj⟩ := rowSlice0_entry a5 i; obtain ⟨r, hr⟩ := h5 j; exact ⟨r, hj.trans hr⟩,
   fun i => by obtain ⟨j, hj⟩ := rowSlice0_entry a6 i; obtain ⟨r, hr⟩ := h6 j; exact ⟨r, hj.trans hr⟩,
   fun i => by obtain ⟨j, hj⟩ := rowSlice0_entry a7 i; obtain ⟨r, hr⟩ := h7 j; exact ⟨r, hj.trans hr⟩⟩

/-- Layer 1's parameters in the kernel program's spelling. -/
def kerP1 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) : LayerP 64 :=
  ⟨matSlice1 a2, rowSlice1 a3, matSlice1 a4, rowSlice1 a5, rowSlice1 a6, rowSlice1 a7⟩
/-- Layer 1's parameters in the reference's spelling. -/
def refP1 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) : LayerP 64 :=
  ⟨matR (w1R a2), b1R a3, matR (w1R a4), b1R a5, b1R a6, b1R a7⟩
/-- The two spellings are one record: viewing a row as a vector and back changes nothing. -/
theorem params_eq1 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) :
    kerP1 a2 a3 a4 a5 a6 a7 = refP1 a2 a3 a4 a5 a6 a7 := by
  unfold kerP1 refP1
  rw [rowSlice1_eq a3, rowSlice1_eq a5, rowSlice1_eq a6, rowSlice1_eq a7]
  rfl
theorem kerP1_real (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal))
    (h2 : ∀ i, ∃ r : ℝ, a2 i = (r : EReal)) (h3 : ∀ i, ∃ r : ℝ, a3 i = (r : EReal)) (h4 : ∀ i, ∃ r : ℝ, a4 i = (r : EReal))
    (h5 : ∀ i, ∃ r : ℝ, a5 i = (r : EReal)) (h6 : ∀ i, ∃ r : ℝ, a6 i = (r : EReal)) (h7 : ∀ i, ∃ r : ℝ, a7 i = (r : EReal)) :
    (kerP1 a2 a3 a4 a5 a6 a7).IsReal :=
  ⟨fun i => by obtain ⟨j, hj⟩ := matSlice1_entry a2 i; obtain ⟨r, hr⟩ := h2 j; exact ⟨r, hj.trans hr⟩,
   fun i => by obtain ⟨j, hj⟩ := rowSlice1_entry a3 i; obtain ⟨r, hr⟩ := h3 j; exact ⟨r, hj.trans hr⟩,
   fun i => by obtain ⟨j, hj⟩ := matSlice1_entry a4 i; obtain ⟨r, hr⟩ := h4 j; exact ⟨r, hj.trans hr⟩,
   fun i => by obtain ⟨j, hj⟩ := rowSlice1_entry a5 i; obtain ⟨r, hr⟩ := h5 j; exact ⟨r, hj.trans hr⟩,
   fun i => by obtain ⟨j, hj⟩ := rowSlice1_entry a6 i; obtain ⟨r, hr⟩ := h6 j; exact ⟨r, hj.trans hr⟩,
   fun i => by obtain ⟨j, hj⟩ := rowSlice1_entry a7 i; obtain ⟨r, hr⟩ := h7 j; exact ⟨r, hj.trans hr⟩⟩

/-- Layer 2's parameters in the kernel program's spelling. -/
def kerP2 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) : LayerP 64 :=
  ⟨matSlice2 a2, rowSlice2 a3, matSlice2 a4, rowSlice2 a5, rowSlice2 a6, rowSlice2 a7⟩
/-- Layer 2's parameters in the reference's spelling. -/
def refP2 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) : LayerP 64 :=
  ⟨matR (w2R a2), b2R a3, matR (w2R a4), b2R a5, b2R a6, b2R a7⟩
/-- The two spellings are one record: viewing a row as a vector and back changes nothing. -/
theorem params_eq2 (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal)) :
    kerP2 a2 a3 a4 a5 a6 a7 = refP2 a2 a3 a4 a5 a6 a7 := by
  unfold kerP2 refP2
  rw [rowSlice2_eq a3, rowSlice2_eq a5, rowSlice2_eq a6, rowSlice2_eq a7]
  rfl
theorem kerP2_real (a2 : (⟨S3x64x64, .f32⟩ : BufTy).Contents (Elt Ideal)) (a3 : (⟨S3x64, .f32⟩ : BufTy).Contents (Elt Ideal)) (a4 : (⟨S3x64x64, .f32⟩ : BufTy).Contents (Elt Ideal)) (a5 a6 a7 : (⟨S3x64, .f32⟩ : BufTy).Contents (Elt Ideal))
    (h2 : ∀ i, ∃ r : ℝ, a2 i = (r : EReal)) (h3 : ∀ i, ∃ r : ℝ, a3 i = (r : EReal)) (h4 : ∀ i, ∃ r : ℝ, a4 i = (r : EReal))
    (h5 : ∀ i, ∃ r : ℝ, a5 i = (r : EReal)) (h6 : ∀ i, ∃ r : ℝ, a6 i = (r : EReal)) (h7 : ∀ i, ∃ r : ℝ, a7 i = (r : EReal)) :
    (kerP2 a2 a3 a4 a5 a6 a7).IsReal :=
  ⟨fun i => by obtain ⟨j, hj⟩ := matSlice2_entry a2 i; obtain ⟨r, hr⟩ := h2 j; exact ⟨r, hj.trans hr⟩,
   fun i => by obtain ⟨j, hj⟩ := rowSlice2_entry a3 i; obtain ⟨r, hr⟩ := h3 j; exact ⟨r, hj.trans hr⟩,
   fun i => by obtain ⟨j, hj⟩ := matSlice2_entry a4 i; obtain ⟨r, hr⟩ := h4 j; exact ⟨r, hj.trans hr⟩,
   fun i => by obtain ⟨j, hj⟩ := rowSlice2_entry a5 i; obtain ⟨r, hr⟩ := h5 j; exact ⟨r, hj.trans hr⟩,
   fun i => by obtain ⟨j, hj⟩ := rowSlice2_entry a6 i; obtain ⟨r, hr⟩ := h6 j; exact ⟨r, hj.trans hr⟩,
   fun i => by obtain ⟨j, hj⟩ := rowSlice2_entry a7 i; obtain ⟨r, hr⟩ := h7 j; exact ⟨r, hj.trans hr⟩⟩

/-- Both programs aggregate with the same two operations. -/
theorem agg_eq (s d : (⟨S800000, .i32⟩ : BufTy).Contents (Elt Ideal)) : (aggOf (F := Ideal) s d : Mat 50000 64 → Mat 50000 64) = aggR s d := by
  funext H; rfl

/-- The aggregate of real features has real entries: a finite sum of real numbers. -/
theorem agg_real (s d : (⟨S800000, .i32⟩ : BufTy).Contents (Elt Ideal)) (H : Mat 50000 64) (hH : IsReal H) : IsReal (aggOf (F := Ideal) s d H) :=
  Cert.AggReal.aggregate_real _ _ H hH

/-- The reference's result is the three layers, variances from the centred entries. -/
theorem reference_value (a0 : (⟨S50000x64, .f32⟩ : BufTy).Contents (Elt Ideal)) (a1 : (⟨S2x800000, .i32⟩ : BufTy).Contents (Elt Ideal)) (a2 : (⟨S3x64x64, .f32⟩ : BufTy).Contents (Elt Ideal)) (a3 : (⟨S3x64, .f32⟩ : BufTy).Contents (Elt Ideal))
    (a4 : (⟨S3x64x64, .f32⟩ : BufTy).Contents (Elt Ideal)) (a5 a6 a7 : (⟨S3x64, .f32⟩ : BufTy).Contents (Elt Ideal)) :
    outR a0 a1 a2 a3 a4 a5 a6 a7
      = netCentred (aggR (srcOf a1) (dstOf a1)) (Ideal.ofBits .f32 0x47435000#32) (Ideal.ofBits .f32 0x3727C5AC#32) (refP0 a2 a3 a4 a5 a6 a7) (refP1 a2 a3 a4 a5 a6 a7) (refP2 a2 a3 a4 a5 a6 a7) a0 := by
  rw [Cert.ReferenceIdeal.Hand.result_eq, Cert.ReferenceIdeal.Hand.h2R_eq, Cert.ReferenceIdeal.Hand.h1R_eq]
  rfl

end Cert.Proof

end
-- ==== Proof.Finite.lean ====
/-
  From the precondition "every float input is finite" to "every entry of every float argument is a real number".

  The printed predicate is a conjunction, over the seven float arguments, of `jnp.all (|x| < +inf)`: each conjunct is an
  and-reduction, over all axes, of the elementwise comparison of `|x|` with the word 0x7F800000 (which denotes +inf).
  An and-reduction that came out 1 met only 1s, so every entry x satisfies max x (-x) < +inf in the extended reals;
  that excludes both infinities, and what is left of the extended reals is the reals.
-/
import proofs.«135128_j52475910423111_1_alg».proof.Defs
import Idealize.ShloMosaic.Lib.ReduceAll
import Idealize.ShloMosaic.Lib.ValueIdx

noncomputable section

namespace Cert.Finite

open Idealize.ShloMosaic Idealize.SL.Sem
open Cert.Pre_finite_inputs (S_ S50000x64 S2x800000 S3x64x64 S3x64)

/-- The rank-0 shape has one index. -/
instance : Subsingleton S_.Idx := ⟨fun a b => funext fun d => d.elim0⟩

/-- The word every entry is compared against denotes +inf. -/
theorem ofBits_inf : Ideal.ofBits .f32 0x7F800000#32 = (⊤ : EReal) := by
  simp [Ideal.ofBits, Ideal.ieee]

/-- An extended real whose absolute value max x (-x) is below +inf is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One conjunct of the predicate: if the and-reduction over all axes of `|x| < +inf` is 1, every entry of x is real. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1) :
    ∀ i, ∃ r : ℝ, x i = (r : EReal) := by
  intro i
  have hi := Host.reduce_andi_all _ init hr hu j e i
  exact real_of_abs_lt_inf (x i) hi

variable [Cert.Pre_finite_inputs.Facts]

set_option maxHeartbeats 400000 in
/-- The printed predicate at all ones: every entry of each of the seven float arguments is a real number. -/
theorem real_of_finite (x0 : FVec Ideal S50000x64 .f32) (e : IVec S2x800000 32) (x2 : FVec Ideal S3x64x64 .f32)
    (x3 : FVec Ideal S3x64 .f32) (x4 : FVec Ideal S3x64x64 .f32) (x5 x6 x7 : FVec Ideal S3x64 .f32)
    (h : Cert.Pre_finite_inputs.fn (F := Ideal) x0 e x2 x3 x4 x5 x6 x7 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) := by
  have h0 := congrFun h ValueIdx.ix0
  dsimp only [Cert.Pre_finite_inputs.fn, Cert.Pre_finite_inputs.fn_part1, andi] at h0
  obtain ⟨h6, a7⟩ := IntOp.andi_eq_one.1 h0
  obtain ⟨h5, a6⟩ := IntOp.andi_eq_one.1 h6
  obtain ⟨h4, a5⟩ := IntOp.andi_eq_one.1 h5
  obtain ⟨h3, a4⟩ := IntOp.andi_eq_one.1 h4
  obtain ⟨h2, a3⟩ := IntOp.andi_eq_one.1 h3
  obtain ⟨a0, a2⟩ := IntOp.andi_eq_one.1 h2
  exact ⟨all_real x0 _ _ _ _ _ a0, all_real x2 _ _ _ _ _ a2, all_real x3 _ _ _ _ _ a3, all_real x4 _ _ _ _ _ a4,
    all_real x5 _ _ _ _ _ a5, all_real x6 _ _ _ _ _ a6, all_real x7 _ _ _ _ _ a7⟩

set_option maxHeartbeats 400000 in
/-- Under the kernel's precondition, on every core, every entry of each float argument's array is a real number
    (the arguments 0, 2, 3, 4, 5, 6, 7; argument 1 is the integer edge array). -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal)) :=
  real_of_finite _ _ _ _ _ _ _ _ (hpre c)

end Cert.Finite

end
-- ==== Proof.Bridge.lean ====
/-
  The kernel program's result array equals the reference's term: under the precondition every argument entry is a
  real number, so the layers computed with the variance from the two moments are the layers computed with the
  variance from the centred entries; the aggregation and the parameter slices are the same in both spellings.
-/
import proofs.«135128_j52475910423111_1_alg».proof.Proof.KI.Value
import proofs.«135128_j52475910423111_1_alg».proof.Proof.BridgeTerms
import proofs.«135128_j52475910423111_1_alg».proof.Proof.Finite

set_option maxRecDepth 16384

noncomputable section

namespace Cert.Proof

open Idealize.ShloMosaic Idealize.ShloMosaic.TcCoe Idealize.SL.Sem
open Cert.Spec Cert.Gin
open Cert.KernelIdeal Cert.KernelIdeal.Hand
open Cert.ReferenceIdeal.Hand (outR h1R h2R aggR srcOf dstOf matR w0R w1R w2R b0R b1R b2R)

variable (m : (ℓ : Loc nD τ sig) → Buf (Elt Ideal) ℓ) (c : Dev nD)

set_option maxHeartbeats 2000000 in
/-- The kernel program's result array is the three layers, variances from the moments. -/
theorem kernel_value :
    W12 m c (Proc.devRef .tc main_v105)
      = netMoments (aggOf (edgeRow0 (m ((c : Thread nD τ).loc main_arg1))) (edgeRow1 (m ((c : Thread nD τ).loc main_arg1)))) νw εw
          (kerP0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (kerP1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (kerP2 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg0)) := by
  rw [layer2_value m c, layer1_value m c, layer0_value m c]
  rfl

set_option maxHeartbeats 2000000 in
/-- For arguments with real entries, the three layers with the variances from the moments, in the kernel program's
    spelling, are the reference's result term. -/
theorem nets_agree [Cert.KernelIdeal.Facts] (a0 : (⟨S50000x64, .f32⟩ : BufTy).Contents (Elt Ideal)) (a1 : (⟨S2x800000, .i32⟩ : BufTy).Contents (Elt Ideal)) (a2 : (⟨S3x64x64, .f32⟩ : BufTy).Contents (Elt Ideal)) (a3 : (⟨S3x64, .f32⟩ : BufTy).Contents (Elt Ideal))
    (a4 : (⟨S3x64x64, .f32⟩ : BufTy).Contents (Elt Ideal)) (a5 a6 a7 : (⟨S3x64, .f32⟩ : BufTy).Contents (Elt Ideal))
    (h0 : ∀ i, ∃ r : ℝ, a0 i = (r : EReal)) (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) (h6 : ∀ i, ∃ r : ℝ, a6 i = (r : EReal))
    (h7 : ∀ i, ∃ r : ℝ, a7 i = (r : EReal)) :
    netMoments (aggOf (edgeRow0 a1) (edgeRow1 a1)) νw εw (kerP0 a2 a3 a4 a5 a6 a7) (kerP1 a2 a3 a4 a5 a6 a7) (kerP2 a2 a3 a4 a5 a6 a7) a0
      = outR a0 a1 a2 a3 a4 a5 a6 a7 := by
  have hν : νw = (((50000 : ℕ) : ℝ) : EReal) := by
    rw [show νw = ((50000 : ℝ) : EReal) from nodes_word]; norm_num
  have e3 : netMoments (aggOf (edgeRow0 a1) (edgeRow1 a1)) νw εw (kerP0 a2 a3 a4 a5 a6 a7) (kerP1 a2 a3 a4 a5 a6 a7) (kerP2 a2 a3 a4 a5 a6 a7) a0
      = netCentred (aggOf (edgeRow0 a1) (edgeRow1 a1)) νw εw (kerP0 a2 a3 a4 a5 a6 a7) (kerP1 a2 a3 a4 a5 a6 a7) (kerP2 a2 a3 a4 a5 a6 a7) a0 := by
    rw [hν]
    exact netMoments_eq_netCentred (n := 50000) (d := 64) (by norm_num) Cert.Consts.ofBits_eps (fun H hH => agg_real _ _ H hH)
      (kerP0_real a2 a3 a4 a5 a6 a7 h2 h3 h4 h5 h6 h7) (kerP1_real a2 a3 a4 a5 a6 a7 h2 h3 h4 h5 h6 h7)
      (kerP2_real a2 a3 a4 a5 a6 a7 h2 h3 h4 h5 h6 h7) h0
  have e4 : netCentred (aggOf (edgeRow0 a1) (edgeRow1 a1)) νw εw (kerP0 a2 a3 a4 a5 a6 a7) (kerP1 a2 a3 a4 a5 a6 a7) (kerP2 a2 a3 a4 a5 a6 a7) a0
      = netCentred (aggR (srcOf a1) (dstOf a1)) νw εw (refP0 a2 a3 a4 a5 a6 a7) (refP1 a2 a3 a4 a5 a6 a7) (refP2 a2 a3 a4 a5 a6 a7) a0 := by
    rw [params_eq0, params_eq1, params_eq2, agg_eq]
    rfl
  exact e3.trans (e4.trans (reference_value a0 a1 a2 a3 a4 a5 a6 a7).symm)

/-- Under the precondition the two results are one array. -/
theorem values_agree [Cert.KernelIdeal.Facts] [Cert.Pre_finite_inputs.Facts] (hpre : Cert.Pre_KernelIdeal m) :
    W12 m c (Proc.devRef .tc main_v105)
      = outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨h0, h2, h3, h4, h5, h6, h7⟩ := Cert.Finite.args_real m hpre c
  exact (kernel_value m c).trans (nets_agree _ _ _ _ _ _ _ _ h0 h2 h3 h4 h5 h6 h7)

end Cert.Proof

end
-- ==== Proof.lean ====
/-
  A three-layer graph-isomorphism network with batch normalisation: the kernel program runs each layer as two
  tiled kernels (the two dense maps with the column sums of the result and of its squares accumulated block by block;
  then the normalisation) with the edge aggregation and the statistics' arithmetic on the host between them; the
  reference runs the same layers on the host alone and takes the variance from the centred entries.

  The three frames: each program runs to the end, nothing faults, and no argument array is written — for the kernel
  program at both instances by following every unscoped buffer through @main's twelve items, for the reference from
  its run.  The idealization rewrote nothing, so there is nothing to preserve.  At the ideal instance both results are
  one function of the arguments: finite inputs are real numbers, aggregation and the dense maps keep them real, and
  for real entries the mean of the squares less the squared mean is the mean of the centred squares.
-/
import proofs.«135128_j52475910423111_1_alg».proof.Defs
import proofs.«135128_j52475910423111_1_alg».proof.Proof.Gen.Kernel
import proofs.«135128_j52475910423111_1_alg».proof.Proof.Gen.KernelIdeal
import proofs.«135128_j52475910423111_1_alg».proof.Proof.Gen.ReferenceIdeal
import proofs.«135128_j52475910423111_1_alg».proof.Proof.Gen.Pre_finite_inputs
import proofs.«135128_j52475910423111_1_alg».proof.Proof.K.Frame
import proofs.«135128_j52475910423111_1_alg».proof.Proof.KI.Frame
import proofs.«135128_j52475910423111_1_alg».proof.Proof.Ref.Run
import proofs.«135128_j52475910423111_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

section

variable [Cert.Kernel.Facts] [Cert.KernelIdeal.Facts] [Cert.ReferenceIdeal.Facts] [Cert.Pre_finite_inputs.Facts]

theorem frame_k : Cert.frame_Kernel := fun m ρ _ => Cert.Kernel.Hand.frame_all m ρ

theorem frame_ki : Cert.frame_KernelIdeal := fun m ρ _ => Cert.KernelIdeal.Hand.frame_all m ρ

theorem frame_r : Cert.frame_ReferenceIdeal := Cert.ReferenceIdeal.Hand.frame_ri

/-- Both idealized programs run, and from memories that agree on the arguments they end with the same result array:
    the kernel program's last contents of its result buffer, which the bridge shows to be the reference's term. -/
theorem algebraic : Cert.algebraic_KernelIdeal_ReferenceIdeal := by
  intro m ρ m' ρ' hpre hagree
  refine ⟨fun c => Cert.KernelIdeal.Hand.W12 m c (Proc.devRef .tc Cert.KernelIdeal.main_v105), ?_, ?_⟩
  · exact (θ_run Cert.KernelIdeal.defs _ _).mono (fun r h c =>
      ⟨h c _ (Cert.KernelIdeal.Hand.mem_uc Cert.KernelIdeal.main_v105 (by decide)),
        (h c _ (Cert.KernelIdeal.Hand.mem_uc Cert.KernelIdeal.main_arg0 (by decide))).trans (Cert.KernelIdeal.Hand.W12_main_arg0 m c),
        (h c _ (Cert.KernelIdeal.Hand.mem_uc Cert.KernelIdeal.main_arg1 (by decide))).trans (Cert.KernelIdeal.Hand.W12_main_arg1 m c),
        (h c _ (Cert.KernelIdeal.Hand.mem_uc Cert.KernelIdeal.main_arg2 (by decide))).trans (Cert.KernelIdeal.Hand.W12_main_arg2 m c),
        (h c _ (Cert.KernelIdeal.Hand.mem_uc Cert.KernelIdeal.main_arg3 (by decide))).trans (Cert.KernelIdeal.Hand.W12_main_arg3 m c),
        (h c _ (Cert.KernelIdeal.Hand.mem_uc Cert.KernelIdeal.main_arg4 (by decide))).trans (Cert.KernelIdeal.Hand.W12_main_arg4 m c),
        (h c _ (Cert.KernelIdeal.Hand.mem_uc Cert.KernelIdeal.main_arg5 (by decide))).trans (Cert.KernelIdeal.Hand.W12_main_arg5 m c),
        (h c _ (Cert.KernelIdeal.Hand.mem_uc Cert.KernelIdeal.main_arg6 (by decide))).trans (Cert.KernelIdeal.Hand.W12_main_arg6 m c),
        (h c _ (Cert.KernelIdeal.Hand.mem_uc Cert.KernelIdeal.main_arg7 (by decide))).trans (Cert.KernelIdeal.Hand.W12_main_arg7 m c)⟩)
      (Cert.KernelIdeal.Hand.run_all m ρ)
  · refine (θ_run Cert.ReferenceIdeal.defs _ _).mono (fun r h c => ⟨(h c).1.trans ?_, (h c).2⟩)
      (Cert.ReferenceIdeal.Hand.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (values_agree m c hpre).symm

end

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
